-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S128 : Shape := ⟨1, ![128]⟩
abbrev S64 : Shape := ⟨1, ![64]⟩
abbrev S10000x64 : Shape := ⟨2, ![10000, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S10000x64 : S_.BroadcastsInDim S10000x64 (![] : Fin 0 → Fin S10000x64.rank)
  reducesTo_S10000x64_S_d0_1 : S10000x64.ReducesTo [0, 1] S_

variable [Facts]

def fn_part4 {F : FTy → Type} [FloatOps F] (main_arg14 : FVec F S10000x64 .f32) (main_v63 : IVec S_ 1) (main_v67 : IVec S_ 1) : IVec S_ 1 :=
  let main_v68 : IVec S_ 1 := andi main_v63 main_v67
  let main_v69 : FVec F S10000x64 .f32 := Host.absf main_arg14
  let main_cst_26 : FVec F S_ .f32 := constant S_ .f32 0x7F800000#32
  let main_v70 : FVec F S10000x64 .f32 := broadcastInDim S10000x64 ![] bcast_S_S10000x64 main_cst_26
  let main_v71 : IVec S10000x64 1 := cmpf .olt main_v69 main_v70
  let main_c_27 : IVec S_ 1 := constantI S_ 1 1#1
  let main_v72 : IVec S_ 1 := (fun x v => Host.reduce IntOp.andi x v reducesTo_S10000x64_S_d0_1 h_S_) main_v71 main_c_27
  let main_v73 : IVec S_ 1 := andi main_v68 main_v72
  main_v73

def fn_part3 {F : FTy → Type} [FloatOps F] (main_arg11 : FVec F S64 .f32) (main_arg12 : FVec F S64 .f32) (main_arg13 : FVec F S64 .f32) (main_arg14 : FVec F S10000x64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_v63 main_v67

def fn_part2 {F : FTy → Type} [FloatOps F] (main_arg7 : FVec F S128 .f32) (main_arg8 : FVec F S128 .f32) (main_arg9 : FVec F S128 .f32) (main_arg10 : FVec F S64 .f32) (main_arg11 : FVec F S64 .f32) (main_arg12 : FVec F S64 .f32) (main_arg13 : FVec F S64 .f32) (main_arg14 : FVec F S10000x64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S128x64 .f32) (main_arg5 : FVec F S128x64 .f32) (main_arg6 : FVec F S128 .f32) (main_arg7 : FVec F S128 .f32) (main_arg8 : FVec F S128 .f32) (main_arg9 : FVec F S128 .f32) (main_arg10 : FVec F S64 .f32) (main_arg11 : FVec F S64 .f32) (main_arg12 : FVec F S64 .f32) (main_arg13 : FVec F S64 .f32) (main_arg14 : FVec F S10000x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S10000x128 .f32) (main_arg1 : FVec F S10000x10000 .f32) (main_arg2 : FVec F S128x128 .f32) (main_arg3 : FVec F S128x128 .f32) (main_arg4 : FVec F S128x64 .f32) (main_arg5 : FVec F S128x64 .f32) (main_arg6 : FVec F S128 .f32) (main_arg7 : FVec F S128 .f32) (main_arg8 : FVec F S128 .f32) (main_arg9 : FVec F S128 .f32) (main_arg10 : FVec F S64 .f32) (main_arg11 : FVec F S64 .f32) (main_arg12 : FVec F S64 .f32) (main_arg13 : FVec F S64 .f32) (main_arg14 : FVec F S10000x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S128 : Shape := ⟨1, ![128]⟩
abbrev S64 : Shape := ⟨1, ![64]⟩
abbrev S10000x64 : Shape := ⟨2, ![10000, 64]⟩
abbrev S1x128 : Shape := ⟨2, ![1, 128]⟩
abbrev S1x64 : Shape := ⟨2, ![1, 64]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩
abbrev S400x64 : Shape := ⟨2, ![400, 64]⟩

abbrev nBuf : Space → Nat
  | .hbm => 30
  | .vmem => 39
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x64, .f32⟩
  | .hbm, ⟨5, _⟩ => ⟨S128x64, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S10000x64, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S128x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S10000x64, .f32⟩
  | .hbm, ⟨29, _⟩ => ⟨S10000x10000, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S400x128, .f32⟩
  | .local _ .vmem, ⟨12, _⟩ => ⟨S400x128, .f32⟩
  | .local _ .vmem, ⟨13, _⟩ => ⟨S400x10000, .f32⟩
  | .local _ .vmem, ⟨14, _⟩ => ⟨S400x10000, .f32⟩
  | .local _ .vmem, ⟨15, _⟩ => ⟨S10000x128, .f32⟩
  | .local _ .vmem, ⟨16, _⟩ => ⟨S400x128, .f32⟩
  | .local _ .vmem, ⟨17, _⟩ => ⟨S400x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S400x128, .f32⟩
  | .local _ .vmem, ⟨22, _⟩ => ⟨S400x128, .f32⟩
  | .local _ .vmem, ⟨23, _⟩ => ⟨S400x10000, .f32⟩
  | .local _ .vmem, ⟨24, _⟩ => ⟨S400x10000, .f32⟩
  | .local _ .vmem, ⟨25, _⟩ => ⟨S10000x128, .f32⟩
  | .local _ .vmem, ⟨26, _⟩ => ⟨S400x64, .f32⟩
  | .local _ .vmem, ⟨27, _⟩ => ⟨S400x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S400x64, .f32⟩
  | .local _ .vmem, ⟨33, _⟩ => ⟨S400x64, .f32⟩
  | .local _ .vmem, ⟨34, _⟩ => ⟨S400x64, .f32⟩
  | .local _ .vmem, ⟨35, _⟩ => ⟨S400x64, .f32⟩
  | .local _ .vmem, ⟨36, _⟩ => ⟨S10000x64, .f32⟩
  | .local _ .vmem, ⟨37, _⟩ => ⟨S400x10000, .f32⟩
  | .local _ .vmem, ⟨38, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc1_sem6_0 : DmaSem sig := 11
abbrev cc1_sem6_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem7_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S400x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S400x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x10000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  shapeCasts_S128_S1x128 : S128.ShapeCasts S1x128
  shapeCasts_S64_S1x64 : S64.ShapeCasts S1x64
  concatenates_S128x64_S128x64_S128x128_d1 : Shape.Concatenates [S128x64, S128x64] S128x128 1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S400x128_S400 : S400x128.Reduces [1] S400
  shapeCasts_S400_S400x1 : S400.ShapeCasts S400x1
  broadcasts_S400x1_S400x128 : S400x1.Broadcasts S400x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  shapeCasts_S128x128_S128x128 : S128x128.ShapeCasts S128x128
  slices_S400x128_o0_0_S400x64 : S400x128.Slices ![0, 0] S400x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S400x64_S400 : S400x64.Reduces [1] S400
  broadcasts_S400x1_S400x64 : S400x1.Broadcasts S400x64
  broadcasts_S1x64_S400x64 : S1x64.Broadcasts S400x64
  slices_S400x128_o0_64_S400x64 : S400x128.Slices ![0, 64] S400x64
  inb_S400x64_S400x64_0_0 : ∀ a, (![0, 0] : Fin 2 → Nat) a + S400x64.size a ≤ S400x64.size a
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x64_S10000x64_S400x10000_1_1_0_0_n_n_wf : DotDims.WF S400x64 S10000x64 S400x10000 [1] [1] [0] [0] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x128.size a ≤ S10000x128.size a
  hwx2_6 : ∀ i : grid2.Coords, EltTy.bits .f32 = 32 ∨ (Rect.block (s := S10000x128) S400x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .f32 = 32 ∨ (Rect.block (s := S10000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x64.size a ≤ S10000x64.size a
  hwx3_2 : ∀ i : grid3.Coords, EltTy.bits .f32 = 32 ∨ (Rect.block (s := S10000x64) S400x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S400x64.size a ≤ S10000x64.size a
  hwx3_7 : ∀ i : grid3.Coords, EltTy.bits .f32 = 32 ∨ (Rect.block (s := S10000x64) S400x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x64.size a ≤ S10000x64.size a
  hwx4_0 : ∀ i : grid4.Coords, EltTy.bits .f32 = 32 ∨ (Rect.block (s := S10000x64) S400x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S10000x64.size a
  hwx4_1 : ∀ i : grid4.Coords, EltTy.bits .f32 = 32 ∨ (Rect.block (s := S10000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x10000.size a ≤ S10000x10000.size a
  hwx4_2 : ∀ i : grid4.Coords, EltTy.bits .f32 = 32 ∨ (Rect.block (s := S10000x10000) S400x10000.size (cc4_transform_2 i) (hinb4_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x64_S10000x64_S400x10000_1_1_0_0_n_n : DotDims S400x64 S10000x64 S400x10000 where
  lhsContracting := [1]
  rhsContracting := [1]
  lhsNonContracting := [0]
  rhsNonContracting := [0]
  lhsBatch := []
  rhsBatch := []
  wf := dot_S400x64_S10000x64_S400x10000_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v9) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10_0) S400x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10_1) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10_0) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11) S400x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S400x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v4) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v5) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v6) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v7) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v12) S400x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v12) S400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S10000x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v13) S400x10000.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S128 : Shape := ⟨1, ![128]⟩
abbrev S64 : Shape := ⟨1, ![64]⟩
abbrev S10000x64 : Shape := ⟨2, ![10000, 64]⟩
abbrev S_ : Shape := ⟨0, ![]⟩
abbrev S10000 : Shape := ⟨1, ![10000]⟩
abbrev S10000x1 : Shape := ⟨2, ![10000, 1]⟩
abbrev S1x128 : Shape := ⟨2, ![1, 128]⟩
abbrev S1x64 : Shape := ⟨2, ![1, 64]⟩
abbrev S64x10000 : Shape := ⟨2, ![64, 10000]⟩

abbrev nBuf : Space → Nat
  | .hbm => 219
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128x128, .f32⟩
  | 4 => ⟨S128x64, .f32⟩
  | 5 => ⟨S128x64, .f32⟩
  | 6 => ⟨S128, .f32⟩
  | 7 => ⟨S128, .f32⟩
  | 8 => ⟨S128, .f32⟩
  | 9 => ⟨S128, .f32⟩
  | 10 => ⟨S64, .f32⟩
  | 11 => ⟨S64, .f32⟩
  | 12 => ⟨S64, .f32⟩
  | 13 => ⟨S64, .f32⟩
  | 14 => ⟨S10000x64, .f32⟩
  | 15 => ⟨S10000x128, .f32⟩
  | 16 => ⟨S10000x128, .f32⟩
  | 17 => ⟨S_, .f32⟩
  | 18 => ⟨S10000x128, .f32⟩
  | 19 => ⟨S10000x128, .f32⟩
  | 20 => ⟨S_, .f32⟩
  | 21 => ⟨S10000, .f32⟩
  | 22 => ⟨S10000x1, .f32⟩
  | 23 => ⟨S_, .f32⟩
  | 24 => ⟨S10000x1, .f32⟩
  | 25 => ⟨S10000x1, .f32⟩
  | 26 => ⟨S_, .i32⟩
  | 27 => ⟨S_, .f32⟩
  | 28 => ⟨S10000, .f32⟩
  | 29 => ⟨S10000x1, .f32⟩
  | 30 => ⟨S_, .f32⟩
  | 31 => ⟨S10000x1, .f32⟩
  | 32 => ⟨S10000x1, .f32⟩
  | 33 => ⟨S10000x128, .f32⟩
  | 34 => ⟨S10000x128, .f32⟩
  | 35 => ⟨S10000x128, .f32⟩
  | 36 => ⟨S_, .f32⟩
  | 37 => ⟨S_, .f32⟩
  | 38 => ⟨S_, .f32⟩
  | 39 => ⟨S_, .f32⟩
  | 40 => ⟨S10000, .f32⟩
  | 41 => ⟨S10000x1, .f32⟩
  | 42 => ⟨S10000x1, .f32⟩
  | 43 => ⟨S10000x1, .f32⟩
  | 44 => ⟨S_, .f32⟩
  | 45 => ⟨S_, .i1⟩
  | 46 => ⟨S_, .f32⟩
  | 47 => ⟨S_, .f32⟩
  | 48 => ⟨S10000x1, .f32⟩
  | 49 => ⟨S10000x1, .f32⟩
  | 50 => ⟨S10000x128, .f32⟩
  | 51 => ⟨S10000x128, .f32⟩
  | 52 => ⟨S_, .f32⟩
  | 53 => ⟨S10000x1, .f32⟩
  | 54 => ⟨S10000x1, .f32⟩
  | 55 => ⟨S10000x1, .f32⟩
  | 56 => ⟨S10000x128, .f32⟩
  | 57 => ⟨S10000x128, .f32⟩
  | 58 => ⟨S1x128, .f32⟩
  | 59 => ⟨S10000x128, .f32⟩
  | 60 => ⟨S10000x128, .f32⟩
  | 61 => ⟨S1x128, .f32⟩
  | 62 => ⟨S10000x128, .f32⟩
  | 63 => ⟨S10000x128, .f32⟩
  | 64 => ⟨S10000x128, .f32⟩
  | 65 => ⟨S10000x128, .f32⟩
  | 66 => ⟨S_, .f32⟩
  | 67 => ⟨S10000x128, .f32⟩
  | 68 => ⟨S10000x128, .f32⟩
  | 69 => ⟨S_, .f32⟩
  | 70 => ⟨S10000, .f32⟩
  | 71 => ⟨S10000x1, .f32⟩
  | 72 => ⟨S_, .f32⟩
  | 73 => ⟨S10000x1, .f32⟩
  | 74 => ⟨S10000x1, .f32⟩
  | 75 => ⟨S_, .i32⟩
  | 76 => ⟨S_, .f32⟩
  | 77 => ⟨S10000, .f32⟩
  | 78 => ⟨S10000x1, .f32⟩
  | 79 => ⟨S_, .f32⟩
  | 80 => ⟨S10000x1, .f32⟩
  | 81 => ⟨S10000x1, .f32⟩
  | 82 => ⟨S10000x128, .f32⟩
  | 83 => ⟨S10000x128, .f32⟩
  | 84 => ⟨S10000x128, .f32⟩
  | 85 => ⟨S_, .f32⟩
  | 86 => ⟨S_, .f32⟩
  | 87 => ⟨S_, .f32⟩
  | 88 => ⟨S_, .f32⟩
  | 89 => ⟨S10000, .f32⟩
  | 90 => ⟨S10000x1, .f32⟩
  | 91 => ⟨S10000x1, .f32⟩
  | 92 => ⟨S10000x1, .f32⟩
  | 93 => ⟨S_, .f32⟩
  | 94 => ⟨S_, .i1⟩
  | 95 => ⟨S_, .f32⟩
  | 96 => ⟨S_, .f32⟩
  | 97 => ⟨S10000x1, .f32⟩
  | 98 => ⟨S10000x1, .f32⟩
  | 99 => ⟨S10000x128, .f32⟩
  | 100 => ⟨S10000x128, .f32⟩
  | 101 => ⟨S_, .f32⟩
  | 102 => ⟨S10000x1, .f32⟩
  | 103 => ⟨S10000x1, .f32⟩
  | 104 => ⟨S10000x1, .f32⟩
  | 105 => ⟨S10000x128, .f32⟩
  | 106 => ⟨S10000x128, .f32⟩
  | 107 => ⟨S1x128, .f32⟩
  | 108 => ⟨S10000x128, .f32⟩
  | 109 => ⟨S10000x128, .f32⟩
  | 110 => ⟨S1x128, .f32⟩
  | 111 => ⟨S10000x128, .f32⟩
  | 112 => ⟨S10000x128, .f32⟩
  | 113 => ⟨S10000x128, .f32⟩
  | 114 => ⟨S10000x64, .f32⟩
  | 115 => ⟨S10000x64, .f32⟩
  | 116 => ⟨S_, .f32⟩
  | 117 => ⟨S10000, .f32⟩
  | 118 => ⟨S10000x1, .f32⟩
  | 119 => ⟨S_, .f32⟩
  | 120 => ⟨S10000x1, .f32⟩
  | 121 => ⟨S10000x1, .f32⟩
  | 122 => ⟨S_, .i32⟩
  | 123 => ⟨S_, .f32⟩
  | 124 => ⟨S10000, .f32⟩
  | 125 => ⟨S10000x1, .f32⟩
  | 126 => ⟨S_, .f32⟩
  | 127 => ⟨S10000x1, .f32⟩
  | _ => ⟨S10000x128, .f32⟩

abbrev hbmTy0_1 (i : Nat) : BufTy := match i % 128 with
  | 0 => ⟨S10000x1, .f32⟩
  | 1 => ⟨S10000x64, .f32⟩
  | 2 => ⟨S10000x64, .f32⟩
  | 3 => ⟨S10000x64, .f32⟩
  | 4 => ⟨S_, .f32⟩
  | 5 => ⟨S_, .f32⟩
  | 6 => ⟨S_, .f32⟩
  | 7 => ⟨S_, .f32⟩
  | 8 => ⟨S10000, .f32⟩
  | 9 => ⟨S10000x1, .f32⟩
  | 10 => ⟨S10000x1, .f32⟩
  | 11 => ⟨S10000x1, .f32⟩
  | 12 => ⟨S_, .f32⟩
  | 13 => ⟨S_, .i1⟩
  | 14 => ⟨S_, .f32⟩
  | 15 => ⟨S_, .f32⟩
  | 16 => ⟨S10000x1, .f32⟩
  | 17 => ⟨S10000x1, .f32⟩
  | 18 => ⟨S10000x64, .f32⟩
  | 19 => ⟨S10000x64, .f32⟩
  | 20 => ⟨S_, .f32⟩
  | 21 => ⟨S10000x1, .f32⟩
  | 22 => ⟨S10000x1, .f32⟩
  | 23 => ⟨S10000x1, .f32⟩
  | 24 => ⟨S10000x64, .f32⟩
  | 25 => ⟨S10000x64, .f32⟩
  | 26 => ⟨S1x64, .f32⟩
  | 27 => ⟨S10000x64, .f32⟩
  | 28 => ⟨S10000x64, .f32⟩
  | 29 => ⟨S1x64, .f32⟩
  | 30 => ⟨S10000x64, .f32⟩
  | 31 => ⟨S10000x64, .f32⟩
  | 32 => ⟨S10000x64, .f32⟩
  | 33 => ⟨S10000x64, .f32⟩
  | 34 => ⟨S_, .f32⟩
  | 35 => ⟨S10000, .f32⟩
  | 36 => ⟨S10000x1, .f32⟩
  | 37 => ⟨S_, .f32⟩
  | 38 => ⟨S10000x1, .f32⟩
  | 39 => ⟨S10000x1, .f32⟩
  | 40 => ⟨S_, .i32⟩
  | 41 => ⟨S_, .f32⟩
  | 42 => ⟨S10000, .f32⟩
  | 43 => ⟨S10000x1, .f32⟩
  | 44 => ⟨S_, .f32⟩
  | 45 => ⟨S10000x1, .f32⟩
  | 46 => ⟨S10000x1, .f32⟩
  | 47 => ⟨S10000x64, .f32⟩
  | 48 => ⟨S10000x64, .f32⟩
  | 49 => ⟨S10000x64, .f32⟩
  | 50 => ⟨S_, .f32⟩
  | 51 => ⟨S_, .f32⟩
  | 52 => ⟨S_, .f32⟩
  | 53 => ⟨S_, .f32⟩
  | 54 => ⟨S10000, .f32⟩
  | 55 => ⟨S10000x1, .f32⟩
  | 56 => ⟨S10000x1, .f32⟩
  | 57 => ⟨S10000x1, .f32⟩
  | 58 => ⟨S_, .f32⟩
  | 59 => ⟨S_, .i1⟩
  | 60 => ⟨S_, .f32⟩
  | 61 => ⟨S_, .f32⟩
  | 62 => ⟨S10000x1, .f32⟩
  | 63 => ⟨S10000x1, .f32⟩
  | 64 => ⟨S10000x64, .f32⟩
  | 65 => ⟨S10000x64, .f32⟩
  | 66 => ⟨S_, .f32⟩
  | 67 => ⟨S10000x1, .f32⟩
  | 68 => ⟨S10000x1, .f32⟩
  | 69 => ⟨S10000x1, .f32⟩
  | 70 => ⟨S10000x64, .f32⟩
  | 71 => ⟨S10000x64, .f32⟩
  | 72 => ⟨S1x64, .f32⟩
  | 73 => ⟨S10000x64, .f32⟩
  | 74 => ⟨S10000x64, .f32⟩
  | 75 => ⟨S1x64, .f32⟩
  | 76 => ⟨S10000x64, .f32⟩
  | 77 => ⟨S10000x64, .f32⟩
  | 78 => ⟨S10000x64, .f32⟩
  | 79 => ⟨S10000x64, .f32⟩
  | 80 => ⟨S10000x64, .f32⟩
  | 81 => ⟨S64x10000, .f32⟩
  | 82 => ⟨S10000x10000, .f32⟩
  | 83 => ⟨S10000x10000, .f32⟩
  | 84 => ⟨S10000x10000, .f32⟩
  | 85 => ⟨S_, .f32⟩
  | 86 => ⟨S10000x10000, .f32⟩
  | 87 => ⟨S10000x10000, .f32⟩
  | 88 => ⟨S_, .f32⟩
  | 89 => ⟨S10000x10000, .f32⟩
  | 90 => ⟨S10000x10000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_cst : Ref sig .tc := ⟨.hbm, 17, rfl⟩
abbrev main_call0_v0 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_cst_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_cst_1 : Ref sig .tc := ⟨.hbm, 37, rfl⟩
abbrev main_call1_v8 : Ref sig .tc := ⟨.hbm, 38, rfl⟩
abbrev main_call1_cst_2 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_cst_3 : Ref sig .tc := ⟨.hbm, 44, rfl⟩
abbrev main_call1_v13 : Ref sig .tc := ⟨.hbm, 45, rfl⟩
abbrev main_call1_cst_4 : Ref sig .tc := ⟨.hbm, 46, rfl⟩
abbrev main_call1_call0_v0 : Ref sig .tc := ⟨.hbm, 47, rfl⟩
abbrev main_call1_call0_v1 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst_1 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_call2_cst : Ref sig .tc := ⟨.hbm, 66, rfl⟩
abbrev main_call2_v0 : Ref sig .tc := ⟨.hbm, 67, rfl⟩
abbrev main_v23 : Ref sig .tc := ⟨.hbm, 68, rfl⟩
abbrev main_cst_2 : Ref sig .tc := ⟨.hbm, 69, rfl⟩
abbrev main_v24 : Ref sig .tc := ⟨.hbm, 70, rfl⟩
abbrev main_v25 : Ref sig .tc := ⟨.hbm, 71, rfl⟩
abbrev main_cst_3 : Ref sig .tc := ⟨.hbm, 72, rfl⟩
abbrev main_v26 : Ref sig .tc := ⟨.hbm, 73, rfl⟩
abbrev main_v27 : Ref sig .tc := ⟨.hbm, 74, rfl⟩
abbrev main_c_4 : Ref sig .tc := ⟨.hbm, 75, rfl⟩
abbrev main_call3_cst : Ref sig .tc := ⟨.hbm, 76, rfl⟩
abbrev main_call3_v0 : Ref sig .tc := ⟨.hbm, 77, rfl⟩
abbrev main_call3_v1 : Ref sig .tc := ⟨.hbm, 78, rfl⟩
abbrev main_call3_cst_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_cst_1 : Ref sig .tc := ⟨.hbm, 86, rfl⟩
abbrev main_call3_v8 : Ref sig .tc := ⟨.hbm, 87, rfl⟩
abbrev main_call3_cst_2 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_cst_3 : Ref sig .tc := ⟨.hbm, 93, rfl⟩
abbrev main_call3_v13 : Ref sig .tc := ⟨.hbm, 94, rfl⟩
abbrev main_call3_cst_4 : Ref sig .tc := ⟨.hbm, 95, rfl⟩
abbrev main_call3_call0_v0 : Ref sig .tc := ⟨.hbm, 96, rfl⟩
abbrev main_call3_call0_v1 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_cst_5 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_cst_6 : Ref sig .tc := ⟨.hbm, 116, rfl⟩
abbrev main_v45 : Ref sig .tc := ⟨.hbm, 117, rfl⟩
abbrev main_v46 : Ref sig .tc := ⟨.hbm, 118, rfl⟩
abbrev main_cst_7 : Ref sig .tc := ⟨.hbm, 119, rfl⟩
abbrev main_v47 : Ref sig .tc := ⟨.hbm, 120, rfl⟩
abbrev main_v48 : Ref sig .tc := ⟨.hbm, 121, rfl⟩
abbrev main_c_8 : Ref sig .tc := ⟨.hbm, 122, rfl⟩
abbrev main_call4_cst : Ref sig .tc := ⟨.hbm, 123, rfl⟩
abbrev main_call4_v0 : Ref sig .tc := ⟨.hbm, 124, rfl⟩
abbrev main_call4_v1 : Ref sig .tc := ⟨.hbm, 125, rfl⟩
abbrev main_call4_cst_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_v6 : Ref sig .tc := ⟨.hbm, 131, rfl⟩
abbrev main_call4_v7 : Ref sig .tc := ⟨.hbm, 132, rfl⟩
abbrev main_call4_cst_1 : Ref sig .tc := ⟨.hbm, 133, rfl⟩
abbrev main_call4_v8 : Ref sig .tc := ⟨.hbm, 134, rfl⟩
abbrev main_call4_cst_2 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_v12 : Ref sig .tc := ⟨.hbm, 139, rfl⟩
abbrev main_call4_cst_3 : Ref sig .tc := ⟨.hbm, 140, rfl⟩
abbrev main_call4_v13 : Ref sig .tc := ⟨.hbm, 141, rfl⟩
abbrev main_call4_cst_4 : Ref sig .tc := ⟨.hbm, 142, rfl⟩
abbrev main_call4_call0_v0 : Ref sig .tc := ⟨.hbm, 143, rfl⟩
abbrev main_call4_call0_v1 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_cst_9 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_cst_10 : Ref sig .tc := ⟨.hbm, 162, rfl⟩
abbrev main_v65 : Ref sig .tc := ⟨.hbm, 163, rfl⟩
abbrev main_v66 : Ref sig .tc := ⟨.hbm, 164, rfl⟩
abbrev main_cst_11 : Ref sig .tc := ⟨.hbm, 165, rfl⟩
abbrev main_v67 : Ref sig .tc := ⟨.hbm, 166, rfl⟩
abbrev main_v68 : Ref sig .tc := ⟨.hbm, 167, rfl⟩
abbrev main_c_12 : Ref sig .tc := ⟨.hbm, 168, rfl⟩
abbrev main_call5_cst : Ref sig .tc := ⟨.hbm, 169, rfl⟩
abbrev main_call5_v0 : Ref sig .tc := ⟨.hbm, 170, rfl⟩
abbrev main_call5_v1 : Ref sig .tc := ⟨.hbm, 171, rfl⟩
abbrev main_call5_cst_0 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_call5_v5 : Ref sig .tc := ⟨.hbm, 176, rfl⟩
abbrev main_call5_v6 : Ref sig .tc := ⟨.hbm, 177, rfl⟩
abbrev main_call5_v7 : Ref sig .tc := ⟨.hbm, 178, rfl⟩
abbrev main_call5_cst_1 : Ref sig .tc := ⟨.hbm, 179, rfl⟩
abbrev main_call5_v8 : Ref sig .tc := ⟨.hbm, 180, rfl⟩
abbrev main_call5_cst_2 : Ref sig .tc := ⟨.hbm, 181, rfl⟩
abbrev main_call5_v9 : Ref sig .tc := ⟨.hbm, 182, rfl⟩
abbrev main_call5_v10 : Ref sig .tc := ⟨.hbm, 183, rfl⟩
abbrev main_call5_v11 : Ref sig .tc := ⟨.hbm, 184, rfl⟩
abbrev main_call5_v12 : Ref sig .tc := ⟨.hbm, 185, rfl⟩
abbrev main_call5_cst_3 : Ref sig .tc := ⟨.hbm, 186, rfl⟩
abbrev main_call5_v13 : Ref sig .tc := ⟨.hbm, 187, rfl⟩
abbrev main_call5_cst_4 : Ref sig .tc := ⟨.hbm, 188, rfl⟩
abbrev main_call5_call0_v0 : Ref sig .tc := ⟨.hbm, 189, rfl⟩
abbrev main_call5_call0_v1 : Ref sig .tc := ⟨.hbm, 190, rfl⟩
abbrev main_v69 : Ref sig .tc := ⟨.hbm, 191, rfl⟩
abbrev main_v70 : Ref sig .tc := ⟨.hbm, 192, rfl⟩
abbrev main_v71 : Ref sig .tc := ⟨.hbm, 193, rfl⟩
abbrev main_cst_13 : Ref sig .tc := ⟨.hbm, 194, rfl⟩
abbrev main_v72 : Ref sig .tc := ⟨.hbm, 195, rfl⟩
abbrev main_v73 : Ref sig .tc := ⟨.hbm, 196, rfl⟩
abbrev main_v74 : Ref sig .tc := ⟨.hbm, 197, rfl⟩
abbrev main_v75 : Ref sig .tc := ⟨.hbm, 198, rfl⟩
abbrev main_v76 : Ref sig .tc := ⟨.hbm, 199, rfl⟩
abbrev main_v77 : Ref sig .tc := ⟨.hbm, 200, rfl⟩
abbrev main_v78 : Ref sig .tc := ⟨.hbm, 201, rfl⟩
abbrev main_v79 : Ref sig .tc := ⟨.hbm, 202, rfl⟩
abbrev main_v80 : Ref sig .tc := ⟨.hbm, 203, rfl⟩
abbrev main_v81 : Ref sig .tc := ⟨.hbm, 204, rfl⟩
abbrev main_v82 : Ref sig .tc := ⟨.hbm, 205, rfl⟩
abbrev main_v83 : Ref sig .tc := ⟨.hbm, 206, rfl⟩
abbrev main_v84 : Ref sig .tc := ⟨.hbm, 207, rfl⟩
abbrev main_v85 : Ref sig .tc := ⟨.hbm, 208, rfl⟩
abbrev main_v86 : Ref sig .tc := ⟨.hbm, 209, rfl⟩
abbrev main_v87 : Ref sig .tc := ⟨.hbm, 210, rfl⟩
abbrev main_v88 : Ref sig .tc := ⟨.hbm, 211, rfl⟩
abbrev main_v89 : Ref sig .tc := ⟨.hbm, 212, rfl⟩
abbrev main_cst_14 : Ref sig .tc := ⟨.hbm, 213, rfl⟩
abbrev main_v90 : Ref sig .tc := ⟨.hbm, 214, rfl⟩
abbrev main_v91 : Ref sig .tc := ⟨.hbm, 215, rfl⟩
abbrev main_cst_15 : Ref sig .tc := ⟨.hbm, 216, rfl⟩
abbrev main_v92 : Ref sig .tc := ⟨.hbm, 217, rfl⟩
abbrev main_v93 : Ref sig .tc := ⟨.hbm, 218, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x64_S10000_d1 : S10000x64.ReducesTo [1] S10000
  bcast_S10000x1_S10000x64_0_1 : S10000x1.BroadcastsInDim S10000x64 (![0, 1] : Fin 2 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S10000x64_S64x10000_1_0 : S10000x64.Transposes [1, 0] S64x10000
  bcast_S_S10000x10000 : S_.BroadcastsInDim S10000x10000 (![] : Fin 0 → Fin S10000x10000.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x10000_S10000x10000_1_0_0_1_n_n_wf : DotDims.WF S10000x64 S64x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.K_Body0.lean ====
import proofs.«171846_g89721866813831_cont_sun_m_1046_11_alg».proof.Proof.Gen.Kernel.Launch
import proofs.«171846_g89721866813831_cont_sun_m_1046_11_alg».proof.Proof.Gen.Kernel.Skeleton
import proofs.«171846_g89721866813831_cont_sun_m_1046_11_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 0 (pipeline 0, no grid: one point): the body's half of the frame, at entry contents `V`

Windows 0 and 1 are inputs (the 10000x128 operand and the 128x128 weight), window 2 is the output
(their product). -/

/-- The offsets `![0, 0]` are the zero offsets. -/
theorem zeros2 : (![0, 0] : Fin 2 → Nat) = fun _ => 0 := funext fun a => by fin_cases a <;> rfl

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole-buffer rectangle -/

abbrev r0_a : Rect S10000x128 := Rect.unit (s := S10000x128) ![0, 0] S10000x128.size inb_S10000x128_S10000x128_0_0
abbrev r0_b : Rect S128x128 := Rect.unit (s := S128x128) ![0, 0] S128x128.size inb_S128x128_S128x128_0_0

/-- Window 2's staging buffer after the body, from the input windows' blocks: its one store, as a piece. -/
def out0_2 (x0 : Vec F S10000x128 .f32) (x1 : Vec F S128x128 .f32) : Vec F S10000x128 .f32 :=
  View.canon [⟨r0_a, k0_pay1 (View.ld x0 r0_a) (View.ld x1 r0_b)⟩]

/-- The store's rectangle is the whole buffer, so it covers it: every index lies in the unit rectangle at offset
    zero of the buffer's own extents. -/
theorem cover0_2 (p0 : Vec F S10000x128 .f32) (y : S10000x128.Idx) :
    ∃ pc ∈ ([⟨r0_a, p0⟩] : List (View.Piece (Elt F) S10000x128 .f32)), y ∈ pc.1.set :=
  ⟨_, List.mem_singleton_self _, View.mem_set_unit_zero (S := S10000x128) zeros2 inb_S10000x128_S10000x128_0_0 y⟩

/-! ## The body's triple -/

set_option maxHeartbeats 1000000 in
/-- The body on whole staging memrefs, the inputs' at read contents `x0`, `x1` and the output's at anything, runs to
    the continuation holding the inputs' as they were and the output's at `out0_2 x0 x1`. -/
theorem sound_kernel0 (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__p0_body arg0 harg0 arg1 harg1 arg2 harg2) K := by
  simp only [cc0__p0_body_eq_skeleton]; unfold cc0__p0_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of pipeline 0 on core `c`: the arrays as the region finds them; after the body each input's
    buffer at its block and the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_Body1.lean ====
import proofs.«171846_g89721866813831_cont_sun_m_1046_11_alg».proof.Proof.Gen.Kernel.Launch
import proofs.«171846_g89721866813831_cont_sun_m_1046_11_alg».proof.Proof.Gen.Kernel.Skeleton
import proofs.«171846_g89721866813831_cont_sun_m_1046_11_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 1 (pipeline 1): the body's half of the frame, at entry contents `V`

Windows 0-4 are inputs (a 400x10000 row block moving with the point; a 10000x128 array, a 128x128 weight and two
1x128 rows, each fetched once), windows 5 and 6 the two outputs: the normalised product and that times the weight. -/

/-- The offsets `![0, 0]` are the zero offsets. -/
theorem zeros2_1 : (![0, 0] : Fin 2 → Nat) = fun _ => 0 := funext fun a => by fin_cases a <;> rfl

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input windows: each one's current staging buffer holds its block at every point, fetched there or not,
    for any proof data whose array is `V`'s and whose body leaves the block in place (an unfetched window's block
    index has not moved since it was fetched) -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store goes through the whole-buffer rectangle of its memref -/

abbrev r1_S400x10000 : Rect S400x10000 := Rect.unit (s := S400x10000) ![0, 0] S400x10000.size inb_S400x10000_S400x10000_0_0
abbrev r1_S10000x128 : Rect S10000x128 := Rect.unit (s := S10000x128) ![0, 0] S10000x128.size inb_S10000x128_S10000x128_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0
abbrev r1_S400x128 : Rect S400x128 := Rect.unit (s := S400x128) ![0, 0] S400x128.size inb_S400x128_S400x128_0_0

/-! ## What the body leaves in each output window's buffer: its one store, as a piece over the payloads -/

def out1_5 (x0 : Vec F S400x10000 .f32) (x1 : Vec F S10000x128 .f32) (x2 : Vec F S128x128 .f32) (x3 : Vec F S1x128 .f32) (x4 : Vec F S1x128 .f32) : Vec F S400x128 .f32 :=
  View.canon [⟨r1_S400x128, k1_pay1 (View.ld x0 r1_S400x10000) (View.ld x1 r1_S10000x128) (View.ld x3 r1_S1x128) (View.ld x4 r1_S1x128)⟩]

/-- The store's rectangle is the whole buffer, so it covers it. -/
theorem cover1_5 (p0 : Vec F S400x128 .f32) (y : S400x128.Idx) :
    ∃ pc ∈ ([⟨r1_S400x128, p0⟩] : List (View.Piece (Elt F) S400x128 .f32)), y ∈ pc.1.set :=
  ⟨_, List.mem_singleton_self _, View.mem_set_unit_zero (S := S400x128) zeros2_1 inb_S400x128_S400x128_0_0 y⟩

def out1_6 (x0 : Vec F S400x10000 .f32) (x1 : Vec F S10000x128 .f32) (x2 : Vec F S128x128 .f32) (x3 : Vec F S1x128 .f32) (x4 : Vec F S1x128 .f32) : Vec F S400x128 .f32 :=
  View.canon [⟨r1_S400x128, k1_pay2 (View.ld x0 r1_S400x10000) (View.ld x1 r1_S10000x128) (View.ld x3 r1_S1x128) (View.ld x4 r1_S1x128) (View.ld x2 r1_S128x128)⟩]

/-- The store's rectangle is the whole buffer, so it covers it. -/
theorem cover1_6 (p0 : Vec F S400x128 .f32) (y : S400x128.Idx) :
    ∃ pc ∈ ([⟨r1_S400x128, p0⟩] : List (View.Piece (Elt F) S400x128 .f32)), y ∈ pc.1.set :=
  ⟨_, List.mem_singleton_self _, View.mem_set_unit_zero (S := S400x128) zeros2_1 inb_S400x128_S400x128_0_0 y⟩

/-! ## The body's triple -/

set_option maxHeartbeats 2000000 in
/-- The body on whole staging memrefs, the inputs' at read contents `xW` and the outputs' at anything, runs to the
    continuation holding the inputs' as they were and each output's at `out1_W` of the inputs'. -/
theorem sound_kernel1 (c : Dev nD) (E : Set ℕ) (i : grid1.Coords) (arg1 : Memref sig .tc .vmem S400x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S400x128 .f32) (harg6 : arg6.IsWhole)
    (arg7 : Memref sig .tc .vmem S400x128 .f32) (harg7 : arg7.IsWhole)
    (x0 : Vec F S400x10000 .f32) (x1 : Vec F S10000x128 .f32) (x2 : Vec F S128x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__p1_body i arg1 harg1 arg2 harg2 arg3 harg3 arg4 harg4 arg5 harg5 arg6 harg6 arg7 harg7) K := by
  simp only [cc1__p1_body_eq_skeleton]; unfold cc1__p1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover1_5 _)
  iexists _; isplitr
  swap; · iexact H6
  ipureintro
  try dsimp only
  exact View.read_writes_eq_canon _ _ _ (cover1_6 _)

/-! ## The pipeline's proof data -/

/-- The proof data of pipeline 1 on core `c`: the arrays as the region finds them; after the body each input's
    buffer at its block and each output's at `out1_W` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K_Body2.lean ====
import proofs.«171846_g89721866813831_cont_sun_m_1046_11_alg».proof.Proof.Gen.Kernel.Launch
import proofs.«171846_g89721866813831_cont_sun_m_1046_11_alg».proof.Proof.Gen.Kernel.Skeleton
import proofs.«171846_g89721866813831_cont_sun_m_1046_11_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 2 (pipeline 2): the body's half of the frame, at entry contents `V`

Windows 0-5 are inputs (a 400x10000 row block and a 400x128 row block moving with the point; a 10000x128 array,
a 128x128 weight and two 1x128 rows, each fetched once), window 6 the output. -/

/-- The offsets `![0, 0]` are the zero offsets. -/
theorem zeros2_2 : (![0, 0] : Fin 2 → Nat) = fun _ => 0 := funext fun a => by fin_cases a <;> rfl

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The input windows: each one's current staging buffer holds its block at every point, fetched there or not,
    for any proof data whose array is `V`'s and whose body leaves the block in place (an unfetched window's block
    index has not moved since it was fetched) -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and every store goes through the whole-buffer rectangle of its memref -/

abbrev r2_S400x10000 : Rect S400x10000 := Rect.unit (s := S400x10000) ![0, 0] S400x10000.size inb_S400x10000_S400x10000_0_0
abbrev r2_S10000x128 : Rect S10000x128 := Rect.unit (s := S10000x128) ![0, 0] S10000x128.size inb_S10000x128_S10000x128_0_0
abbrev r2_S400x128 : Rect S400x128 := Rect.unit (s := S400x128) ![0, 0] S400x128.size inb_S400x128_S400x128_0_0
abbrev r2_S128x128 : Rect S128x128 := Rect.unit (s := S128x128) ![0, 0] S128x128.size inb_S128x128_S128x128_0_0
abbrev r2_S1x128 : Rect S1x128 := Rect.unit (s := S1x128) ![0, 0] S1x128.size inb_S1x128_S1x128_0_0

/-! ## What the body leaves in each output window's buffer: its one store, as a piece over the payloads -/

def out2_6 (x0 : Vec F S400x10000 .f32) (x1 : Vec F S10000x128 .f32) (x2 : Vec F S400x128 .f32) (x3 : Vec F S128x128 .f32) (x4 : Vec F S1x128 .f32) (x5 : Vec F S1x128 .f32) : Vec F S400x128 .f32 :=
  View.canon [⟨r2_S400x128, k2_pay1 (k2_pay2 (View.ld x0 r2_S400x10000) (View.ld x1 r2_S10000x128) (View.ld x4 r2_S1x128) (View.ld x5 r2_S1x128) (View.ld x2 r2_S400x128)) (k2_pay3 (View.ld x3 r2_S128x128)) (constant S400x128 .f32 0x00000000#32)⟩]

/-- The store's rectangle is the whole buffer, so it covers it. -/
theorem cover2_6 (p0 : Vec F S400x128 .f32) (y : S400x128.Idx) :
    ∃ pc ∈ ([⟨r2_S400x128, p0⟩] : List (View.Piece (Elt F) S400x128 .f32)), y ∈ pc.1.set :=
  ⟨_, List.mem_singleton_self _, View.mem_set_unit_zero (S := S400x128) zeros2_2 inb_S400x128_S400x128_0_0 y⟩

/-! ## The body's triple -/

set_option maxHeartbeats 2000000 in
/-- The body on whole staging memrefs, the inputs' at read contents `xW` and the outputs' at anything, runs to the
    continuation holding the inputs' as they were and each output's at `out2_W` of the inputs'. -/
theorem sound_kernel2 (c : Dev nD) (E : Set ℕ) (i : grid2.Coords) (arg1 : Memref sig .tc .vmem S400x10000 .f32) (harg1 : arg1.IsWhole)
    (arg2 : Memref sig .tc .vmem S10000x128 .f32) (harg2 : arg2.IsWhole)
    (arg3 : Memref sig .tc .vmem S400x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S400x128 .f32) (harg7 : arg7.IsWhole)
    (x0 : Vec F S400x10000 .f32) (x1 : Vec F S10000x128 .f32) (x2 : Vec F S400x128 .f32) (x3 : Vec F S128x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__p2_body i arg1 harg1 arg2 harg2 arg3 harg3 arg4 harg4 arg5 harg5 arg6 harg6 arg7 harg7) K := by
  simp only [cc2__p2_body_eq_skeleton]; unfold cc2__p2_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover2_6 _)

/-! ## The pipeline's proof data -/

/-- The proof data of pipeline 2 on core `c`: the arrays as the region finds them; after the body each input's
    buffer at its block and each output's at `out2_W` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K_Body3.lean ====
import proofs.«171846_g89721866813831_cont_sun_m_1046_11_alg».proof.Proof.Gen.Kernel.Launch
import proofs.«171846_g89721866813831_cont_sun_m_1046_11_alg».proof.Proof.Gen.Kernel.Skeleton
import proofs.«171846_g89721866813831_cont_sun_m_1046_11_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 3 (pipeline 3): the body's half of the frame, at entry contents `V`

Windows 0-6 are inputs (a 400x10000 row block and a 400x64 row block moving with the point; a 10000x128 array and
four 1x64 rows, each fetched once), window 7 the output. -/

/-- The offsets `![0, 0]` are the zero offsets. -/
theorem zeros2_3 : (![0, 0] : Fin 2 → Nat) = fun _ => 0 := funext fun a => by fin_cases a <;> rfl

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The input windows: each one's current staging buffer holds its block at every point, fetched there or not,
    for any proof data whose array is `V`'s and whose body leaves the block in place (an unfetched window's block
    index has not moved since it was fetched) -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and every store goes through the whole-buffer rectangle of its memref -/

abbrev r3_S400x10000 : Rect S400x10000 := Rect.unit (s := S400x10000) ![0, 0] S400x10000.size inb_S400x10000_S400x10000_0_0
abbrev r3_S10000x128 : Rect S10000x128 := Rect.unit (s := S10000x128) ![0, 0] S10000x128.size inb_S10000x128_S10000x128_0_0
abbrev r3_S400x64 : Rect S400x64 := Rect.unit (s := S400x64) ![0, 0] S400x64.size inb_S400x64_S400x64_0_0
abbrev r3_S1x64 : Rect S1x64 := Rect.unit (s := S1x64) ![0, 0] S1x64.size inb_S1x64_S1x64_0_0

/-! ## What the body leaves in each output window's buffer: its one store, as a piece over the payloads -/

def out3_7 (x0 : Vec F S400x10000 .f32) (x1 : Vec F S10000x128 .f32) (x2 : Vec F S400x64 .f32) (x3 : Vec F S1x64 .f32) (x4 : Vec F S1x64 .f32) (x5 : Vec F S1x64 .f32) (x6 : Vec F S1x64 .f32) : Vec F S400x64 .f32 :=
  View.canon [⟨r3_S400x64, k3_pay1 (k3_pay3 (View.ld x0 r3_S400x10000) (View.ld x1 r3_S10000x128) (View.ld x3 r3_S1x64) (View.ld x4 r3_S1x64)) (k3_pay4 (View.ld x0 r3_S400x10000) (View.ld x1 r3_S10000x128)) (k3_pay5 (View.ld x5 r3_S1x64)) (k3_pay6 (View.ld x6 r3_S1x64)) (k3_pay7 (View.ld x0 r3_S400x10000) (View.ld x1 r3_S10000x128)) (View.ld x2 r3_S400x64)⟩]

/-- The store's rectangle is the whole buffer, so it covers it. -/
theorem cover3_7 (p0 : Vec F S400x64 .f32) (y : S400x64.Idx) :
    ∃ pc ∈ ([⟨r3_S400x64, p0⟩] : List (View.Piece (Elt F) S400x64 .f32)), y ∈ pc.1.set :=
  ⟨_, List.mem_singleton_self _, View.mem_set_unit_zero (S := S400x64) zeros2_3 inb_S400x64_S400x64_0_0 y⟩

/-! ## The body's triple -/

set_option maxHeartbeats 2000000 in
/-- The body on whole staging memrefs, the inputs' at read contents `xW` and the outputs' at anything, runs to the
    continuation holding the inputs' as they were and each output's at `out3_W` of the inputs'. -/
theorem sound_kernel3 (c : Dev nD) (E : Set ℕ) (i : grid3.Coords) (arg1 : Memref sig .tc .vmem S400x10000 .f32) (harg1 : arg1.IsWhole)
    (arg2 : Memref sig .tc .vmem S10000x128 .f32) (harg2 : arg2.IsWhole)
    (arg3 : Memref sig .tc .vmem S400x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S1x64 .f32) (harg6 : arg6.IsWhole)
    (arg7 : Memref sig .tc .vmem S1x64 .f32) (harg7 : arg7.IsWhole)
    (arg8 : Memref sig .tc .vmem S400x64 .f32) (harg8 : arg8.IsWhole)
    (x0 : Vec F S400x10000 .f32) (x1 : Vec F S10000x128 .f32) (x2 : Vec F S400x64 .f32) (x3 : Vec F S1x64 .f32) (x4 : Vec F S1x64 .f32) (x5 : Vec F S1x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__p3_body i arg1 harg1 arg2 harg2 arg3 harg3 arg4 harg4 arg5 harg5 arg6 harg6 arg7 harg7 arg8 harg8) K := by
  simp only [cc3__p3_body_eq_skeleton]; unfold cc3__p3_body_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover3_7 _)

/-! ## The pipeline's proof data -/

/-- The proof data of pipeline 3 on core `c`: the arrays as the region finds them; after the body each input's
    buffer at its block and each output's at `out3_W` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K_Body4.lean ====
import proofs.«171846_g89721866813831_cont_sun_m_1046_11_alg».proof.Proof.Gen.Kernel.Launch
import proofs.«171846_g89721866813831_cont_sun_m_1046_11_alg».proof.Proof.Gen.Kernel.Skeleton
import proofs.«171846_g89721866813831_cont_sun_m_1046_11_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 4 (pipeline 4, 25 points): the body's half of the frame, at entry contents `V`

Windows 0 and 1 are inputs on ONE array (a 400x64 row block of it, moving with the point; and all 10000x64 of it,
fetched once), window 2 is the output: the logistic of the row block times the whole array transposed. -/

/-- The offsets `![0, 0]` are the zero offsets. -/
theorem zeros2_4 : (![0, 0] : Fin 2 → Nat) = fun _ => 0 := funext fun a => by fin_cases a <;> rfl

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store go through the whole-buffer rectangle -/

abbrev r4_a : Rect S400x64 := Rect.unit (s := S400x64) ![0, 0] S400x64.size inb_S400x64_S400x64_0_0
abbrev r4_b : Rect S10000x64 := Rect.unit (s := S10000x64) ![0, 0] S10000x64.size inb_S10000x64_S10000x64_0_0
abbrev r4_c : Rect S400x10000 := Rect.unit (s := S400x10000) ![0, 0] S400x10000.size inb_S400x10000_S400x10000_0_0

/-- Window 2's staging buffer after the body, from the input windows' blocks: its one store, as a piece. -/
def out4_2 (x0 : Vec F S400x64 .f32) (x1 : Vec F S10000x64 .f32) : Vec F S400x10000 .f32 :=
  View.canon [⟨r4_c, k4_pay1 (View.ld x0 r4_a) (View.ld x1 r4_b)⟩]

/-- The store's rectangle is the whole buffer, so it covers it. -/
theorem cover4_2 (p0 : Vec F S400x10000 .f32) (y : S400x10000.Idx) :
    ∃ pc ∈ ([⟨r4_c, p0⟩] : List (View.Piece (Elt F) S400x10000 .f32)), y ∈ pc.1.set :=
  ⟨_, List.mem_singleton_self _, View.mem_set_unit_zero (S := S400x10000) zeros2_4 inb_S400x10000_S400x10000_0_0 y⟩

/-! ## The body's triple -/

set_option maxHeartbeats 1000000 in
/-- The body on whole staging memrefs, the inputs' at read contents `x0`, `x1` and the output's at anything, runs to
    the continuation holding the inputs' as they were and the output's at `out4_2 x0 x1`. -/
theorem sound_kernel4 (c : Dev nD) (E : Set ℕ) (i : grid4.Coords) (arg1 : Memref sig .tc .vmem S400x64 .f32) (harg1 : arg1.IsWhole)
    (arg2 : Memref sig .tc .vmem S10000x64 .f32) (harg2 : arg2.IsWhole) (arg3 : Memref sig .tc .vmem S400x10000 .f32) (harg3 : arg3.IsWhole)
    (x0 : Vec F S400x64 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__p4_body i arg1 harg1 arg2 harg2 arg3 harg3) K := by
  simp only [cc4__p4_body_eq_skeleton]; unfold cc4__p4_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover4_2 _)

/-! ## The pipeline's proof data -/

/-- The proof data of pipeline 4 on core `c`, at the shares `q4` held of the windows' arrays (two input windows
    read one array, so neither holds all of it): the arrays as the region finds them; after the body each input's
    buffer at its block and the output's at `out4_2` of the input blocks; the invariant the scoped rest and the
    generator register, untouched; nothing owed. -/
def dat4 (q4 : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q := q4
  owed _ := 0

variable (q4 : Fin cfg4.W → PosShare TreeShare)

theorem A_eq4 (c : Dev nD) (w : Fin cfg4.W) : (dat4 V q4 c).A w = V c (Pipeline.arrRef spec4 w) := by
  dsimp only [dat4]
theorem q_eq4 (c : Dev nD) (w : Fin cfg4.W) : (dat4 V q4 c).q w = q4 w := by
  dsimp only [dat4]

theorem after4_0 (c : Dev nD) (t : Fin cfg4.N) : (dat4 V q4 c).after 0 t = iblk4 V c 0 t := by dsimp only [dat4]
theorem after4_1 (c : Dev nD) (t : Fin cfg4.N) : (dat4 V q4 c).after 1 t = iblk4 V c 1 t := by dsimp only [dat4]
theorem after4_2 (c : Dev nD) (t : Fin cfg4.N) : (dat4 V q4 c).after 2 t = out4_2 (iblk4 V c 0 t) (iblk4 V c 1 t) := by dsimp only [dat4]

theorem before4_0 (c : Dev nD) (t : Fin cfg4.N) (d) : (dat4 V q4 c).before 0 t d = iblk4 V c 0 t :=
  before4_0_of V (dat4 V q4 c) (A_eq4 V q4 c 0) (after4_0 V q4 c) t d
theorem before4_1 (c : Dev nD) (t : Fin cfg4.N) (d) : (dat4 V q4 c).before 1 t d = iblk4 V c 1 t :=
  before4_1_of V (dat4 V q4 c) (A_eq4 V q4 c 1) (after4_1 V q4 c) t d

/-! ## The body obligation -/

def bodyPre4 (c : Dev nD) (t : Fin cfg4.N) : sProp 𝕄 :=
  iprop((dat4 V q4 c).Φ t.castSucc ∗ (dat4 V q4 c).owesAt () t.castSucc
    ∗ (∃ d, owns (c : Thread nD τ) (st4_0 t) fullShare ((dat4 V q4 c).before 0 t d))
    ∗ (∃ d, owns (c : Thread nD τ) (st4_1 t) fullShare ((dat4 V q4 c).before 1 t d))
    ∗ (∃ d, owns (c : Thread nD τ) (st4_2 t) fullShare ((dat4 V q4 c).before 2 t d)))

def bodyPost4 (c : Dev nD) (t : Fin cfg4.N) : sProp 𝕄 :=
  iprop((dat4 V q4 c).Φ t.succ ∗ (dat4 V q4 c).owesAt () t.succ
    ∗ owns (c : Thread nD τ) (st4_0 t) fullShare ((dat4 V q4 c).after 0 t)
    ∗ owns (c : Thread nD τ) (st4_1 t) fullShare ((dat4 V q4 c).after 1 t)
    ∗ owns (c : Thread nD τ) (st4_2 t) fullShare ((dat4 V q4 c).after 2 t))

theorem sound_body4 (c : Dev nD) (t : Fin cfg4.N) :
    bodyPre4 V q4 c t ⊢ wp frame (wpE (defs₀ (F := F)) Variants.none c none) Set.univ (bodyAt4 t) (fun _ => bodyPost4 V q4 c t) := by
  unfold bodyPre4 bodyPost4 bodyAt4
  simp only [before4_0, before4_1]
  rw [show (dat4 V q4 c).Φ t.succ = (dat4 V q4 c).Φ t.castSucc from rfl,
    show (dat4 V q4 c).owesAt () t.succ = (dat4 V q4 c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V q4 c) (defs₀ (F := F)) Variants.none () Set.univ := fun t => by
  rw [bigSep_W4, bigSep_W4]
  exact sound_body4 V q4 c t

end Cert.Kernel.Hand

end
-- ==== Proof.K_Fold.lean ====
/-
  The contents of the TensorCore's buffers between the items of the program: as launched, after the host
  operations that reshape the gains and biases and lay the two last projections side by side, and after each
  kernel region in turn, a region's output arrays at what its write-backs leave (each grid point's block
  folded into the array) and every other buffer as the region found it.
-/
import proofs.«171846_g89721866813831_cont_sun_m_1046_11_alg».proof.Proof.K_Body0
import proofs.«171846_g89721866813831_cont_sun_m_1046_11_alg».proof.Proof.K_Body1
import proofs.«171846_g89721866813831_cont_sun_m_1046_11_alg».proof.Proof.K_Body2
import proofs.«171846_g89721866813831_cont_sun_m_1046_11_alg».proof.Proof.K_Body3
import proofs.«171846_g89721866813831_cont_sun_m_1046_11_alg».proof.Proof.K_Body4
import proofs.«171846_g89721866813831_cont_sun_m_1046_11_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The two halves of the full share: the two input windows of the last region read one array, each at a half. -/
abbrev q4 : Fin cfg4.W → PosShare TreeShare := fun w => match w with
  | ⟨0, _⟩ => fullShare.left
  | ⟨1, _⟩ => fullShare.right
  | ⟨2, _⟩ => fullShare

/-- After the host operations: the first region's entry. -/
abbrev U1 (c : Dev nD) : Valuation τ sig (Elt F) := Gen.V1 m c
abbrev X1 : (c : Dev nD) → (b : Ref sig .tc) → Buf (Elt F) ((c : Thread nD τ).loc b) := fun c b => U1 m c b

/-- After region 0: its output array at what the write-backs leave, the rest as entered. -/
def U2 (c : Dev nD) : Valuation τ sig (Elt F) :=
  Function.update (U1 m c) (Proc.devRef .tc main_v9) ((dat0 (X1 m) c).arrAt 2 cfg0.N)
abbrev X2 : (c : Dev nD) → (b : Ref sig .tc) → Buf (Elt F) ((c : Thread nD τ).loc b) := fun c b => U2 m c b

/-- After region 1: its output arrays at what the write-backs leave, the rest as entered. -/
def U3 (c : Dev nD) : Valuation τ sig (Elt F) :=
  Function.update (Function.update (U2 m c) (Proc.devRef .tc main_v10_0) ((dat1 (X2 m) c).arrAt 5 cfg1.N)) (Proc.devRef .tc main_v10_1) ((dat1 (X2 m) c).arrAt 6 cfg1.N)
abbrev X3 : (c : Dev nD) → (b : Ref sig .tc) → Buf (Elt F) ((c : Thread nD τ).loc b) := fun c b => U3 m c b

/-- After region 2: its output array at what the write-backs leave, the rest as entered. -/
def U4 (c : Dev nD) : Valuation τ sig (Elt F) :=
  Function.update (U3 m c) (Proc.devRef .tc main_v11) ((dat2 (X3 m) c).arrAt 6 cfg2.N)
abbrev X4 : (c : Dev nD) → (b : Ref sig .tc) → Buf (Elt F) ((c : Thread nD τ).loc b) := fun c b => U4 m c b

/-- After region 3: its output array at what the write-backs leave, the rest as entered. -/
def U5 (c : Dev nD) : Valuation τ sig (Elt F) :=
  Function.update (U4 m c) (Proc.devRef .tc main_v12) ((dat3 (X4 m) c).arrAt 7 cfg3.N)
abbrev X5 : (c : Dev nD) → (b : Ref sig .tc) → Buf (Elt F) ((c : Thread nD τ).loc b) := fun c b => U5 m c b

/-- After region 4: its output array at what the write-backs leave, the rest as entered. -/
def U6 (c : Dev nD) : Valuation τ sig (Elt F) :=
  Function.update (U5 m c) (Proc.devRef .tc main_v13) ((dat4 (X5 m) q4 c).arrAt 2 cfg4.N)
abbrev X6 : (c : Dev nD) → (b : Ref sig .tc) → Buf (Elt F) ((c : Thread nD τ).loc b) := fun c b => U6 m c b

end Cert.Kernel.Hand

end
-- ==== Proof.K_Regs.lean ====
/-
  Each kernel region as a segment of the program's run: entered holding every unscoped buffer at the contents
  the previous item left, it splits its windows' arrays out of them, runs its pipeline — every grid point's
  body leaving each input block in place and each output block at the body's stores —, and puts the arrays
  back at what the write-backs leave.  The last region reads one array through two input windows: the array is
  held at the two halves of the full share while the pipeline runs, and whole again afterwards.
-/
import proofs.«171846_g89721866813831_cont_sun_m_1046_11_alg».proof.Proof.K_Fold

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 5) → (c : Dev nD) → Dat τ (Elt F) Unit ℕ (UR sig nD τ) ℕ (cfgs p) c
  | ⟨0, _⟩ => fun c => dat0 (X1 m) c
  | ⟨1, _⟩ => fun c => dat1 (X2 m) c
  | ⟨2, _⟩ => fun c => dat2 (X3 m) c
  | ⟨3, _⟩ => fun c => dat3 (X4 m) c
  | ⟨4, _⟩ => fun c => dat4 (X5 m) q4 c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Region 0 -/

/-- At region 0's exit each of its arrays holds what the pipeline leaves: an input array its entry contents, an
    output array its folded write-backs. -/
theorem hF0 (c : Dev nD) : ∀ w : Fin cfg0.W, (pdats m 0 c).arrAt w cfg0.N = X2 m c (Pipeline.arrRef spec0 w)
  | ⟨0, _⟩ => by unfold X2 U2; exact (((dat0 (X1 m) c).arrAt_in 0 rfl _).trans (A_eq0 (X1 m) c 0)).trans (Eq.symm (Function.update_of_ne (StableHlo.devRef_ne_of_ne (by decide : (main_arg0 : Ref sig .tc) ≠ main_v9)) _ _))
  | ⟨1, _⟩ => by unfold X2 U2; exact (((dat0 (X1 m) c).arrAt_in 1 rfl _).trans (A_eq0 (X1 m) c 1)).trans (Eq.symm (Function.update_of_ne (StableHlo.devRef_ne_of_ne (by decide : (main_arg2 : Ref sig .tc) ≠ main_v9)) _ _))
  | ⟨2, _⟩ => by unfold X2 U2; exact Eq.symm (Function.update_self _ _ _)
/-- Every other buffer holds what it held at entry. -/
theorem hrest0 (c : Dev nD) : ∀ b, b ∉ Finset.univ.image (Pipeline.arrRef spec0) → X2 m c b = X1 m c b := fun b hb => by
  unfold X2 U2
  exact (Function.update_of_ne (StableHlo.devRef_ne_of_ne fun e => hb (Finset.mem_image.mpr ⟨2, Finset.mem_univ _, e.symm⟩)) _ _)

set_option backward.isDefEq.respectTransparency.types false in
/-- Region 0 over the thread state: entered from every unscoped buffer at `U1`, left at `U2`. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: an input array its entry contents, an
    output array its folded write-backs. -/
theorem hF1 (c : Dev nD) : ∀ w : Fin cfg1.W, (pdats m 1 c).arrAt w cfg1.N = X3 m c (Pipeline.arrRef spec1 w)
  | ⟨0, _⟩ => by unfold X3 U3; exact (((dat1 (X2 m) c).arrAt_in 0 rfl _).trans (A_eq1 (X2 m) c 0)).trans (Eq.symm ((Function.update_of_ne (StableHlo.devRef_ne_of_ne (by decide : (main_arg1 : Ref sig .tc) ≠ main_v10_1)) _ _).trans (Function.update_of_ne (StableHlo.devRef_ne_of_ne (by decide : (main_arg1 : Ref sig .tc) ≠ main_v10_0)) _ _)))
  | ⟨1, _⟩ => by unfold X3 U3; exact (((dat1 (X2 m) c).arrAt_in 1 rfl _).trans (A_eq1 (X2 m) c 1)).trans (Eq.symm ((Function.update_of_ne (StableHlo.devRef_ne_of_ne (by decide : (main_v9 : Ref sig .tc) ≠ main_v10_1)) _ _).trans (Function.update_of_ne (StableHlo.devRef_ne_of_ne (by decide : (main_v9 : Ref sig .tc) ≠ main_v10_0)) _ _)))
  | ⟨2, _⟩ => by unfold X3 U3; exact (((dat1 (X2 m) c).arrAt_in 2 rfl _).trans (A_eq1 (X2 m) c 2)).trans (Eq.symm ((Function.update_of_ne (StableHlo.devRef_ne_of_ne (by decide : (main_arg3 : Ref sig .tc) ≠ main_v10_1)) _ _).trans (Function.update_of_ne (StableHlo.devRef_ne_of_ne (by decide : (main_arg3 : Ref sig .tc) ≠ main_v10_0)) _ _)))
  | ⟨3, _⟩ => by unfold X3 U3; exact (((dat1 (X2 m) c).arrAt_in 3 rfl _).trans (A_eq1 (X2 m) c 3)).trans (Eq.symm ((Function.update_of_ne (StableHlo.devRef_ne_of_ne (by decide : (main_v0 : Ref sig .tc) ≠ main_v10_1)) _ _).trans (Function.update_of_ne (StableHlo.devRef_ne_of_ne (by decide : (main_v0 : Ref sig .tc) ≠ main_v10_0)) _ _)))
  | ⟨4, _⟩ => by unfold X3 U3; exact (((dat1 (X2 m) c).arrAt_in 4 rfl _).trans (A_eq1 (X2 m) c 4)).trans (Eq.symm ((Function.update_of_ne (StableHlo.devRef_ne_of_ne (by decide : (main_v1 : Ref sig .tc) ≠ main_v10_1)) _ _).trans (Function.update_of_ne (StableHlo.devRef_ne_of_ne (by decide : (main_v1 : Ref sig .tc) ≠ main_v10_0)) _ _)))
  | ⟨5, _⟩ => by unfold X3 U3; exact Eq.symm ((Function.update_of_ne (StableHlo.devRef_ne_of_ne (by decide : (main_v10_0 : Ref sig .tc) ≠ main_v10_1)) _ _).trans (Function.update_self _ _ _))
  | ⟨6, _⟩ => by unfold X3 U3; exact Eq.symm (Function.update_self _ _ _)
/-- Every other buffer holds what it held at entry. -/
theorem hrest1 (c : Dev nD) : ∀ b, b ∉ Finset.univ.image (Pipeline.arrRef spec1) → X3 m c b = X2 m c b := fun b hb => by
  unfold X3 U3
  exact (Function.update_of_ne (StableHlo.devRef_ne_of_ne fun e => hb (Finset.mem_image.mpr ⟨6, Finset.mem_univ _, e.symm⟩)) _ _).trans (Function.update_of_ne (StableHlo.devRef_ne_of_ne fun e => hb (Finset.mem_image.mpr ⟨5, Finset.mem_univ _, e.symm⟩)) _ _)

set_option backward.isDefEq.respectTransparency.types false in
/-- Region 1 over the thread state: entered from every unscoped buffer at `U2`, left at `U3`. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (X2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (X2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (X2 m c) (X3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: an input array its entry contents, an
    output array its folded write-backs. -/
theorem hF2 (c : Dev nD) : ∀ w : Fin cfg2.W, (pdats m 2 c).arrAt w cfg2.N = X4 m c (Pipeline.arrRef spec2 w)
  | ⟨0, _⟩ => by unfold X4 U4; exact (((dat2 (X3 m) c).arrAt_in 0 rfl _).trans (A_eq2 (X3 m) c 0)).trans (Eq.symm (Function.update_of_ne (StableHlo.devRef_ne_of_ne (by decide : (main_arg1 : Ref sig .tc) ≠ main_v11)) _ _))
  | ⟨1, _⟩ => by unfold X4 U4; exact (((dat2 (X3 m) c).arrAt_in 1 rfl _).trans (A_eq2 (X3 m) c 1)).trans (Eq.symm (Function.update_of_ne (StableHlo.devRef_ne_of_ne (by decide : (main_v10_1 : Ref sig .tc) ≠ main_v11)) _ _))
  | ⟨2, _⟩ => by unfold X4 U4; exact (((dat2 (X3 m) c).arrAt_in 2 rfl _).trans (A_eq2 (X3 m) c 2)).trans (Eq.symm (Function.update_of_ne (StableHlo.devRef_ne_of_ne (by decide : (main_v10_0 : Ref sig .tc) ≠ main_v11)) _ _))
  | ⟨3, _⟩ => by unfold X4 U4; exact (((dat2 (X3 m) c).arrAt_in 3 rfl _).trans (A_eq2 (X3 m) c 3)).trans (Eq.symm (Function.update_of_ne (StableHlo.devRef_ne_of_ne (by decide : (main_v8 : Ref sig .tc) ≠ main_v11)) _ _))
  | ⟨4, _⟩ => by unfold X4 U4; exact (((dat2 (X3 m) c).arrAt_in 4 rfl _).trans (A_eq2 (X3 m) c 4)).trans (Eq.symm (Function.update_of_ne (StableHlo.devRef_ne_of_ne (by decide : (main_v2 : Ref sig .tc) ≠ main_v11)) _ _))
  | ⟨5, _⟩ => by unfold X4 U4; exact (((dat2 (X3 m) c).arrAt_in 5 rfl _).trans (A_eq2 (X3 m) c 5)).trans (Eq.symm (Function.update_of_ne (StableHlo.devRef_ne_of_ne (by decide : (main_v3 : Ref sig .tc) ≠ main_v11)) _ _))
  | ⟨6, _⟩ => by unfold X4 U4; exact Eq.symm (Function.update_self _ _ _)
/-- Every other buffer holds what it held at entry. -/
theorem hrest2 (c : Dev nD) : ∀ b, b ∉ Finset.univ.image (Pipeline.arrRef spec2) → X4 m c b = X3 m c b := fun b hb => by
  unfold X4 U4
  exact (Function.update_of_ne (StableHlo.devRef_ne_of_ne fun e => hb (Finset.mem_image.mpr ⟨6, Finset.mem_univ _, e.symm⟩)) _ _)

set_option backward.isDefEq.respectTransparency.types false in
/-- Region 2 over the thread state: entered from every unscoped buffer at `U3`, left at `U4`. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (X3 m) c).loose
  hwaits := Pipeline.hwaits_of_owed_zero _ _ _ _ L lv 2 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (X3 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (X3 m c) (X4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the pipeline leaves: an input array its entry contents, an
    output array its folded write-backs. -/
theorem hF3 (c : Dev nD) : ∀ w : Fin cfg3.W, (pdats m 3 c).arrAt w cfg3.N = X5 m c (Pipeline.arrRef spec3 w)
  | ⟨0, _⟩ => by unfold X5 U5; exact (((dat3 (X4 m) c).arrAt_in 0 rfl _).trans (A_eq3 (X4 m) c 0)).trans (Eq.symm (Function.update_of_ne (StableHlo.devRef_ne_of_ne (by decide : (main_arg1 : Ref sig .tc) ≠ main_v12)) _ _))
  | ⟨1, _⟩ => by unfold X5 U5; exact (((dat3 (X4 m) c).arrAt_in 1 rfl _).trans (A_eq3 (X4 m) c 1)).trans (Eq.symm (Function.update_of_ne (StableHlo.devRef_ne_of_ne (by decide : (main_v11 : Ref sig .tc) ≠ main_v12)) _ _))
  | ⟨2, _⟩ => by unfold X5 U5; exact (((dat3 (X4 m) c).arrAt_in 2 rfl _).trans (A_eq3 (X4 m) c 2)).trans (Eq.symm (Function.update_of_ne (StableHlo.devRef_ne_of_ne (by decide : (main_arg14 : Ref sig .tc) ≠ main_v12)) _ _))
  | ⟨3, _⟩ => by unfold X5 U5; exact (((dat3 (X4 m) c).arrAt_in 3 rfl _).trans (A_eq3 (X4 m) c 3)).trans (Eq.symm (Function.update_of_ne (StableHlo.devRef_ne_of_ne (by decide : (main_v4 : Ref sig .tc) ≠ main_v12)) _ _))
  | ⟨4, _⟩ => by unfold X5 U5; exact (((dat3 (X4 m) c).arrAt_in 4 rfl _).trans (A_eq3 (X4 m) c 4)).trans (Eq.symm (Function.update_of_ne (StableHlo.devRef_ne_of_ne (by decide : (main_v5 : Ref sig .tc) ≠ main_v12)) _ _))
  | ⟨5, _⟩ => by unfold X5 U5; exact (((dat3 (X4 m) c).arrAt_in 5 rfl _).trans (A_eq3 (X4 m) c 5)).trans (Eq.symm (Function.update_of_ne (StableHlo.devRef_ne_of_ne (by decide : (main_v6 : Ref sig .tc) ≠ main_v12)) _ _))
  | ⟨6, _⟩ => by unfold X5 U5; exact (((dat3 (X4 m) c).arrAt_in 6 rfl _).trans (A_eq3 (X4 m) c 6)).trans (Eq.symm (Function.update_of_ne (StableHlo.devRef_ne_of_ne (by decide : (main_v7 : Ref sig .tc) ≠ main_v12)) _ _))
  | ⟨7, _⟩ => by unfold X5 U5; exact Eq.symm (Function.update_self _ _ _)
/-- Every other buffer holds what it held at entry. -/
theorem hrest3 (c : Dev nD) : ∀ b, b ∉ Finset.univ.image (Pipeline.arrRef spec3) → X5 m c b = X4 m c b := fun b hb => by
  unfold X5 U5
  exact (Function.update_of_ne (StableHlo.devRef_ne_of_ne fun e => hb (Finset.mem_image.mpr ⟨7, Finset.mem_univ _, e.symm⟩)) _ _)

set_option backward.isDefEq.respectTransparency.types false in
/-- Region 3 over the thread state: entered from every unscoped buffer at `U4`, left at `U5`. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (X4 m) c).loose
  hwaits := Pipeline.hwaits_of_owed_zero _ _ _ _ L lv 3 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec3 c (X4 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (X4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (X4 m c) (X5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg4.lean ====
/-
  The last region as a segment of the run.  It reads the latent array through two input windows — a block of
  400 rows, and the whole array — so the one buffer behind both is held at the two halves of the full share
  while the pipeline runs: split at the region's entry, joined again at its exit, its contents unchanged.
-/
import proofs.«171846_g89721866813831_cont_sun_m_1046_11_alg».proof.Proof.K_Regs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared

variable (V : (c : Dev nD) → (b : Ref sig .tc) → Buf (Elt F) ((c : Thread nD τ).loc b))

/-- The region's windows sit on two buffers. -/
theorem img4 : Finset.univ.image (Pipeline.arrRef spec4) = ({main_v12, main_v13} : Finset (Ref sig .tc)) := by decide

theorem share4_0 (c : Dev nD) : (dat4 V q4 c).share 0 = fullShare.left := rfl
theorem share4_1 (c : Dev nD) : (dat4 V q4 c).share 1 = fullShare.right := rfl
theorem share4_2 (c : Dev nD) : (dat4 V q4 c).share 2 = fullShare := rfl

/-- Entry: the unscoped buffers at `V` are the region's arrays — the shared buffer at its two halves — and the rest. -/
theorem arrays4_of_unscopedBufs (c : Dev nD)
    (Fa : (w : Fin cfg4.W) → Buf (Elt F) ((cfg4.win w).arr.view.loc (c.tc : Thread nD τ)))
    (h0 : Fa 0 = V c main_v12) (h1 : Fa 1 = V c main_v12) (h2 : Fa 2 = V c main_v13) :
    (unscopedBufs c (V c) : sProp 𝕄)
      ⊢ iprop((dat4 V q4 c).arrays Fa ∗ Pipeline.unscopedRest spec4 c (V c)) := by
  rw [Pipeline.unscopedBufs_split₀ cfgs 4 winFacts₀4.arr_unscoped c (V c)]
  refine sep_mono ?_ .rfl
  unfold Pipeline.arrBufs Pipeline.Dat.arrays
  rw [show Finset.univ.image (Pipeline.arrRef (cfgs 4).spec) = ({main_v12, main_v13} : Finset (Ref sig .tc)) from img4]
  rw [bigSep_insert (by decide), bigSep_singleton, bigSep_W4]
  rw [h0, h1, h2, share4_0, share4_1, share4_2, (arr_whole4 0).set_eq_univ, (arr_whole4 2).set_eq_univ]
  have hs := (pointsTo_share (ℓ := (c : Thread nD τ).loc main_v12) (I := Finset.univ) (f := V c main_v12) (Ix := Unit) (Name := ℕ) (U := UR sig nD τ) (Lvl := ℕ) (PosShare.mem_left_op_right fullShare)).1
  show iprop((((c : Thread nD τ).loc main_v12) ↦{fullShare} V c main_v12) ∗ (((c : Thread nD τ).loc main_v13) ↦{fullShare} V c main_v13)) ⊢ _
  iintro ⟨H12, H13⟩
  ihave H := hs $$ H12
  icases H with ⟨Ha, Hb⟩
  isplitl [Ha]; · iexact Ha
  isplitl [Hb]; · iexact Hb
  iexact H13

/-- Exit: the arrays — the two halves holding one contents — and the rest are the unscoped buffers at any valuation
    that has the arrays' contents at the two buffers and agrees with `V` elsewhere. -/
theorem unscopedBufs_of_arrays4 (c : Dev nD) (V' : (b : Ref sig .tc) → Buf (Elt F) ((c : Thread nD τ).loc b))
    (Fa : (w : Fin cfg4.W) → Buf (Elt F) ((cfg4.win w).arr.view.loc (c.tc : Thread nD τ)))
    (h0 : Fa 0 = V' main_v12) (h1 : Fa 1 = V' main_v12) (h2 : Fa 2 = V' main_v13)
    (hrest : ∀ b, b ∉ Finset.univ.image (Pipeline.arrRef spec4) → V' b = V c b) :
    iprop((dat4 V q4 c).arrays Fa ∗ Pipeline.unscopedRest spec4 c (V c))
      ⊢ (unscopedBufs c V' : sProp 𝕄) := by
  rw [Pipeline.unscopedBufs_split₀ cfgs 4 winFacts₀4.arr_unscoped c V']
  refine sep_mono ?_ (Entails.of_eq ?_)
  · unfold Pipeline.arrBufs Pipeline.Dat.arrays
    rw [show Finset.univ.image (Pipeline.arrRef (cfgs 4).spec) = ({main_v12, main_v13} : Finset (Ref sig .tc)) from img4]
    rw [bigSep_insert (by decide), bigSep_singleton, bigSep_W4]
    rw [h0, h1, h2, share4_0, share4_1, share4_2, (arr_whole4 0).set_eq_univ, (arr_whole4 2).set_eq_univ]
    have hs := (pointsTo_share (ℓ := (c : Thread nD τ).loc main_v12) (I := Finset.univ) (f := V' main_v12) (Ix := Unit) (Name := ℕ) (U := UR sig nD τ) (Lvl := ℕ) (PosShare.mem_left_op_right fullShare)).2
    show _ ⊢ iprop((((c : Thread nD τ).loc main_v12) ↦{fullShare} V' main_v12) ∗ (((c : Thread nD τ).loc main_v13) ↦{fullShare} V' main_v13))
    iintro ⟨Ha, Hb, H13⟩
    isplitl [Ha Hb]
    · iapply hs
      isplitl [Ha]; · iexact Ha
      iexact Hb
    iexact H13
  · unfold Pipeline.unscopedRest
    exact bigSep_congr fun b hb => by rw [hrest b (Finset.mem_sdiff.mp hb).2]

end Shared

variable (m : (ℓ : Loc nD τ sig) → Buf (Elt F) ℓ)

/-- At the region's exit the latent array is as entered and the result array holds the folded write-backs. -/
theorem hF4 (c : Dev nD) : ∀ w : Fin cfg4.W, (pdats m 4 c).arrAt w cfg4.N = X6 m c (Pipeline.arrRef spec4 w)
  | ⟨0, _⟩ => by unfold X6 U6; exact (((dat4 (X5 m) q4 c).arrAt_in 0 rfl _).trans (A_eq4 (X5 m) q4 c 0)).trans (Eq.symm (Function.update_of_ne (StableHlo.devRef_ne_of_ne (by decide : (main_v12 : Ref sig .tc) ≠ main_v13)) _ _))
  | ⟨1, _⟩ => by unfold X6 U6; exact (((dat4 (X5 m) q4 c).arrAt_in 1 rfl _).trans (A_eq4 (X5 m) q4 c 1)).trans (Eq.symm (Function.update_of_ne (StableHlo.devRef_ne_of_ne (by decide : (main_v12 : Ref sig .tc) ≠ main_v13)) _ _))
  | ⟨2, _⟩ => by unfold X6 U6; exact Eq.symm (Function.update_self _ _ _)
theorem hrest4 (c : Dev nD) : ∀ b, b ∉ Finset.univ.image (Pipeline.arrRef spec4) → X6 m c b = X5 m c b := fun b hb => by
  unfold X6 U6
  exact (Function.update_of_ne (StableHlo.devRef_ne_of_ne fun e => hb (Finset.mem_image.mpr ⟨2, Finset.mem_univ _, e.symm⟩)) _ _)

set_option backward.isDefEq.respectTransparency.types false in
/-- The last region over the thread state: entered from every unscoped buffer at `U5`, left at `U6`. -/
def reg4 : Pipeline.RegionSeg (pcfgs (F := F)) Gen.adm (pdats m) () defs₀ 𝒱₀ L lv 4 where
  win := winFacts₀4
  block_pos := block_pos4
  stage_whole := stage_whole4
  K := PEmpty
  osem k := k.elim
  ho := Pipeline.OwnSemFacts.none _
  hbody c := (body_obligation4 (X5 m) q4 c).loose
  hwaits := Pipeline.hwaits_of_owed_zero _ _ _ _ L lv 4 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec4 c (X5 m c)
  hentry c := by
    rw [Pipeline.ownSems0_none]
    have hsplit : (unscopedBufs c (X5 m c) : sProp 𝕄) ⊢ iprop((pdats m 4 c).arrays ((pdats m 4 c).arrAt · 0) ∗ Pipeline.unscopedRest spec4 c (X5 m c)) :=
      arrays4_of_unscopedBufs (X5 m) c ((pdats m 4 c).arrAt · 0) rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest spec4 c (X5 m c)) ⊢ (unscopedBufs c (X6 m c) : sProp 𝕄) :=
      unscopedBufs_of_arrays4 (X5 m) c (X6 m c) ((pdats m 4 c).arrAt · cfg4.N) (hF4 m c 0) (hF4 m c 1) (hF4 m c 2) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Frame.lean ====
/-
  The program's run from its five regions: every weakly fair execution terminates without a fault, the argument
  arrays end as launched, and the result array ends at what the last region's write-backs leave in it.  The
  contents each region leaves are read off the fold of the buffer contents: the regions' unknown results are
  the fold's last valuation, so each region's exit contents are the next one's entry contents by name.
-/
import proofs.«171846_g89721866813831_cont_sun_m_1046_11_alg».proof.Proof.K_Regs
import proofs.«171846_g89721866813831_cont_sun_m_1046_11_alg».proof.Proof.K_Reg4
import proofs.«171846_g89721866813831_cont_sun_m_1046_11_alg».proof.Proof.K_FrameCond

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the regions leave in the buffers they may change: the fold's last valuation, whatever the item. -/
def outs : Gen.Outs (F := F) := fun _ r c => U6 m c (Proc.devRef .tc r)

theorem outs_v9 (c : Dev nD) : outs m 2 main_v9 c = (dat0 (X1 m) c).arrAt 2 cfg0.N := by
  unfold outs U6 U5 U4 U3
  exact ((Function.update_of_ne (StableHlo.devRef_ne_of_ne (by decide : (main_v9 : Ref sig .tc) ≠ main_v13)) _ _).trans
    ((Function.update_of_ne (StableHlo.devRef_ne_of_ne (by decide : (main_v9 : Ref sig .tc) ≠ main_v12)) _ _).trans
    ((Function.update_of_ne (StableHlo.devRef_ne_of_ne (by decide : (main_v9 : Ref sig .tc) ≠ main_v11)) _ _).trans
    ((Function.update_of_ne (StableHlo.devRef_ne_of_ne (by decide : (main_v9 : Ref sig .tc) ≠ main_v10_1)) _ _).trans
    ((Function.update_of_ne (StableHlo.devRef_ne_of_ne (by decide : (main_v9 : Ref sig .tc) ≠ main_v10_0)) _ _).trans
    (by unfold U2; exact Function.update_self _ _ _))))))
theorem outs_v10_0 (c : Dev nD) : outs m 3 main_v10_0 c = (dat1 (X2 m) c).arrAt 5 cfg1.N := by
  unfold outs U6 U5 U4
  exact ((Function.update_of_ne (StableHlo.devRef_ne_of_ne (by decide : (main_v10_0 : Ref sig .tc) ≠ main_v13)) _ _).trans
    ((Function.update_of_ne (StableHlo.devRef_ne_of_ne (by decide : (main_v10_0 : Ref sig .tc) ≠ main_v12)) _ _).trans
    ((Function.update_of_ne (StableHlo.devRef_ne_of_ne (by decide : (main_v10_0 : Ref sig .tc) ≠ main_v11)) _ _).trans
    (by unfold U3; exact (Function.update_of_ne (StableHlo.devRef_ne_of_ne (by decide : (main_v10_0 : Ref sig .tc) ≠ main_v10_1)) _ _).trans (Function.update_self _ _ _)))))
theorem outs_v10_1 (c : Dev nD) : outs m 3 main_v10_1 c = (dat1 (X2 m) c).arrAt 6 cfg1.N := by
  unfold outs U6 U5 U4
  exact ((Function.update_of_ne (StableHlo.devRef_ne_of_ne (by decide : (main_v10_1 : Ref sig .tc) ≠ main_v13)) _ _).trans
    ((Function.update_of_ne (StableHlo.devRef_ne_of_ne (by decide : (main_v10_1 : Ref sig .tc) ≠ main_v12)) _ _).trans
    ((Function.update_of_ne (StableHlo.devRef_ne_of_ne (by decide : (main_v10_1 : Ref sig .tc) ≠ main_v11)) _ _).trans
    (by unfold U3; exact Function.update_self _ _ _))))
theorem outs_v11 (c : Dev nD) : outs m 4 main_v11 c = (dat2 (X3 m) c).arrAt 6 cfg2.N := by
  unfold outs U6 U5
  exact ((Function.update_of_ne (StableHlo.devRef_ne_of_ne (by decide : (main_v11 : Ref sig .tc) ≠ main_v13)) _ _).trans
    ((Function.update_of_ne (StableHlo.devRef_ne_of_ne (by decide : (main_v11 : Ref sig .tc) ≠ main_v12)) _ _).trans
    (by unfold U4; exact Function.update_self _ _ _)))
theorem outs_v12 (c : Dev nD) : outs m 5 main_v12 c = (dat3 (X4 m) c).arrAt 7 cfg3.N := by
  unfold outs U6
  exact ((Function.update_of_ne (StableHlo.devRef_ne_of_ne (by decide : (main_v12 : Ref sig .tc) ≠ main_v13)) _ _).trans
    (by unfold U5; exact Function.update_self _ _ _))
theorem outs_v13 (c : Dev nD) : outs m 6 main_v13 c = (dat4 (X5 m) q4 c).arrAt 2 cfg4.N := by
  unfold outs U6
  exact Function.update_self _ _ _

/-! The generated valuations, at these results, are the fold's. -/
theorem V2_eq (c : Dev nD) : Gen.V2 m (outs m) c = U2 m c := by
  unfold Gen.V2 U2; rw [outs_v9]
theorem V3_eq (c : Dev nD) : Gen.V3 m (outs m) c = U3 m c := by
  unfold Gen.V3 U3; rw [V2_eq, outs_v10_0, outs_v10_1]
theorem V4_eq (c : Dev nD) : Gen.V4 m (outs m) c = U4 m c := by
  unfold Gen.V4 U4; rw [V3_eq, outs_v11]
theorem V5_eq (c : Dev nD) : Gen.V5 m (outs m) c = U5 m c := by
  unfold Gen.V5 U5; rw [V4_eq, outs_v12]
theorem V6_eq (c : Dev nD) : Gen.V6 m (outs m) c = U6 m c := by
  unfold Gen.V6 U6; rw [V5_eq, outs_v13]

variable (ρ : Dev nD → PrngReg)

set_option backward.isDefEq.respectTransparency.types false in
/-- The run, with the result kept. -/
theorem frame_res : θ_run defs (onTc (τ := τ) (main (F := F))) ⟨m, fun _ => 0, ρ⟩ (fun r => ∀ c : Dev nD,
      r.2.mem ((c.tc : Thread nD τ).loc main_v13) = (dat4 (X5 m) q4 c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  have h := GenP.frame_cond_res m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE5 := fun c => by iintro ⟨-, HO⟩; iexact HO)
    (R0 := reg0 m) (hpre0 := fun c => .rfl) (hpost0 := fun c => by rw [V2_eq]; exact .rfl)
    (R1 := reg1 m) (hpre1 := fun c => by rw [V2_eq]; exact .rfl) (hpost1 := fun c => by rw [V3_eq]; exact .rfl)
    (R2 := reg2 m) (hpre2 := fun c => by rw [V3_eq]; exact .rfl) (hpost2 := fun c => by rw [V4_eq]; exact .rfl)
    (R3 := reg3 m) (hpre3 := fun c => by rw [V4_eq]; exact .rfl) (hpost3 := fun c => by rw [V5_eq]; exact .rfl)
    (R4 := reg4 m) (hpre4 := fun c => by rw [V5_eq]; exact .rfl) (hpost4 := fun c => by rw [V6_eq]; exact .rfl)
  refine (θ_run defs _ _).mono (fun r hr c => ?_) h
  rw [← outs_v13 m c]
  exact hr c

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (frame_res m ρ)

end Cert.Kernel.Hand

end
-- ==== Proof.KI_Body0.lean ====
import proofs.«171846_g89721866813831_cont_sun_m_1046_11_alg».proof.Proof.Gen.KernelIdeal.Launch
import proofs.«171846_g89721866813831_cont_sun_m_1046_11_alg».proof.Proof.Gen.KernelIdeal.Skeleton
import proofs.«171846_g89721866813831_cont_sun_m_1046_11_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 0 (pipeline 0, no grid: one point): the body's half of the frame, at entry contents `V`

Windows 0 and 1 are inputs (the 10000x128 operand and the 128x128 weight), window 2 is the output
(their product). -/

/-- The offsets `![0, 0]` are the zero offsets. -/
theorem zeros2 : (![0, 0] : Fin 2 → Nat) = fun _ => 0 := funext fun a => by fin_cases a <;> rfl

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole-buffer rectangle -/

abbrev r0_a : Rect S10000x128 := Rect.unit (s := S10000x128) ![0, 0] S10000x128.size inb_S10000x128_S10000x128_0_0
abbrev r0_b : Rect S128x128 := Rect.unit (s := S128x128) ![0, 0] S128x128.size inb_S128x128_S128x128_0_0

/-- Window 2's staging buffer after the body, from the input windows' blocks: its one store, as a piece. -/
def out0_2 (x0 : Vec F S10000x128 .f32) (x1 : Vec F S128x128 .f32) : Vec F S10000x128 .f32 :=
  View.canon [⟨r0_a, k0_pay1 (View.ld x0 r0_a) (View.ld x1 r0_b)⟩]

/-- The store's rectangle is the whole buffer, so it covers it: every index lies in the unit rectangle at offset
    zero of the buffer's own extents. -/
theorem cover0_2 (p0 : Vec F S10000x128 .f32) (y : S10000x128.Idx) :
    ∃ pc ∈ ([⟨r0_a, p0⟩] : List (View.Piece (Elt F) S10000x128 .f32)), y ∈ pc.1.set :=
  ⟨_, List.mem_singleton_self _, View.mem_set_unit_zero (S := S10000x128) zeros2 inb_S10000x128_S10000x128_0_0 y⟩

/-! ## The body's triple -/

set_option maxHeartbeats 1000000 in
/-- The body on whole staging memrefs, the inputs' at read contents `x0`, `x1` and the output's at anything, runs to
    the continuation holding the inputs' as they were and the output's at `out0_2 x0 x1`. -/
theorem sound_kernel0 (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__p0_body arg0 harg0 arg1 harg1 arg2 harg2) K := by
  simp only [cc0__p0_body_eq_skeleton]; unfold cc0__p0_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of pipeline 0 on core `c`: the arrays as the region finds them; after the body each input's
    buffer at its block and the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Body1.lean ====
import proofs.«171846_g89721866813831_cont_sun_m_1046_11_alg».proof.Proof.Gen.KernelIdeal.Launch
import proofs.«171846_g89721866813831_cont_sun_m_1046_11_alg».proof.Proof.Gen.KernelIdeal.Skeleton
import proofs.«171846_g89721866813831_cont_sun_m_1046_11_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 1 (pipeline 1): the body's half of the frame, at entry contents `V`

Windows 0-4 are inputs (a 400x10000 row block moving with the point; a 10000x128 array, a 128x128 weight and two
1x128 rows, each fetched once), windows 5 and 6 the two outputs: the normalised product and that times the weight. -/

/-- The offsets `![0, 0]` are the zero offsets. -/
theorem zeros2_1 : (![0, 0] : Fin 2 → Nat) = fun _ => 0 := funext fun a => by fin_cases a <;> rfl

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input windows: each one's current staging buffer holds its block at every point, fetched there or not,
    for any proof data whose array is `V`'s and whose body leaves the block in place (an unfetched window's block
    index has not moved since it was fetched) -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store goes through the whole-buffer rectangle of its memref -/

abbrev r1_S400x10000 : Rect S400x10000 := Rect.unit (s := S400x10000) ![0, 0] S400x10000.size inb_S400x10000_S400x10000_0_0
abbrev r1_S10000x128 : Rect S10000x128 := Rect.unit (s := S10000x128) ![0, 0] S10000x128.size inb_S10000x128_S10000x128_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0
abbrev r1_S400x128 : Rect S400x128 := Rect.unit (s := S400x128) ![0, 0] S400x128.size inb_S400x128_S400x128_0_0

/-! ## What the body leaves in each output window's buffer: its one store, as a piece over the payloads -/

def out1_5 (x0 : Vec F S400x10000 .f32) (x1 : Vec F S10000x128 .f32) (x2 : Vec F S128x128 .f32) (x3 : Vec F S1x128 .f32) (x4 : Vec F S1x128 .f32) : Vec F S400x128 .f32 :=
  View.canon [⟨r1_S400x128, k1_pay1 (View.ld x0 r1_S400x10000) (View.ld x1 r1_S10000x128) (View.ld x3 r1_S1x128) (View.ld x4 r1_S1x128)⟩]

/-- The store's rectangle is the whole buffer, so it covers it. -/
theorem cover1_5 (p0 : Vec F S400x128 .f32) (y : S400x128.Idx) :
    ∃ pc ∈ ([⟨r1_S400x128, p0⟩] : List (View.Piece (Elt F) S400x128 .f32)), y ∈ pc.1.set :=
  ⟨_, List.mem_singleton_self _, View.mem_set_unit_zero (S := S400x128) zeros2_1 inb_S400x128_S400x128_0_0 y⟩

def out1_6 (x0 : Vec F S400x10000 .f32) (x1 : Vec F S10000x128 .f32) (x2 : Vec F S128x128 .f32) (x3 : Vec F S1x128 .f32) (x4 : Vec F S1x128 .f32) : Vec F S400x128 .f32 :=
  View.canon [⟨r1_S400x128, k1_pay2 (View.ld x0 r1_S400x10000) (View.ld x1 r1_S10000x128) (View.ld x3 r1_S1x128) (View.ld x4 r1_S1x128) (View.ld x2 r1_S128x128)⟩]

/-- The store's rectangle is the whole buffer, so it covers it. -/
theorem cover1_6 (p0 : Vec F S400x128 .f32) (y : S400x128.Idx) :
    ∃ pc ∈ ([⟨r1_S400x128, p0⟩] : List (View.Piece (Elt F) S400x128 .f32)), y ∈ pc.1.set :=
  ⟨_, List.mem_singleton_self _, View.mem_set_unit_zero (S := S400x128) zeros2_1 inb_S400x128_S400x128_0_0 y⟩

/-! ## The body's triple -/

set_option maxHeartbeats 2000000 in
/-- The body on whole staging memrefs, the inputs' at read contents `xW` and the outputs' at anything, runs to the
    continuation holding the inputs' as they were and each output's at `out1_W` of the inputs'. -/
theorem sound_kernel1 (c : Dev nD) (E : Set ℕ) (i : grid1.Coords) (arg1 : Memref sig .tc .vmem S400x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S400x128 .f32) (harg6 : arg6.IsWhole)
    (arg7 : Memref sig .tc .vmem S400x128 .f32) (harg7 : arg7.IsWhole)
    (x0 : Vec F S400x10000 .f32) (x1 : Vec F S10000x128 .f32) (x2 : Vec F S128x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__p1_body i arg1 harg1 arg2 harg2 arg3 harg3 arg4 harg4 arg5 harg5 arg6 harg6 arg7 harg7) K := by
  simp only [cc1__p1_body_eq_skeleton]; unfold cc1__p1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover1_5 _)
  iexists _; isplitr
  swap; · iexact H6
  ipureintro
  try dsimp only
  exact View.read_writes_eq_canon _ _ _ (cover1_6 _)

/-! ## The pipeline's proof data -/

/-- The proof data of pipeline 1 on core `c`: the arrays as the region finds them; after the body each input's
    buffer at its block and each output's at `out1_W` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_Body2.lean ====
import proofs.«171846_g89721866813831_cont_sun_m_1046_11_alg».proof.Proof.Gen.KernelIdeal.Launch
import proofs.«171846_g89721866813831_cont_sun_m_1046_11_alg».proof.Proof.Gen.KernelIdeal.Skeleton
import proofs.«171846_g89721866813831_cont_sun_m_1046_11_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 2 (pipeline 2): the body's half of the frame, at entry contents `V`

Windows 0-5 are inputs (a 400x10000 row block and a 400x128 row block moving with the point; a 10000x128 array,
a 128x128 weight and two 1x128 rows, each fetched once), window 6 the output. -/

/-- The offsets `![0, 0]` are the zero offsets. -/
theorem zeros2_2 : (![0, 0] : Fin 2 → Nat) = fun _ => 0 := funext fun a => by fin_cases a <;> rfl

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The input windows: each one's current staging buffer holds its block at every point, fetched there or not,
    for any proof data whose array is `V`'s and whose body leaves the block in place (an unfetched window's block
    index has not moved since it was fetched) -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and every store goes through the whole-buffer rectangle of its memref -/

abbrev r2_S400x10000 : Rect S400x10000 := Rect.unit (s := S400x10000) ![0, 0] S400x10000.size inb_S400x10000_S400x10000_0_0
abbrev r2_S10000x128 : Rect S10000x128 := Rect.unit (s := S10000x128) ![0, 0] S10000x128.size inb_S10000x128_S10000x128_0_0
abbrev r2_S400x128 : Rect S400x128 := Rect.unit (s := S400x128) ![0, 0] S400x128.size inb_S400x128_S400x128_0_0
abbrev r2_S128x128 : Rect S128x128 := Rect.unit (s := S128x128) ![0, 0] S128x128.size inb_S128x128_S128x128_0_0
abbrev r2_S1x128 : Rect S1x128 := Rect.unit (s := S1x128) ![0, 0] S1x128.size inb_S1x128_S1x128_0_0

/-! ## What the body leaves in each output window's buffer: its one store, as a piece over the payloads -/

def out2_6 (x0 : Vec F S400x10000 .f32) (x1 : Vec F S10000x128 .f32) (x2 : Vec F S400x128 .f32) (x3 : Vec F S128x128 .f32) (x4 : Vec F S1x128 .f32) (x5 : Vec F S1x128 .f32) : Vec F S400x128 .f32 :=
  View.canon [⟨r2_S400x128, k2_pay1 (k2_pay2 (View.ld x0 r2_S400x10000) (View.ld x1 r2_S10000x128) (View.ld x4 r2_S1x128) (View.ld x5 r2_S1x128) (View.ld x2 r2_S400x128)) (k2_pay3 (View.ld x3 r2_S128x128)) (constant S400x128 .f32 0x00000000#32)⟩]

/-- The store's rectangle is the whole buffer, so it covers it. -/
theorem cover2_6 (p0 : Vec F S400x128 .f32) (y : S400x128.Idx) :
    ∃ pc ∈ ([⟨r2_S400x128, p0⟩] : List (View.Piece (Elt F) S400x128 .f32)), y ∈ pc.1.set :=
  ⟨_, List.mem_singleton_self _, View.mem_set_unit_zero (S := S400x128) zeros2_2 inb_S400x128_S400x128_0_0 y⟩

/-! ## The body's triple -/

set_option maxHeartbeats 2000000 in
/-- The body on whole staging memrefs, the inputs' at read contents `xW` and the outputs' at anything, runs to the
    continuation holding the inputs' as they were and each output's at `out2_W` of the inputs'. -/
theorem sound_kernel2 (c : Dev nD) (E : Set ℕ) (i : grid2.Coords) (arg1 : Memref sig .tc .vmem S400x10000 .f32) (harg1 : arg1.IsWhole)
    (arg2 : Memref sig .tc .vmem S10000x128 .f32) (harg2 : arg2.IsWhole)
    (arg3 : Memref sig .tc .vmem S400x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S400x128 .f32) (harg7 : arg7.IsWhole)
    (x0 : Vec F S400x10000 .f32) (x1 : Vec F S10000x128 .f32) (x2 : Vec F S400x128 .f32) (x3 : Vec F S128x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__p2_body i arg1 harg1 arg2 harg2 arg3 harg3 arg4 harg4 arg5 harg5 arg6 harg6 arg7 harg7) K := by
  simp only [cc2__p2_body_eq_skeleton]; unfold cc2__p2_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover2_6 _)

/-! ## The pipeline's proof data -/

/-- The proof data of pipeline 2 on core `c`: the arrays as the region finds them; after the body each input's
    buffer at its block and each output's at `out2_W` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI_Body3.lean ====
import proofs.«171846_g89721866813831_cont_sun_m_1046_11_alg».proof.Proof.Gen.KernelIdeal.Launch
import proofs.«171846_g89721866813831_cont_sun_m_1046_11_alg».proof.Proof.Gen.KernelIdeal.Skeleton
import proofs.«171846_g89721866813831_cont_sun_m_1046_11_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 3 (pipeline 3): the body's half of the frame, at entry contents `V`

Windows 0-6 are inputs (a 400x10000 row block and a 400x64 row block moving with the point; a 10000x128 array and
four 1x64 rows, each fetched once), window 7 the output. -/

/-- The offsets `![0, 0]` are the zero offsets. -/
theorem zeros2_3 : (![0, 0] : Fin 2 → Nat) = fun _ => 0 := funext fun a => by fin_cases a <;> rfl

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The input windows: each one's current staging buffer holds its block at every point, fetched there or not,
    for any proof data whose array is `V`'s and whose body leaves the block in place (an unfetched window's block
    index has not moved since it was fetched) -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and every store goes through the whole-buffer rectangle of its memref -/

abbrev r3_S400x10000 : Rect S400x10000 := Rect.unit (s := S400x10000) ![0, 0] S400x10000.size inb_S400x10000_S400x10000_0_0
abbrev r3_S10000x128 : Rect S10000x128 := Rect.unit (s := S10000x128) ![0, 0] S10000x128.size inb_S10000x128_S10000x128_0_0
abbrev r3_S400x64 : Rect S400x64 := Rect.unit (s := S400x64) ![0, 0] S400x64.size inb_S400x64_S400x64_0_0
abbrev r3_S1x64 : Rect S1x64 := Rect.unit (s := S1x64) ![0, 0] S1x64.size inb_S1x64_S1x64_0_0

/-! ## What the body leaves in each output window's buffer: its one store, as a piece over the payloads -/

def out3_7 (x0 : Vec F S400x10000 .f32) (x1 : Vec F S10000x128 .f32) (x2 : Vec F S400x64 .f32) (x3 : Vec F S1x64 .f32) (x4 : Vec F S1x64 .f32) (x5 : Vec F S1x64 .f32) (x6 : Vec F S1x64 .f32) : Vec F S400x64 .f32 :=
  View.canon [⟨r3_S400x64, k3_pay1 (k3_pay3 (View.ld x0 r3_S400x10000) (View.ld x1 r3_S10000x128) (View.ld x3 r3_S1x64) (View.ld x4 r3_S1x64)) (k3_pay4 (View.ld x0 r3_S400x10000) (View.ld x1 r3_S10000x128)) (k3_pay5 (View.ld x5 r3_S1x64)) (k3_pay6 (View.ld x6 r3_S1x64)) (k3_pay7 (View.ld x0 r3_S400x10000) (View.ld x1 r3_S10000x128)) (View.ld x2 r3_S400x64)⟩]

/-- The store's rectangle is the whole buffer, so it covers it. -/
theorem cover3_7 (p0 : Vec F S400x64 .f32) (y : S400x64.Idx) :
    ∃ pc ∈ ([⟨r3_S400x64, p0⟩] : List (View.Piece (Elt F) S400x64 .f32)), y ∈ pc.1.set :=
  ⟨_, List.mem_singleton_self _, View.mem_set_unit_zero (S := S400x64) zeros2_3 inb_S400x64_S400x64_0_0 y⟩

/-! ## The body's triple -/

set_option maxHeartbeats 2000000 in
/-- The body on whole staging memrefs, the inputs' at read contents `xW` and the outputs' at anything, runs to the
    continuation holding the inputs' as they were and each output's at `out3_W` of the inputs'. -/
theorem sound_kernel3 (c : Dev nD) (E : Set ℕ) (i : grid3.Coords) (arg1 : Memref sig .tc .vmem S400x10000 .f32) (harg1 : arg1.IsWhole)
    (arg2 : Memref sig .tc .vmem S10000x128 .f32) (harg2 : arg2.IsWhole)
    (arg3 : Memref sig .tc .vmem S400x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S1x64 .f32) (harg6 : arg6.IsWhole)
    (arg7 : Memref sig .tc .vmem S1x64 .f32) (harg7 : arg7.IsWhole)
    (arg8 : Memref sig .tc .vmem S400x64 .f32) (harg8 : arg8.IsWhole)
    (x0 : Vec F S400x10000 .f32) (x1 : Vec F S10000x128 .f32) (x2 : Vec F S400x64 .f32) (x3 : Vec F S1x64 .f32) (x4 : Vec F S1x64 .f32) (x5 : Vec F S1x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__p3_body i arg1 harg1 arg2 harg2 arg3 harg3 arg4 harg4 arg5 harg5 arg6 harg6 arg7 harg7 arg8 harg8) K := by
  simp only [cc3__p3_body_eq_skeleton]; unfold cc3__p3_body_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover3_7 _)

/-! ## The pipeline's proof data -/

/-- The proof data of pipeline 3 on core `c`: the arrays as the region finds them; after the body each input's
    buffer at its block and each output's at `out3_W` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI_Body4.lean ====
import proofs.«171846_g89721866813831_cont_sun_m_1046_11_alg».proof.Proof.Gen.KernelIdeal.Launch
import proofs.«171846_g89721866813831_cont_sun_m_1046_11_alg».proof.Proof.Gen.KernelIdeal.Skeleton
import proofs.«171846_g89721866813831_cont_sun_m_1046_11_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 4 (pipeline 4, 25 points): the body's half of the frame, at entry contents `V`

Windows 0 and 1 are inputs on ONE array (a 400x64 row block of it, moving with the point; and all 10000x64 of it,
fetched once), window 2 is the output: the logistic of the row block times the whole array transposed. -/

/-- The offsets `![0, 0]` are the zero offsets. -/
theorem zeros2_4 : (![0, 0] : Fin 2 → Nat) = fun _ => 0 := funext fun a => by fin_cases a <;> rfl

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store go through the whole-buffer rectangle -/

abbrev r4_a : Rect S400x64 := Rect.unit (s := S400x64) ![0, 0] S400x64.size inb_S400x64_S400x64_0_0
abbrev r4_b : Rect S10000x64 := Rect.unit (s := S10000x64) ![0, 0] S10000x64.size inb_S10000x64_S10000x64_0_0
abbrev r4_c : Rect S400x10000 := Rect.unit (s := S400x10000) ![0, 0] S400x10000.size inb_S400x10000_S400x10000_0_0

/-- Window 2's staging buffer after the body, from the input windows' blocks: its one store, as a piece. -/
def out4_2 (x0 : Vec F S400x64 .f32) (x1 : Vec F S10000x64 .f32) : Vec F S400x10000 .f32 :=
  View.canon [⟨r4_c, k4_pay1 (View.ld x0 r4_a) (View.ld x1 r4_b)⟩]

/-- The store's rectangle is the whole buffer, so it covers it. -/
theorem cover4_2 (p0 : Vec F S400x10000 .f32) (y : S400x10000.Idx) :
    ∃ pc ∈ ([⟨r4_c, p0⟩] : List (View.Piece (Elt F) S400x10000 .f32)), y ∈ pc.1.set :=
  ⟨_, List.mem_singleton_self _, View.mem_set_unit_zero (S := S400x10000) zeros2_4 inb_S400x10000_S400x10000_0_0 y⟩

/-! ## The body's triple -/

set_option maxHeartbeats 1000000 in
/-- The body on whole staging memrefs, the inputs' at read contents `x0`, `x1` and the output's at anything, runs to
    the continuation holding the inputs' as they were and the output's at `out4_2 x0 x1`. -/
theorem sound_kernel4 (c : Dev nD) (E : Set ℕ) (i : grid4.Coords) (arg1 : Memref sig .tc .vmem S400x64 .f32) (harg1 : arg1.IsWhole)
    (arg2 : Memref sig .tc .vmem S10000x64 .f32) (harg2 : arg2.IsWhole) (arg3 : Memref sig .tc .vmem S400x10000 .f32) (harg3 : arg3.IsWhole)
    (x0 : Vec F S400x64 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__p4_body i arg1 harg1 arg2 harg2 arg3 harg3) K := by
  simp only [cc4__p4_body_eq_skeleton]; unfold cc4__p4_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover4_2 _)

/-! ## The pipeline's proof data -/

/-- The proof data of pipeline 4 on core `c`, at the shares `q4` held of the windows' arrays (two input windows
    read one array, so neither holds all of it): the arrays as the region finds them; after the body each input's
    buffer at its block and the output's at `out4_2` of the input blocks; the invariant the scoped rest and the
    generator register, untouched; nothing owed. -/
def dat4 (q4 : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q := q4
  owed _ := 0

variable (q4 : Fin cfg4.W → PosShare TreeShare)

theorem A_eq4 (c : Dev nD) (w : Fin cfg4.W) : (dat4 V q4 c).A w = V c (Pipeline.arrRef spec4 w) := by
  dsimp only [dat4]
theorem q_eq4 (c : Dev nD) (w : Fin cfg4.W) : (dat4 V q4 c).q w = q4 w := by
  dsimp only [dat4]

theorem after4_0 (c : Dev nD) (t : Fin cfg4.N) : (dat4 V q4 c).after 0 t = iblk4 V c 0 t := by dsimp only [dat4]
theorem after4_1 (c : Dev nD) (t : Fin cfg4.N) : (dat4 V q4 c).after 1 t = iblk4 V c 1 t := by dsimp only [dat4]
theorem after4_2 (c : Dev nD) (t : Fin cfg4.N) : (dat4 V q4 c).after 2 t = out4_2 (iblk4 V c 0 t) (iblk4 V c 1 t) := by dsimp only [dat4]

theorem before4_0 (c : Dev nD) (t : Fin cfg4.N) (d) : (dat4 V q4 c).before 0 t d = iblk4 V c 0 t :=
  before4_0_of V (dat4 V q4 c) (A_eq4 V q4 c 0) (after4_0 V q4 c) t d
theorem before4_1 (c : Dev nD) (t : Fin cfg4.N) (d) : (dat4 V q4 c).before 1 t d = iblk4 V c 1 t :=
  before4_1_of V (dat4 V q4 c) (A_eq4 V q4 c 1) (after4_1 V q4 c) t d

/-! ## The body obligation -/

def bodyPre4 (c : Dev nD) (t : Fin cfg4.N) : sProp 𝕄 :=
  iprop((dat4 V q4 c).Φ t.castSucc ∗ (dat4 V q4 c).owesAt () t.castSucc
    ∗ (∃ d, owns (c : Thread nD τ) (st4_0 t) fullShare ((dat4 V q4 c).before 0 t d))
    ∗ (∃ d, owns (c : Thread nD τ) (st4_1 t) fullShare ((dat4 V q4 c).before 1 t d))
    ∗ (∃ d, owns (c : Thread nD τ) (st4_2 t) fullShare ((dat4 V q4 c).before 2 t d)))

def bodyPost4 (c : Dev nD) (t : Fin cfg4.N) : sProp 𝕄 :=
  iprop((dat4 V q4 c).Φ t.succ ∗ (dat4 V q4 c).owesAt () t.succ
    ∗ owns (c : Thread nD τ) (st4_0 t) fullShare ((dat4 V q4 c).after 0 t)
    ∗ owns (c : Thread nD τ) (st4_1 t) fullShare ((dat4 V q4 c).after 1 t)
    ∗ owns (c : Thread nD τ) (st4_2 t) fullShare ((dat4 V q4 c).after 2 t))

theorem sound_body4 (c : Dev nD) (t : Fin cfg4.N) :
    bodyPre4 V q4 c t ⊢ wp frame (wpE (defs₀ (F := F)) Variants.none c none) Set.univ (bodyAt4 t) (fun _ => bodyPost4 V q4 c t) := by
  unfold bodyPre4 bodyPost4 bodyAt4
  simp only [before4_0, before4_1]
  rw [show (dat4 V q4 c).Φ t.succ = (dat4 V q4 c).Φ t.castSucc from rfl,
    show (dat4 V q4 c).owesAt () t.succ = (dat4 V q4 c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V q4 c) (defs₀ (F := F)) Variants.none () Set.univ := fun t => by
  rw [bigSep_W4, bigSep_W4]
  exact sound_body4 V q4 c t

end Cert.KernelIdeal.Hand

end
-- ==== Proof.KI_Fold.lean ====
/-
  The contents of the TensorCore's buffers between the items of the program: as launched, after the host
  operations that reshape the gains and biases and lay the two last projections side by side, and after each
  kernel region in turn, a region's output arrays at what its write-backs leave (each grid point's block
  folded into the array) and every other buffer as the region found it.
-/
import proofs.«171846_g89721866813831_cont_sun_m_1046_11_alg».proof.Proof.KI_Body0
import proofs.«171846_g89721866813831_cont_sun_m_1046_11_alg».proof.Proof.KI_Body1
import proofs.«171846_g89721866813831_cont_sun_m_1046_11_alg».proof.Proof.KI_Body2
import proofs.«171846_g89721866813831_cont_sun_m_1046_11_alg».proof.Proof.KI_Body3
import proofs.«171846_g89721866813831_cont_sun_m_1046_11_alg».proof.Proof.KI_Body4
import proofs.«171846_g89721866813831_cont_sun_m_1046_11_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The two halves of the full share: the two input windows of the last region read one array, each at a half. -/
abbrev q4 : Fin cfg4.W → PosShare TreeShare := fun w => match w with
  | ⟨0, _⟩ => fullShare.left
  | ⟨1, _⟩ => fullShare.right
  | ⟨2, _⟩ => fullShare

/-- After the host operations: the first region's entry. -/
abbrev U1 (c : Dev nD) : Valuation τ sig (Elt F) := Gen.V1 m c
abbrev X1 : (c : Dev nD) → (b : Ref sig .tc) → Buf (Elt F) ((c : Thread nD τ).loc b) := fun c b => U1 m c b

/-- After region 0: its output array at what the write-backs leave, the rest as entered. -/
def U2 (c : Dev nD) : Valuation τ sig (Elt F) :=
  Function.update (U1 m c) (Proc.devRef .tc main_v9) ((dat0 (X1 m) c).arrAt 2 cfg0.N)
abbrev X2 : (c : Dev nD) → (b : Ref sig .tc) → Buf (Elt F) ((c : Thread nD τ).loc b) := fun c b => U2 m c b

/-- After region 1: its output arrays at what the write-backs leave, the rest as entered. -/
def U3 (c : Dev nD) : Valuation τ sig (Elt F) :=
  Function.update (Function.update (U2 m c) (Proc.devRef .tc main_v10_0) ((dat1 (X2 m) c).arrAt 5 cfg1.N)) (Proc.devRef .tc main_v10_1) ((dat1 (X2 m) c).arrAt 6 cfg1.N)
abbrev X3 : (c : Dev nD) → (b : Ref sig .tc) → Buf (Elt F) ((c : Thread nD τ).loc b) := fun c b => U3 m c b

/-- After region 2: its output array at what the write-backs leave, the rest as entered. -/
def U4 (c : Dev nD) : Valuation τ sig (Elt F) :=
  Function.update (U3 m c) (Proc.devRef .tc main_v11) ((dat2 (X3 m) c).arrAt 6 cfg2.N)
abbrev X4 : (c : Dev nD) → (b : Ref sig .tc) → Buf (Elt F) ((c : Thread nD τ).loc b) := fun c b => U4 m c b

/-- After region 3: its output array at what the write-backs leave, the rest as entered. -/
def U5 (c : Dev nD) : Valuation τ sig (Elt F) :=
  Function.update (U4 m c) (Proc.devRef .tc main_v12) ((dat3 (X4 m) c).arrAt 7 cfg3.N)
abbrev X5 : (c : Dev nD) → (b : Ref sig .tc) → Buf (Elt F) ((c : Thread nD τ).loc b) := fun c b => U5 m c b

/-- After region 4: its output array at what the write-backs leave, the rest as entered. -/
def U6 (c : Dev nD) : Valuation τ sig (Elt F) :=
  Function.update (U5 m c) (Proc.devRef .tc main_v13) ((dat4 (X5 m) q4 c).arrAt 2 cfg4.N)
abbrev X6 : (c : Dev nD) → (b : Ref sig .tc) → Buf (Elt F) ((c : Thread nD τ).loc b) := fun c b => U6 m c b

end Cert.KernelIdeal.Hand

end
-- ==== Proof.KI_Regs.lean ====
/-
  Each kernel region as a segment of the program's run: entered holding every unscoped buffer at the contents
  the previous item left, it splits its windows' arrays out of them, runs its pipeline — every grid point's
  body leaving each input block in place and each output block at the body's stores —, and puts the arrays
  back at what the write-backs leave.  The last region reads one array through two input windows: the array is
  held at the two halves of the full share while the pipeline runs, and whole again afterwards.
-/
import proofs.«171846_g89721866813831_cont_sun_m_1046_11_alg».proof.Proof.KI_Fold

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 5) → (c : Dev nD) → Dat τ (Elt F) Unit ℕ (UR sig nD τ) ℕ (cfgs p) c
  | ⟨0, _⟩ => fun c => dat0 (X1 m) c
  | ⟨1, _⟩ => fun c => dat1 (X2 m) c
  | ⟨2, _⟩ => fun c => dat2 (X3 m) c
  | ⟨3, _⟩ => fun c => dat3 (X4 m) c
  | ⟨4, _⟩ => fun c => dat4 (X5 m) q4 c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Region 0 -/

/-- At region 0's exit each of its arrays holds what the pipeline leaves: an input array its entry contents, an
    output array its folded write-backs. -/
theorem hF0 (c : Dev nD) : ∀ w : Fin cfg0.W, (pdats m 0 c).arrAt w cfg0.N = X2 m c (Pipeline.arrRef spec0 w)
  | ⟨0, _⟩ => by unfold X2 U2; exact (((dat0 (X1 m) c).arrAt_in 0 rfl _).trans (A_eq0 (X1 m) c 0)).trans (Eq.symm (Function.update_of_ne (StableHlo.devRef_ne_of_ne (by decide : (main_arg0 : Ref sig .tc) ≠ main_v9)) _ _))
  | ⟨1, _⟩ => by unfold X2 U2; exact (((dat0 (X1 m) c).arrAt_in 1 rfl _).trans (A_eq0 (X1 m) c 1)).trans (Eq.symm (Function.update_of_ne (StableHlo.devRef_ne_of_ne (by decide : (main_arg2 : Ref sig .tc) ≠ main_v9)) _ _))
  | ⟨2, _⟩ => by unfold X2 U2; exact Eq.symm (Function.update_self _ _ _)
/-- Every other buffer holds what it held at entry. -/
theorem hrest0 (c : Dev nD) : ∀ b, b ∉ Finset.univ.image (Pipeline.arrRef spec0) → X2 m c b = X1 m c b := fun b hb => by
  unfold X2 U2
  exact (Function.update_of_ne (StableHlo.devRef_ne_of_ne fun e => hb (Finset.mem_image.mpr ⟨2, Finset.mem_univ _, e.symm⟩)) _ _)

set_option backward.isDefEq.respectTransparency.types false in
/-- Region 0 over the thread state: entered from every unscoped buffer at `U1`, left at `U2`. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: an input array its entry contents, an
    output array its folded write-backs. -/
theorem hF1 (c : Dev nD) : ∀ w : Fin cfg1.W, (pdats m 1 c).arrAt w cfg1.N = X3 m c (Pipeline.arrRef spec1 w)
  | ⟨0, _⟩ => by unfold X3 U3; exact (((dat1 (X2 m) c).arrAt_in 0 rfl _).trans (A_eq1 (X2 m) c 0)).trans (Eq.symm ((Function.update_of_ne (StableHlo.devRef_ne_of_ne (by decide : (main_arg1 : Ref sig .tc) ≠ main_v10_1)) _ _).trans (Function.update_of_ne (StableHlo.devRef_ne_of_ne (by decide : (main_arg1 : Ref sig .tc) ≠ main_v10_0)) _ _)))
  | ⟨1, _⟩ => by unfold X3 U3; exact (((dat1 (X2 m) c).arrAt_in 1 rfl _).trans (A_eq1 (X2 m) c 1)).trans (Eq.symm ((Function.update_of_ne (StableHlo.devRef_ne_of_ne (by decide : (main_v9 : Ref sig .tc) ≠ main_v10_1)) _ _).trans (Function.update_of_ne (StableHlo.devRef_ne_of_ne (by decide : (main_v9 : Ref sig .tc) ≠ main_v10_0)) _ _)))
  | ⟨2, _⟩ => by unfold X3 U3; exact (((dat1 (X2 m) c).arrAt_in 2 rfl _).trans (A_eq1 (X2 m) c 2)).trans (Eq.symm ((Function.update_of_ne (StableHlo.devRef_ne_of_ne (by decide : (main_arg3 : Ref sig .tc) ≠ main_v10_1)) _ _).trans (Function.update_of_ne (StableHlo.devRef_ne_of_ne (by decide : (main_arg3 : Ref sig .tc) ≠ main_v10_0)) _ _)))
  | ⟨3, _⟩ => by unfold X3 U3; exact (((dat1 (X2 m) c).arrAt_in 3 rfl _).trans (A_eq1 (X2 m) c 3)).trans (Eq.symm ((Function.update_of_ne (StableHlo.devRef_ne_of_ne (by decide : (main_v0 : Ref sig .tc) ≠ main_v10_1)) _ _).trans (Function.update_of_ne (StableHlo.devRef_ne_of_ne (by decide : (main_v0 : Ref sig .tc) ≠ main_v10_0)) _ _)))
  | ⟨4, _⟩ => by unfold X3 U3; exact (((dat1 (X2 m) c).arrAt_in 4 rfl _).trans (A_eq1 (X2 m) c 4)).trans (Eq.symm ((Function.update_of_ne (StableHlo.devRef_ne_of_ne (by decide : (main_v1 : Ref sig .tc) ≠ main_v10_1)) _ _).trans (Function.update_of_ne (StableHlo.devRef_ne_of_ne (by decide : (main_v1 : Ref sig .tc) ≠ main_v10_0)) _ _)))
  | ⟨5, _⟩ => by unfold X3 U3; exact Eq.symm ((Function.update_of_ne (StableHlo.devRef_ne_of_ne (by decide : (main_v10_0 : Ref sig .tc) ≠ main_v10_1)) _ _).trans (Function.update_self _ _ _))
  | ⟨6, _⟩ => by unfold X3 U3; exact Eq.symm (Function.update_self _ _ _)
/-- Every other buffer holds what it held at entry. -/
theorem hrest1 (c : Dev nD) : ∀ b, b ∉ Finset.univ.image (Pipeline.arrRef spec1) → X3 m c b = X2 m c b := fun b hb => by
  unfold X3 U3
  exact (Function.update_of_ne (StableHlo.devRef_ne_of_ne fun e => hb (Finset.mem_image.mpr ⟨6, Finset.mem_univ _, e.symm⟩)) _ _).trans (Function.update_of_ne (StableHlo.devRef_ne_of_ne fun e => hb (Finset.mem_image.mpr ⟨5, Finset.mem_univ _, e.symm⟩)) _ _)

set_option backward.isDefEq.respectTransparency.types false in
/-- Region 1 over the thread state: entered from every unscoped buffer at `U2`, left at `U3`. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (X2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (X2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (X2 m c) (X3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: an input array its entry contents, an
    output array its folded write-backs. -/
theorem hF2 (c : Dev nD) : ∀ w : Fin cfg2.W, (pdats m 2 c).arrAt w cfg2.N = X4 m c (Pipeline.arrRef spec2 w)
  | ⟨0, _⟩ => by unfold X4 U4; exact (((dat2 (X3 m) c).arrAt_in 0 rfl _).trans (A_eq2 (X3 m) c 0)).trans (Eq.symm (Function.update_of_ne (StableHlo.devRef_ne_of_ne (by decide : (main_arg1 : Ref sig .tc) ≠ main_v11)) _ _))
  | ⟨1, _⟩ => by unfold X4 U4; exact (((dat2 (X3 m) c).arrAt_in 1 rfl _).trans (A_eq2 (X3 m) c 1)).trans (Eq.symm (Function.update_of_ne (StableHlo.devRef_ne_of_ne (by decide : (main_v10_1 : Ref sig .tc) ≠ main_v11)) _ _))
  | ⟨2, _⟩ => by unfold X4 U4; exact (((dat2 (X3 m) c).arrAt_in 2 rfl _).trans (A_eq2 (X3 m) c 2)).trans (Eq.symm (Function.update_of_ne (StableHlo.devRef_ne_of_ne (by decide : (main_v10_0 : Ref sig .tc) ≠ main_v11)) _ _))
  | ⟨3, _⟩ => by unfold X4 U4; exact (((dat2 (X3 m) c).arrAt_in 3 rfl _).trans (A_eq2 (X3 m) c 3)).trans (Eq.symm (Function.update_of_ne (StableHlo.devRef_ne_of_ne (by decide : (main_v8 : Ref sig .tc) ≠ main_v11)) _ _))
  | ⟨4, _⟩ => by unfold X4 U4; exact (((dat2 (X3 m) c).arrAt_in 4 rfl _).trans (A_eq2 (X3 m) c 4)).trans (Eq.symm (Function.update_of_ne (StableHlo.devRef_ne_of_ne (by decide : (main_v2 : Ref sig .tc) ≠ main_v11)) _ _))
  | ⟨5, _⟩ => by unfold X4 U4; exact (((dat2 (X3 m) c).arrAt_in 5 rfl _).trans (A_eq2 (X3 m) c 5)).trans (Eq.symm (Function.update_of_ne (StableHlo.devRef_ne_of_ne (by decide : (main_v3 : Ref sig .tc) ≠ main_v11)) _ _))
  | ⟨6, _⟩ => by unfold X4 U4; exact Eq.symm (Function.update_self _ _ _)
/-- Every other buffer holds what it held at entry. -/
theorem hrest2 (c : Dev nD) : ∀ b, b ∉ Finset.univ.image (Pipeline.arrRef spec2) → X4 m c b = X3 m c b := fun b hb => by
  unfold X4 U4
  exact (Function.update_of_ne (StableHlo.devRef_ne_of_ne fun e => hb (Finset.mem_image.mpr ⟨6, Finset.mem_univ _, e.symm⟩)) _ _)

set_option backward.isDefEq.respectTransparency.types false in
/-- Region 2 over the thread state: entered from every unscoped buffer at `U3`, left at `U4`. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (X3 m) c).loose
  hwaits := Pipeline.hwaits_of_owed_zero _ _ _ _ L lv 2 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (X3 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (X3 m c) (X4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the pipeline leaves: an input array its entry contents, an
    output array its folded write-backs. -/
theorem hF3 (c : Dev nD) : ∀ w : Fin cfg3.W, (pdats m 3 c).arrAt w cfg3.N = X5 m c (Pipeline.arrRef spec3 w)
  | ⟨0, _⟩ => by unfold X5 U5; exact (((dat3 (X4 m) c).arrAt_in 0 rfl _).trans (A_eq3 (X4 m) c 0)).trans (Eq.symm (Function.update_of_ne (StableHlo.devRef_ne_of_ne (by decide : (main_arg1 : Ref sig .tc) ≠ main_v12)) _ _))
  | ⟨1, _⟩ => by unfold X5 U5; exact (((dat3 (X4 m) c).arrAt_in 1 rfl _).trans (A_eq3 (X4 m) c 1)).trans (Eq.symm (Function.update_of_ne (StableHlo.devRef_ne_of_ne (by decide : (main_v11 : Ref sig .tc) ≠ main_v12)) _ _))
  | ⟨2, _⟩ => by unfold X5 U5; exact (((dat3 (X4 m) c).arrAt_in 2 rfl _).trans (A_eq3 (X4 m) c 2)).trans (Eq.symm (Function.update_of_ne (StableHlo.devRef_ne_of_ne (by decide : (main_arg14 : Ref sig .tc) ≠ main_v12)) _ _))
  | ⟨3, _⟩ => by unfold X5 U5; exact (((dat3 (X4 m) c).arrAt_in 3 rfl _).trans (A_eq3 (X4 m) c 3)).trans (Eq.symm (Function.update_of_ne (StableHlo.devRef_ne_of_ne (by decide : (main_v4 : Ref sig .tc) ≠ main_v12)) _ _))
  | ⟨4, _⟩ => by unfold X5 U5; exact (((dat3 (X4 m) c).arrAt_in 4 rfl _).trans (A_eq3 (X4 m) c 4)).trans (Eq.symm (Function.update_of_ne (StableHlo.devRef_ne_of_ne (by decide : (main_v5 : Ref sig .tc) ≠ main_v12)) _ _))
  | ⟨5, _⟩ => by unfold X5 U5; exact (((dat3 (X4 m) c).arrAt_in 5 rfl _).trans (A_eq3 (X4 m) c 5)).trans (Eq.symm (Function.update_of_ne (StableHlo.devRef_ne_of_ne (by decide : (main_v6 : Ref sig .tc) ≠ main_v12)) _ _))
  | ⟨6, _⟩ => by unfold X5 U5; exact (((dat3 (X4 m) c).arrAt_in 6 rfl _).trans (A_eq3 (X4 m) c 6)).trans (Eq.symm (Function.update_of_ne (StableHlo.devRef_ne_of_ne (by decide : (main_v7 : Ref sig .tc) ≠ main_v12)) _ _))
  | ⟨7, _⟩ => by unfold X5 U5; exact Eq.symm (Function.update_self _ _ _)
/-- Every other buffer holds what it held at entry. -/
theorem hrest3 (c : Dev nD) : ∀ b, b ∉ Finset.univ.image (Pipeline.arrRef spec3) → X5 m c b = X4 m c b := fun b hb => by
  unfold X5 U5
  exact (Function.update_of_ne (StableHlo.devRef_ne_of_ne fun e => hb (Finset.mem_image.mpr ⟨7, Finset.mem_univ _, e.symm⟩)) _ _)

set_option backward.isDefEq.respectTransparency.types false in
/-- Region 3 over the thread state: entered from every unscoped buffer at `U4`, left at `U5`. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (X4 m) c).loose
  hwaits := Pipeline.hwaits_of_owed_zero _ _ _ _ L lv 3 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec3 c (X4 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (X4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (X4 m c) (X5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Reg4.lean ====
/-
  The last region as a segment of the run.  It reads the latent array through two input windows — a block of
  400 rows, and the whole array — so the one buffer behind both is held at the two halves of the full share
  while the pipeline runs: split at the region's entry, joined again at its exit, its contents unchanged.
-/
import proofs.«171846_g89721866813831_cont_sun_m_1046_11_alg».proof.Proof.KI_Regs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared

variable (V : (c : Dev nD) → (b : Ref sig .tc) → Buf (Elt F) ((c : Thread nD τ).loc b))

/-- The region's windows sit on two buffers. -/
theorem img4 : Finset.univ.image (Pipeline.arrRef spec4) = ({main_v12, main_v13} : Finset (Ref sig .tc)) := by decide

theorem share4_0 (c : Dev nD) : (dat4 V q4 c).share 0 = fullShare.left := rfl
theorem share4_1 (c : Dev nD) : (dat4 V q4 c).share 1 = fullShare.right := rfl
theorem share4_2 (c : Dev nD) : (dat4 V q4 c).share 2 = fullShare := rfl

/-- Entry: the unscoped buffers at `V` are the region's arrays — the shared buffer at its two halves — and the rest. -/
theorem arrays4_of_unscopedBufs (c : Dev nD)
    (Fa : (w : Fin cfg4.W) → Buf (Elt F) ((cfg4.win w).arr.view.loc (c.tc : Thread nD τ)))
    (h0 : Fa 0 = V c main_v12) (h1 : Fa 1 = V c main_v12) (h2 : Fa 2 = V c main_v13) :
    (unscopedBufs c (V c) : sProp 𝕄)
      ⊢ iprop((dat4 V q4 c).arrays Fa ∗ Pipeline.unscopedRest spec4 c (V c)) := by
  rw [Pipeline.unscopedBufs_split₀ cfgs 4 winFacts₀4.arr_unscoped c (V c)]
  refine sep_mono ?_ .rfl
  unfold Pipeline.arrBufs Pipeline.Dat.arrays
  rw [show Finset.univ.image (Pipeline.arrRef (cfgs 4).spec) = ({main_v12, main_v13} : Finset (Ref sig .tc)) from img4]
  rw [bigSep_insert (by decide), bigSep_singleton, bigSep_W4]
  rw [h0, h1, h2, share4_0, share4_1, share4_2, (arr_whole4 0).set_eq_univ, (arr_whole4 2).set_eq_univ]
  have hs := (pointsTo_share (ℓ := (c : Thread nD τ).loc main_v12) (I := Finset.univ) (f := V c main_v12) (Ix := Unit) (Name := ℕ) (U := UR sig nD τ) (Lvl := ℕ) (PosShare.mem_left_op_right fullShare)).1
  show iprop((((c : Thread nD τ).loc main_v12) ↦{fullShare} V c main_v12) ∗ (((c : Thread nD τ).loc main_v13) ↦{fullShare} V c main_v13)) ⊢ _
  iintro ⟨H12, H13⟩
  ihave H := hs $$ H12
  icases H with ⟨Ha, Hb⟩
  isplitl [Ha]; · iexact Ha
  isplitl [Hb]; · iexact Hb
  iexact H13

/-- Exit: the arrays — the two halves holding one contents — and the rest are the unscoped buffers at any valuation
    that has the arrays' contents at the two buffers and agrees with `V` elsewhere. -/
theorem unscopedBufs_of_arrays4 (c : Dev nD) (V' : (b : Ref sig .tc) → Buf (Elt F) ((c : Thread nD τ).loc b))
    (Fa : (w : Fin cfg4.W) → Buf (Elt F) ((cfg4.win w).arr.view.loc (c.tc : Thread nD τ)))
    (h0 : Fa 0 = V' main_v12) (h1 : Fa 1 = V' main_v12) (h2 : Fa 2 = V' main_v13)
    (hrest : ∀ b, b ∉ Finset.univ.image (Pipeline.arrRef spec4) → V' b = V c b) :
    iprop((dat4 V q4 c).arrays Fa ∗ Pipeline.unscopedRest spec4 c (V c))
      ⊢ (unscopedBufs c V' : sProp 𝕄) := by
  rw [Pipeline.unscopedBufs_split₀ cfgs 4 winFacts₀4.arr_unscoped c V']
  refine sep_mono ?_ (Entails.of_eq ?_)
  · unfold Pipeline.arrBufs Pipeline.Dat.arrays
    rw [show Finset.univ.image (Pipeline.arrRef (cfgs 4).spec) = ({main_v12, main_v13} : Finset (Ref sig .tc)) from img4]
    rw [bigSep_insert (by decide), bigSep_singleton, bigSep_W4]
    rw [h0, h1, h2, share4_0, share4_1, share4_2, (arr_whole4 0).set_eq_univ, (arr_whole4 2).set_eq_univ]
    have hs := (pointsTo_share (ℓ := (c : Thread nD τ).loc main_v12) (I := Finset.univ) (f := V' main_v12) (Ix := Unit) (Name := ℕ) (U := UR sig nD τ) (Lvl := ℕ) (PosShare.mem_left_op_right fullShare)).2
    show _ ⊢ iprop((((c : Thread nD τ).loc main_v12) ↦{fullShare} V' main_v12) ∗ (((c : Thread nD τ).loc main_v13) ↦{fullShare} V' main_v13))
    iintro ⟨Ha, Hb, H13⟩
    isplitl [Ha Hb]
    · iapply hs
      isplitl [Ha]; · iexact Ha
      iexact Hb
    iexact H13
  · unfold Pipeline.unscopedRest
    exact bigSep_congr fun b hb => by rw [hrest b (Finset.mem_sdiff.mp hb).2]

end Shared

variable (m : (ℓ : Loc nD τ sig) → Buf (Elt F) ℓ)

/-- At the region's exit the latent array is as entered and the result array holds the folded write-backs. -/
theorem hF4 (c : Dev nD) : ∀ w : Fin cfg4.W, (pdats m 4 c).arrAt w cfg4.N = X6 m c (Pipeline.arrRef spec4 w)
  | ⟨0, _⟩ => by unfold X6 U6; exact (((dat4 (X5 m) q4 c).arrAt_in 0 rfl _).trans (A_eq4 (X5 m) q4 c 0)).trans (Eq.symm (Function.update_of_ne (StableHlo.devRef_ne_of_ne (by decide : (main_v12 : Ref sig .tc) ≠ main_v13)) _ _))
  | ⟨1, _⟩ => by unfold X6 U6; exact (((dat4 (X5 m) q4 c).arrAt_in 1 rfl _).trans (A_eq4 (X5 m) q4 c 1)).trans (Eq.symm (Function.update_of_ne (StableHlo.devRef_ne_of_ne (by decide : (main_v12 : Ref sig .tc) ≠ main_v13)) _ _))
  | ⟨2, _⟩ => by unfold X6 U6; exact Eq.symm (Function.update_self _ _ _)
theorem hrest4 (c : Dev nD) : ∀ b, b ∉ Finset.univ.image (Pipeline.arrRef spec4) → X6 m c b = X5 m c b := fun b hb => by
  unfold X6 U6
  exact (Function.update_of_ne (StableHlo.devRef_ne_of_ne fun e => hb (Finset.mem_image.mpr ⟨2, Finset.mem_univ _, e.symm⟩)) _ _)

set_option backward.isDefEq.respectTransparency.types false in
/-- The last region over the thread state: entered from every unscoped buffer at `U5`, left at `U6`. -/
def reg4 : Pipeline.RegionSeg (pcfgs (F := F)) Gen.adm (pdats m) () defs₀ 𝒱₀ L lv 4 where
  win := winFacts₀4
  block_pos := block_pos4
  stage_whole := stage_whole4
  K := PEmpty
  osem k := k.elim
  ho := Pipeline.OwnSemFacts.none _
  hbody c := (body_obligation4 (X5 m) q4 c).loose
  hwaits := Pipeline.hwaits_of_owed_zero _ _ _ _ L lv 4 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec4 c (X5 m c)
  hentry c := by
    rw [Pipeline.ownSems0_none]
    have hsplit : (unscopedBufs c (X5 m c) : sProp 𝕄) ⊢ iprop((pdats m 4 c).arrays ((pdats m 4 c).arrAt · 0) ∗ Pipeline.unscopedRest spec4 c (X5 m c)) :=
      arrays4_of_unscopedBufs (X5 m) c ((pdats m 4 c).arrAt · 0) rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest spec4 c (X5 m c)) ⊢ (unscopedBufs c (X6 m c) : sProp 𝕄) :=
      unscopedBufs_of_arrays4 (X5 m) c (X6 m c) ((pdats m 4 c).arrAt · cfg4.N) (hF4 m c 0) (hF4 m c 1) (hF4 m c 2) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Frame.lean ====
/-
  The program's run from its five regions: every weakly fair execution terminates without a fault, the argument
  arrays end as launched, and the result array ends at what the last region's write-backs leave in it.  The
  contents each region leaves are read off the fold of the buffer contents: the regions' unknown results are
  the fold's last valuation, so each region's exit contents are the next one's entry contents by name.
-/
import proofs.«171846_g89721866813831_cont_sun_m_1046_11_alg».proof.Proof.KI_Regs
import proofs.«171846_g89721866813831_cont_sun_m_1046_11_alg».proof.Proof.KI_Reg4
import proofs.«171846_g89721866813831_cont_sun_m_1046_11_alg».proof.Proof.KI_FrameCond

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the regions leave in the buffers they may change: the fold's last valuation, whatever the item. -/
def outs : Gen.Outs (F := F) := fun _ r c => U6 m c (Proc.devRef .tc r)

theorem outs_v9 (c : Dev nD) : outs m 2 main_v9 c = (dat0 (X1 m) c).arrAt 2 cfg0.N := by
  unfold outs U6 U5 U4 U3
  exact ((Function.update_of_ne (StableHlo.devRef_ne_of_ne (by decide : (main_v9 : Ref sig .tc) ≠ main_v13)) _ _).trans
    ((Function.update_of_ne (StableHlo.devRef_ne_of_ne (by decide : (main_v9 : Ref sig .tc) ≠ main_v12)) _ _).trans
    ((Function.update_of_ne (StableHlo.devRef_ne_of_ne (by decide : (main_v9 : Ref sig .tc) ≠ main_v11)) _ _).trans
    ((Function.update_of_ne (StableHlo.devRef_ne_of_ne (by decide : (main_v9 : Ref sig .tc) ≠ main_v10_1)) _ _).trans
    ((Function.update_of_ne (StableHlo.devRef_ne_of_ne (by decide : (main_v9 : Ref sig .tc) ≠ main_v10_0)) _ _).trans
    (by unfold U2; exact Function.update_self _ _ _))))))
theorem outs_v10_0 (c : Dev nD) : outs m 3 main_v10_0 c = (dat1 (X2 m) c).arrAt 5 cfg1.N := by
  unfold outs U6 U5 U4
  exact ((Function.update_of_ne (StableHlo.devRef_ne_of_ne (by decide : (main_v10_0 : Ref sig .tc) ≠ main_v13)) _ _).trans
    ((Function.update_of_ne (StableHlo.devRef_ne_of_ne (by decide : (main_v10_0 : Ref sig .tc) ≠ main_v12)) _ _).trans
    ((Function.update_of_ne (StableHlo.devRef_ne_of_ne (by decide : (main_v10_0 : Ref sig .tc) ≠ main_v11)) _ _).trans
    (by unfold U3; exact (Function.update_of_ne (StableHlo.devRef_ne_of_ne (by decide : (main_v10_0 : Ref sig .tc) ≠ main_v10_1)) _ _).trans (Function.update_self _ _ _)))))
theorem outs_v10_1 (c : Dev nD) : outs m 3 main_v10_1 c = (dat1 (X2 m) c).arrAt 6 cfg1.N := by
  unfold outs U6 U5 U4
  exact ((Function.update_of_ne (StableHlo.devRef_ne_of_ne (by decide : (main_v10_1 : Ref sig .tc) ≠ main_v13)) _ _).trans
    ((Function.update_of_ne (StableHlo.devRef_ne_of_ne (by decide : (main_v10_1 : Ref sig .tc) ≠ main_v12)) _ _).trans
    ((Function.update_of_ne (StableHlo.devRef_ne_of_ne (by decide : (main_v10_1 : Ref sig .tc) ≠ main_v11)) _ _).trans
    (by unfold U3; exact Function.update_self _ _ _))))
theorem outs_v11 (c : Dev nD) : outs m 4 main_v11 c = (dat2 (X3 m) c).arrAt 6 cfg2.N := by
  unfold outs U6 U5
  exact ((Function.update_of_ne (StableHlo.devRef_ne_of_ne (by decide : (main_v11 : Ref sig .tc) ≠ main_v13)) _ _).trans
    ((Function.update_of_ne (StableHlo.devRef_ne_of_ne (by decide : (main_v11 : Ref sig .tc) ≠ main_v12)) _ _).trans
    (by unfold U4; exact Function.update_self _ _ _)))
theorem outs_v12 (c : Dev nD) : outs m 5 main_v12 c = (dat3 (X4 m) c).arrAt 7 cfg3.N := by
  unfold outs U6
  exact ((Function.update_of_ne (StableHlo.devRef_ne_of_ne (by decide : (main_v12 : Ref sig .tc) ≠ main_v13)) _ _).trans
    (by unfold U5; exact Function.update_self _ _ _))
theorem outs_v13 (c : Dev nD) : outs m 6 main_v13 c = (dat4 (X5 m) q4 c).arrAt 2 cfg4.N := by
  unfold outs U6
  exact Function.update_self _ _ _

/-! The generated valuations, at these results, are the fold's. -/
theorem V2_eq (c : Dev nD) : Gen.V2 m (outs m) c = U2 m c := by
  unfold Gen.V2 U2; rw [outs_v9]
theorem V3_eq (c : Dev nD) : Gen.V3 m (outs m) c = U3 m c := by
  unfold Gen.V3 U3; rw [V2_eq, outs_v10_0, outs_v10_1]
theorem V4_eq (c : Dev nD) : Gen.V4 m (outs m) c = U4 m c := by
  unfold Gen.V4 U4; rw [V3_eq, outs_v11]
theorem V5_eq (c : Dev nD) : Gen.V5 m (outs m) c = U5 m c := by
  unfold Gen.V5 U5; rw [V4_eq, outs_v12]
theorem V6_eq (c : Dev nD) : Gen.V6 m (outs m) c = U6 m c := by
  unfold Gen.V6 U6; rw [V5_eq, outs_v13]

variable (ρ : Dev nD → PrngReg)

set_option backward.isDefEq.respectTransparency.types false in
/-- The run, with the result kept. -/
theorem frame_res : θ_run defs (onTc (τ := τ) (main (F := F))) ⟨m, fun _ => 0, ρ⟩ (fun r => ∀ c : Dev nD,
      r.2.mem ((c.tc : Thread nD τ).loc main_v13) = (dat4 (X5 m) q4 c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  have h := GenP.frame_cond_res m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE5 := fun c => by iintro ⟨-, HO⟩; iexact HO)
    (R0 := reg0 m) (hpre0 := fun c => .rfl) (hpost0 := fun c => by rw [V2_eq]; exact .rfl)
    (R1 := reg1 m) (hpre1 := fun c => by rw [V2_eq]; exact .rfl) (hpost1 := fun c => by rw [V3_eq]; exact .rfl)
    (R2 := reg2 m) (hpre2 := fun c => by rw [V3_eq]; exact .rfl) (hpost2 := fun c => by rw [V4_eq]; exact .rfl)
    (R3 := reg3 m) (hpre3 := fun c => by rw [V4_eq]; exact .rfl) (hpost3 := fun c => by rw [V5_eq]; exact .rfl)
    (R4 := reg4 m) (hpre4 := fun c => by rw [V5_eq]; exact .rfl) (hpost4 := fun c => by rw [V6_eq]; exact .rfl)
  refine (θ_run defs _ _).mono (fun r hr c => ?_) h
  rw [← outs_v13 m c]
  exact hr c

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (frame_res m ρ)

end Cert.KernelIdeal.Hand

end
-- ==== Proof.Spec.lean ====
/-
  The encoder-decoder both programs compute, as functions of row and column coordinates over the
  extended reals.  A graph-convolution layer multiplies the (dense, normalized) adjacency by a
  projected feature matrix; a row normalization subtracts the row's mean and scales by the inverse
  square root of the row's variance plus a positive stabilizer, then applies a per-column gain and
  bias.  The normalization is written twice: with a product by the reciprocal square root, and with
  a quotient by the square root.  The two agree whenever the stabilized variance is positive, which
  it always is: a variance is a nonnegative number (or +∞) and the stabilizer is positive.
-/
import Idealize.ShloMosaic.PureOps.Ideal
import Mathlib.Algebra.BigOperators.Fin

noncomputable section

open scoped BigOperators

namespace Cert.Spec

open Idealize.ShloMosaic

/-- A matrix product, entry by entry. -/
def mm {M K N : ℕ} (a : Fin M → Fin K → EReal) (b : Fin K → Fin N → EReal) (i : Fin M) (j : Fin N) : EReal :=
  ∑ q : Fin K, a i q * b q j

/-- The mean of a row: its sum divided by the row length `d`. -/
def mu {n : ℕ} (d : EReal) (x : Fin n → EReal) : EReal := Ideal.div (∑ k : Fin n, x k) d

/-- The variance of a row: the mean of the squared deviations from the row's mean. -/
def var {n : ℕ} (d : EReal) (x : Fin n → EReal) : EReal :=
  Ideal.div (∑ k : Fin n, (x k - mu d x) * (x k - mu d x)) d

/-- Row normalization with the reciprocal square root as a factor. -/
def lnK {n : ℕ} (d e : EReal) (g b x : Fin n → EReal) (k : Fin n) : EReal :=
  (x k - mu d x) * Ideal.rsqrt (var d x + e) * g k + b k

/-- Row normalization with the square root as a divisor. -/
def lnR {n : ℕ} (d e : EReal) (g b x : Fin n → EReal) (k : Fin n) : EReal :=
  Ideal.div (x k - mu d x) (Ideal.sqrt (var d x + e)) * g k + b k

/-- The two projection matrices of the last layer side by side: 64 columns of the first, then 64 of the second. -/
def wcat (wm wl : Fin 128 → Fin 64 → EReal) (q : Fin 128) (j : Fin 128) : EReal :=
  if h : j.val < 64 then wm q ⟨j.val, h⟩ else wl q ⟨j.val - 64, by have := j.isLt; omega⟩

section Net

variable (ln128 : EReal → EReal → (Fin 128 → EReal) → (Fin 128 → EReal) → (Fin 128 → EReal) → Fin 128 → EReal)
variable (ln64 : EReal → EReal → (Fin 64 → EReal) → (Fin 64 → EReal) → (Fin 64 → EReal) → Fin 64 → EReal)
variable (c128 c64 ce : EReal)
variable (X : Fin 10000 → Fin 128 → EReal) (A : Fin 10000 → Fin 10000 → EReal)
variable (Win Wh : Fin 128 → Fin 128 → EReal) (Wm Wl : Fin 128 → Fin 64 → EReal)
variable (g0 b0 g1 b1 : Fin 128 → EReal) (gm bm gl bl : Fin 64 → EReal) (N : Fin 10000 → Fin 64 → EReal)

/-- First layer: normalize the rectified propagation of the projected features. -/
def h0 (i : Fin 10000) (k : Fin 128) : EReal :=
  ln128 c128 ce g0 b0 (fun k => max (mm A (mm X Win) i k) 0) k

/-- Second layer, with the residual connection. -/
def h1 (i : Fin 10000) (k : Fin 128) : EReal :=
  ln128 c128 ce g1 b1 (fun k => max (mm A (mm (h0 ln128 c128 ce X A Win g0 b0) Wh) i k) 0) k
    + h0 ln128 c128 ce X A Win g0 b0 i k

/-- The latent sample, the two heads propagated separately: noise times the exponential of the normalized
    log-deviation head, plus the normalized mean head. -/
def zSep (i : Fin 10000) (k : Fin 64) : EReal :=
  N i k * Ideal.exp (ln64 c64 ce gl bl (fun k => mm A (mm (h1 ln128 c128 ce X A Win Wh g0 b0 g1 b1) Wl) i k) k)
    + ln64 c64 ce gm bm (fun k => mm A (mm (h1 ln128 c128 ce X A Win Wh g0 b0 g1 b1) Wm) i k) k

/-- The latent sample, the two heads propagated together through the side-by-side projection: the mean head reads
    the first 64 columns of the propagated product, the log-deviation head the last 64. -/
def zCat (i : Fin 10000) (k : Fin 64) : EReal :=
  N i k * Ideal.exp (ln64 c64 ce gl bl
      (fun k => mm A (mm (h1 ln128 c128 ce X A Win Wh g0 b0 g1 b1) (wcat Wm Wl)) i (Fin.natAdd 64 k)) k)
    + ln64 c64 ce gm bm
      (fun k => mm A (mm (h1 ln128 c128 ce X A Win Wh g0 b0 g1 b1) (wcat Wm Wl)) i (Fin.castAdd 64 k)) k

/-- The decoder: the logistic of the inner product of two latent rows. -/
def dec (z : Fin 10000 → Fin 64 → EReal) (i j : Fin 10000) : EReal :=
  Ideal.logistic (∑ k : Fin 64, z i k * z j k)

end Net

/-! ## The side-by-side projection propagates column by column -/

theorem wcat_castAdd (wm wl : Fin 128 → Fin 64 → EReal) (q : Fin 128) (k : Fin 64) :
    wcat wm wl q (Fin.castAdd 64 k) = wm q k := by
  unfold wcat
  have h : (Fin.castAdd 64 k).val < 64 := k.isLt
  rw [dif_pos h]
  exact congrArg (wm q) (Fin.ext rfl)

theorem wcat_natAdd (wm wl : Fin 128 → Fin 64 → EReal) (q : Fin 128) (k : Fin 64) :
    wcat wm wl q (Fin.natAdd 64 k) = wl q k := by
  unfold wcat
  have h : ¬ (Fin.natAdd 64 k).val < 64 := by simp
  rw [dif_neg h]
  congr 1
  exact Fin.ext (by simp)

theorem mm_wcat_castAdd {M : ℕ} (a : Fin M → Fin 128 → EReal) (wm wl : Fin 128 → Fin 64 → EReal) (i : Fin M) (k : Fin 64) :
    mm a (wcat wm wl) i (Fin.castAdd 64 k) = mm a wm i k := by
  unfold mm; exact Finset.sum_congr rfl fun q _ => by rw [wcat_castAdd]

theorem mm_wcat_natAdd {M : ℕ} (a : Fin M → Fin 128 → EReal) (wm wl : Fin 128 → Fin 64 → EReal) (i : Fin M) (k : Fin 64) :
    mm a (wcat wm wl) i (Fin.natAdd 64 k) = mm a wl i k := by
  unfold mm; exact Finset.sum_congr rfl fun q _ => by rw [wcat_natAdd]

theorem zCat_eq_zSep
    (ln128 : EReal → EReal → (Fin 128 → EReal) → (Fin 128 → EReal) → (Fin 128 → EReal) → Fin 128 → EReal)
    (ln64 : EReal → EReal → (Fin 64 → EReal) → (Fin 64 → EReal) → (Fin 64 → EReal) → Fin 64 → EReal)
    (c128 c64 ce : EReal) (X : Fin 10000 → Fin 128 → EReal) (A : Fin 10000 → Fin 10000 → EReal)
    (Win Wh : Fin 128 → Fin 128 → EReal) (Wm Wl : Fin 128 → Fin 64 → EReal)
    (g0 b0 g1 b1 : Fin 128 → EReal) (gm bm gl bl : Fin 64 → EReal) (N : Fin 10000 → Fin 64 → EReal) :
    zCat ln128 ln64 c128 c64 ce X A Win Wh Wm Wl g0 b0 g1 b1 gm bm gl bl N
      = zSep ln128 ln64 c128 c64 ce X A Win Wh Wm Wl g0 b0 g1 b1 gm bm gl bl N := by
  funext i k
  unfold zCat zSep
  have e1 : (fun k : Fin 64 => mm A (mm (h1 ln128 c128 ce X A Win Wh g0 b0 g1 b1) (wcat Wm Wl)) i (Fin.natAdd 64 k))
      = fun k : Fin 64 => mm A (mm (h1 ln128 c128 ce X A Win Wh g0 b0 g1 b1) Wl) i k := by
    funext k; unfold mm; exact Finset.sum_congr rfl fun q _ => by rw [← mm, ← mm, mm_wcat_natAdd]
  have e2 : (fun k : Fin 64 => mm A (mm (h1 ln128 c128 ce X A Win Wh g0 b0 g1 b1) (wcat Wm Wl)) i (Fin.castAdd 64 k))
      = fun k : Fin 64 => mm A (mm (h1 ln128 c128 ce X A Win Wh g0 b0 g1 b1) Wm) i k := by
    funext k; unfold mm; exact Finset.sum_congr rfl fun q _ => by rw [← mm, ← mm, mm_wcat_castAdd]
  rw [e1, e2]

/-! ## The two normalizations agree -/

/-- A product of an extended real with itself is nonnegative. -/
theorem mul_self_nonneg' (y : EReal) : 0 ≤ y * y := by
  induction y using EReal.rec with
  | bot => simp [EReal.bot_mul_bot]
  | top => simp [EReal.top_mul_top]
  | coe r => rw [← EReal.coe_mul]; exact_mod_cast mul_self_nonneg r

/-- A variance over a positive real row length is nonnegative. -/
theorem var_nonneg {n : ℕ} {r : ℝ} (hr : 0 < r) (x : Fin n → EReal) : 0 ≤ var (r : EReal) x := by
  unfold var
  rw [Ideal.div_coe hr.ne']
  refine EReal.mul_nonneg (Finset.sum_nonneg fun k _ => mul_self_nonneg' _) ?_
  exact_mod_cast (one_div_pos.mpr hr).le

/-- For a positive second argument, multiplying by the reciprocal square root is dividing by the square root. -/
theorem mul_rsqrt_eq_div_sqrt (a w : EReal) (hw : 0 < w) : a * Ideal.rsqrt w = Ideal.div a (Ideal.sqrt w) := by
  induction w using EReal.rec with
  | bot => exact absurd hw (not_lt.mpr bot_le)
  | top =>
    rw [Ideal.rsqrt_top, Ideal.sqrt_top, Ideal.div, if_neg (by simp), EReal.inv_top]
  | coe r =>
    have hr : 0 < r := by exact_mod_cast hw
    have hs : 0 < Real.sqrt r := Real.sqrt_pos.mpr hr
    rw [Ideal.rsqrt_coe, if_neg (not_lt.mpr hr.le), if_neg hr.ne', Ideal.sqrt_coe, if_neg (not_lt.mpr hr.le),
      Ideal.div, if_neg (by exact_mod_cast hs.ne'), ← EReal.coe_inv]

theorem lnK_eq_lnR {n : ℕ} {r e : ℝ} (hr : 0 < r) (he : 0 < e) (g b x : Fin n → EReal) :
    lnK (r : EReal) (e : EReal) g b x = lnR (r : EReal) (e : EReal) g b x := by
  funext k
  unfold lnK lnR
  rw [mul_rsqrt_eq_div_sqrt]
  exact lt_of_lt_of_le (by exact_mod_cast he) (le_add_of_nonneg_left (var_nonneg hr x))

end Cert.Spec

end
-- ==== Proof.KI_Chain.lean ====
/-
  Reading the fold of the buffer contents: a buffer no region writes holds, at every later item, what the
  host operations left in it (for an argument: its launch contents), and a region's output buffer holds, from
  that region on, the array the region's write-backs leave.  The host operations themselves are read at an
  index: a gain or bias vector reshaped to one row is the vector at the column, and the two last projection
  matrices laid side by side are the first at a column below 64 and the second, 64 columns to the left, otherwise.
-/
import proofs.«171846_g89721866813831_cont_sun_m_1046_11_alg».proof.Proof.KI_Fold
import proofs.«171846_g89721866813831_cont_sun_m_1046_11_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## Buffers a region does not write -/

theorem X2_of (c : Dev nD) (r : Ref sig .tc) (h : r ≠ main_v9) : X2 m c r = X1 m c r := by
  unfold X2 U2; exact Function.update_of_ne (StableHlo.devRef_ne_of_ne h) _ _
theorem X3_of (c : Dev nD) (r : Ref sig .tc) (h0 : r ≠ main_v10_0) (h1 : r ≠ main_v10_1) : X3 m c r = X2 m c r := by
  unfold X3 U3
  exact (Function.update_of_ne (StableHlo.devRef_ne_of_ne h1) _ _).trans (Function.update_of_ne (StableHlo.devRef_ne_of_ne h0) _ _)
theorem X4_of (c : Dev nD) (r : Ref sig .tc) (h : r ≠ main_v11) : X4 m c r = X3 m c r := by
  unfold X4 U4; exact Function.update_of_ne (StableHlo.devRef_ne_of_ne h) _ _
theorem X5_of (c : Dev nD) (r : Ref sig .tc) (h : r ≠ main_v12) : X5 m c r = X4 m c r := by
  unfold X5 U5; exact Function.update_of_ne (StableHlo.devRef_ne_of_ne h) _ _

/-! ## Buffers a region writes -/

theorem X2_v9 (c : Dev nD) : X2 m c main_v9 = (dat0 (X1 m) c).arrAt 2 cfg0.N := by
  unfold X2 U2; exact Function.update_self _ _ _
theorem X3_v10_0 (c : Dev nD) : X3 m c main_v10_0 = (dat1 (X2 m) c).arrAt 5 cfg1.N := by
  unfold X3 U3
  exact (Function.update_of_ne (StableHlo.devRef_ne_of_ne (by decide : (main_v10_0 : Ref sig .tc) ≠ main_v10_1)) _ _).trans (Function.update_self _ _ _)
theorem X3_v10_1 (c : Dev nD) : X3 m c main_v10_1 = (dat1 (X2 m) c).arrAt 6 cfg1.N := by
  unfold X3 U3; exact Function.update_self _ _ _
theorem X4_v11 (c : Dev nD) : X4 m c main_v11 = (dat2 (X3 m) c).arrAt 6 cfg2.N := by
  unfold X4 U4; exact Function.update_self _ _ _
theorem X5_v12 (c : Dev nD) : X5 m c main_v12 = (dat3 (X4 m) c).arrAt 7 cfg3.N := by
  unfold X5 U5; exact Function.update_self _ _ _

/-! ## After the host operations -/

/-- A buffer the host operations do not write holds its launch contents. -/
theorem X1_of (c : Dev nD) (r : Ref sig .tc) (h : r ∉ hostOps0_W) : X1 m c r = m ((c : Thread nD τ).loc r) :=
  Gen.V1_of m c r h

theorem X1_v0 (c : Dev nD) : X1 m c main_v0 = shapeCast S1x128 (m ((c : Thread nD τ).loc main_arg6)) shapeCasts_S128_S1x128 := by
  show Gen.V1 m c (Proc.devRef .tc main_v0) = _
  dsimp only [Gen.V1, Gen.hostOps0]; after_results <;> rfl
theorem X1_v1 (c : Dev nD) : X1 m c main_v1 = shapeCast S1x128 (m ((c : Thread nD τ).loc main_arg7)) shapeCasts_S128_S1x128 := by
  show Gen.V1 m c (Proc.devRef .tc main_v1) = _
  dsimp only [Gen.V1, Gen.hostOps0]; after_results <;> rfl
theorem X1_v2 (c : Dev nD) : X1 m c main_v2 = shapeCast S1x128 (m ((c : Thread nD τ).loc main_arg8)) shapeCasts_S128_S1x128 := by
  show Gen.V1 m c (Proc.devRef .tc main_v2) = _
  dsimp only [Gen.V1, Gen.hostOps0]; after_results <;> rfl
theorem X1_v3 (c : Dev nD) : X1 m c main_v3 = shapeCast S1x128 (m ((c : Thread nD τ).loc main_arg9)) shapeCasts_S128_S1x128 := by
  show Gen.V1 m c (Proc.devRef .tc main_v3) = _
  dsimp only [Gen.V1, Gen.hostOps0]; after_results <;> rfl
theorem X1_v4 (c : Dev nD) : X1 m c main_v4 = shapeCast S1x64 (m ((c : Thread nD τ).loc main_arg10)) shapeCasts_S64_S1x64 := by
  show Gen.V1 m c (Proc.devRef .tc main_v4) = _
  dsimp only [Gen.V1, Gen.hostOps0]; after_results <;> rfl
theorem X1_v5 (c : Dev nD) : X1 m c main_v5 = shapeCast S1x64 (m ((c : Thread nD τ).loc main_arg11)) shapeCasts_S64_S1x64 := by
  show Gen.V1 m c (Proc.devRef .tc main_v5) = _
  dsimp only [Gen.V1, Gen.hostOps0]; after_results <;> rfl
theorem X1_v6 (c : Dev nD) : X1 m c main_v6 = shapeCast S1x64 (m ((c : Thread nD τ).loc main_arg12)) shapeCasts_S64_S1x64 := by
  show Gen.V1 m c (Proc.devRef .tc main_v6) = _
  dsimp only [Gen.V1, Gen.hostOps0]; after_results <;> rfl
theorem X1_v7 (c : Dev nD) : X1 m c main_v7 = shapeCast S1x64 (m ((c : Thread nD τ).loc main_arg13)) shapeCasts_S64_S1x64 := by
  show Gen.V1 m c (Proc.devRef .tc main_v7) = _
  dsimp only [Gen.V1, Gen.hostOps0]; after_results <;> rfl
theorem X1_v8 (c : Dev nD) : X1 m c main_v8 = concatenate S128x128 1 [⟨S128x64, m ((c : Thread nD τ).loc main_arg4)⟩, ⟨S128x64, m ((c : Thread nD τ).loc main_arg5)⟩]
      concatenates_S128x64_S128x64_S128x128_d1 := by
  show Gen.V1 m c (Proc.devRef .tc main_v8) = _
  dsimp only [Gen.V1, Gen.hostOps0]; after_results <;> rfl

/-- A vector reshaped to one row, at a column. -/
theorem row_apply {n : ℕ} {α : Type} (x : (⟨1, ![n]⟩ : Shape).Idx → α) (h : (⟨1, ![n]⟩ : Shape).ShapeCasts ⟨2, ![1, n]⟩) (k : Fin n) :
    shapeCast ⟨2, ![1, n]⟩ x h (ix2 (0 : Fin 1) k) = x (ix1 k) :=
  shapeCast_a_1a_apply x h 0 k

/-- Two [128,64] matrices side by side, at an entry. -/
theorem sideBySide_apply {α : Type} (x₁ x₂ : (⟨2, ![128, 64]⟩ : Shape).Idx → α)
    (h : Shape.Concatenates [(⟨2, ![128, 64]⟩ : Shape), ⟨2, ![128, 64]⟩] ⟨2, ![128, 128]⟩ 1) (q : Fin 128) (j : Fin 128) :
    concatenate (⟨2, ![128, 128]⟩ : Shape) 1 [⟨⟨2, ![128, 64]⟩, x₁⟩, ⟨⟨2, ![128, 64]⟩, x₂⟩] h (ix2 q j)
      = if hj : j.val < 64 then x₁ (ix2 q ⟨j.val, hj⟩) else x₂ (ix2 q ⟨j.val - 64, by have := j.isLt; omega⟩) := by
  by_cases hj : j.val < 64
  · rw [dif_pos hj]
    refine concatenate_pair_apply_left 1 x₁ x₂ h (ix2 q j) rfl (ix2 q ⟨j.val, hj⟩) ?_
    intro b; match b with | ⟨0, _⟩ => rfl | ⟨1, _⟩ => rfl
  · rw [dif_neg hj]
    refine concatenate_pair_apply_right 1 x₁ x₂ h (ix2 q j) rfl rfl (ix2 q ⟨j.val - 64, by have := j.isLt; omega⟩) ?_ ?_
    · intro b hb; match b with
      | ⟨0, _⟩ => rfl
      | ⟨1, _⟩ => exact absurd rfl hb
    · show (j.val - 64) + 64 = j.val
      omega

end Cert.KernelIdeal.Hand

end
-- ==== Proof.KI_ValLib.lean ====
import Idealize.ShloMosaic.Lib.ValueIdx
import Idealize.ShloMosaic.Lib.ValueIdxCoords

/-! # Row blocks of an array of 10000 rows

The grid's 25 points cut an array of 10000 rows into blocks of 400 rows: point `t` has rows `400 t … 400 t + 399`.
Row `i` lies in the block of point `i / 400`, at row `i % 400` of it. -/

noncomputable section

namespace Cert.KernelIdeal.Hand

open Idealize.ShloMosaic Idealize.ShloMosaic.ValueIdx

/-- The 400 rows of `X` from row `400 t`, as an array over [400, n]. -/
def rowBlock {α : Type} {n : Nat} (X : (⟨2, ![10000, n]⟩ : Shape).Idx → α) (t : Fin 25) : (⟨2, ![400, n]⟩ : Shape).Idx → α :=
  fun y => X (ix2 (⟨400 * t.val + (y 0).val, by have h0 : (y 0).val < 400 := (y 0).isLt; have := t.isLt; omega⟩ : Fin 10000) (y 1 : Fin n))

/-- The block at row `r`, column `j` is the array at row `400 t + r`, column `j`. -/
theorem rowBlock_ix2 {α : Type} {n : Nat} (X : (⟨2, ![10000, n]⟩ : Shape).Idx → α) (t : Fin 25) (r : Fin 400) (j : Fin n) :
    rowBlock X t (ix2 r j) = X (ix2 (⟨400 * t.val + r.val, by have := t.isLt; have := r.isLt; omega⟩ : Fin 10000) j) := rfl

/-- The block at `y` is the array at any index with row `400 t + y 0` and column `y 1`. -/
theorem rowBlock_apply {α : Type} {n : Nat} (X : (⟨2, ![10000, n]⟩ : Shape).Idx → α) (t : Fin 25) (y : (⟨2, ![400, n]⟩ : Shape).Idx)
    (k : (⟨2, ![10000, n]⟩ : Shape).Idx) (h0 : (k 0).val = 400 * t.val + (y 0).val) (h1 : (k 1).val = (y 1).val) :
    rowBlock X t y = X k := by
  unfold rowBlock
  refine congrArg X ?_
  funext a; apply Fin.ext
  match a with
  | ⟨0, _⟩ => exact h0.symm
  | ⟨1, _⟩ => exact h1.symm

/-- The point whose block holds row `i`. -/
def rowPt (i : Fin 10000) : Fin 25 := ⟨i.val / 400, by have := i.isLt; omega⟩
/-- Row `i`'s place inside that block. -/
def rowIn (i : Fin 10000) : Fin 400 := ⟨i.val % 400, Nat.mod_lt _ (by decide)⟩

theorem rowPt_val (i : Fin 10000) : (rowPt i).val = i.val / 400 := rfl
theorem rowIn_val (i : Fin 10000) : (rowIn i).val = i.val % 400 := rfl

/-- Row `400 t + r` (`r < 400`) lies in point `t`'s block, -/
theorem rowPt_of_eq (i : Fin 10000) (t : Fin 25) (r : Nat) (hr : r < 400) (h : i.val = 400 * t.val + r) : rowPt i = t :=
  Fin.ext (by rw [rowPt_val, h]; omega)
/-- at row `r` of it. -/
theorem rowIn_of_eq (i : Fin 10000) (t : Fin 25) (r : Fin 400) (h : i.val = 400 * t.val + r.val) : rowIn i = r :=
  Fin.ext (by rw [rowIn_val, h]; have := r.isLt; omega)

/-- A row is row `rowIn` of the block of point `rowPt`. -/
theorem row_eq (i : Fin 10000) : i.val = 400 * (rowPt i).val + (rowIn i).val := by
  rw [rowPt_val, rowIn_val]; omega

end Cert.KernelIdeal.Hand

end
-- ==== Proof.KI_Val0.lean ====
import proofs.«171846_g89721866813831_cont_sun_m_1046_11_alg».proof.Proof.KI_Body0
import proofs.«171846_g89721866813831_cont_sun_m_1046_11_alg».proof.Proof.KI_ValLib
import Idealize.ShloMosaic.Lib.Pipeline.Value
import Idealize.ShloMosaic.Lib.Tactic

set_option maxRecDepth 16384

noncomputable section

namespace Cert.KernelIdeal.Hand

open Cert.KernelIdeal.Gen
open Idealize.ShloMosaic Idealize.ShloMosaic.TcCoe Idealize.SL Idealize.SL.RA Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! # Region 0, from the block to the array: the one write-back leaves the body's payload of the two input arrays -/

/-- The one point's block indices are all zero. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Window 0's block is its whole array. -/
theorem iblk0_0_eq (c : Dev nD) (t : Fin cfg0.N) :
    (iblk0 V c 0 t : Vec F S10000x128 .f32) = (V c main_arg0 : S10000x128.Idx → Elt F .f32) := by
  obtain ⟨e0, e1, -⟩ := idx_facts0 t
  funext y
  unfold iblk0
  rw [View.read_apply]
  show (V c main_arg0 : S10000x128.Idx → Elt F .f32) (((cfg0.win 0).blk t).view.emb y) = _
  refine congrArg _ ?_
  funext a; apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- Window 1's block is its whole array. -/
theorem iblk0_1_eq (c : Dev nD) (t : Fin cfg0.N) :
    (iblk0 V c 1 t : Vec F S128x128 .f32) = (V c main_arg2 : S128x128.Idx → Elt F .f32) := by
  obtain ⟨-, -, e2, e3, -⟩ := idx_facts0 t
  funext y
  unfold iblk0
  rw [View.read_apply]
  show (V c main_arg2 : S128x128.Idx → Elt F .f32) (((cfg0.win 1).blk t).view.emb y) = _
  refine congrArg _ ?_
  funext a; apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What the output array ends holding: the body's payload of the two input arrays. -/
def G0 (X0 : S10000x128.Idx → Elt F .f32) (X1 : S128x128.Idx → Elt F .f32) : S10000x128.Idx → Elt F .f32 :=
  k0_pay1 X0 X1

/-- What the point writes back is the (one, whole) block of that. -/
theorem flushed0_eq (c : Dev nD) (t : Fin cfg0.N) :
    (dat0 V c).flushed 2 t = ((cfg0.win 2).blk t).view.read (Elt F) (G0 (V c main_arg0) (V c main_arg2)) := by
  show (cfg0.win 2).cut (grid0.coords t) ((dat0 V c).after 2 t) = _
  rw [after0_2]
  unfold out0_2
  rw [View.canon_unit_zero zeros2]
  simp only [View.ld_unit_zero (S := S10000x128) zeros2, View.ld_unit_zero (S := S128x128) zeros2]
  rw [iblk0_0_eq, iblk0_1_eq]
  obtain ⟨-, -, -, -, e4, e5⟩ := idx_facts0 t
  funext y
  show k0_pay1 (V c main_arg0 : S10000x128.Idx → Elt F .f32) (V c main_arg2 : S128x128.Idx → Elt F .f32) y
    = G0 (V c main_arg0 : S10000x128.Idx → Elt F .f32) (V c main_arg2 : S128x128.Idx → Elt F .f32) (((cfg0.win 2).blk t).view.emb y)
  unfold G0
  refine congrArg _ ?_
  funext a; apply Fin.ext
  match a with
  | ⟨0, _⟩ => show (y 0).val = win0_2.index t (0 : Fin 2) * 10000 + 1 * (y 0).val; rw [e4]; omega
  | ⟨1, _⟩ => show (y 1).val = win0_2.index t (1 : Fin 2) * 128 + 1 * (y 1).val; rw [e5]; omega

/-- An index of the output array is in the point's block iff each coordinate is in the block's range on its axis. -/
theorem mem_blk0 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v9).slice (win0_2.rect t)).set ↔ _
  rw [View.set_slice_whole, Rect.mem_set_unit]
  exact Iff.rfl

/-- Every index of the output array is in the one point's block. -/
theorem cover0_arr (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  obtain ⟨-, -, -, -, e4, e5⟩ := idx_facts0 t0_0
  refine ⟨t0_0, flush0_2 t0_0, ?_⟩
  rw [mem_blk0]
  intro a
  match a with
  | ⟨0, _⟩ => show win0_2.index t0_0 (0 : Fin 2) * 10000 ≤ (i 0).val ∧ (i 0).val < win0_2.index t0_0 (0 : Fin 2) * 10000 + 10000; rw [e4]; omega
  | ⟨1, _⟩ => show win0_2.index t0_0 (1 : Fin 2) * 128 ≤ (i 1).val ∧ (i 1).val < win0_2.index t0_0 (1 : Fin 2) * 128 + 128; rw [e5]; omega

/-- The output array after the region: the body's payload of the two input arrays as the region finds them. -/
theorem final0 (c : Dev nD) : (dat0 V c).arrAt 2 cfg0.N = G0 (V c main_arg0) (V c main_arg2) :=
  (dat0 V c).arrAt_eq_of_cover 2 (G0 (V c main_arg0) (V c main_arg2)) (fun t _ => flushed0_eq V c t) cover0_arr

end Cert.KernelIdeal.Hand

end
-- ==== Proof.LibPlainDot.lean ====
/-
  A plain matrix product's contraction read as a sum over the middle coordinate.  For dimension numbers that contract
  the left operand's second axis against the right operand's first, with no batch axis — an [M,K] by [K,N] product —
  the left operand's index at result position (a, b) and contraction position q is (a, q), the right operand's is
  (q, b), and so the contraction's sum over the one-axis contraction shape is the sum over q of L (a, q) · R (q, b).
  Stated for any such dimension-number record, whatever proof of well-formedness it carries, and for any extents.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat} (d : DotDims ⟨2, ![M, K]⟩ ⟨2, ![K, N]⟩ ⟨2, ![M, N]⟩)

/-- One axis is contracted. -/
theorem contr_rank (hlc : d.lhsContracting = [1]) : d.contr.rank = 1 := by rw [d.rank_contr, hlc]; rfl

/-- Its extent is the middle extent. -/
theorem contr_size (hlc : d.lhsContracting = [1]) :
    d.contr.size ⟨0, by rw [contr_rank d hlc]; exact Nat.one_pos⟩ = K := by
  obtain ⟨lc, rc, ln, rn, lb, rb, wf⟩ := d
  dsimp only at hlc
  subst hlc
  simp [DotDims.contr]

/-- The left operand is read at (row of the result, contraction position). -/
theorem lhs_plain (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (q : Fin K) :
    d.lhsIdx (ix2 a b) ((contrEquiv1 d K (contr_rank d hlc) (contr_size d hlc)).symm q) = ix2 a q := by
  funext ax
  apply Fin.ext
  match ax with
  | ⟨1, _⟩ =>
    have h := DotDims.lhsIdx_val_of_single d (cl := (1 : Fin 2)) hlc (ix2 a b)
      ((contrEquiv1 d K (contr_rank d hlc) (contr_size d hlc)).symm q)
    rw [contrEquiv1_symm_val] at h
    exact h
  | ⟨0, _⟩ =>
    obtain ⟨lc, rc, ln, rn, lb, rb, wf⟩ := d
    dsimp only at hlc hrc hln hrn hlb hrb
    subst hlc hrc hln hrn hlb hrb
    simp [DotDims.lhsIdx]
    rfl

/-- The right operand is read at (contraction position, column of the result). -/
theorem rhs_plain (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (q : Fin K) :
    d.rhsIdx (ix2 a b) ((contrEquiv1 d K (contr_rank d hlc) (contr_size d hlc)).symm q) = ix2 q b := by
  funext ax
  apply Fin.ext
  match ax with
  | ⟨0, _⟩ =>
    have h := DotDims.rhsIdx_val_of_single d (cr := (0 : Fin 2)) hrc (ix2 a b)
      ((contrEquiv1 d K (contr_rank d hlc) (contr_size d hlc)).symm q)
    rw [contrEquiv1_symm_val] at h
    exact h
  | ⟨1, _⟩ =>
    obtain ⟨lc, rc, ln, rn, lb, rb, wf⟩ := d
    dsimp only at hlc hrc hln hrn hlb hrb
    subst hlc hrc hln hrn hlb hrb
    simp [DotDims.rhsIdx]
    rfl

/-- The contraction's sum is the sum over the middle coordinate. -/
theorem plain_sum {β : Type*} [AddCommMonoid β] (hlc : d.lhsContracting = [1]) (hrc : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → β) (a : Fin M) (b : Fin N) :
    ∑ k : d.contr.Idx, f (d.lhsIdx (ix2 a b) k) (d.rhsIdx (ix2 a b) k) = ∑ q : Fin K, f (ix2 a q) (ix2 q b) := by
  rw [← Equiv.sum_comp (contrEquiv1 d K (contr_rank d hlc) (contr_size d hlc)).symm]
  refine Finset.sum_congr rfl fun q _ => ?_
  rw [lhs_plain d hlc hrc hln hrn hlb hrb a b q, rhs_plain d hlc hrc hln hrn hlb hrb a b q]

end Cert.LibPlainDot

end
-- ==== Proof.PayR0.lean ====
/-
  The first region's block read at a coordinate: the matrix product of the two loaded blocks, entry by entry.
-/
import proofs.«171846_g89721866813831_cont_sun_m_1046_11_alg».proof.Proof.Gen.KernelIdeal.Skeleton
import proofs.«171846_g89721866813831_cont_sun_m_1046_11_alg».proof.Proof.Spec
import proofs.«171846_g89721866813831_cont_sun_m_1046_11_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen
open Idealize.ShloMosaic Idealize.ShloMosaic.ValueIdx

/-- The product of a 10000 by 128 block with a 128 by 128 block, at row r and column k, is the sum over the
    middle coordinate of the products of the entries. -/
theorem k0_pay1_apply (v0 : Vec Ideal S10000x128 .f32) (v1 : Vec Ideal S128x128 .f32) (r : Fin 10000) (k : Fin 128) :
    k0_pay1 (F := Ideal) v0 v1 (ix2 r k)
      = Spec.mm (fun i q => v0 (ix2 i q)) (fun q k => v1 (ix2 q k)) r k := by
  unfold k0_pay1 Spec.mm
  refine (Ideal.matmul_constant_zero_apply dot_S10000x128_S128x128_S10000x128_1_0_0_1_n_n none v0 v1 (ix2 r k)).trans ?_
  exact Cert.LibPlainDot.plain_sum dot_S10000x128_S128x128_S10000x128_1_0_0_1_n_n rfl rfl rfl rfl rfl rfl
    (fun a b => v0 a * v1 b) r k

end Cert.KernelIdeal.Pay

end
-- ==== Proof.KI_Glue0.lean ====
/-
  The first region's output array, entry by entry: the product of the feature array with the input weight.
-/
import proofs.«171846_g89721866813831_cont_sun_m_1046_11_alg».proof.Proof.KI_Val0
import proofs.«171846_g89721866813831_cont_sun_m_1046_11_alg».proof.Proof.PayR0

noncomputable section

open scoped BigOperators

namespace Cert.KernelIdeal.Glue

open Cert.KernelIdeal Cert.KernelIdeal.Gen Cert.KernelIdeal.Hand Cert.KernelIdeal.Pay
open Idealize.ShloMosaic Idealize.ShloMosaic.ValueIdx

/-- The projected features at row i and column k. -/
theorem G0_apply (X : S10000x128.Idx → Elt Ideal .f32) (Win : S128x128.Idx → Elt Ideal .f32) (i : Fin 10000) (k : Fin 128) :
    G0 (F := Ideal) X Win (ix2 i k) = Spec.mm (fun i q => X (ix2 i q)) (fun q k => Win (ix2 q k)) i k := by
  show k0_pay1 (F := Ideal) X Win (ix2 i k) = _
  exact k0_pay1_apply X Win i k

end Cert.KernelIdeal.Glue

end
-- ==== Proof.KI_Val1.lean ====
import proofs.«171846_g89721866813831_cont_sun_m_1046_11_alg».proof.Proof.KI_Body1
import proofs.«171846_g89721866813831_cont_sun_m_1046_11_alg».proof.Proof.KI_ValLib
import Idealize.ShloMosaic.Lib.Pipeline.Value
import Idealize.ShloMosaic.Lib.Tactic

set_option maxRecDepth 16384

noncomputable section

namespace Cert.KernelIdeal.Hand

open Cert.KernelIdeal.Gen
open Idealize.ShloMosaic Idealize.ShloMosaic.TcCoe Idealize.SL Idealize.SL.RA Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! # Region 1, from blocks to the arrays: what the 25 write-backs leave in each output array, as one function of
    the input arrays as the region finds them -/

/-- A point of the grid as a number below 25. -/
def pt1 (t : Fin cfg1.N) : Fin 25 := Fin.cast N_1 t
theorem pt1_val (t : Fin cfg1.N) : (pt1 t).val = t.val := rfl

/-- The printed index maps, decided over the grid: a row-block window is at block row `t`, block column 0; a
    whole-array window at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Window 0's block at point `t` is rows `400 t …` of its array. -/
theorem iblk1_0_eq (c : Dev nD) (t : Fin cfg1.N) :
    (iblk1 V c 0 t : Vec F S400x10000 .f32) = rowBlock (V c main_arg1 : S10000x10000.Idx → Elt F .f32) (pt1 t) := by
  obtain ⟨e0_0, e0_1, -⟩ := idx_facts1 t
  funext y
  unfold iblk1
  rw [View.read_apply]
  show (V c main_arg1 : S10000x10000.Idx → Elt F .f32) (((cfg1.win 0).blk t).view.emb y) = _
  refine (rowBlock_apply _ (pt1 t) y _ ?_ ?_).symm
  · show win1_0.index t (0 : Fin 2) * 400 + 1 * (y 0).val = 400 * t.val + (y 0).val; rw [e0_0]; omega
  · show win1_0.index t (1 : Fin 2) * 10000 + 1 * (y 1).val = (y 1).val; rw [e0_1]; omega

/-- Window 1's block at every point is its whole array. -/
theorem iblk1_1_eq (c : Dev nD) (t : Fin cfg1.N) :
    (iblk1 V c 1 t : Vec F S10000x128 .f32) = (V c main_v9 : S10000x128.Idx → Elt F .f32) := by
  obtain ⟨-, -, e1_0, e1_1, -⟩ := idx_facts1 t
  funext y
  unfold iblk1
  rw [View.read_apply]
  show (V c main_v9 : S10000x128.Idx → Elt F .f32) (((cfg1.win 1).blk t).view.emb y) = _
  refine congrArg _ ?_
  funext a; apply Fin.ext
  match a with
  | ⟨0, _⟩ => show win1_1.index t (0 : Fin 2) * 10000 + 1 * (y 0).val = (y 0).val; rw [e1_0]; omega
  | ⟨1, _⟩ => show win1_1.index t (1 : Fin 2) * 128 + 1 * (y 1).val = (y 1).val; rw [e1_1]; omega

/-- Window 2's block at every point is its whole array. -/
theorem iblk1_2_eq (c : Dev nD) (t : Fin cfg1.N) :
    (iblk1 V c 2 t : Vec F S128x128 .f32) = (V c main_arg3 : S128x128.Idx → Elt F .f32) := by
  obtain ⟨-, -, -, -, e2_0, e2_1, -⟩ := idx_facts1 t
  funext y
  unfold iblk1
  rw [View.read_apply]
  show (V c main_arg3 : S128x128.Idx → Elt F .f32) (((cfg1.win 2).blk t).view.emb y) = _
  refine congrArg _ ?_
  funext a; apply Fin.ext
  match a with
  | ⟨0, _⟩ => show win1_2.index t (0 : Fin 2) * 128 + 1 * (y 0).val = (y 0).val; rw [e2_0]; omega
  | ⟨1, _⟩ => show win1_2.index t (1 : Fin 2) * 128 + 1 * (y 1).val = (y 1).val; rw [e2_1]; omega

/-- Window 3's block at every point is its whole array. -/
theorem iblk1_3_eq (c : Dev nD) (t : Fin cfg1.N) :
    (iblk1 V c 3 t : Vec F S1x128 .f32) = (V c main_v0 : S1x128.Idx → Elt F .f32) := by
  obtain ⟨-, -, -, -, -, -, e3_0, e3_1, -⟩ := idx_facts1 t
  funext y
  unfold iblk1
  rw [View.read_apply]
  show (V c main_v0 : S1x128.Idx → Elt F .f32) (((cfg1.win 3).blk t).view.emb y) = _
  refine congrArg _ ?_
  funext a; apply Fin.ext
  match a with
  | ⟨0, _⟩ => show win1_3.index t (0 : Fin 2) * 1 + 1 * (y 0).val = (y 0).val; rw [e3_0]; omega
  | ⟨1, _⟩ => show win1_3.index t (1 : Fin 2) * 128 + 1 * (y 1).val = (y 1).val; rw [e3_1]; omega

/-- Window 4's block at every point is its whole array. -/
theorem iblk1_4_eq (c : Dev nD) (t : Fin cfg1.N) :
    (iblk1 V c 4 t : Vec F S1x128 .f32) = (V c main_v1 : S1x128.Idx → Elt F .f32) := by
  obtain ⟨-, -, -, -, -, -, -, -, e4_0, e4_1, -⟩ := idx_facts1 t
  funext y
  unfold iblk1
  rw [View.read_apply]
  show (V c main_v1 : S1x128.Idx → Elt F .f32) (((cfg1.win 4).blk t).view.emb y) = _
  refine congrArg _ ?_
  funext a; apply Fin.ext
  match a with
  | ⟨0, _⟩ => show win1_4.index t (0 : Fin 2) * 1 + 1 * (y 0).val = (y 0).val; rw [e4_0]; omega
  | ⟨1, _⟩ => show win1_4.index t (1 : Fin 2) * 128 + 1 * (y 1).val = (y 1).val; rw [e4_1]; omega

/-- What output array main_v10_0 ends holding: at row `i`, column `k`, the body's payload of the row blocks that hold row
    `i` and of the whole-array inputs, read at that row of the block and column `k`. -/
def G1_5 (X0 : S10000x10000.Idx → Elt F .f32) (X1 : S10000x128.Idx → Elt F .f32) (X2 : S128x128.Idx → Elt F .f32) (X3 : S1x128.Idx → Elt F .f32) (X4 : S1x128.Idx → Elt F .f32) : S10000x128.Idx → Elt F .f32 :=
  fun j => k1_pay1 (rowBlock X0 (rowPt (j 0))) X1 X3 X4 (ix2 (rowIn (j 0)) (j 1 : Fin 128))

/-- What point `t` writes back to it is block `t` of that function of the input arrays as the region finds them. -/
theorem flushed1_5_eq (c : Dev nD) (t : Fin cfg1.N) :
    (dat1 V c).flushed 5 t = ((cfg1.win 5).blk t).view.read (Elt F) (G1_5 (V c main_arg1) (V c main_v9) (V c main_arg3) (V c main_v0) (V c main_v1)) := by
  show (cfg1.win 5).cut (grid1.coords t) ((dat1 V c).after 5 t) = _
  rw [after1_5]
  unfold out1_5
  rw [View.canon_unit_zero zeros2_1]
  simp only [View.ld_unit_zero (S := S400x10000) zeros2_1, View.ld_unit_zero (S := S10000x128) zeros2_1, View.ld_unit_zero (S := S128x128) zeros2_1, View.ld_unit_zero (S := S1x128) zeros2_1]
  rw [iblk1_0_eq, iblk1_1_eq, iblk1_3_eq, iblk1_4_eq]
  obtain ⟨-, -, -, -, -, -, -, -, -, -, e5_0, e5_1, -⟩ := idx_facts1 t
  funext y
  show k1_pay1 (rowBlock (V c main_arg1 : S10000x10000.Idx → Elt F .f32) (pt1 t)) (V c main_v9 : S10000x128.Idx → Elt F .f32) (V c main_v0 : S1x128.Idx → Elt F .f32) (V c main_v1 : S1x128.Idx → Elt F .f32) y
    = G1_5 (V c main_arg1 : S10000x10000.Idx → Elt F .f32) (V c main_v9 : S10000x128.Idx → Elt F .f32) (V c main_arg3 : S128x128.Idx → Elt F .f32) (V c main_v0 : S1x128.Idx → Elt F .f32) (V c main_v1 : S1x128.Idx → Elt F .f32) (((cfg1.win 5).blk t).view.emb y)
  unfold G1_5
  have hy0 : (y 0).val < 400 := (y 0).isLt
  have h0 : ((((cfg1.win 5).blk t).view.emb y) 0 : Fin 10000).val = 400 * (pt1 t).val + (y 0).val := by
    show win1_5.index t (0 : Fin 2) * 400 + 1 * (y 0).val = 400 * t.val + (y 0).val; rw [e5_0]; omega
  have h1 : ((((cfg1.win 5).blk t).view.emb y) 1 : Fin 128).val = (y 1).val := by
    show win1_5.index t (1 : Fin 2) * 128 + 1 * (y 1).val = (y 1).val; rw [e5_1]; omega
  rw [rowPt_of_eq _ (pt1 t) (y 0).val hy0 h0, rowIn_of_eq _ (pt1 t) (y 0 : Fin 400) h0]
  refine congrArg _ ?_
  funext a; apply Fin.ext
  match a with
  | ⟨0, _⟩ => rfl
  | ⟨1, _⟩ => exact h1.symm

/-- An index of the array is in point `t`'s block iff each coordinate is in the block's range on its axis. -/
theorem mem_blk1_5 (t : Fin cfg1.N) (i : S10000x128.Idx) :
    i ∈ ((cfg1.win 5).blk t).view.set ↔ ∀ a : Fin 2, win1_5.index t a * S400x128.size a ≤ (i a).val ∧ (i a).val < win1_5.index t a * S400x128.size a + S400x128.size a := by
  show i ∈ ((View.whole main_v10_0).slice (win1_5.rect t)).set ↔ _
  rw [View.set_slice_whole, Rect.mem_set_unit]
  exact Iff.rfl

/-- Every index of the array is in the block of the point its row names. -/
theorem cover1_arr_5 (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  obtain ⟨t, ht⟩ : ∃ t : Fin cfg1.N, t.val = (i 0).val / 400 :=
    ⟨⟨(i 0).val / 400, by rw [show cfg1.N = 25 from N_1]; omega⟩, rfl⟩
  obtain ⟨-, -, -, -, -, -, -, -, -, -, e5_0, e5_1, -⟩ := idx_facts1 t
  refine ⟨t, flush1_5 t, ?_⟩
  rw [mem_blk1_5]
  intro a
  match a with
  | ⟨0, _⟩ => show win1_5.index t (0 : Fin 2) * 400 ≤ (i 0).val ∧ (i 0).val < win1_5.index t (0 : Fin 2) * 400 + 400; rw [e5_0, ht]; omega
  | ⟨1, _⟩ => show win1_5.index t (1 : Fin 2) * 128 ≤ (i 1).val ∧ (i 1).val < win1_5.index t (1 : Fin 2) * 128 + 128; rw [e5_1]; omega

/-- The array after the region: that function of the input arrays as the region finds them. -/
theorem final1_5 (c : Dev nD) : (dat1 V c).arrAt 5 cfg1.N = G1_5 (V c main_arg1) (V c main_v9) (V c main_arg3) (V c main_v0) (V c main_v1) :=
  (dat1 V c).arrAt_eq_of_cover 5 (G1_5 (V c main_arg1) (V c main_v9) (V c main_arg3) (V c main_v0) (V c main_v1)) (fun t _ => flushed1_5_eq V c t) cover1_arr_5

/-- What output array main_v10_1 ends holding: at row `i`, column `k`, the body's payload of the row blocks that hold row
    `i` and of the whole-array inputs, read at that row of the block and column `k`. -/
def G1_6 (X0 : S10000x10000.Idx → Elt F .f32) (X1 : S10000x128.Idx → Elt F .f32) (X2 : S128x128.Idx → Elt F .f32) (X3 : S1x128.Idx → Elt F .f32) (X4 : S1x128.Idx → Elt F .f32) : S10000x128.Idx → Elt F .f32 :=
  fun j => k1_pay2 (rowBlock X0 (rowPt (j 0))) X1 X3 X4 X2 (ix2 (rowIn (j 0)) (j 1 : Fin 128))

/-- What point `t` writes back to it is block `t` of that function of the input arrays as the region finds them. -/
theorem flushed1_6_eq (c : Dev nD) (t : Fin cfg1.N) :
    (dat1 V c).flushed 6 t = ((cfg1.win 6).blk t).view.read (Elt F) (G1_6 (V c main_arg1) (V c main_v9) (V c main_arg3) (V c main_v0) (V c main_v1)) := by
  show (cfg1.win 6).cut (grid1.coords t) ((dat1 V c).after 6 t) = _
  rw [after1_6]
  unfold out1_6
  rw [View.canon_unit_zero zeros2_1]
  simp only [View.ld_unit_zero (S := S400x10000) zeros2_1, View.ld_unit_zero (S := S10000x128) zeros2_1, View.ld_unit_zero (S := S128x128) zeros2_1, View.ld_unit_zero (S := S1x128) zeros2_1]
  rw [iblk1_0_eq, iblk1_1_eq, iblk1_2_eq, iblk1_3_eq, iblk1_4_eq]
  obtain ⟨-, -, -, -, -, -, -, -, -, -, -, -, e6_0, e6_1⟩ := idx_facts1 t
  funext y
  show k1_pay2 (rowBlock (V c main_arg1 : S10000x10000.Idx → Elt F .f32) (pt1 t)) (V c main_v9 : S10000x128.Idx → Elt F .f32) (V c main_v0 : S1x128.Idx → Elt F .f32) (V c main_v1 : S1x128.Idx → Elt F .f32) (V c main_arg3 : S128x128.Idx → Elt F .f32) y
    = G1_6 (V c main_arg1 : S10000x10000.Idx → Elt F .f32) (V c main_v9 : S10000x128.Idx → Elt F .f32) (V c main_arg3 : S128x128.Idx → Elt F .f32) (V c main_v0 : S1x128.Idx → Elt F .f32) (V c main_v1 : S1x128.Idx → Elt F .f32) (((cfg1.win 6).blk t).view.emb y)
  unfold G1_6
  have hy0 : (y 0).val < 400 := (y 0).isLt
  have h0 : ((((cfg1.win 6).blk t).view.emb y) 0 : Fin 10000).val = 400 * (pt1 t).val + (y 0).val := by
    show win1_6.index t (0 : Fin 2) * 400 + 1 * (y 0).val = 400 * t.val + (y 0).val; rw [e6_0]; omega
  have h1 : ((((cfg1.win 6).blk t).view.emb y) 1 : Fin 128).val = (y 1).val := by
    show win1_6.index t (1 : Fin 2) * 128 + 1 * (y 1).val = (y 1).val; rw [e6_1]; omega
  rw [rowPt_of_eq _ (pt1 t) (y 0).val hy0 h0, rowIn_of_eq _ (pt1 t) (y 0 : Fin 400) h0]
  refine congrArg _ ?_
  funext a; apply Fin.ext
  match a with
  | ⟨0, _⟩ => rfl
  | ⟨1, _⟩ => exact h1.symm

/-- An index of the array is in point `t`'s block iff each coordinate is in the block's range on its axis. -/
theorem mem_blk1_6 (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_v10_1).slice (win1_6.rect t)).set ↔ _
  rw [View.set_slice_whole, Rect.mem_set_unit]
  exact Iff.rfl

/-- Every index of the array is in the block of the point its row names. -/
theorem cover1_arr_6 (i : S10000x128.Idx) : ∃ t : Fin cfg1.N, (cfg1.win 6).flush t = true ∧ i ∈ ((cfg1.win 6).blk t).view.set := by
  have hi0 : (i 0).val < 10000 := (i 0).isLt
  have hi1 : (i 1).val < 128 := (i 1).isLt
  obtain ⟨t, ht⟩ : ∃ t : Fin cfg1.N, t.val = (i 0).val / 400 :=
    ⟨⟨(i 0).val / 400, by rw [show cfg1.N = 25 from N_1]; omega⟩, rfl⟩
  obtain ⟨-, -, -, -, -, -, -, -, -, -, -, -, e6_0, e6_1⟩ := idx_facts1 t
  refine ⟨t, flush1_6 t, ?_⟩
  rw [mem_blk1_6]
  intro a
  match a with
  | ⟨0, _⟩ => show win1_6.index t (0 : Fin 2) * 400 ≤ (i 0).val ∧ (i 0).val < win1_6.index t (0 : Fin 2) * 400 + 400; rw [e6_0, ht]; omega
  | ⟨1, _⟩ => show win1_6.index t (1 : Fin 2) * 128 ≤ (i 1).val ∧ (i 1).val < win1_6.index t (1 : Fin 2) * 128 + 128; rw [e6_1]; omega

/-- The array after the region: that function of the input arrays as the region finds them. -/
theorem final1_6 (c : Dev nD) : (dat1 V c).arrAt 6 cfg1.N = G1_6 (V c main_arg1) (V c main_v9) (V c main_arg3) (V c main_v0) (V c main_v1) :=
  (dat1 V c).arrAt_eq_of_cover 6 (G1_6 (V c main_arg1) (V c main_v9) (V c main_arg3) (V c main_v0) (V c main_v1)) (fun t _ => flushed1_6_eq V c t) cover1_arr_6

end Cert.KernelIdeal.Hand

end
-- ==== Proof.PayLib.lean ====
/-
  Shared readings for the normalized layers.  Every layer body spells the same row normalization over a block of 400
  rows: the row sum kept as a column, divided by the row length, spread back over the row and subtracted; the squared
  deviations summed and divided the same way; the reciprocal square root of that variance plus a stabilizer, spread over
  the row as a factor; then a gain row and a bias row spread over the 400 rows.  Here that term is named once, for any
  row length, and read at a coordinate as the row normalization of the specification.  Before it: the three layout steps
  it is made of (a vector viewed as a column, a column spread over a row, a sum along the row), and the rectified
  adjacency product the first two layers normalize.
-/
import proofs.«171846_g89721866813831_cont_sun_m_1046_11_alg».proof.Proof.Gen.KernelIdeal.Skeleton
import proofs.«171846_g89721866813831_cont_sun_m_1046_11_alg».proof.Proof.Spec
import proofs.«171846_g89721866813831_cont_sun_m_1046_11_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen
open Idealize.ShloMosaic Idealize.ShloMosaic.ValueIdx

/-! ## Layout steps at a coordinate -/

section Layout
variable {α : Type}

/-- A column [a,1] spread over rows of length b reads, at (p, c), the column's entry at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] viewed as a column [a,1] reads, at (p, 0), the vector's entry at p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_two, Shape.rowMajor_val_one]
    show p.val = p.val * 1 + 0
    rw [Nat.mul_one, Nat.add_zero])

end Layout

/-- A sum along the rows of an [a,b] block reads, at p, the sum of row p's entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  refine Finset.sum_congr rfl fun k _ => congrArg src ?_
  funext ax
  match ax with
  | ⟨0, _⟩ => rfl
  | ⟨1, _⟩ => rfl

/-- The reciprocal square root, the exponential and the logistic of a block act entry by entry. -/
theorem rsqrt_apply {s : Shape} (x : FVec Ideal s .f32) (i : s.Idx) : rsqrt x i = Ideal.rsqrt (x i) := rfl
theorem exp_apply {s : Shape} (x : FVec Ideal s .f32) (i : s.Idx) : exp x i = Ideal.exp (x i) := rfl

/-- The row sum kept as a column and divided by a constant reads, at (p, 0), the quotient of row p's sum. -/
theorem meanCol_apply {n : ℕ} (cN : BitVec 32) (y : FVec Ideal ⟨2, ![400, n]⟩ .f32)
    (hred : (⟨2, ![400, n]⟩ : Shape).Reduces [1] S400) (hsc : S400.ShapeCasts S400x1) (hφ : FKind.Formats .f32)
    (hacc : (0x00000000#32 : BitVec 32) = FKind.add.neutral .f32 hφ) (p : Fin 400) :
    divf (shapeCast S400x1 (multiReduction (F := Ideal) .add [1] S400 y 0x00000000#32 hred hφ hacc) hsc)
        (broadcast S400x1 (Scalar.ofBits (F := Ideal) .f32 cN)) (ix2 p (0 : Fin 1))
      = Ideal.div (∑ k : Fin n, y (ix2 p k)) (Ideal.ofBits .f32 cN) :=
  congrArg (fun t => Ideal.div t (Ideal.ofBits .f32 cN))
    ((shapeCast_a_a1_apply _ hsc p).trans (rowSum_apply y hred hφ hacc p))

/-! ## The row normalization as the bodies spell it -/

/-- The normalization of each of the 400 rows of x (length n), with the row length spelt as the float word cN and the
    stabilizer as its own word, a gain row g and a bias row b. -/
def lnTerm {n : ℕ} (cN : BitVec 32) (x : FVec Ideal ⟨2, ![400, n]⟩ .f32) (g b : FVec Ideal ⟨2, ![1, n]⟩ .f32)
    (hred : (⟨2, ![400, n]⟩ : Shape).Reduces [1] S400) (hsc : S400.ShapeCasts S400x1)
    (hcol : S400x1.Broadcasts ⟨2, ![400, n]⟩) (hrow : (⟨2, ![1, n]⟩ : Shape).Broadcasts ⟨2, ![400, n]⟩)
    (hφ : FKind.Formats .f32) (hacc : (0x00000000#32 : BitVec 32) = FKind.add.neutral .f32 hφ) :
    FVec Ideal ⟨2, ![400, n]⟩ .f32 :=
  have m : FVec Ideal S400x1 .f32 :=
    divf (shapeCast S400x1 (multiReduction (F := Ideal) .add [1] S400 x 0x00000000#32 hred hφ hacc) hsc)
      (broadcast S400x1 (Scalar.ofBits (F := Ideal) .f32 cN))
  have dlt : FVec Ideal ⟨2, ![400, n]⟩ .f32 := subf x (broadcastTo ⟨2, ![400, n]⟩ m hcol)
  have w : FVec Ideal S400x1 .f32 :=
    divf (shapeCast S400x1 (multiReduction (F := Ideal) .add [1] S400 (mulf dlt dlt) 0x00000000#32 hred hφ hacc) hsc)
      (broadcast S400x1 (Scalar.ofBits (F := Ideal) .f32 cN))
  addf
    (mulf
      (mulf dlt
        (broadcastTo ⟨2, ![400, n]⟩ (rsqrt (addf w (broadcast S400x1 (Scalar.ofBits (F := Ideal) .f32 0x3727C5AC#32)))) hcol))
      (broadcastTo ⟨2, ![400, n]⟩ g hrow))
    (broadcastTo ⟨2, ![400, n]⟩ b hrow)

/-- Read at row r and column k it is the specification's row normalization of row r, at k. -/
theorem lnTerm_apply {n : ℕ} (cN : BitVec 32) (x : FVec Ideal ⟨2, ![400, n]⟩ .f32) (g b : FVec Ideal ⟨2, ![1, n]⟩ .f32)
    (hred : (⟨2, ![400, n]⟩ : Shape).Reduces [1] S400) (hsc : S400.ShapeCasts S400x1)
    (hcol : S400x1.Broadcasts ⟨2, ![400, n]⟩) (hrow : (⟨2, ![1, n]⟩ : Shape).Broadcasts ⟨2, ![400, n]⟩)
    (hφ : FKind.Formats .f32) (hacc : (0x00000000#32 : BitVec 32) = FKind.add.neutral .f32 hφ)
    (r : Fin 400) (k : Fin n) :
    lnTerm cN x g b hred hsc hcol hrow hφ hacc (ix2 r k)
      = Spec.lnK (Ideal.ofBits .f32 cN) (Ideal.ofBits .f32 0x3727C5AC#32) (fun k => g (ix2 (0 : Fin 1) k))
          (fun k => b (ix2 (0 : Fin 1) k)) (fun k => x (ix2 r k)) k := by
  unfold lnTerm
  simp only [addf_apply, mulf_apply, subf_apply, rsqrt_apply, broadcast_apply, broadcastTo_a1_ab_apply,
    broadcastTo_1b_ab_apply, meanCol_apply]
  rw [meanCol_apply cN x hred hsc hφ hacc r, meanCol_apply cN _ hred hsc hφ hacc r]
  simp only [mulf_apply, subf_apply, broadcastTo_a1_ab_apply]
  rw [meanCol_apply cN x hred hsc hφ hacc r]
  unfold Spec.lnK Spec.var Spec.mu
  rfl

/-! ## The rectified adjacency product -/

/-- The product of a 400 by 10000 block with a 10000 by 128 block, rectified entry by entry. -/
def reluProd (v0 : Vec Ideal S400x10000 .f32) (v1 : Vec Ideal S10000x128 .f32) : FVec Ideal S400x128 .f32 :=
  maximumf
    (matmul (φ₁ := .f32) (φ₂ := .f32) dot_S400x10000_S10000x128_S400x128_1_0_0_1_n_n none v0
      (shapeCast S10000x128 v1 shapeCasts_S10000x128_S10000x128) (constant S400x128 .f32 0x00000000#32))
    (broadcast S400x128 (Scalar.ofBits (F := Ideal) .f32 0x00000000#32))

/-- The adjacency product at row r and column k: the sum over the 10000 middle coordinates. -/
theorem adjProd_apply (v0 : Vec Ideal S400x10000 .f32) (v1 : Vec Ideal S10000x128 .f32) (r : Fin 400) (k : Fin 128) :
    matmul (φ₁ := .f32) (φ₂ := .f32) dot_S400x10000_S10000x128_S400x128_1_0_0_1_n_n none v0
        (shapeCast S10000x128 v1 shapeCasts_S10000x128_S10000x128) (constant (F := Ideal) S400x128 .f32 0x00000000#32) (ix2 r k)
      = ∑ j : Fin 10000, v0 (ix2 r j) * v1 (ix2 j k) := by
  rw [shapeCast_self]
  refine (Ideal.matmul_constant_zero_apply dot_S400x10000_S10000x128_S400x128_1_0_0_1_n_n none v0 v1 (ix2 r k)).trans ?_
  exact Cert.LibPlainDot.plain_sum dot_S400x10000_S10000x128_S400x128_1_0_0_1_n_n rfl rfl rfl rfl rfl rfl
    (fun a b => v0 a * v1 b) r k

/-- Rectified, at row r and column k: the larger of that sum and zero. -/
theorem reluProd_apply (v0 : Vec Ideal S400x10000 .f32) (v1 : Vec Ideal S10000x128 .f32) (r : Fin 400) (k : Fin 128) :
    reluProd v0 v1 (ix2 r k) = max (∑ j : Fin 10000, v0 (ix2 r j) * v1 (ix2 j k)) 0 := by
  unfold reluProd
  show max _ (Ideal.ofBits .f32 0x00000000#32) = _
  rw [Ideal.ofBits_zero_f32, adjProd_apply]

end Cert.KernelIdeal.Pay

end
-- ==== Proof.PayR1.lean ====
/-
  The first normalized layer's two blocks read at a coordinate.  The body multiplies the adjacency block by the projected
  features, rectifies, normalizes each row (length 128), stores that, and stores its product with a 128 by 128 weight.
-/
import proofs.«171846_g89721866813831_cont_sun_m_1046_11_alg».proof.Proof.PayLib

noncomputable section

open scoped BigOperators

namespace Cert.KernelIdeal.Pay

open Cert.KernelIdeal Cert.KernelIdeal.Gen
open Idealize.ShloMosaic Idealize.ShloMosaic.ValueIdx

/-- The stored hidden block is the row normalization of the rectified adjacency product, by unfolding. -/
theorem k1_pay1_eq (v0 : Vec Ideal S400x10000 .f32) (v1 : Vec Ideal S10000x128 .f32) (v6 v8 : Vec Ideal S1x128 .f32) :
    k1_pay1 (F := Ideal) v0 v1 v6 v8
      = lnTerm (n := 128) 0x43000000#32 (reluProd v0 v1) (shapeCast S1x128 v6 shapeCasts_S1x128_S1x128)
          (shapeCast S1x128 v8 shapeCasts_S1x128_S1x128) reduces_S400x128_S400 shapeCasts_S400_S400x1
          broadcasts_S400x1_S400x128 broadcasts_S1x128_S400x128 (.inl rfl) rfl := rfl

/-- At row r and column k: the normalization, with gain row v6 and bias row v8, of row r of the rectified product. -/
theorem k1_pay1_apply (v0 : Vec Ideal S400x10000 .f32) (v1 : Vec Ideal S10000x128 .f32) (v6 v8 : Vec Ideal S1x128 .f32)
    (r : Fin 400) (k : Fin 128) :
    k1_pay1 (F := Ideal) v0 v1 v6 v8 (ix2 r k)
      = Spec.lnK (Ideal.ofBits .f32 0x43000000#32) (Ideal.ofBits .f32 0x3727C5AC#32)
          (fun k => v6 (ix2 (0 : Fin 1) k)) (fun k => v8 (ix2 (0 : Fin 1) k))
          (fun k => max (∑ j : Fin 10000, v0 (ix2 r j) * v1 (ix2 j k)) 0) k := by
  refine (congrFun (k1_pay1_eq v0 v1 v6 v8) (ix2 r k)).trans ?_
  refine (lnTerm_apply (n := 128) 0x43000000#32 (reluProd v0 v1) (shapeCast S1x128 v6 shapeCasts_S1x128_S1x128)
    (shapeCast S1x128 v8 shapeCasts_S1x128_S1x128) reduces_S400x128_S400 shapeCasts_S400_S400x1
    broadcasts_S400x1_S400x128 broadcasts_S1x128_S400x128 (.inl rfl) rfl r k).trans ?_
  rw [shapeCast_self, shapeCast_self]
  exact congrArg (fun x => Spec.lnK _ _ _ _ x k) (funext fun q => reluProd_apply v0 v1 r q)

/-- The second stored block at row r and column k: the product of the hidden block's row r with column k of the weight. -/
theorem k1_pay2_apply (v0 : Vec Ideal S400x10000 .f32) (v1 : Vec Ideal S10000x128 .f32) (v6 v8 : Vec Ideal S1x128 .f32)
    (v35 : Vec Ideal S128x128 .f32) (r : Fin 400) (k : Fin 128) :
    k1_pay2 (F := Ideal) v0 v1 v6 v8 v35 (ix2 r k)
      = ∑ q : Fin 128, k1_pay1 (F := Ideal) v0 v1 v6 v8 (ix2 r q) * v35 (ix2 q k) := by
  unfold k1_pay2
  refine (Ideal.matmul_constant_zero_apply (φ₁ := .f32) (φ₂ := .f32) dot_S400x128_S128x128_S400x128_1_0_0_1_n_n none
    (k1_pay1 (F := Ideal) v0 v1 v6 v8) v35 (ix2 r k)).trans ?_
  exact Cert.LibPlainDot.plain_sum dot_S400x128_S128x128_S400x128_1_0_0_1_n_n rfl rfl rfl rfl rfl rfl
    (fun a b => k1_pay1 (F := Ideal) v0 v1 v6 v8 a * v35 b) r k

end Cert.KernelIdeal.Pay

end
-- ==== Proof.KI_GlueLib.lean ====
/-
  Row i of an array of 10000 rows is row (i mod 400) of the block of 400 rows that the grid point (i div 400) holds:
  reading that block at that row gives back the array's row i.
-/
import proofs.«171846_g89721866813831_cont_sun_m_1046_11_alg».proof.Proof.KI_ValLib

noncomputable section

namespace Cert.KernelIdeal.Glue

open Cert.KernelIdeal.Hand
open Idealize.ShloMosaic Idealize.ShloMosaic.ValueIdx

/-- The block of the point holding row i, read at row i's place inside it and column j, is the array at (i, j). -/
theorem rowBlock_rowPt_rowIn {α : Type} {n : Nat} (X : (⟨2, ![10000, n]⟩ : Shape).Idx → α) (i : Fin 10000) (j : Fin n) :
    rowBlock X (rowPt i) (ix2 (rowIn i) j) = X (ix2 i j) :=
  rowBlock_apply X (rowPt i) (ix2 (rowIn i) j) (ix2 i j) (row_eq i) rfl

end Cert.KernelIdeal.Glue

end
-- ==== Proof.KI_Glue1.lean ====
/-
  The first normalized layer's two output arrays, entry by entry: the row normalization of the rectified propagation,
  and its product with the hidden weight.
-/
import proofs.«171846_g89721866813831_cont_sun_m_1046_11_alg».proof.Proof.KI_Val1
import proofs.«171846_g89721866813831_cont_sun_m_1046_11_alg».proof.Proof.PayR1
import proofs.«171846_g89721866813831_cont_sun_m_1046_11_alg».proof.Proof.KI_GlueLib

noncomputable section

open scoped BigOperators

namespace Cert.KernelIdeal.Glue

open Cert.KernelIdeal Cert.KernelIdeal.Gen Cert.KernelIdeal.Hand Cert.KernelIdeal.Pay
open Idealize.ShloMosaic Idealize.ShloMosaic.ValueIdx

/-- The hidden block of the point holding row i, read at row i's place: the normalization of row i of the rectified
    propagation of P0 through the adjacency A. -/
theorem h0_row (A : S10000x10000.Idx → Elt Ideal .f32) (P0 : S10000x128.Idx → Elt Ideal .f32)
    (g b : S1x128.Idx → Elt Ideal .f32) (i : Fin 10000) (q : Fin 128) :
    k1_pay1 (F := Ideal) (rowBlock A (rowPt i)) P0 g b (ix2 (rowIn i) q)
      = Spec.lnK (Ideal.ofBits .f32 0x43000000#32) (Ideal.ofBits .f32 0x3727C5AC#32)
          (fun k => g (ix2 (0 : Fin 1) k)) (fun k => b (ix2 (0 : Fin 1) k))
          (fun k => max (Spec.mm (fun i k => A (ix2 i k)) (fun q k => P0 (ix2 q k)) i k) 0) q := by
  refine (k1_pay1_apply (rowBlock A (rowPt i)) P0 g b (rowIn i) q).trans ?_
  unfold Spec.mm
  simp only [rowBlock_rowPt_rowIn]

/-- The first output array (the hidden features) at row i and column k. -/
theorem G1_5_apply (A : S10000x10000.Idx → Elt Ideal .f32) (P0 : S10000x128.Idx → Elt Ideal .f32)
    (Wh : S128x128.Idx → Elt Ideal .f32) (g b : S1x128.Idx → Elt Ideal .f32) (i : Fin 10000) (k : Fin 128) :
    G1_5 (F := Ideal) A P0 Wh g b (ix2 i k)
      = Spec.lnK (Ideal.ofBits .f32 0x43000000#32) (Ideal.ofBits .f32 0x3727C5AC#32)
          (fun k => g (ix2 (0 : Fin 1) k)) (fun k => b (ix2 (0 : Fin 1) k))
          (fun k => max (Spec.mm (fun i k => A (ix2 i k)) (fun q k => P0 (ix2 q k)) i k) 0) k := by
  show k1_pay1 (F := Ideal) (rowBlock A (rowPt i)) P0 g b (ix2 (rowIn i) k) = _
  exact h0_row A P0 g b i k

/-- The second output array at row i and column k: row i of the first output array times column k of the hidden weight. -/
theorem G1_6_apply (A : S10000x10000.Idx → Elt Ideal .f32) (P0 : S10000x128.Idx → Elt Ideal .f32)
    (Wh : S128x128.Idx → Elt Ideal .f32) (g b : S1x128.Idx → Elt Ideal .f32) (i : Fin 10000) (k : Fin 128) :
    G1_6 (F := Ideal) A P0 Wh g b (ix2 i k)
      = Spec.mm (fun i q => G1_5 (F := Ideal) A P0 Wh g b (ix2 i q)) (fun q k => Wh (ix2 q k)) i k := by
  show k1_pay2 (F := Ideal) (rowBlock A (rowPt i)) P0 g b Wh (ix2 (rowIn i) k) = _
  refine (k1_pay2_apply (rowBlock A (rowPt i)) P0 g b Wh (rowIn i) k).trans ?_
  rfl

/-- The same with the first output array's entries written out as the row normalization. -/
theorem G1_6_apply_ln (A : S10000x10000.Idx → Elt Ideal .f32) (P0 : S10000x128.Idx → Elt Ideal .f32)
    (Wh : S128x128.Idx → Elt Ideal .f32) (g b : S1x128.Idx → Elt Ideal .f32) (i : Fin 10000) (k : Fin 128) :
    G1_6 (F := Ideal) A P0 Wh g b (ix2 i k)
      = Spec.mm
          (fun i q => Spec.lnK (Ideal.ofBits .f32 0x43000000#32) (Ideal.ofBits .f32 0x3727C5AC#32)
            (fun k => g (ix2 (0 : Fin 1) k)) (fun k => b (ix2 (0 : Fin 1) k))
            (fun k => max (Spec.mm (fun i k => A (ix2 i k)) (fun q k => P0 (ix2 q k)) i k) 0) q)
          (fun q k => Wh (ix2 q k)) i k := by
  show k1_pay2 (F := Ideal) (rowBlock A (rowPt i)) P0 g b Wh (ix2 (rowIn i) k) = _
  refine (k1_pay2_apply (rowBlock A (rowPt i)) P0 g b Wh (rowIn i) k).trans ?_
  show _ = ∑ q : Fin 128, _ * Wh (ix2 q k)
  exact Finset.sum_congr rfl fun q _ => congrArg (· * Wh (ix2 q k)) (h0_row A P0 g b i q)

end Cert.KernelIdeal.Glue

end
-- ==== Proof.KI_Val2.lean ====
import proofs.«171846_g89721866813831_cont_sun_m_1046_11_alg».proof.Proof.KI_Body2
import proofs.«171846_g89721866813831_cont_sun_m_1046_11_alg».proof.Proof.KI_ValLib
import Idealize.ShloMosaic.Lib.Pipeline.Value
import Idealize.ShloMosaic.Lib.Tactic

set_option maxRecDepth 16384

noncomputable section

namespace Cert.KernelIdeal.Hand

open Cert.KernelIdeal.Gen
open Idealize.ShloMosaic Idealize.ShloMosaic.TcCoe Idealize.SL Idealize.SL.RA Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! # Region 2, from blocks to the arrays: what the 25 write-backs leave in each output array, as one function of
    the input arrays as the region finds them -/

/-- A point of the grid as a number below 25. -/
def pt2 (t : Fin cfg2.N) : Fin 25 := Fin.cast N_2 t
theorem pt2_val (t : Fin cfg2.N) : (pt2 t).val = t.val := rfl

/-- The printed index maps, decided over the grid: a row-block window is at block row `t`, block column 0; a
    whole-array window at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point `t` is rows `400 t …` of its array. -/
theorem iblk2_0_eq (c : Dev nD) (t : Fin cfg2.N) :
    (iblk2 V c 0 t : Vec F S400x10000 .f32) = rowBlock (V c main_arg1 : S10000x10000.Idx → Elt F .f32) (pt2 t) := by
  obtain ⟨e0_0, e0_1, -⟩ := idx_facts2 t
  funext y
  unfold iblk2
  rw [View.read_apply]
  show (V c main_arg1 : S10000x10000.Idx → Elt F .f32) (((cfg2.win 0).blk t).view.emb y) = _
  refine (rowBlock_apply _ (pt2 t) y _ ?_ ?_).symm
  · show win2_0.index t (0 : Fin 2) * 400 + 1 * (y 0).val = 400 * t.val + (y 0).val; rw [e0_0]; omega
  · show win2_0.index t (1 : Fin 2) * 10000 + 1 * (y 1).val = (y 1).val; rw [e0_1]; omega

/-- Window 1's block at every point is its whole array. -/
theorem iblk2_1_eq (c : Dev nD) (t : Fin cfg2.N) :
    (iblk2 V c 1 t : Vec F S10000x128 .f32) = (V c main_v10_1 : S10000x128.Idx → Elt F .f32) := by
  obtain ⟨-, -, e1_0, e1_1, -⟩ := idx_facts2 t
  funext y
  unfold iblk2
  rw [View.read_apply]
  show (V c main_v10_1 : S10000x128.Idx → Elt F .f32) (((cfg2.win 1).blk t).view.emb y) = _
  refine congrArg _ ?_
  funext a; apply Fin.ext
  match a with
  | ⟨0, _⟩ => show win2_1.index t (0 : Fin 2) * 10000 + 1 * (y 0).val = (y 0).val; rw [e1_0]; omega
  | ⟨1, _⟩ => show win2_1.index t (1 : Fin 2) * 128 + 1 * (y 1).val = (y 1).val; rw [e1_1]; omega

/-- Window 2's block at point `t` is rows `400 t …` of its array. -/
theorem iblk2_2_eq (c : Dev nD) (t : Fin cfg2.N) :
    (iblk2 V c 2 t : Vec F S400x128 .f32) = rowBlock (V c main_v10_0 : S10000x128.Idx → Elt F .f32) (pt2 t) := by
  obtain ⟨-, -, -, -, e2_0, e2_1, -⟩ := idx_facts2 t
  funext y
  unfold iblk2
  rw [View.read_apply]
  show (V c main_v10_0 : S10000x128.Idx → Elt F .f32) (((cfg2.win 2).blk t).view.emb y) = _
  refine (rowBlock_apply _ (pt2 t) y _ ?_ ?_).symm
  · show win2_2.index t (0 : Fin 2) * 400 + 1 * (y 0).val = 400 * t.val + (y 0).val; rw [e2_0]; omega
  · show win2_2.index t (1 : Fin 2) * 128 + 1 * (y 1).val = (y 1).val; rw [e2_1]; omega

/-- Window 3's block at every point is its whole array. -/
theorem iblk2_3_eq (c : Dev nD) (t : Fin cfg2.N) :
    (iblk2 V c 3 t : Vec F S128x128 .f32) = (V c main_v8 : S128x128.Idx → Elt F .f32) := by
  obtain ⟨-, -, -, -, -, -, e3_0, e3_1, -⟩ := idx_facts2 t
  funext y
  unfold iblk2
  rw [View.read_apply]
  show (V c main_v8 : S128x128.Idx → Elt F .f32) (((cfg2.win 3).blk t).view.emb y) = _
  refine congrArg _ ?_
  funext a; apply Fin.ext
  match a with
  | ⟨0, _⟩ => show win2_3.index t (0 : Fin 2) * 128 + 1 * (y 0).val = (y 0).val; rw [e3_0]; omega
  | ⟨1, _⟩ => show win2_3.index t (1 : Fin 2) * 128 + 1 * (y 1).val = (y 1).val; rw [e3_1]; omega

/-- Window 4's block at every point is its whole array. -/
theorem iblk2_4_eq (c : Dev nD) (t : Fin cfg2.N) :
    (iblk2 V c 4 t : Vec F S1x128 .f32) = (V c main_v2 : S1x128.Idx → Elt F .f32) := by
  obtain ⟨-, -, -, -, -, -, -, -, e4_0, e4_1, -⟩ := idx_facts2 t
  funext y
  unfold iblk2
  rw [View.read_apply]
  show (V c main_v2 : S1x128.Idx → Elt F .f32) (((cfg2.win 4).blk t).view.emb y) = _
  refine congrArg _ ?_
  funext a; apply Fin.ext
  match a with
  | ⟨0, _⟩ => show win2_4.index t (0 : Fin 2) * 1 + 1 * (y 0).val = (y 0).val; rw [e4_0]; omega
  | ⟨1, _⟩ => show win2_4.index t (1 : Fin 2) * 128 + 1 * (y 1).val = (y 1).val; rw [e4_1]; omega

/-- Window 5's block at every point is its whole array. -/
theorem iblk2_5_eq (c : Dev nD) (t : Fin cfg2.N) :
    (iblk2 V c 5 t : Vec F S1x128 .f32) = (V c main_v3 : S1x128.Idx → Elt F .f32) := by
  obtain ⟨-, -, -, -, -, -, -, -, -, -, e5_0, e5_1, -⟩ := idx_facts2 t
  funext y
  unfold iblk2
  rw [View.read_apply]
  show (V c main_v3 : S1x128.Idx → Elt F .f32) (((cfg2.win 5).blk t).view.emb y) = _
  refine congrArg _ ?_
  funext a; apply Fin.ext
  match a with
  | ⟨0, _⟩ => show win2_5.index t (0 : Fin 2) * 1 + 1 * (y 0).val = (y 0).val; rw [e5_0]; omega
  | ⟨1, _⟩ => show win2_5.index t (1 : Fin 2) * 128 + 1 * (y 1).val = (y 1).val; rw [e5_1]; omega

/-- What output array main_v11 ends holding: at row `i`, column `k`, the body's payload of the row blocks that hold row
    `i` and of the whole-array inputs, read at that row of the block and column `k`. -/
def G2_6 (X0 : S10000x10000.Idx → Elt F .f32) (X1 : S10000x128.Idx → Elt F .f32) (X2 : S10000x128.Idx → Elt F .f32) (X3 : S128x128.Idx → Elt F .f32) (X4 : S1x128.Idx → Elt F .f32) (X5 : S1x128.Idx → Elt F .f32) : S10000x128.Idx → Elt F .f32 :=
  fun j => k2_pay1 (k2_pay2 (rowBlock X0 (rowPt (j 0))) X1 X4 X5 (rowBlock X2 (rowPt (j 0)))) (k2_pay3 X3) (constant S400x128 .f32 0x00000000#32) (ix2 (rowIn (j 0)) (j 1 : Fin 128))

/-- What point `t` writes back to it is block `t` of that function of the input arrays as the region finds them. -/
theorem flushed2_6_eq (c : Dev nD) (t : Fin cfg2.N) :
    (dat2 V c).flushed 6 t = ((cfg2.win 6).blk t).view.read (Elt F) (G2_6 (V c main_arg1) (V c main_v10_1) (V c main_v10_0) (V c main_v8) (V c main_v2) (V c main_v3)) := by
  show (cfg2.win 6).cut (grid2.coords t) ((dat2 V c).after 6 t) = _
  rw [after2_6]
  unfold out2_6
  rw [View.canon_unit_zero zeros2_2]
  simp only [View.ld_unit_zero (S := S400x10000) zeros2_2, View.ld_unit_zero (S := S10000x128) zeros2_2, View.ld_unit_zero (S := S400x128) zeros2_2, View.ld_unit_zero (S := S128x128) zeros2_2, View.ld_unit_zero (S := S1x128) zeros2_2]
  rw [iblk2_0_eq, iblk2_1_eq, iblk2_2_eq, iblk2_3_eq, iblk2_4_eq, iblk2_5_eq]
  obtain ⟨-, -, -, -, -, -, -, -, -, -, -, -, e6_0, e6_1⟩ := idx_facts2 t
  funext y
  show k2_pay1 (k2_pay2 (rowBlock (V c main_arg1 : S10000x10000.Idx → Elt F .f32) (pt2 t)) (V c main_v10_1 : S10000x128.Idx → Elt F .f32) (V c main_v2 : S1x128.Idx → Elt F .f32) (V c main_v3 : S1x128.Idx → Elt F .f32) (rowBlock (V c main_v10_0 : S10000x128.Idx → Elt F .f32) (pt2 t))) (k2_pay3 (V c main_v8 : S128x128.Idx → Elt F .f32)) (constant S400x128 .f32 0x00000000#32) y
    = G2_6 (V c main_arg1 : S10000x10000.Idx → Elt F .f32) (V c main_v10_1 : S10000x128.Idx → Elt F .f32) (V c main_v10_0 : S10000x128.Idx → Elt F .f32) (V c main_v8 : S128x128.Idx → Elt F .f32) (V c main_v2 : S1x128.Idx → Elt F .f32) (V c main_v3 : S1x128.Idx → Elt F .f32) (((cfg2.win 6).blk t).view.emb y)
  unfold G2_6
  have hy0 : (y 0).val < 400 := (y 0).isLt
  have h0 : ((((cfg2.win 6).blk t).view.emb y) 0 : Fin 10000).val = 400 * (pt2 t).val + (y 0).val := by
    show win2_6.index t (0 : Fin 2) * 400 + 1 * (y 0).val = 400 * t.val + (y 0).val; rw [e6_0]; omega
  have h1 : ((((cfg2.win 6).blk t).view.emb y) 1 : Fin 128).val = (y 1).val := by
    show win2_6.index t (1 : Fin 2) * 128 + 1 * (y 1).val = (y 1).val; rw [e6_1]; omega
  rw [rowPt_of_eq _ (pt2 t) (y 0).val hy0 h0, rowIn_of_eq _ (pt2 t) (y 0 : Fin 400) h0]
  refine congrArg _ ?_
  funext a; apply Fin.ext
  match a with
  | ⟨0, _⟩ => rfl
  | ⟨1, _⟩ => exact h1.symm

/-- An index of the array is in point `t`'s block iff each coordinate is in the block's range on its axis. -/
theorem mem_blk2_6 (t : Fin cfg2.N) (i : S10000x128.Idx) :
    i ∈ ((cfg2.win 6).blk t).view.set ↔ ∀ a : Fin 2, win2_6.index t a * S400x128.size a ≤ (i a).val ∧ (i a).val < win2_6.index t a * S400x128.size a + S400x128.size a := by
  show i ∈ ((View.whole main_v11).slice (win2_6.rect t)).set ↔ _
  rw [View.set_slice_whole, Rect.mem_set_unit]
  exact Iff.rfl

/-- Every index of the array is in the block of the point its row names. -/
theorem cover2_arr_6 (i : S10000x128.Idx) : ∃ t : Fin cfg2.N, (cfg2.win 6).flush t = true ∧ i ∈ ((cfg2.win 6).blk t).view.set := by
  have hi0 : (i 0).val < 10000 := (i 0).isLt
  have hi1 : (i 1).val < 128 := (i 1).isLt
  obtain ⟨t, ht⟩ : ∃ t : Fin cfg2.N, t.val = (i 0).val / 400 :=
    ⟨⟨(i 0).val / 400, by rw [show cfg2.N = 25 from N_2]; omega⟩, rfl⟩
  obtain ⟨-, -, -, -, -, -, -, -, -, -, -, -, e6_0, e6_1⟩ := idx_facts2 t
  refine ⟨t, flush2_6 t, ?_⟩
  rw [mem_blk2_6]
  intro a
  match a with
  | ⟨0, _⟩ => show win2_6.index t (0 : Fin 2) * 400 ≤ (i 0).val ∧ (i 0).val < win2_6.index t (0 : Fin 2) * 400 + 400; rw [e6_0, ht]; omega
  | ⟨1, _⟩ => show win2_6.index t (1 : Fin 2) * 128 ≤ (i 1).val ∧ (i 1).val < win2_6.index t (1 : Fin 2) * 128 + 128; rw [e6_1]; omega

/-- The array after the region: that function of the input arrays as the region finds them. -/
theorem final2_6 (c : Dev nD) : (dat2 V c).arrAt 6 cfg2.N = G2_6 (V c main_arg1) (V c main_v10_1) (V c main_v10_0) (V c main_v8) (V c main_v2) (V c main_v3) :=
  (dat2 V c).arrAt_eq_of_cover 6 (G2_6 (V c main_arg1) (V c main_v10_1) (V c main_v10_0) (V c main_v8) (V c main_v2) (V c main_v3)) (fun t _ => flushed2_6_eq V c t) cover2_arr_6

end Cert.KernelIdeal.Hand

end
-- ==== Proof.PayR2.lean ====
/-
  The second normalized layer's block read at a coordinate.  The body normalizes each row of the rectified adjacency
  product, adds the previous hidden block (the residual connection), and stores the product of that sum with the
  128 by 128 side-by-side weight.
-/
import proofs.«171846_g89721866813831_cont_sun_m_1046_11_alg».proof.Proof.PayLib

noncomputable section

open scoped BigOperators

namespace Cert.KernelIdeal.Pay

open Cert.KernelIdeal Cert.KernelIdeal.Gen
open Idealize.ShloMosaic Idealize.ShloMosaic.ValueIdx

/-- The hidden block with its residual is the row normalization of the rectified adjacency product plus the loaded
    previous hidden block, by unfolding. -/
theorem k2_pay2_eq (v0 : Vec Ideal S400x10000 .f32) (v1 : Vec Ideal S10000x128 .f32) (v6 v8 : Vec Ideal S1x128 .f32)
    (v34 : Vec Ideal S400x128 .f32) :
    k2_pay2 (F := Ideal) v0 v1 v6 v8 v34
      = addf (s := S400x128) (φ := .f32)
          (lnTerm (n := 128) 0x43000000#32 (reluProd v0 v1) (shapeCast S1x128 v6 shapeCasts_S1x128_S1x128)
            (shapeCast S1x128 v8 shapeCasts_S1x128_S1x128) reduces_S400x128_S400 shapeCasts_S400_S400x1
            broadcasts_S400x1_S400x128 broadcasts_S1x128_S400x128 (.inl rfl) rfl)
          (shapeCast S400x128 v34 shapeCasts_S400x128_S400x128) := rfl

/-- At row r and column q: the normalization of row r of the rectified product, plus the previous hidden entry. -/
theorem k2_pay2_apply (v0 : Vec Ideal S400x10000 .f32) (v1 : Vec Ideal S10000x128 .f32) (v6 v8 : Vec Ideal S1x128 .f32)
    (v34 : Vec Ideal S400x128 .f32) (r : Fin 400) (q : Fin 128) :
    k2_pay2 (F := Ideal) v0 v1 v6 v8 v34 (ix2 r q)
      = Spec.lnK (Ideal.ofBits .f32 0x43000000#32) (Ideal.ofBits .f32 0x3727C5AC#32)
          (fun k => v6 (ix2 (0 : Fin 1) k)) (fun k => v8 (ix2 (0 : Fin 1) k))
          (fun k => max (∑ j : Fin 10000, v0 (ix2 r j) * v1 (ix2 j k)) 0) q + v34 (ix2 r q) := by
  refine (congrFun (k2_pay2_eq v0 v1 v6 v8 v34) (ix2 r q)).trans ?_
  show lnTerm (n := 128) 0x43000000#32 (reluProd v0 v1) (shapeCast S1x128 v6 shapeCasts_S1x128_S1x128)
      (shapeCast S1x128 v8 shapeCasts_S1x128_S1x128) reduces_S400x128_S400 shapeCasts_S400_S400x1
      broadcasts_S400x1_S400x128 broadcasts_S1x128_S400x128 (.inl rfl) rfl (ix2 r q)
    + shapeCast S400x128 v34 shapeCasts_S400x128_S400x128 (ix2 r q) = _
  refine congrArg₂ (· + ·) ?_ (congrFun (shapeCast_self v34 _) (ix2 r q))
  refine (lnTerm_apply (n := 128) 0x43000000#32 (reluProd v0 v1) (shapeCast S1x128 v6 shapeCasts_S1x128_S1x128)
    (shapeCast S1x128 v8 shapeCasts_S1x128_S1x128) reduces_S400x128_S400 shapeCasts_S400_S400x1
    broadcasts_S400x1_S400x128 broadcasts_S1x128_S400x128 (.inl rfl) rfl r q).trans ?_
  rw [shapeCast_self, shapeCast_self]
  exact congrArg (fun x => Spec.lnK _ _ _ _ x q) (funext fun c => reluProd_apply v0 v1 r c)

/-- The stored block at row r and column k: the product of row r of the hidden block with its residual and column k of
    the side-by-side weight. -/
theorem k2_store_apply (v0 : Vec Ideal S400x10000 .f32) (v1 : Vec Ideal S10000x128 .f32) (v6 v8 : Vec Ideal S1x128 .f32)
    (v34 : Vec Ideal S400x128 .f32) (v37 : Vec Ideal S128x128 .f32) (r : Fin 400) (k : Fin 128) :
    k2_pay1 (F := Ideal) (k2_pay2 (F := Ideal) v0 v1 v6 v8 v34) (k2_pay3 (F := Ideal) v37)
        (constant (F := Ideal) S400x128 .f32 0x00000000#32) (ix2 r k)
      = ∑ q : Fin 128,
          (Spec.lnK (Ideal.ofBits .f32 0x43000000#32) (Ideal.ofBits .f32 0x3727C5AC#32)
              (fun k => v6 (ix2 (0 : Fin 1) k)) (fun k => v8 (ix2 (0 : Fin 1) k))
              (fun k => max (∑ j : Fin 10000, v0 (ix2 r j) * v1 (ix2 j k)) 0) q + v34 (ix2 r q)) * v37 (ix2 q k) := by
  unfold k2_pay1 k2_pay3
  rw [shapeCast_self]
  refine (Ideal.matmul_constant_zero_apply (φ₁ := .f32) (φ₂ := .f32) dot_S400x128_S128x128_S400x128_1_0_0_1_n_n none
    (k2_pay2 (F := Ideal) v0 v1 v6 v8 v34) v37 (ix2 r k)).trans ?_
  refine (Cert.LibPlainDot.plain_sum dot_S400x128_S128x128_S400x128_1_0_0_1_n_n rfl rfl rfl rfl rfl rfl
    (fun a b => k2_pay2 (F := Ideal) v0 v1 v6 v8 v34 a * v37 b) r k).trans ?_
  exact Finset.sum_congr rfl fun q _ => congrArg (· * v37 (ix2 q k)) (k2_pay2_apply v0 v1 v6 v8 v34 r q)

end Cert.KernelIdeal.Pay

end
-- ==== Proof.KI_Glue2.lean ====
/-
  The second normalized layer's output array, entry by entry: the row normalization of the rectified propagation plus the
  previous hidden features, projected by the side-by-side weight.
-/
import proofs.«171846_g89721866813831_cont_sun_m_1046_11_alg».proof.Proof.KI_Val2
import proofs.«171846_g89721866813831_cont_sun_m_1046_11_alg».proof.Proof.PayR2
import proofs.«171846_g89721866813831_cont_sun_m_1046_11_alg».proof.Proof.KI_GlueLib

noncomputable section

open scoped BigOperators

namespace Cert.KernelIdeal.Glue

open Cert.KernelIdeal Cert.KernelIdeal.Gen Cert.KernelIdeal.Hand Cert.KernelIdeal.Pay
open Idealize.ShloMosaic Idealize.ShloMosaic.ValueIdx

/-- The second layer's array at row i and column k. -/
theorem G2_6_apply (A : S10000x10000.Idx → Elt Ideal .f32) (P1 H0 : S10000x128.Idx → Elt Ideal .f32)
    (Wml : S128x128.Idx → Elt Ideal .f32) (g b : S1x128.Idx → Elt Ideal .f32) (i : Fin 10000) (k : Fin 128) :
    G2_6 (F := Ideal) A P1 H0 Wml g b (ix2 i k)
      = Spec.mm
          (fun i q => Spec.lnK (Ideal.ofBits .f32 0x43000000#32) (Ideal.ofBits .f32 0x3727C5AC#32)
            (fun k => g (ix2 (0 : Fin 1) k)) (fun k => b (ix2 (0 : Fin 1) k))
            (fun k => max (Spec.mm (fun i k => A (ix2 i k)) (fun q k => P1 (ix2 q k)) i k) 0) q + H0 (ix2 i q))
          (fun q k => Wml (ix2 q k)) i k := by
  show k2_pay1 (F := Ideal) (k2_pay2 (F := Ideal) (rowBlock A (rowPt i)) P1 g b (rowBlock H0 (rowPt i)))
      (k2_pay3 (F := Ideal) Wml) (constant (F := Ideal) S400x128 .f32 0x00000000#32) (ix2 (rowIn i) k) = _
  refine (k2_store_apply (rowBlock A (rowPt i)) P1 g b (rowBlock H0 (rowPt i)) Wml (rowIn i) k).trans ?_
  unfold Spec.mm
  simp only [rowBlock_rowPt_rowIn]

end Cert.KernelIdeal.Glue

end
-- ==== Proof.KI_Val3.lean ====
import proofs.«171846_g89721866813831_cont_sun_m_1046_11_alg».proof.Proof.KI_Body3
import proofs.«171846_g89721866813831_cont_sun_m_1046_11_alg».proof.Proof.KI_ValLib
import Idealize.ShloMosaic.Lib.Pipeline.Value
import Idealize.ShloMosaic.Lib.Tactic

set_option maxRecDepth 16384

noncomputable section

namespace Cert.KernelIdeal.Hand

open Cert.KernelIdeal.Gen
open Idealize.ShloMosaic Idealize.ShloMosaic.TcCoe Idealize.SL Idealize.SL.RA Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! # Region 3, from blocks to the arrays: what the 25 write-backs leave in each output array, as one function of
    the input arrays as the region finds them -/

/-- A point of the grid as a number below 25. -/
def pt3 (t : Fin cfg3.N) : Fin 25 := Fin.cast N_3 t
theorem pt3_val (t : Fin cfg3.N) : (pt3 t).val = t.val := rfl

/-- The printed index maps, decided over the grid: a row-block window is at block row `t`, block column 0; a
    whole-array window at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Window 0's block at point `t` is rows `400 t …` of its array. -/
theorem iblk3_0_eq (c : Dev nD) (t : Fin cfg3.N) :
    (iblk3 V c 0 t : Vec F S400x10000 .f32) = rowBlock (V c main_arg1 : S10000x10000.Idx → Elt F .f32) (pt3 t) := by
  obtain ⟨e0_0, e0_1, -⟩ := idx_facts3 t
  funext y
  unfold iblk3
  rw [View.read_apply]
  show (V c main_arg1 : S10000x10000.Idx → Elt F .f32) (((cfg3.win 0).blk t).view.emb y) = _
  refine (rowBlock_apply _ (pt3 t) y _ ?_ ?_).symm
  · show win3_0.index t (0 : Fin 2) * 400 + 1 * (y 0).val = 400 * t.val + (y 0).val; rw [e0_0]; omega
  · show win3_0.index t (1 : Fin 2) * 10000 + 1 * (y 1).val = (y 1).val; rw [e0_1]; omega

/-- Window 1's block at every point is its whole array. -/
theorem iblk3_1_eq (c : Dev nD) (t : Fin cfg3.N) :
    (iblk3 V c 1 t : Vec F S10000x128 .f32) = (V c main_v11 : S10000x128.Idx → Elt F .f32) := by
  obtain ⟨-, -, e1_0, e1_1, -⟩ := idx_facts3 t
  funext y
  unfold iblk3
  rw [View.read_apply]
  show (V c main_v11 : S10000x128.Idx → Elt F .f32) (((cfg3.win 1).blk t).view.emb y) = _
  refine congrArg _ ?_
  funext a; apply Fin.ext
  match a with
  | ⟨0, _⟩ => show win3_1.index t (0 : Fin 2) * 10000 + 1 * (y 0).val = (y 0).val; rw [e1_0]; omega
  | ⟨1, _⟩ => show win3_1.index t (1 : Fin 2) * 128 + 1 * (y 1).val = (y 1).val; rw [e1_1]; omega

/-- Window 2's block at point `t` is rows `400 t …` of its array. -/
theorem iblk3_2_eq (c : Dev nD) (t : Fin cfg3.N) :
    (iblk3 V c 2 t : Vec F S400x64 .f32) = rowBlock (V c main_arg14 : S10000x64.Idx → Elt F .f32) (pt3 t) := by
  obtain ⟨-, -, -, -, e2_0, e2_1, -⟩ := idx_facts3 t
  funext y
  unfold iblk3
  rw [View.read_apply]
  show (V c main_arg14 : S10000x64.Idx → Elt F .f32) (((cfg3.win 2).blk t).view.emb y) = _
  refine (rowBlock_apply _ (pt3 t) y _ ?_ ?_).symm
  · show win3_2.index t (0 : Fin 2) * 400 + 1 * (y 0).val = 400 * t.val + (y 0).val; rw [e2_0]; omega
  · show win3_2.index t (1 : Fin 2) * 64 + 1 * (y 1).val = (y 1).val; rw [e2_1]; omega

/-- Window 3's block at every point is its whole array. -/
theorem iblk3_3_eq (c : Dev nD) (t : Fin cfg3.N) :
    (iblk3 V c 3 t : Vec F S1x64 .f32) = (V c main_v4 : S1x64.Idx → Elt F .f32) := by
  obtain ⟨-, -, -, -, -, -, e3_0, e3_1, -⟩ := idx_facts3 t
  funext y
  unfold iblk3
  rw [View.read_apply]
  show (V c main_v4 : S1x64.Idx → Elt F .f32) (((cfg3.win 3).blk t).view.emb y) = _
  refine congrArg _ ?_
  funext a; apply Fin.ext
  match a with
  | ⟨0, _⟩ => show win3_3.index t (0 : Fin 2) * 1 + 1 * (y 0).val = (y 0).val; rw [e3_0]; omega
  | ⟨1, _⟩ => show win3_3.index t (1 : Fin 2) * 64 + 1 * (y 1).val = (y 1).val; rw [e3_1]; omega

/-- Window 4's block at every point is its whole array. -/
theorem iblk3_4_eq (c : Dev nD) (t : Fin cfg3.N) :
    (iblk3 V c 4 t : Vec F S1x64 .f32) = (V c main_v5 : S1x64.Idx → Elt F .f32) := by
  obtain ⟨-, -, -, -, -, -, -, -, e4_0, e4_1, -⟩ := idx_facts3 t
  funext y
  unfold iblk3
  rw [View.read_apply]
  show (V c main_v5 : S1x64.Idx → Elt F .f32) (((cfg3.win 4).blk t).view.emb y) = _
  refine congrArg _ ?_
  funext a; apply Fin.ext
  match a with
  | ⟨0, _⟩ => show win3_4.index t (0 : Fin 2) * 1 + 1 * (y 0).val = (y 0).val; rw [e4_0]; omega
  | ⟨1, _⟩ => show win3_4.index t (1 : Fin 2) * 64 + 1 * (y 1).val = (y 1).val; rw [e4_1]; omega

/-- Window 5's block at every point is its whole array. -/
theorem iblk3_5_eq (c : Dev nD) (t : Fin cfg3.N) :
    (iblk3 V c 5 t : Vec F S1x64 .f32) = (V c main_v6 : S1x64.Idx → Elt F .f32) := by
  obtain ⟨-, -, -, -, -, -, -, -, -, -, e5_0, e5_1, -⟩ := idx_facts3 t
  funext y
  unfold iblk3
  rw [View.read_apply]
  show (V c main_v6 : S1x64.Idx → Elt F .f32) (((cfg3.win 5).blk t).view.emb y) = _
  refine congrArg _ ?_
  funext a; apply Fin.ext
  match a with
  | ⟨0, _⟩ => show win3_5.index t (0 : Fin 2) * 1 + 1 * (y 0).val = (y 0).val; rw [e5_0]; omega
  | ⟨1, _⟩ => show win3_5.index t (1 : Fin 2) * 64 + 1 * (y 1).val = (y 1).val; rw [e5_1]; omega

/-- Window 6's block at every point is its whole array. -/
theorem iblk3_6_eq (c : Dev nD) (t : Fin cfg3.N) :
    (iblk3 V c 6 t : Vec F S1x64 .f32) = (V c main_v7 : S1x64.Idx → Elt F .f32) := by
  obtain ⟨-, -, -, -, -, -, -, -, -, -, -, -, e6_0, e6_1, -⟩ := idx_facts3 t
  funext y
  unfold iblk3
  rw [View.read_apply]
  show (V c main_v7 : S1x64.Idx → Elt F .f32) (((cfg3.win 6).blk t).view.emb y) = _
  refine congrArg _ ?_
  funext a; apply Fin.ext
  match a with
  | ⟨0, _⟩ => show win3_6.index t (0 : Fin 2) * 1 + 1 * (y 0).val = (y 0).val; rw [e6_0]; omega
  | ⟨1, _⟩ => show win3_6.index t (1 : Fin 2) * 64 + 1 * (y 1).val = (y 1).val; rw [e6_1]; omega

/-- What output array main_v12 ends holding: at row `i`, column `k`, the body's payload of the row blocks that hold row
    `i` and of the whole-array inputs, read at that row of the block and column `k`. -/
def G3_7 (X0 : S10000x10000.Idx → Elt F .f32) (X1 : S10000x128.Idx → Elt F .f32) (X2 : S10000x64.Idx → Elt F .f32) (X3 : S1x64.Idx → Elt F .f32) (X4 : S1x64.Idx → Elt F .f32) (X5 : S1x64.Idx → Elt F .f32) (X6 : S1x64.Idx → Elt F .f32) : S10000x64.Idx → Elt F .f32 :=
  fun j => k3_pay1 (k3_pay3 (rowBlock X0 (rowPt (j 0))) X1 X3 X4) (k3_pay4 (rowBlock X0 (rowPt (j 0))) X1) (k3_pay5 X5) (k3_pay6 X6) (k3_pay7 (rowBlock X0 (rowPt (j 0))) X1) (rowBlock X2 (rowPt (j 0))) (ix2 (rowIn (j 0)) (j 1 : Fin 64))

/-- What point `t` writes back to it is block `t` of that function of the input arrays as the region finds them. -/
theorem flushed3_7_eq (c : Dev nD) (t : Fin cfg3.N) :
    (dat3 V c).flushed 7 t = ((cfg3.win 7).blk t).view.read (Elt F) (G3_7 (V c main_arg1) (V c main_v11) (V c main_arg14) (V c main_v4) (V c main_v5) (V c main_v6) (V c main_v7)) := by
  show (cfg3.win 7).cut (grid3.coords t) ((dat3 V c).after 7 t) = _
  rw [after3_7]
  unfold out3_7
  rw [View.canon_unit_zero zeros2_3]
  simp only [View.ld_unit_zero (S := S400x10000) zeros2_3, View.ld_unit_zero (S := S10000x128) zeros2_3, View.ld_unit_zero (S := S400x64) zeros2_3, View.ld_unit_zero (S := S1x64) zeros2_3]
  rw [iblk3_0_eq, iblk3_1_eq, iblk3_2_eq, iblk3_3_eq, iblk3_4_eq, iblk3_5_eq, iblk3_6_eq]
  obtain ⟨-, -, -, -, -, -, -, -, -, -, -, -, -, -, e7_0, e7_1⟩ := idx_facts3 t
  funext y
  show k3_pay1 (k3_pay3 (rowBlock (V c main_arg1 : S10000x10000.Idx → Elt F .f32) (pt3 t)) (V c main_v11 : S10000x128.Idx → Elt F .f32) (V c main_v4 : S1x64.Idx → Elt F .f32) (V c main_v5 : S1x64.Idx → Elt F .f32)) (k3_pay4 (rowBlock (V c main_arg1 : S10000x10000.Idx → Elt F .f32) (pt3 t)) (V c main_v11 : S10000x128.Idx → Elt F .f32)) (k3_pay5 (V c main_v6 : S1x64.Idx → Elt F .f32)) (k3_pay6 (V c main_v7 : S1x64.Idx → Elt F .f32)) (k3_pay7 (rowBlock (V c main_arg1 : S10000x10000.Idx → Elt F .f32) (pt3 t)) (V c main_v11 : S10000x128.Idx → Elt F .f32)) (rowBlock (V c main_arg14 : S10000x64.Idx → Elt F .f32) (pt3 t)) y
    = G3_7 (V c main_arg1 : S10000x10000.Idx → Elt F .f32) (V c main_v11 : S10000x128.Idx → Elt F .f32) (V c main_arg14 : S10000x64.Idx → Elt F .f32) (V c main_v4 : S1x64.Idx → Elt F .f32) (V c main_v5 : S1x64.Idx → Elt F .f32) (V c main_v6 : S1x64.Idx → Elt F .f32) (V c main_v7 : S1x64.Idx → Elt F .f32) (((cfg3.win 7).blk t).view.emb y)
  unfold G3_7
  have hy0 : (y 0).val < 400 := (y 0).isLt
  have h0 : ((((cfg3.win 7).blk t).view.emb y) 0 : Fin 10000).val = 400 * (pt3 t).val + (y 0).val := by
    show win3_7.index t (0 : Fin 2) * 400 + 1 * (y 0).val = 400 * t.val + (y 0).val; rw [e7_0]; omega
  have h1 : ((((cfg3.win 7).blk t).view.emb y) 1 : Fin 64).val = (y 1).val := by
    show win3_7.index t (1 : Fin 2) * 64 + 1 * (y 1).val = (y 1).val; rw [e7_1]; omega
  rw [rowPt_of_eq _ (pt3 t) (y 0).val hy0 h0, rowIn_of_eq _ (pt3 t) (y 0 : Fin 400) h0]
  refine congrArg _ ?_
  funext a; apply Fin.ext
  match a with
  | ⟨0, _⟩ => rfl
  | ⟨1, _⟩ => exact h1.symm

/-- An index of the array is in point `t`'s block iff each coordinate is in the block's range on its axis. -/
theorem mem_blk3_7 (t : Fin cfg3.N) (i : S10000x64.Idx) :
    i ∈ ((cfg3.win 7).blk t).view.set ↔ ∀ a : Fin 2, win3_7.index t a * S400x64.size a ≤ (i a).val ∧ (i a).val < win3_7.index t a * S400x64.size a + S400x64.size a := by
  show i ∈ ((View.whole main_v12).slice (win3_7.rect t)).set ↔ _
  rw [View.set_slice_whole, Rect.mem_set_unit]
  exact Iff.rfl

/-- Every index of the array is in the block of the point its row names. -/
theorem cover3_arr_7 (i : S10000x64.Idx) : ∃ t : Fin cfg3.N, (cfg3.win 7).flush t = true ∧ i ∈ ((cfg3.win 7).blk t).view.set := by
  have hi0 : (i 0).val < 10000 := (i 0).isLt
  have hi1 : (i 1).val < 64 := (i 1).isLt
  obtain ⟨t, ht⟩ : ∃ t : Fin cfg3.N, t.val = (i 0).val / 400 :=
    ⟨⟨(i 0).val / 400, by rw [show cfg3.N = 25 from N_3]; omega⟩, rfl⟩
  obtain ⟨-, -, -, -, -, -, -, -, -, -, -, -, -, -, e7_0, e7_1⟩ := idx_facts3 t
  refine ⟨t, flush3_7 t, ?_⟩
  rw [mem_blk3_7]
  intro a
  match a with
  | ⟨0, _⟩ => show win3_7.index t (0 : Fin 2) * 400 ≤ (i 0).val ∧ (i 0).val < win3_7.index t (0 : Fin 2) * 400 + 400; rw [e7_0, ht]; omega
  | ⟨1, _⟩ => show win3_7.index t (1 : Fin 2) * 64 ≤ (i 1).val ∧ (i 1).val < win3_7.index t (1 : Fin 2) * 64 + 64; rw [e7_1]; omega

/-- The array after the region: that function of the input arrays as the region finds them. -/
theorem final3_7 (c : Dev nD) : (dat3 V c).arrAt 7 cfg3.N = G3_7 (V c main_arg1) (V c main_v11) (V c main_arg14) (V c main_v4) (V c main_v5) (V c main_v6) (V c main_v7) :=
  (dat3 V c).arrAt_eq_of_cover 7 (G3_7 (V c main_arg1) (V c main_v11) (V c main_arg14) (V c main_v4) (V c main_v5) (V c main_v6) (V c main_v7)) (fun t _ => flushed3_7_eq V c t) cover3_arr_7

end Cert.KernelIdeal.Hand

end
-- ==== Proof.PayR3.lean ====
/-
  The latent block read at a coordinate.  The body multiplies the adjacency block by the 128-column projection, cuts the
  product into its first 64 columns (the mean head) and its last 64 (the log-deviation head), normalizes each row of
  either (length 64), and stores noise times the exponential of the second plus the first.
-/
import proofs.«171846_g89721866813831_cont_sun_m_1046_11_alg».proof.Proof.PayLib

noncomputable section

open scoped BigOperators

namespace Cert.KernelIdeal.Pay

open Cert.KernelIdeal Cert.KernelIdeal.Gen
open Idealize.ShloMosaic Idealize.ShloMosaic.ValueIdx

/-- The adjacency product at row r and column j: the sum over the 10000 middle coordinates. -/
theorem k3_pay2_apply (v0 : Vec Ideal S400x10000 .f32) (v1 : Vec Ideal S10000x128 .f32) (r : Fin 400) (j : Fin 128) :
    k3_pay2 (F := Ideal) v0 v1 (ix2 r j) = ∑ q : Fin 10000, v0 (ix2 r q) * v1 (ix2 q j) := by
  unfold k3_pay2
  exact adjProd_apply v0 v1 r j

/-- Its last 64 columns: column k of the cut is column 64 + k of the product. -/
theorem k3_pay4_apply (v0 : Vec Ideal S400x10000 .f32) (v1 : Vec Ideal S10000x128 .f32) (r : Fin 400) (k : Fin 64) :
    k3_pay4 (F := Ideal) v0 v1 (ix2 r k) = ∑ q : Fin 10000, v0 (ix2 r q) * v1 (ix2 q (Fin.natAdd 64 k : Fin 128)) := by
  unfold k3_pay4
  exact (slice2_axis1_apply 64 (k3_pay2 (F := Ideal) v0 v1) slices_S400x128_o0_64_S400x64 r k
    (Fin.natAdd 64 k : Fin 128) rfl).trans (k3_pay2_apply v0 v1 r _)

/-- Its first 64 columns: column k of the cut is column k of the product. -/
theorem k3_lo_apply (v0 : Vec Ideal S400x10000 .f32) (v1 : Vec Ideal S10000x128 .f32) (r : Fin 400) (k : Fin 64) :
    extractStridedSlice S400x64 ![0, 0] (k3_pay2 (F := Ideal) v0 v1) slices_S400x128_o0_0_S400x64 (ix2 r k)
      = ∑ q : Fin 10000, v0 (ix2 r q) * v1 (ix2 q (Fin.castAdd 64 k : Fin 128)) :=
  (slice2_axis1_apply 0 (k3_pay2 (F := Ideal) v0 v1) slices_S400x128_o0_0_S400x64 r k
    (Fin.castAdd 64 k : Fin 128) (Nat.zero_add _).symm).trans (k3_pay2_apply v0 v1 r _)

/-- The mean head is the row normalization of the first cut, by unfolding. -/
theorem k3_pay3_eq (v0 : Vec Ideal S400x10000 .f32) (v1 : Vec Ideal S10000x128 .f32) (v5 v7 : Vec Ideal S1x64 .f32) :
    k3_pay3 (F := Ideal) v0 v1 v5 v7
      = lnTerm (n := 64) 0x42800000#32
          (extractStridedSlice S400x64 ![0, 0] (k3_pay2 (F := Ideal) v0 v1) slices_S400x128_o0_0_S400x64)
          (shapeCast S1x64 v5 shapeCasts_S1x64_S1x64) (shapeCast S1x64 v7 shapeCasts_S1x64_S1x64)
          reduces_S400x64_S400 shapeCasts_S400_S400x1 broadcasts_S400x1_S400x64 broadcasts_S1x64_S400x64 (.inl rfl) rfl := rfl

/-- At row r and column k: the normalization, with gain row v5 and bias row v7, of row r of the first cut. -/
theorem k3_pay3_apply (v0 : Vec Ideal S400x10000 .f32) (v1 : Vec Ideal S10000x128 .f32) (v5 v7 : Vec Ideal S1x64 .f32)
    (r : Fin 400) (k : Fin 64) :
    k3_pay3 (F := Ideal) v0 v1 v5 v7 (ix2 r k)
      = Spec.lnK (Ideal.ofBits .f32 0x42800000#32) (Ideal.ofBits .f32 0x3727C5AC#32)
          (fun k => v5 (ix2 (0 : Fin 1) k)) (fun k => v7 (ix2 (0 : Fin 1) k))
          (fun k => ∑ q : Fin 10000, v0 (ix2 r q) * v1 (ix2 q (Fin.castAdd 64 k : Fin 128))) k := by
  refine (congrFun (k3_pay3_eq v0 v1 v5 v7) (ix2 r k)).trans ?_
  have h := (lnTerm_apply (n := 64) 0x42800000#32
    (extractStridedSlice S400x64 ![0, 0] (k3_pay2 (F := Ideal) v0 v1) slices_S400x128_o0_0_S400x64)
    (shapeCast S1x64 v5 shapeCasts_S1x64_S1x64) (shapeCast S1x64 v7 shapeCasts_S1x64_S1x64)
    reduces_S400x64_S400 shapeCasts_S400_S400x1 broadcasts_S400x1_S400x64 broadcasts_S1x64_S400x64 (.inl rfl) rfl r k)
  refine h.trans ?_
  rw [shapeCast_self, shapeCast_self]
  exact congrArg (fun x => Spec.lnK _ _ _ _ x k) (funext fun c => k3_lo_apply v0 v1 r c)

/-- The stored term, for any mean head X, is noise times the exponential of the row normalization of the second cut,
    plus X: by unfolding (the second cut's row sums reach the last part of the body as a column of their own). -/
theorem k3_pay1_eq (X : FVec Ideal S400x64 .f32) (v0 : Vec Ideal S400x10000 .f32) (v1 : Vec Ideal S10000x128 .f32)
    (v34 v36 : Vec Ideal S1x64 .f32) (v62 : Vec Ideal S400x64 .f32) :
    k3_pay1 (F := Ideal) X (k3_pay4 (F := Ideal) v0 v1) (k3_pay5 (F := Ideal) v34) (k3_pay6 (F := Ideal) v36)
        (k3_pay7 (F := Ideal) v0 v1) v62
      = addf (s := S400x64) (φ := .f32)
          (mulf (s := S400x64) (φ := .f32) v62
            (exp (s := S400x64) (φ := .f32)
              (lnTerm (n := 64) 0x42800000#32 (k3_pay4 (F := Ideal) v0 v1)
                (shapeCast S1x64 v34 shapeCasts_S1x64_S1x64) (shapeCast S1x64 v36 shapeCasts_S1x64_S1x64)
                reduces_S400x64_S400 shapeCasts_S400_S400x1 broadcasts_S400x1_S400x64 broadcasts_S1x64_S400x64
                (.inl rfl) rfl)))
          X := rfl

/-- The latent block at row r and column k. -/
theorem k3_store_apply (v0 : Vec Ideal S400x10000 .f32) (v1 : Vec Ideal S10000x128 .f32)
    (v5 v7 v34 v36 : Vec Ideal S1x64 .f32) (v62 : Vec Ideal S400x64 .f32) (r : Fin 400) (k : Fin 64) :
    k3_pay1 (F := Ideal) (k3_pay3 (F := Ideal) v0 v1 v5 v7) (k3_pay4 (F := Ideal) v0 v1) (k3_pay5 (F := Ideal) v34)
        (k3_pay6 (F := Ideal) v36) (k3_pay7 (F := Ideal) v0 v1) v62 (ix2 r k)
      = v62 (ix2 r k)
          * Ideal.exp (Spec.lnK (Ideal.ofBits .f32 0x42800000#32) (Ideal.ofBits .f32 0x3727C5AC#32)
              (fun k => v34 (ix2 (0 : Fin 1) k)) (fun k => v36 (ix2 (0 : Fin 1) k))
              (fun k => ∑ q : Fin 10000, v0 (ix2 r q) * v1 (ix2 q (Fin.natAdd 64 k : Fin 128))) k)
        + Spec.lnK (Ideal.ofBits .f32 0x42800000#32) (Ideal.ofBits .f32 0x3727C5AC#32)
            (fun k => v5 (ix2 (0 : Fin 1) k)) (fun k => v7 (ix2 (0 : Fin 1) k))
            (fun k => ∑ q : Fin 10000, v0 (ix2 r q) * v1 (ix2 q (Fin.castAdd 64 k : Fin 128))) k := by
  refine (congrFun (k3_pay1_eq (k3_pay3 (F := Ideal) v0 v1 v5 v7) v0 v1 v34 v36 v62) (ix2 r k)).trans ?_
  show v62 (ix2 r k) * Ideal.exp (lnTerm (n := 64) 0x42800000#32 (k3_pay4 (F := Ideal) v0 v1)
      (shapeCast S1x64 v34 shapeCasts_S1x64_S1x64) (shapeCast S1x64 v36 shapeCasts_S1x64_S1x64)
      reduces_S400x64_S400 shapeCasts_S400_S400x1 broadcasts_S400x1_S400x64 broadcasts_S1x64_S400x64 (.inl rfl) rfl (ix2 r k))
    + k3_pay3 (F := Ideal) v0 v1 v5 v7 (ix2 r k) = _
  refine congrArg₂ (· + ·) (congrArg (fun t => v62 (ix2 r k) * Ideal.exp t) ?_) (k3_pay3_apply v0 v1 v5 v7 r k)
  have h := (lnTerm_apply (n := 64) 0x42800000#32 (k3_pay4 (F := Ideal) v0 v1)
    (shapeCast S1x64 v34 shapeCasts_S1x64_S1x64) (shapeCast S1x64 v36 shapeCasts_S1x64_S1x64)
    reduces_S400x64_S400 shapeCasts_S400_S400x1 broadcasts_S400x1_S400x64 broadcasts_S1x64_S400x64 (.inl rfl) rfl r k)
  refine h.trans ?_
  rw [shapeCast_self, shapeCast_self]
  exact congrArg (fun x => Spec.lnK _ _ _ _ x k) (funext fun c => k3_pay4_apply v0 v1 r c)

end Cert.KernelIdeal.Pay

end
-- ==== Proof.KI_Glue3.lean ====
/-
  The latent array, entry by entry: noise times the exponential of the normalized log-deviation head plus the normalized
  mean head, the two heads being the last and the first 64 columns of one propagated product.
-/
import proofs.«171846_g89721866813831_cont_sun_m_1046_11_alg».proof.Proof.KI_Val3
import proofs.«171846_g89721866813831_cont_sun_m_1046_11_alg».proof.Proof.PayR3
import proofs.«171846_g89721866813831_cont_sun_m_1046_11_alg».proof.Proof.KI_GlueLib

noncomputable section

open scoped BigOperators

namespace Cert.KernelIdeal.Glue

open Cert.KernelIdeal Cert.KernelIdeal.Gen Cert.KernelIdeal.Hand Cert.KernelIdeal.Pay
open Idealize.ShloMosaic Idealize.ShloMosaic.ValueIdx

/-- The latent array at row i and column k. -/
theorem G3_7_apply (A : S10000x10000.Idx → Elt Ideal .f32) (P2 : S10000x128.Idx → Elt Ideal .f32)
    (N : S10000x64.Idx → Elt Ideal .f32) (gm bm gl bl : S1x64.Idx → Elt Ideal .f32) (i : Fin 10000) (k : Fin 64) :
    G3_7 (F := Ideal) A P2 N gm bm gl bl (ix2 i k)
      = N (ix2 i k)
          * Ideal.exp (Spec.lnK (Ideal.ofBits .f32 0x42800000#32) (Ideal.ofBits .f32 0x3727C5AC#32)
              (fun k => gl (ix2 (0 : Fin 1) k)) (fun k => bl (ix2 (0 : Fin 1) k))
              (fun k => Spec.mm (fun i k => A (ix2 i k)) (fun q k => P2 (ix2 q k)) i (Fin.natAdd 64 k : Fin 128)) k)
        + Spec.lnK (Ideal.ofBits .f32 0x42800000#32) (Ideal.ofBits .f32 0x3727C5AC#32)
            (fun k => gm (ix2 (0 : Fin 1) k)) (fun k => bm (ix2 (0 : Fin 1) k))
            (fun k => Spec.mm (fun i k => A (ix2 i k)) (fun q k => P2 (ix2 q k)) i (Fin.castAdd 64 k : Fin 128)) k := by
  show k3_pay1 (F := Ideal) (k3_pay3 (F := Ideal) (rowBlock A (rowPt i)) P2 gm bm) (k3_pay4 (F := Ideal) (rowBlock A (rowPt i)) P2)
      (k3_pay5 (F := Ideal) gl) (k3_pay6 (F := Ideal) bl) (k3_pay7 (F := Ideal) (rowBlock A (rowPt i)) P2)
      (rowBlock N (rowPt i)) (ix2 (rowIn i) k) = _
  refine (k3_store_apply (rowBlock A (rowPt i)) P2 gm bm gl bl (rowBlock N (rowPt i)) (rowIn i) k).trans ?_
  unfold Spec.mm
  simp only [rowBlock_rowPt_rowIn]

end Cert.KernelIdeal.Glue

end
-- ==== Proof.KI_Val4.lean ====
import proofs.«171846_g89721866813831_cont_sun_m_1046_11_alg».proof.Proof.KI_Body4
import proofs.«171846_g89721866813831_cont_sun_m_1046_11_alg».proof.Proof.KI_ValLib
import Idealize.ShloMosaic.Lib.Pipeline.Value
import Idealize.ShloMosaic.Lib.Tactic

set_option maxRecDepth 16384

noncomputable section

namespace Cert.KernelIdeal.Hand

open Cert.KernelIdeal.Gen
open Idealize.ShloMosaic Idealize.ShloMosaic.TcCoe Idealize.SL Idealize.SL.RA Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))
variable (q4 : Fin cfg4.W → PosShare TreeShare)

/-! # Region 4, from blocks to the array: what the 25 write-backs leave in the output array, as one function of the
    input array as the region finds it -/

/-- A point of the grid as a number below 25. -/
def pt4 (t : Fin cfg4.N) : Fin 25 := Fin.cast N_4 t
theorem pt4_val (t : Fin cfg4.N) : (pt4 t).val = t.val := rfl

/-- The printed index maps, decided over the grid: the row-block windows (input 0, the output) are at block row `t`,
    block column 0; the whole-array window is at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Window 0's block at point `t` is rows `400 t …` of its array. -/
theorem iblk4_0_eq (c : Dev nD) (t : Fin cfg4.N) :
    (iblk4 V c 0 t : Vec F S400x64 .f32) = rowBlock (V c main_v12 : S10000x64.Idx → Elt F .f32) (pt4 t) := by
  obtain ⟨e0, e1, -⟩ := idx_facts4 t
  funext y
  unfold iblk4
  rw [View.read_apply]
  show (V c main_v12 : S10000x64.Idx → Elt F .f32) (((cfg4.win 0).blk t).view.emb y) = _
  refine (rowBlock_apply _ (pt4 t) y _ ?_ ?_).symm
  · show win4_0.index t (0 : Fin 2) * 400 + 1 * (y 0).val = 400 * t.val + (y 0).val; rw [e0]; omega
  · show win4_0.index t (1 : Fin 2) * 64 + 1 * (y 1).val = (y 1).val; rw [e1]; omega

/-- Window 1's block at every point is its whole array. -/
theorem iblk4_1_eq (c : Dev nD) (t : Fin cfg4.N) :
    (iblk4 V c 1 t : Vec F S10000x64 .f32) = (V c main_v12 : S10000x64.Idx → Elt F .f32) := by
  obtain ⟨-, -, e2, e3, -⟩ := idx_facts4 t
  funext y
  unfold iblk4
  rw [View.read_apply]
  show (V c main_v12 : S10000x64.Idx → Elt F .f32) (((cfg4.win 1).blk t).view.emb y) = _
  refine congrArg _ ?_
  funext a; apply Fin.ext
  match a with
  | ⟨0, _⟩ => show win4_1.index t (0 : Fin 2) * 10000 + 1 * (y 0).val = (y 0).val; rw [e2]; omega
  | ⟨1, _⟩ => show win4_1.index t (1 : Fin 2) * 64 + 1 * (y 1).val = (y 1).val; rw [e3]; omega

/-- What the output array ends holding: at row `i`, column `k`, the body's payload of the row block that holds row `i`
    and of the whole array, read at that row of the block and column `k`. -/
def G4 (X : S10000x64.Idx → Elt F .f32) : S10000x10000.Idx → Elt F .f32 :=
  fun j => k4_pay1 (rowBlock X (rowPt (j 0))) X (ix2 (rowIn (j 0)) (j 1 : Fin 10000))

/-- What point `t` writes back is block `t` of `G4` of the input array as the region finds it. -/
theorem flushed4_eq (c : Dev nD) (t : Fin cfg4.N) :
    (dat4 V q4 c).flushed 2 t = ((cfg4.win 2).blk t).view.read (Elt F) (G4 (V c main_v12)) := by
  show (cfg4.win 2).cut (grid4.coords t) ((dat4 V q4 c).after 2 t) = _
  rw [after4_2]
  unfold out4_2
  rw [View.canon_unit_zero zeros2_4]
  simp only [View.ld_unit_zero (S := S400x64) zeros2_4, View.ld_unit_zero (S := S10000x64) zeros2_4]
  rw [iblk4_0_eq, iblk4_1_eq]
  obtain ⟨-, -, -, -, e4, e5⟩ := idx_facts4 t
  funext y
  show k4_pay1 (rowBlock (V c main_v12 : S10000x64.Idx → Elt F .f32) (pt4 t)) (V c main_v12 : S10000x64.Idx → Elt F .f32) y
    = G4 (V c main_v12 : S10000x64.Idx → Elt F .f32) (((cfg4.win 2).blk t).view.emb y)
  unfold G4
  have hy0 : (y 0).val < 400 := (y 0).isLt
  have h0 : ((((cfg4.win 2).blk t).view.emb y) 0 : Fin 10000).val = 400 * (pt4 t).val + (y 0).val := by
    show win4_2.index t (0 : Fin 2) * 400 + 1 * (y 0).val = 400 * t.val + (y 0).val; rw [e4]; omega
  have h1 : ((((cfg4.win 2).blk t).view.emb y) 1 : Fin 10000).val = (y 1).val := by
    show win4_2.index t (1 : Fin 2) * 10000 + 1 * (y 1).val = (y 1).val; rw [e5]; omega
  rw [rowPt_of_eq _ (pt4 t) (y 0).val hy0 h0, rowIn_of_eq _ (pt4 t) (y 0 : Fin 400) h0]
  refine congrArg _ ?_
  funext a; apply Fin.ext
  match a with
  | ⟨0, _⟩ => rfl
  | ⟨1, _⟩ => exact h1.symm

/-- An index of the output array is in point `t`'s block iff each coordinate is in the block's range on its axis. -/
theorem mem_blk4 (t : Fin cfg4.N) (i : S10000x10000.Idx) :
    i ∈ ((cfg4.win 2).blk t).view.set ↔ ∀ a : Fin 2, win4_2.index t a * S400x10000.size a ≤ (i a).val ∧ (i a).val < win4_2.index t a * S400x10000.size a + S400x10000.size a := by
  show i ∈ ((View.whole main_v13).slice (win4_2.rect t)).set ↔ _
  rw [View.set_slice_whole, Rect.mem_set_unit]
  exact Iff.rfl

/-- Every index of the output array is in the block of the point its row names. -/
theorem cover4 (i : S10000x10000.Idx) : ∃ t : Fin cfg4.N, (cfg4.win 2).flush t = true ∧ i ∈ ((cfg4.win 2).blk t).view.set := by
  have hi0 : (i 0).val < 10000 := (i 0).isLt
  have hi1 : (i 1).val < 10000 := (i 1).isLt
  obtain ⟨t, ht⟩ : ∃ t : Fin cfg4.N, t.val = (i 0).val / 400 :=
    ⟨⟨(i 0).val / 400, by rw [show cfg4.N = 25 from N_4]; omega⟩, rfl⟩
  obtain ⟨-, -, -, -, e4, e5⟩ := idx_facts4 t
  refine ⟨t, flush4_2 t, ?_⟩
  rw [mem_blk4]
  intro a
  match a with
  | ⟨0, _⟩ => show win4_2.index t (0 : Fin 2) * 400 ≤ (i 0).val ∧ (i 0).val < win4_2.index t (0 : Fin 2) * 400 + 400; rw [e4, ht]; omega
  | ⟨1, _⟩ => show win4_2.index t (1 : Fin 2) * 10000 ≤ (i 1).val ∧ (i 1).val < win4_2.index t (1 : Fin 2) * 10000 + 10000; rw [e5]; omega

/-- The output array after the region: `G4` of the input array as the region finds it, at any shares. -/
theorem final4 (c : Dev nD) : (dat4 V q4 c).arrAt 2 cfg4.N = G4 (V c main_v12) :=
  (dat4 V q4 c).arrAt_eq_of_cover 2 (G4 (V c main_v12)) (fun t _ => flushed4_eq V q4 c t) cover4

end Cert.KernelIdeal.Hand

end
-- ==== Proof.PayR4.lean ====
/-
  The decoder's block read at a coordinate.  Its product contracts the second axis of both operands — an [M,K] block
  against an [N,K] block, giving [M,N] — so at result position (a, b) and contraction position q the left operand is
  read at (a, q) and the right operand at (b, q): the inner product of row a of the first with row b of the second.
  The logistic is then applied entry by entry.
-/
import proofs.«171846_g89721866813831_cont_sun_m_1046_11_alg».proof.Proof.Gen.KernelIdeal.Skeleton
import proofs.«171846_g89721866813831_cont_sun_m_1046_11_alg».proof.Proof.Spec
import proofs.«171846_g89721866813831_cont_sun_m_1046_11_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen
open Idealize.ShloMosaic Idealize.ShloMosaic.ValueIdx

section RowsByRows

variable {M K N : Nat} (d : DotDims ⟨2, ![M, K]⟩ ⟨2, ![N, K]⟩ ⟨2, ![M, N]⟩)

/-- One axis is contracted. -/
theorem rr_contr_rank (hlc : d.lhsContracting = [1]) : d.contr.rank = 1 := by rw [d.rank_contr, hlc]; rfl

/-- Its extent is the shared second extent. -/
theorem rr_contr_size (hlc : d.lhsContracting = [1]) :
    d.contr.size ⟨0, by rw [rr_contr_rank d hlc]; exact Nat.one_pos⟩ = K := by
  obtain ⟨lc, rc, ln, rn, lb, rb, wf⟩ := d
  dsimp only at hlc
  subst hlc
  simp [DotDims.contr]

/-- The left operand is read at (row of the result, contraction position). -/
theorem rr_lhs (hlc : d.lhsContracting = [1]) (hrc : d.rhsContracting = [1]) (hln : d.lhsNonContracting = [0])
    (hrn : d.rhsNonContracting = [0]) (hlb : d.lhsBatch = []) (hrb : d.rhsBatch = [])
    (a : Fin M) (b : Fin N) (q : Fin K) :
    d.lhsIdx (ix2 a b) ((contrEquiv1 d K (rr_contr_rank d hlc) (rr_contr_size d hlc)).symm q) = ix2 a q := by
  funext ax
  apply Fin.ext
  match ax with
  | ⟨1, _⟩ =>
    have h := DotDims.lhsIdx_val_of_single d (cl := (1 : Fin 2)) hlc (ix2 a b)
      ((contrEquiv1 d K (rr_contr_rank d hlc) (rr_contr_size d hlc)).symm q)
    rw [contrEquiv1_symm_val] at h
    exact h
  | ⟨0, _⟩ =>
    obtain ⟨lc, rc, ln, rn, lb, rb, wf⟩ := d
    dsimp only at hlc hrc hln hrn hlb hrb
    subst hlc hrc hln hrn hlb hrb
    simp [DotDims.lhsIdx]
    rfl

/-- The right operand is read at (column of the result, contraction position). -/
theorem rr_rhs (hlc : d.lhsContracting = [1]) (hrc : d.rhsContracting = [1]) (hln : d.lhsNonContracting = [0])
    (hrn : d.rhsNonContracting = [0]) (hlb : d.lhsBatch = []) (hrb : d.rhsBatch = [])
    (a : Fin M) (b : Fin N) (q : Fin K) :
    d.rhsIdx (ix2 a b) ((contrEquiv1 d K (rr_contr_rank d hlc) (rr_contr_size d hlc)).symm q) = ix2 b q := by
  funext ax
  apply Fin.ext
  match ax with
  | ⟨1, _⟩ =>
    have h := DotDims.rhsIdx_val_of_single d (cr := (1 : Fin 2)) hrc (ix2 a b)
      ((contrEquiv1 d K (rr_contr_rank d hlc) (rr_contr_size d hlc)).symm q)
    rw [contrEquiv1_symm_val] at h
    exact h
  | ⟨0, _⟩ =>
    obtain ⟨lc, rc, ln, rn, lb, rb, wf⟩ := d
    dsimp only at hlc hrc hln hrn hlb hrb
    subst hlc hrc hln hrn hlb hrb
    simp [DotDims.rhsIdx]
    rfl

/-- The contraction's sum is the sum over the shared second coordinate. -/
theorem rr_sum {β : Type*} [AddCommMonoid β] (hlc : d.lhsContracting = [1]) (hrc : d.rhsContracting = [1])
    (hln : d.lhsNonContracting = [0]) (hrn : d.rhsNonContracting = [0]) (hlb : d.lhsBatch = []) (hrb : d.rhsBatch = [])
    (f : (⟨2, ![M, K]⟩ : Shape).Idx → (⟨2, ![N, K]⟩ : Shape).Idx → β) (a : Fin M) (b : Fin N) :
    ∑ k : d.contr.Idx, f (d.lhsIdx (ix2 a b) k) (d.rhsIdx (ix2 a b) k) = ∑ q : Fin K, f (ix2 a q) (ix2 b q) := by
  rw [← Equiv.sum_comp (contrEquiv1 d K (rr_contr_rank d hlc) (rr_contr_size d hlc)).symm]
  refine Finset.sum_congr rfl fun q _ => ?_
  rw [rr_lhs d hlc hrc hln hrn hlb hrb a b q, rr_rhs d hlc hrc hln hrn hlb hrb a b q]

end RowsByRows

/-- The decoder's block at row r and column j: the logistic of the inner product of row r of the first loaded block
    with row j of the second. -/
theorem k4_pay1_apply (v0 : Vec Ideal S400x64 .f32) (v2 : Vec Ideal S10000x64 .f32) (r : Fin 400) (j : Fin 10000) :
    k4_pay1 (F := Ideal) v0 v2 (ix2 r j)
      = Ideal.logistic (∑ k : Fin 64, v0 (ix2 r k) * v2 (ix2 j k)) := by
  unfold k4_pay1
  show Ideal.logistic _ = _
  refine congrArg Ideal.logistic ?_
  rw [shapeCast_self, shapeCast_self]
  refine (Ideal.matmul_constant_zero_apply dot_S400x64_S10000x64_S400x10000_1_1_0_0_n_n none v0 v2 (ix2 r j)).trans ?_
  exact rr_sum dot_S400x64_S10000x64_S400x10000_1_1_0_0_n_n rfl rfl rfl rfl rfl rfl (fun a b => v0 a * v2 b) r j

end Cert.KernelIdeal.Pay

end
-- ==== Proof.KI_Glue4.lean ====
/-
  The decoder's output array, entry by entry: the logistic of the inner product of two latent rows.
-/
import proofs.«171846_g89721866813831_cont_sun_m_1046_11_alg».proof.Proof.KI_Val4
import proofs.«171846_g89721866813831_cont_sun_m_1046_11_alg».proof.Proof.PayR4
import proofs.«171846_g89721866813831_cont_sun_m_1046_11_alg».proof.Proof.KI_GlueLib

noncomputable section

open scoped BigOperators

namespace Cert.KernelIdeal.Glue

open Cert.KernelIdeal Cert.KernelIdeal.Gen Cert.KernelIdeal.Hand Cert.KernelIdeal.Pay
open Idealize.ShloMosaic Idealize.ShloMosaic.ValueIdx

/-- The decoder's array at row i and column j is the specification's decoder of the latent array. -/
theorem G4_apply (Z : S10000x64.Idx → Elt Ideal .f32) (i j : Fin 10000) :
    G4 (F := Ideal) Z (ix2 i j) = Spec.dec (fun i k => Z (ix2 i k)) i j := by
  show k4_pay1 (F := Ideal) (rowBlock Z (rowPt i)) Z (ix2 (rowIn i) j) = _
  refine (k4_pay1_apply (rowBlock Z (rowPt i)) Z (rowIn i) j).trans ?_
  unfold Spec.dec
  exact congrArg Ideal.logistic (Finset.sum_congr rfl fun k _ => by rw [rowBlock_rowPt_rowIn])

end Cert.KernelIdeal.Glue

end
-- ==== Proof.KI_Glue.lean ====
/-
  The five regions' output arrays read entry by entry against the specification: one module that gathers them.
-/
import proofs.«171846_g89721866813831_cont_sun_m_1046_11_alg».proof.Proof.KI_Glue0
import proofs.«171846_g89721866813831_cont_sun_m_1046_11_alg».proof.Proof.KI_Glue1
import proofs.«171846_g89721866813831_cont_sun_m_1046_11_alg».proof.Proof.KI_Glue2
import proofs.«171846_g89721866813831_cont_sun_m_1046_11_alg».proof.Proof.KI_Glue3
import proofs.«171846_g89721866813831_cont_sun_m_1046_11_alg».proof.Proof.KI_Glue4
-- ==== Proof.KI_Value.lean ====
/-
  What the kernel program computes, at the ideal instance: reading the fold of the buffer contents region by
  region, each region's output array as a function of row and column of the arrays it found, the result array
  is the decoder of the latent sample whose two heads are propagated together through the side-by-side
  projection, every row normalization with the reciprocal square root as a factor.
-/
import proofs.«171846_g89721866813831_cont_sun_m_1046_11_alg».proof.Proof.KI_Chain
import proofs.«171846_g89721866813831_cont_sun_m_1046_11_alg».proof.Proof.KI_Glue

set_option maxRecDepth 16384

noncomputable section

namespace Cert.KernelIdeal.Hand

open Cert.KernelIdeal Cert.KernelIdeal.Gen Cert.KernelIdeal.Glue
open Idealize.ShloMosaic Idealize.ShloMosaic.TcCoe Idealize.ShloMosaic.ValueIdx Idealize.SL.Sem

variable (m : (ℓ : Loc nD τ sig) → Buf (Elt Ideal) ℓ) (c : Dev nD)

/-! ## The arguments, by coordinates -/

abbrev aX : Fin 10000 → Fin 128 → EReal := fun i k => (m ((c : Thread nD τ).loc main_arg0) : S10000x128.Idx → EReal) (ix2 i k)
abbrev aA : Fin 10000 → Fin 10000 → EReal := fun i k => (m ((c : Thread nD τ).loc main_arg1) : S10000x10000.Idx → EReal) (ix2 i k)
abbrev aWin : Fin 128 → Fin 128 → EReal := fun i k => (m ((c : Thread nD τ).loc main_arg2) : S128x128.Idx → EReal) (ix2 i k)
abbrev aWh : Fin 128 → Fin 128 → EReal := fun i k => (m ((c : Thread nD τ).loc main_arg3) : S128x128.Idx → EReal) (ix2 i k)
abbrev aWm : Fin 128 → Fin 64 → EReal := fun i k => (m ((c : Thread nD τ).loc main_arg4) : S128x64.Idx → EReal) (ix2 i k)
abbrev aWl : Fin 128 → Fin 64 → EReal := fun i k => (m ((c : Thread nD τ).loc main_arg5) : S128x64.Idx → EReal) (ix2 i k)
abbrev ag0 : Fin 128 → EReal := fun k => (m ((c : Thread nD τ).loc main_arg6) : S128.Idx → EReal) (ix1 k)
abbrev ab0 : Fin 128 → EReal := fun k => (m ((c : Thread nD τ).loc main_arg7) : S128.Idx → EReal) (ix1 k)
abbrev ag1 : Fin 128 → EReal := fun k => (m ((c : Thread nD τ).loc main_arg8) : S128.Idx → EReal) (ix1 k)
abbrev ab1 : Fin 128 → EReal := fun k => (m ((c : Thread nD τ).loc main_arg9) : S128.Idx → EReal) (ix1 k)
abbrev agm : Fin 64 → EReal := fun k => (m ((c : Thread nD τ).loc main_arg10) : S64.Idx → EReal) (ix1 k)
abbrev abm : Fin 64 → EReal := fun k => (m ((c : Thread nD τ).loc main_arg11) : S64.Idx → EReal) (ix1 k)
abbrev agl : Fin 64 → EReal := fun k => (m ((c : Thread nD τ).loc main_arg12) : S64.Idx → EReal) (ix1 k)
abbrev abl : Fin 64 → EReal := fun k => (m ((c : Thread nD τ).loc main_arg13) : S64.Idx → EReal) (ix1 k)
abbrev aN : Fin 10000 → Fin 64 → EReal := fun i k => (m ((c : Thread nD τ).loc main_arg14) : S10000x64.Idx → EReal) (ix2 i k)

/-! ## What the regions find of the arguments and of the host operations' results -/

theorem A2 : (fun i j => (X2 m c main_arg1 : S10000x10000.Idx → EReal) (ix2 i j)) = aA m c := by
  funext i j; rw [X2_of m c main_arg1 (by decide), X1_of m c main_arg1 (by decide)]
theorem A3 : (fun i j => (X3 m c main_arg1 : S10000x10000.Idx → EReal) (ix2 i j)) = aA m c := by
  funext i j; rw [X3_of m c main_arg1 (by decide) (by decide)]; exact congrFun (congrFun (A2 m c) i) j
theorem A4 : (fun i j => (X4 m c main_arg1 : S10000x10000.Idx → EReal) (ix2 i j)) = aA m c := by
  funext i j; rw [X4_of m c main_arg1 (by decide)]; exact congrFun (congrFun (A3 m c) i) j

theorem g0_2 : (fun k => (X2 m c main_v0 : S1x128.Idx → EReal) (ix2 (0 : Fin 1) k)) = ag0 m c := by
  funext k; rw [X2_of m c main_v0 (by decide), X1_v0]; exact row_apply _ _ k
theorem b0_2 : (fun k => (X2 m c main_v1 : S1x128.Idx → EReal) (ix2 (0 : Fin 1) k)) = ab0 m c := by
  funext k; rw [X2_of m c main_v1 (by decide), X1_v1]; exact row_apply _ _ k
theorem g1_3 : (fun k => (X3 m c main_v2 : S1x128.Idx → EReal) (ix2 (0 : Fin 1) k)) = ag1 m c := by
  funext k; rw [X3_of m c main_v2 (by decide) (by decide), X2_of m c main_v2 (by decide), X1_v2]; exact row_apply _ _ k
theorem b1_3 : (fun k => (X3 m c main_v3 : S1x128.Idx → EReal) (ix2 (0 : Fin 1) k)) = ab1 m c := by
  funext k; rw [X3_of m c main_v3 (by decide) (by decide), X2_of m c main_v3 (by decide), X1_v3]; exact row_apply _ _ k
theorem gm_4 : (fun k => (X4 m c main_v4 : S1x64.Idx → EReal) (ix2 (0 : Fin 1) k)) = agm m c := by
  funext k; rw [X4_of m c main_v4 (by decide), X3_of m c main_v4 (by decide) (by decide), X2_of m c main_v4 (by decide), X1_v4]; exact row_apply _ _ k
theorem bm_4 : (fun k => (X4 m c main_v5 : S1x64.Idx → EReal) (ix2 (0 : Fin 1) k)) = abm m c := by
  funext k; rw [X4_of m c main_v5 (by decide), X3_of m c main_v5 (by decide) (by decide), X2_of m c main_v5 (by decide), X1_v5]; exact row_apply _ _ k
theorem gl_4 : (fun k => (X4 m c main_v6 : S1x64.Idx → EReal) (ix2 (0 : Fin 1) k)) = agl m c := by
  funext k; rw [X4_of m c main_v6 (by decide), X3_of m c main_v6 (by decide) (by decide), X2_of m c main_v6 (by decide), X1_v6]; exact row_apply _ _ k
theorem bl_4 : (fun k => (X4 m c main_v7 : S1x64.Idx → EReal) (ix2 (0 : Fin 1) k)) = abl m c := by
  funext k; rw [X4_of m c main_v7 (by decide), X3_of m c main_v7 (by decide) (by decide), X2_of m c main_v7 (by decide), X1_v7]; exact row_apply _ _ k
theorem Wh_2 : (fun q k => (X2 m c main_arg3 : S128x128.Idx → EReal) (ix2 q k)) = aWh m c := by
  funext q k; rw [X2_of m c main_arg3 (by decide), X1_of m c main_arg3 (by decide)]
theorem N_4 : (fun i k => (X4 m c main_arg14 : S10000x64.Idx → EReal) (ix2 i k)) = aN m c := by
  funext i k; rw [X4_of m c main_arg14 (by decide), X3_of m c main_arg14 (by decide) (by decide), X2_of m c main_arg14 (by decide), X1_of m c main_arg14 (by decide)]
theorem Wml_3 : (fun q k => (X3 m c main_v8 : S128x128.Idx → EReal) (ix2 q k)) = Spec.wcat (aWm m c) (aWl m c) := by
  funext q k
  rw [X3_of m c main_v8 (by decide) (by decide), X2_of m c main_v8 (by decide), X1_v8]
  exact sideBySide_apply _ _ _ q k

/-! ## The regions' results, stage by stage -/

theorem P0_fun : (fun i k => (X2 m c main_v9 : S10000x128.Idx → EReal) (ix2 i k)) = Spec.mm (aX m c) (aWin m c) := by
  funext i k
  rw [X2_v9, final0, X1_of m c main_arg0 (by decide), X1_of m c main_arg2 (by decide)]
  exact G0_apply _ _ i k

theorem H0_fun : (fun i k => (X3 m c main_v10_0 : S10000x128.Idx → EReal) (ix2 i k))
    = Spec.h0 Spec.lnK (Ideal.ofBits .f32 0x43000000#32) (Ideal.ofBits .f32 0x3727C5AC#32) (aX m c) (aA m c) (aWin m c) (ag0 m c) (ab0 m c) := by
  funext i k
  rw [X3_v10_0, final1_5]
  refine (G1_5_apply _ _ _ _ _ i k).trans ?_
  rw [A2, P0_fun, g0_2, b0_2]
  rfl

theorem P1_fun : (fun i k => (X3 m c main_v10_1 : S10000x128.Idx → EReal) (ix2 i k))
    = Spec.mm (Spec.h0 Spec.lnK (Ideal.ofBits .f32 0x43000000#32) (Ideal.ofBits .f32 0x3727C5AC#32) (aX m c) (aA m c) (aWin m c) (ag0 m c) (ab0 m c)) (aWh m c) := by
  funext i k
  rw [X3_v10_1, final1_6]
  refine (G1_6_apply _ _ _ _ _ i k).trans ?_
  rw [← final1_5, ← X3_v10_0, H0_fun, Wh_2]

theorem P2_fun : (fun i k => (X4 m c main_v11 : S10000x128.Idx → EReal) (ix2 i k))
    = Spec.mm (Spec.h1 Spec.lnK (Ideal.ofBits .f32 0x43000000#32) (Ideal.ofBits .f32 0x3727C5AC#32) (aX m c) (aA m c) (aWin m c) (aWh m c) (ag0 m c) (ab0 m c) (ag1 m c) (ab1 m c))
        (Spec.wcat (aWm m c) (aWl m c)) := by
  funext i k
  rw [X4_v11, final2_6]
  refine (G2_6_apply _ _ _ _ _ _ i k).trans ?_
  rw [A3, P1_fun, g1_3, b1_3, Wml_3]
  have hH : ∀ i q, (X3 m c main_v10_0 : S10000x128.Idx → EReal) (ix2 i q)
      = Spec.h0 Spec.lnK (Ideal.ofBits .f32 0x43000000#32) (Ideal.ofBits .f32 0x3727C5AC#32) (aX m c) (aA m c) (aWin m c) (ag0 m c) (ab0 m c) i q :=
    fun i q => congrFun (congrFun (H0_fun m c) i) q
  simp only [hH]
  rfl

theorem Z_fun : (fun i k => (X5 m c main_v12 : S10000x64.Idx → EReal) (ix2 i k))
    = Spec.zCat Spec.lnK Spec.lnK (Ideal.ofBits .f32 0x43000000#32) (Ideal.ofBits .f32 0x42800000#32) (Ideal.ofBits .f32 0x3727C5AC#32) (aX m c) (aA m c) (aWin m c) (aWh m c) (aWm m c) (aWl m c) (ag0 m c) (ab0 m c) (ag1 m c) (ab1 m c) (agm m c) (abm m c) (agl m c) (abl m c) (aN m c) := by
  funext i k
  rw [X5_v12, final3_7]
  refine (G3_7_apply _ _ _ _ _ _ _ i k).trans ?_
  rw [A4, P2_fun, gm_4, bm_4, gl_4, bl_4]
  have hN : (X4 m c main_arg14 : S10000x64.Idx → EReal) (ix2 i k) = aN m c i k := congrFun (congrFun (N_4 m c) i) k
  rw [hN]
  rfl

/-- The result array, entry by entry. -/
theorem result_apply (i j : Fin 10000) :
    ((dat4 (X5 m) q4 c).arrAt 2 cfg4.N : S10000x10000.Idx → EReal) (ix2 i j)
      = Spec.dec (Spec.zCat Spec.lnK Spec.lnK (Ideal.ofBits .f32 0x43000000#32) (Ideal.ofBits .f32 0x42800000#32) (Ideal.ofBits .f32 0x3727C5AC#32) (aX m c) (aA m c) (aWin m c) (aWh m c) (aWm m c) (aWl m c) (ag0 m c) (ab0 m c) (ag1 m c) (ab1 m c) (agm m c) (abm m c) (agl m c) (abl m c) (aN m c)) i j := by
  rw [final4]
  refine (G4_apply _ i j).trans ?_
  rw [Z_fun]

end Cert.KernelIdeal.Hand

end
-- ==== Proof.RefTerm.lean ====
import proofs.«171846_g89721866813831_cont_sun_m_1046_11_alg».proof.ReferenceIdeal
import proofs.«171846_g89721866813831_cont_sun_m_1046_11_alg».proof.Proof.Gen.ReferenceIdeal

/-!
# The reference network as one pure term

The reference computes, from node features `x`, a dense normalized adjacency `A`, four weight
matrices, four gain/bias pairs and a noise array `ε`,

  h₀ = LN(relu(A · (x · W_in)); g₀, b₀)
  h₁ = LN(relu(A · (h₀ · W_h)); g₁, b₁) + h₀
  μ  = LN(A · (h₁ · W_mean); g_m, b_m)
  λ  = LN(A · (h₁ · W_logstd); g_l, b_l)
  z  = ε ⊙ exp λ + μ
  out = 1 / (1 + exp (-(z · zᵀ)))

where `LN(h; g, b)` normalizes every row of `h`: subtract the row mean, divide by
`sqrt (var + 1e-5)`, scale by `g` and shift by `b` along the row. The row variance is the
two-pass one: the row sum of squared deviations from the row mean, divided by
`n - ddof` (here `ddof = 0`), and replaced by a NaN splat when `n - ddof` is not positive.

Each definition below is one stage of that computation, written with the array operations
the program itself applies, in the same order of operands, so that the composed result of the
program's run is this term by unfolding.
-/

noncomputable section

namespace Cert.ReferenceIdeal.Hand

open Cert.ReferenceIdeal Cert.ReferenceIdeal.Gen Idealize.ShloMosaic Idealize.SL.Sem

variable {F : FTy → Type} [FloatOps F]

/-! ## Rectifier -/

/-- `relu` of a `[10000, 128]` array: the entrywise maximum with the zero splat. -/
def relu128 (x : FVec F S10000x128 .f32) : FVec F S10000x128 .f32 :=
  maximumf x (broadcastInDim S10000x128 ![] bcast_S_S10000x128 (constant S_ .f32 0x00000000#32))

/-! ## Row variance -/

/-- `where p a q` for a rank-zero predicate `p`, a `[10000, 1]` array `a` and a rank-zero
    fallback `q`: `a` where `p` holds, the splat of `q` elsewhere. -/
def whereCol (p : IVec S_ 1) (a : FVec F S10000x1 .f32) (q : FVec F S_ .f32) : FVec F S10000x1 .f32 :=
  select (broadcastInDim S10000x1 ![] bcast_S_S10000x1 p) a
    (broadcastInDim S10000x1 ![] bcast_S_S10000x1 (id q))

/-- The row mean of a `[10000, 128]` array as the variance computes it: row sums over `128`. -/
def rowMean128 (x : FVec F S10000x128 .f32) : FVec F S10000x1 .f32 :=
  Host.divf
    (broadcastInDim S10000x1 ![0] bcast_S10000_S10000x1_0
      (Host.reduceAdd x (constant S_ .f32 0x00000000#32) reducesTo_S10000x128_S10000_d1 h_S_))
    (broadcastInDim S10000x1 ![] bcast_S_S10000x1 (constant S_ .f32 0x43000000#32))

/-- The normalizer `128 - ddof` of the variance of a row of `128` entries, as a float. -/
def normalizer128 (ddof : IVec S_ 32) : FVec F S_ .f32 :=
  subf (constant S_ .f32 0x43000000#32) (sitofp .f32 ddof)

/-- The variance of every row of a `[10000, 128]` array with `ddof` delta degrees of freedom:
    the row sum of the squared deviations from the row mean over `128 - ddof`, or NaN where
    that normalizer is not positive. -/
def var128 (x : FVec F S10000x128 .f32) (ddof : IVec S_ 32) : FVec F S10000x1 .f32 :=
  whereCol
    (cmpf .ogt (normalizer128 (F := F) ddof) (constant S_ .f32 0x00000000#32))
    (Host.divf
      (broadcastInDim S10000x1 ![0] bcast_S10000_S10000x1_0
        (Host.reduceAdd
          (mulf (subf x (broadcastInDim S10000x128 ![0, 1] bcast_S10000x1_S10000x128_0_1 (rowMean128 x)))
                (subf x (broadcastInDim S10000x128 ![0, 1] bcast_S10000x1_S10000x128_0_1 (rowMean128 x))))
          (constant S_ .f32 0x00000000#32) reducesTo_S10000x128_S10000_d1 h_S_))
      (broadcastInDim S10000x1 ![] bcast_S_S10000x1 (normalizer128 ddof)))
    (constant S_ .f32 0x7FC00000#32)

/-- The row mean of a `[10000, 64]` array: row sums over `64`. -/
def rowMean64 (x : FVec F S10000x64 .f32) : FVec F S10000x1 .f32 :=
  Host.divf
    (broadcastInDim S10000x1 ![0] bcast_S10000_S10000x1_0
      (Host.reduceAdd x (constant S_ .f32 0x00000000#32) reducesTo_S10000x64_S10000_d1 h_S_))
    (broadcastInDim S10000x1 ![] bcast_S_S10000x1 (constant S_ .f32 0x42800000#32))

/-- The normalizer `64 - ddof` of the variance of a row of `64` entries, as a float. -/
def normalizer64 (ddof : IVec S_ 32) : FVec F S_ .f32 :=
  subf (constant S_ .f32 0x42800000#32) (sitofp .f32 ddof)

/-- The variance of every row of a `[10000, 64]` array with `ddof` delta degrees of freedom. -/
def var64 (x : FVec F S10000x64 .f32) (ddof : IVec S_ 32) : FVec F S10000x1 .f32 :=
  whereCol
    (cmpf .ogt (normalizer64 (F := F) ddof) (constant S_ .f32 0x00000000#32))
    (Host.divf
      (broadcastInDim S10000x1 ![0] bcast_S10000_S10000x1_0
        (Host.reduceAdd
          (mulf (subf x (broadcastInDim S10000x64 ![0, 1] bcast_S10000x1_S10000x64_0_1 (rowMean64 x)))
                (subf x (broadcastInDim S10000x64 ![0, 1] bcast_S10000x1_S10000x64_0_1 (rowMean64 x))))
          (constant S_ .f32 0x00000000#32) reducesTo_S10000x64_S10000_d1 h_S_))
      (broadcastInDim S10000x1 ![] bcast_S_S10000x1 (normalizer64 ddof)))
    (constant S_ .f32 0x7FC00000#32)

/-! ## Row normalization -/

/-- `LN(x; g, b)` of a `[10000, 128]` array: `(x - mean) / sqrt (var + 1e-5) * g + b` row by row,
    the mean and the variance over the `128` entries of the row, `g` and `b` along the row. -/
def layerNorm128 (x : FVec F S10000x128 .f32) (g b : FVec F S128 .f32) : FVec F S10000x128 .f32 :=
  addf
    (mulf
      (Host.divf
        (subf x (broadcastInDim S10000x128 ![0, 1] bcast_S10000x1_S10000x128_0_1 (rowMean128 x)))
        (broadcastInDim S10000x128 ![0, 1] bcast_S10000x1_S10000x128_0_1
          (Host.sqrt
            (addf (var128 x (constantI S_ 32 0#32))
              (broadcastInDim S10000x1 ![] bcast_S_S10000x1 (constant S_ .f32 0x3727C5AC#32))))))
      (broadcastInDim S10000x128 ![0, 1] bcast_S1x128_S10000x128_0_1
        (broadcastInDim S1x128 ![1] bcast_S128_S1x128_1 g)))
    (broadcastInDim S10000x128 ![0, 1] bcast_S1x128_S10000x128_0_1
      (broadcastInDim S1x128 ![1] bcast_S128_S1x128_1 b))

/-- `LN(x; g, b)` of a `[10000, 64]` array, the mean and the variance over the `64` entries of the row. -/
def layerNorm64 (x : FVec F S10000x64 .f32) (g b : FVec F S64 .f32) : FVec F S10000x64 .f32 :=
  addf
    (mulf
      (Host.divf
        (subf x (broadcastInDim S10000x64 ![0, 1] bcast_S10000x1_S10000x64_0_1 (rowMean64 x)))
        (broadcastInDim S10000x64 ![0, 1] bcast_S10000x1_S10000x64_0_1
          (Host.sqrt
            (addf (var64 x (constantI S_ 32 0#32))
              (broadcastInDim S10000x1 ![] bcast_S_S10000x1 (constant S_ .f32 0x3727C5AC#32))))))
      (broadcastInDim S10000x64 ![0, 1] bcast_S1x64_S10000x64_0_1
        (broadcastInDim S1x64 ![1] bcast_S64_S1x64_1 g)))
    (broadcastInDim S10000x64 ![0, 1] bcast_S1x64_S10000x64_0_1
      (broadcastInDim S1x64 ![1] bcast_S64_S1x64_1 b))

/-! ## Graph convolutions -/

/-- `A · (h · W)` for `h : [10000, 128]`, `W : [128, 128]`. -/
def gcn128 (A : FVec F S10000x10000 .f32) (h : FVec F S10000x128 .f32) (W : FVec F S128x128 .f32) :
    FVec F S10000x128 .f32 :=
  Host.dotGeneral dot_S10000x10000_S10000x128_S10000x128_1_0_0_1_n_n none A
    (Host.dotGeneral dot_S10000x128_S128x128_S10000x128_1_0_0_1_n_n none h W)

/-- `A · (h · W)` for `h : [10000, 128]`, `W : [128, 64]`. -/
def gcn64 (A : FVec F S10000x10000 .f32) (h : FVec F S10000x128 .f32) (W : FVec F S128x64 .f32) :
    FVec F S10000x64 .f32 :=
  Host.dotGeneral dot_S10000x10000_S10000x64_S10000x64_1_0_0_1_n_n none A
    (Host.dotGeneral dot_S10000x128_S128x64_S10000x64_1_0_0_1_n_n none h W)

/-! ## The encoder -/

/-- The input block: `h₀ = LN(relu(A · (x · W_in)); g₀, b₀)`. -/
def hidden0 (x : FVec F S10000x128 .f32) (A : FVec F S10000x10000 .f32) (Win : FVec F S128x128 .f32)
    (g0 b0 : FVec F S128 .f32) : FVec F S10000x128 .f32 :=
  layerNorm128 (relu128 (gcn128 A x Win)) g0 b0

/-- The hidden block with its residual: `h₁ = LN(relu(A · (h₀ · W_h)); g₁, b₁) + h₀`. -/
def hidden1 (h0 : FVec F S10000x128 .f32) (A : FVec F S10000x10000 .f32) (Wh : FVec F S128x128 .f32)
    (g1 b1 : FVec F S128 .f32) : FVec F S10000x128 .f32 :=
  addf (layerNorm128 (relu128 (gcn128 A h0 Wh)) g1 b1) h0

/-- A head: `LN(A · (h · W); g, b)` with `W : [128, 64]`. -/
def head (h : FVec F S10000x128 .f32) (A : FVec F S10000x10000 .f32) (W : FVec F S128x64 .f32)
    (g b : FVec F S64 .f32) : FVec F S10000x64 .f32 :=
  layerNorm64 (gcn64 A h W) g b

/-- The latent sample: `z = ε ⊙ exp λ + μ`. -/
def latent (eps logstd mean : FVec F S10000x64 .f32) : FVec F S10000x64 .f32 :=
  addf (mulf eps (Host.exp logstd)) mean

/-! ## The decoder -/

/-- `sigmoid (z · zᵀ)`, the logistic function expanded: `1 / (1 + exp (-s))`. -/
def decode (z : FVec F S10000x64 .f32) : FVec F S10000x10000 .f32 :=
  Host.divf
    (broadcastInDim S10000x10000 ![] bcast_S_S10000x10000 (constant S_ .f32 0x3F800000#32))
    (addf
      (broadcastInDim S10000x10000 ![] bcast_S_S10000x10000 (constant S_ .f32 0x3F800000#32))
      (Host.exp
        (Host.negf
          (Host.dotGeneral dot_S10000x64_S64x10000_S10000x10000_1_0_0_1_n_n none z
            (transpose S64x10000 [1, 0] z transposes_S10000x64_S64x10000_1_0)))))

/-! ## The whole reference -/

/-- The hidden state both heads read: `h₁` of the fifteen arguments. -/
def hiddenOf (x : FVec F S10000x128 .f32) (A : FVec F S10000x10000 .f32) (Win Wh : FVec F S128x128 .f32)
    (g0 b0 g1 b1 : FVec F S128 .f32) : FVec F S10000x128 .f32 :=
  hidden1 (hidden0 x A Win g0 b0) A Wh g1 b1

/-- The reference's result as one term of its fifteen argument arrays, in the order of its signature:
    `x, A, W_in, W_h, W_mean, W_logstd, g₀, b₀, g₁, b₁, g_m, b_m, g_l, b_l, ε`. -/
def refOut
    (a0 : (⟨S10000x128, .f32⟩ : BufTy).Contents (Elt F)) (a1 : (⟨S10000x10000, .f32⟩ : BufTy).Contents (Elt F))
    (a2 a3 : (⟨S128x128, .f32⟩ : BufTy).Contents (Elt F)) (a4 a5 : (⟨S128x64, .f32⟩ : BufTy).Contents (Elt F))
    (a6 a7 a8 a9 : (⟨S128, .f32⟩ : BufTy).Contents (Elt F))
    (a10 a11 a12 a13 : (⟨S64, .f32⟩ : BufTy).Contents (Elt F))
    (a14 : (⟨S10000x64, .f32⟩ : BufTy).Contents (Elt F)) :
    (⟨S10000x10000, .f32⟩ : BufTy).Contents (Elt F) :=
  decode
    (latent a14
      (head (hiddenOf a0 a1 a2 a3 a6 a7 a8 a9) a1 a5 a12 a13)
      (head (hiddenOf a0 a1 a2 a3 a6 a7 a8 a9) a1 a4 a10 a11))

end Cert.ReferenceIdeal.Hand

end
-- ==== Proof.RefOps.lean ====
import proofs.«171846_g89721866813831_cont_sun_m_1046_11_alg».proof.ReferenceIdeal
import proofs.«171846_g89721866813831_cont_sun_m_1046_11_alg».proof.Proof.Gen.ReferenceIdeal
import Idealize.ShloMosaic.Lib.StableHlo.Run

/-!
# The reference program as a list of array operations

The program is a straight line: every statement writes one fresh buffer from earlier ones. Here it is written as
six consecutive lists of such operations, cut where the network's stages end, and proved equal to the program.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The input block: the two products `A · (x · W_in)`, the rectifier, and the row normalization with `g₀`, `b₀` (its variance with the outlined helper's own buffers), ending at `h₀`. -/
abbrev opsH0 : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_call0_cst ((constant S_ .f32 0x00000000#32) : (⟨S_, .f32⟩ : BufTy).Contents (Elt F)),
    unary main_call0_cst main_call0_v0 ((broadcastInDim S10000x128 ![] bcast_S_S10000x128) : (⟨S_, .f32⟩ : BufTy).Contents (Elt F) → (⟨S10000x128, .f32⟩ : BufTy).Contents (Elt F)),
    binary main_v1 main_call0_v0 main_v2 ((maximumf) : (⟨S10000x128, .f32⟩ : BufTy).Contents (Elt F) → (⟨S10000x128, .f32⟩ : BufTy).Contents (Elt F) → (⟨S10000x128, .f32⟩ : BufTy).Contents (Elt F)),
    nullary main_cst (constant S_ .f32 0x00000000#32),
    binary main_v2 main_cst main_v3 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v3 main_v4 (broadcastInDim S10000x1 ![0] bcast_S10000_S10000x1_0 : (⟨S10000, .f32⟩ : BufTy).Contents (Elt F) → (⟨S10000x1, .f32⟩ : BufTy).Contents (Elt F)),
    nullary main_cst_0 (constant S_ .f32 0x43000000#32),
    unary main_cst_0 main_v5 (broadcastInDim S10000x1 ![] bcast_S_S10000x1 : (⟨S_, .f32⟩ : BufTy).Contents (Elt F) → (⟨S10000x1, .f32⟩ : BufTy).Contents (Elt F)),
    binary main_v4 main_v5 main_v6 (Host.divf : (⟨S10000x1, .f32⟩ : BufTy).Contents (Elt F) → (⟨S10000x1, .f32⟩ : BufTy).Contents (Elt F) → (⟨S10000x1, .f32⟩ : BufTy).Contents (Elt F)),
    nullary main_c (constantI S_ 32 0#32),
    nullary main_call1_cst ((constant S_ .f32 0x00000000#32) : (⟨S_, .f32⟩ : BufTy).Contents (Elt F)),
    binary main_v2 main_call1_cst main_call1_v0 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_call1_v0 main_call1_v1 ((broadcastInDim S10000x1 ![0] bcast_S10000_S10000x1_0) : (⟨S10000, .f32⟩ : BufTy).Contents (Elt F) → (⟨S10000x1, .f32⟩ : BufTy).Contents (Elt F)),
    nullary main_call1_cst_0 ((constant S_ .f32 0x43000000#32) : (⟨S_, .f32⟩ : BufTy).Contents (Elt F)),
    unary main_call1_cst_0 main_call1_v2 ((broadcastInDim S10000x1 ![] bcast_S_S10000x1) : (⟨S_, .f32⟩ : BufTy).Contents (Elt F) → (⟨S10000x1, .f32⟩ : BufTy).Contents (Elt F)),
    binary main_call1_v1 main_call1_v2 main_call1_v3 ((Host.divf) : (⟨S10000x1, .f32⟩ : BufTy).Contents (Elt F) → (⟨S10000x1, .f32⟩ : BufTy).Contents (Elt F) → (⟨S10000x1, .f32⟩ : BufTy).Contents (Elt F)),
    unary main_call1_v3 main_call1_v4 ((broadcastInDim S10000x128 ![0, 1] bcast_S10000x1_S10000x128_0_1) : (⟨S10000x1, .f32⟩ : BufTy).Contents (Elt F) → (⟨S10000x128, .f32⟩ : BufTy).Contents (Elt F)),
    binary main_v2 main_call1_v4 main_call1_v5 ((subf) : (⟨S10000x128, .f32⟩ : BufTy).Contents (Elt F) → (⟨S10000x128, .f32⟩ : BufTy).Contents (Elt F) → (⟨S10000x128, .f32⟩ : BufTy).Contents (Elt F)),
    binary main_call1_v5 main_call1_v5 main_call1_v6 ((mulf) : (⟨S10000x128, .f32⟩ : BufTy).Contents (Elt F) → (⟨S10000x128, .f32⟩ : BufTy).Contents (Elt F) → (⟨S10000x128, .f32⟩ : BufTy).Contents (Elt F)),
    unary main_c main_call1_v7 ((sitofp .f32) : (⟨S_, .i32⟩ : BufTy).Contents (Elt F) → (⟨S_, .f32⟩ : BufTy).Contents (Elt F)),
    nullary main_call1_cst_1 ((constant S_ .f32 0x43000000#32) : (⟨S_, .f32⟩ : BufTy).Contents (Elt F)),
    binary main_call1_cst_1 main_call1_v7 main_call1_v8 ((subf) : (⟨S_, .f32⟩ : BufTy).Contents (Elt F) → (⟨S_, .f32⟩ : BufTy).Contents (Elt F) → (⟨S_, .f32⟩ : BufTy).Contents (Elt F)),
    nullary main_call1_cst_2 ((constant S_ .f32 0x00000000#32) : (⟨S_, .f32⟩ : BufTy).Contents (Elt F)),
    binary main_call1_v6 main_call1_cst_2 main_call1_v9 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_call1_v9 main_call1_v10 ((broadcastInDim S10000x1 ![0] bcast_S10000_S10000x1_0) : (⟨S10000, .f32⟩ : BufTy).Contents (Elt F) → (⟨S10000x1, .f32⟩ : BufTy).Contents (Elt F)),
    unary main_call1_v8 main_call1_v11 ((broadcastInDim S10000x1 ![] bcast_S_S10000x1) : (⟨S_, .f32⟩ : BufTy).Contents (Elt F) → (⟨S10000x1, .f32⟩ : BufTy).Contents (Elt F)),
    binary main_call1_v10 main_call1_v11 main_call1_v12 ((Host.divf) : (⟨S10000x1, .f32⟩ : BufTy).Contents (Elt F) → (⟨S10000x1, .f32⟩ : BufTy).Contents (Elt F) → (⟨S10000x1, .f32⟩ : BufTy).Contents (Elt F)),
    nullary main_call1_cst_3 ((constant S_ .f32 0x00000000#32) : (⟨S_, .f32⟩ : BufTy).Contents (Elt F)),
    binary main_call1_v8 main_call1_cst_3 main_call1_v13 ((cmpf .ogt) : (⟨S_, .f32⟩ : BufTy).Contents (Elt F) → (⟨S_, .f32⟩ : BufTy).Contents (Elt F) → (⟨S_, .i1⟩ : BufTy).Contents (Elt F)),
    nullary main_call1_cst_4 ((constant S_ .f32 0x7FC00000#32) : (⟨S_, .f32⟩ : BufTy).Contents (Elt F)),
    unary main_call1_cst_4 main_call1_call0_v0 ((id) : (⟨S_, .f32⟩ : BufTy).Contents (Elt F) → (⟨S_, .f32⟩ : BufTy).Contents (Elt F)),
    unary main_call1_call0_v0 main_call1_call0_v1 ((broadcastInDim S10000x1 ![] bcast_S_S10000x1) : (⟨S_, .f32⟩ : BufTy).Contents (Elt F) → (⟨S10000x1, .f32⟩ : BufTy).Contents (Elt F)),
    ternary main_call1_v13 main_call1_v12 main_call1_call0_v1 main_v7 ((fun p a b => select (broadcastInDim S10000x1 ![] bcast_S_S10000x1 p) a b) : (⟨S_, .i1⟩ : BufTy).Contents (Elt F) → (⟨S10000x1, .f32⟩ : BufTy).Contents (Elt F) → (⟨S10000x1, .f32⟩ : BufTy).Contents (Elt F) → (⟨S10000x1, .f32⟩ : BufTy).Contents (Elt F)),
    unary main_v6 main_v8 (broadcastInDim S10000x128 ![0, 1] bcast_S10000x1_S10000x128_0_1 : (⟨S10000x1, .f32⟩ : BufTy).Contents (Elt F) → (⟨S10000x128, .f32⟩ : BufTy).Contents (Elt F)),
    binary main_v2 main_v8 main_v9 (subf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3727C5AC#32),
    unary main_cst_1 main_v10 (broadcastInDim S10000x1 ![] bcast_S_S10000x1 : (⟨S_, .f32⟩ : BufTy).Contents (Elt F) → (⟨S10000x1, .f32⟩ : BufTy).Contents (Elt F)),
    binary main_v7 main_v10 main_v11 (addf : (⟨S10000x1, .f32⟩ : BufTy).Contents (Elt F) → (⟨S10000x1, .f32⟩ : BufTy).Contents (Elt F) → (⟨S10000x1, .f32⟩ : BufTy).Contents (Elt F)),
    unary main_v11 main_v12 (Host.sqrt : (⟨S10000x1, .f32⟩ : BufTy).Contents (Elt F) → (⟨S10000x1, .f32⟩ : BufTy).Contents (Elt F)),
    unary main_v12 main_v13 (broadcastInDim S10000x128 ![0, 1] bcast_S10000x1_S10000x128_0_1 : (⟨S10000x1, .f32⟩ : BufTy).Contents (Elt F) → (⟨S10000x128, .f32⟩ : BufTy).Contents (Elt F)),
    binary main_v9 main_v13 main_v14 (Host.divf : (⟨S10000x128, .f32⟩ : BufTy).Contents (Elt F) → (⟨S10000x128, .f32⟩ : BufTy).Contents (Elt F) → (⟨S10000x128, .f32⟩ : BufTy).Contents (Elt F)),
    unary main_arg6 main_v15 (broadcastInDim S1x128 ![1] bcast_S128_S1x128_1 : (⟨S128, .f32⟩ : BufTy).Contents (Elt F) → (⟨S1x128, .f32⟩ : BufTy).Contents (Elt F)),
    unary main_v15 main_v16 (broadcastInDim S10000x128 ![0, 1] bcast_S1x128_S10000x128_0_1 : (⟨S1x128, .f32⟩ : BufTy).Contents (Elt F) → (⟨S10000x128, .f32⟩ : BufTy).Contents (Elt F)),
    binary main_v14 main_v16 main_v17 (mulf : (⟨S10000x128, .f32⟩ : BufTy).Contents (Elt F) → (⟨S10000x128, .f32⟩ : BufTy).Contents (Elt F) → (⟨S10000x128, .f32⟩ : BufTy).Contents (Elt F)),
    unary main_arg7 main_v18 (broadcastInDim S1x128 ![1] bcast_S128_S1x128_1 : (⟨S128, .f32⟩ : BufTy).Contents (Elt F) → (⟨S1x128, .f32⟩ : BufTy).Contents (Elt F)),
    unary main_v18 main_v19 (broadcastInDim S10000x128 ![0, 1] bcast_S1x128_S10000x128_0_1 : (⟨S1x128, .f32⟩ : BufTy).Contents (Elt F) → (⟨S10000x128, .f32⟩ : BufTy).Contents (Elt F)),
    binary main_v17 main_v19 main_v20 (addf : (⟨S10000x128, .f32⟩ : BufTy).Contents (Elt F) → (⟨S10000x128, .f32⟩ : BufTy).Contents (Elt F) → (⟨S10000x128, .f32⟩ : BufTy).Contents (Elt F)) ]

/-- The hidden block: `A · (h₀ · W_h)`, the rectifier, the row normalization with `g₁`, `b₁`, and the residual sum, ending at `h₁`. -/
abbrev opsH1 : List (HloOp τ sig (Elt F)) :=
  [ binary main_v20 main_arg3 main_v21 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v21 main_v22 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_call2_cst ((constant S_ .f32 0x00000000#32) : (⟨S_, .f32⟩ : BufTy).Contents (Elt F)),
    unary main_call2_cst main_call2_v0 ((broadcastInDim S10000x128 ![] bcast_S_S10000x128) : (⟨S_, .f32⟩ : BufTy).Contents (Elt F) → (⟨S10000x128, .f32⟩ : BufTy).Contents (Elt F)),
    binary main_v22 main_call2_v0 main_v23 ((maximumf) : (⟨S10000x128, .f32⟩ : BufTy).Contents (Elt F) → (⟨S10000x128, .f32⟩ : BufTy).Contents (Elt F) → (⟨S10000x128, .f32⟩ : BufTy).Contents (Elt F)),
    nullary main_cst_2 (constant S_ .f32 0x00000000#32),
    binary main_v23 main_cst_2 main_v24 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v24 main_v25 (broadcastInDim S10000x1 ![0] bcast_S10000_S10000x1_0 : (⟨S10000, .f32⟩ : BufTy).Contents (Elt F) → (⟨S10000x1, .f32⟩ : BufTy).Contents (Elt F)),
    nullary main_cst_3 (constant S_ .f32 0x43000000#32),
    unary main_cst_3 main_v26 (broadcastInDim S10000x1 ![] bcast_S_S10000x1 : (⟨S_, .f32⟩ : BufTy).Contents (Elt F) → (⟨S10000x1, .f32⟩ : BufTy).Contents (Elt F)),
    binary main_v25 main_v26 main_v27 (Host.divf : (⟨S10000x1, .f32⟩ : BufTy).Contents (Elt F) → (⟨S10000x1, .f32⟩ : BufTy).Contents (Elt F) → (⟨S10000x1, .f32⟩ : BufTy).Contents (Elt F)),
    nullary main_c_4 (constantI S_ 32 0#32),
    nullary main_call3_cst ((constant S_ .f32 0x00000000#32) : (⟨S_, .f32⟩ : BufTy).Contents (Elt F)),
    binary main_v23 main_call3_cst main_call3_v0 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_call3_v0 main_call3_v1 ((broadcastInDim S10000x1 ![0] bcast_S10000_S10000x1_0) : (⟨S10000, .f32⟩ : BufTy).Contents (Elt F) → (⟨S10000x1, .f32⟩ : BufTy).Contents (Elt F)),
    nullary main_call3_cst_0 ((constant S_ .f32 0x43000000#32) : (⟨S_, .f32⟩ : BufTy).Contents (Elt F)),
    unary main_call3_cst_0 main_call3_v2 ((broadcastInDim S10000x1 ![] bcast_S_S10000x1) : (⟨S_, .f32⟩ : BufTy).Contents (Elt F) → (⟨S10000x1, .f32⟩ : BufTy).Contents (Elt F)),
    binary main_call3_v1 main_call3_v2 main_call3_v3 ((Host.divf) : (⟨S10000x1, .f32⟩ : BufTy).Contents (Elt F) → (⟨S10000x1, .f32⟩ : BufTy).Contents (Elt F) → (⟨S10000x1, .f32⟩ : BufTy).Contents (Elt F)),
    unary main_call3_v3 main_call3_v4 ((broadcastInDim S10000x128 ![0, 1] bcast_S10000x1_S10000x128_0_1) : (⟨S10000x1, .f32⟩ : BufTy).Contents (Elt F) → (⟨S10000x128, .f32⟩ : BufTy).Contents (Elt F)),
    binary main_v23 main_call3_v4 main_call3_v5 ((subf) : (⟨S10000x128, .f32⟩ : BufTy).Contents (Elt F) → (⟨S10000x128, .f32⟩ : BufTy).Contents (Elt F) → (⟨S10000x128, .f32⟩ : BufTy).Contents (Elt F)),
    binary main_call3_v5 main_call3_v5 main_call3_v6 ((mulf) : (⟨S10000x128, .f32⟩ : BufTy).Contents (Elt F) → (⟨S10000x128, .f32⟩ : BufTy).Contents (Elt F) → (⟨S10000x128, .f32⟩ : BufTy).Contents (Elt F)),
    unary main_c_4 main_call3_v7 ((sitofp .f32) : (⟨S_, .i32⟩ : BufTy).Contents (Elt F) → (⟨S_, .f32⟩ : BufTy).Contents (Elt F)),
    nullary main_call3_cst_1 ((constant S_ .f32 0x43000000#32) : (⟨S_, .f32⟩ : BufTy).Contents (Elt F)),
    binary main_call3_cst_1 main_call3_v7 main_call3_v8 ((subf) : (⟨S_, .f32⟩ : BufTy).Contents (Elt F) → (⟨S_, .f32⟩ : BufTy).Contents (Elt F) → (⟨S_, .f32⟩ : BufTy).Contents (Elt F)),
    nullary main_call3_cst_2 ((constant S_ .f32 0x00000000#32) : (⟨S_, .f32⟩ : BufTy).Contents (Elt F)),
    binary main_call3_v6 main_call3_cst_2 main_call3_v9 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_call3_v9 main_call3_v10 ((broadcastInDim S10000x1 ![0] bcast_S10000_S10000x1_0) : (⟨S10000, .f32⟩ : BufTy).Contents (Elt F) → (⟨S10000x1, .f32⟩ : BufTy).Contents (Elt F)),
    unary main_call3_v8 main_call3_v11 ((broadcastInDim S10000x1 ![] bcast_S_S10000x1) : (⟨S_, .f32⟩ : BufTy).Contents (Elt F) → (⟨S10000x1, .f32⟩ : BufTy).Contents (Elt F)),
    binary main_call3_v10 main_call3_v11 main_call3_v12 ((Host.divf) : (⟨S10000x1, .f32⟩ : BufTy).Contents (Elt F) → (⟨S10000x1, .f32⟩ : BufTy).Contents (Elt F) → (⟨S10000x1, .f32⟩ : BufTy).Contents (Elt F)),
    nullary main_call3_cst_3 ((constant S_ .f32 0x00000000#32) : (⟨S_, .f32⟩ : BufTy).Contents (Elt F)),
    binary main_call3_v8 main_call3_cst_3 main_call3_v13 ((cmpf .ogt) : (⟨S_, .f32⟩ : BufTy).Contents (Elt F) → (⟨S_, .f32⟩ : BufTy).Contents (Elt F) → (⟨S_, .i1⟩ : BufTy).Contents (Elt F)),
    nullary main_call3_cst_4 ((constant S_ .f32 0x7FC00000#32) : (⟨S_, .f32⟩ : BufTy).Contents (Elt F)),
    unary main_call3_cst_4 main_call3_call0_v0 ((id) : (⟨S_, .f32⟩ : BufTy).Contents (Elt F) → (⟨S_, .f32⟩ : BufTy).Contents (Elt F)),
    unary main_call3_call0_v0 main_call3_call0_v1 ((broadcastInDim S10000x1 ![] bcast_S_S10000x1) : (⟨S_, .f32⟩ : BufTy).Contents (Elt F) → (⟨S10000x1, .f32⟩ : BufTy).Contents (Elt F)),
    ternary main_call3_v13 main_call3_v12 main_call3_call0_v1 main_v28 ((fun p a b => select (broadcastInDim S10000x1 ![] bcast_S_S10000x1 p) a b) : (⟨S_, .i1⟩ : BufTy).Contents (Elt F) → (⟨S10000x1, .f32⟩ : BufTy).Contents (Elt F) → (⟨S10000x1, .f32⟩ : BufTy).Contents (Elt F) → (⟨S10000x1, .f32⟩ : BufTy).Contents (Elt F)),
    unary main_v27 main_v29 (broadcastInDim S10000x128 ![0, 1] bcast_S10000x1_S10000x128_0_1 : (⟨S10000x1, .f32⟩ : BufTy).Contents (Elt F) → (⟨S10000x128, .f32⟩ : BufTy).Contents (Elt F)),
    binary main_v23 main_v29 main_v30 (subf : (⟨S10000x128, .f32⟩ : BufTy).Contents (Elt F) → (⟨S10000x128, .f32⟩ : BufTy).Contents (Elt F) → (⟨S10000x128, .f32⟩ : BufTy).Contents (Elt F)),
    nullary main_cst_5 (constant S_ .f32 0x3727C5AC#32),
    unary main_cst_5 main_v31 (broadcastInDim S10000x1 ![] bcast_S_S10000x1 : (⟨S_, .f32⟩ : BufTy).Contents (Elt F) → (⟨S10000x1, .f32⟩ : BufTy).Contents (Elt F)),
    binary main_v28 main_v31 main_v32 (addf : (⟨S10000x1, .f32⟩ : BufTy).Contents (Elt F) → (⟨S10000x1, .f32⟩ : BufTy).Contents (Elt F) → (⟨S10000x1, .f32⟩ : BufTy).Contents (Elt F)),
    unary main_v32 main_v33 (Host.sqrt : (⟨S10000x1, .f32⟩ : BufTy).Contents (Elt F) → (⟨S10000x1, .f32⟩ : BufTy).Contents (Elt F)),
    unary main_v33 main_v34 (broadcastInDim S10000x128 ![0, 1] bcast_S10000x1_S10000x128_0_1 : (⟨S10000x1, .f32⟩ : BufTy).Contents (Elt F) → (⟨S10000x128, .f32⟩ : BufTy).Contents (Elt F)),
    binary main_v30 main_v34 main_v35 (Host.divf : (⟨S10000x128, .f32⟩ : BufTy).Contents (Elt F) → (⟨S10000x128, .f32⟩ : BufTy).Contents (Elt F) → (⟨S10000x128, .f32⟩ : BufTy).Contents (Elt F)),
    unary main_arg8 main_v36 (broadcastInDim S1x128 ![1] bcast_S128_S1x128_1 : (⟨S128, .f32⟩ : BufTy).Contents (Elt F) → (⟨S1x128, .f32⟩ : BufTy).Contents (Elt F)),
    unary main_v36 main_v37 (broadcastInDim S10000x128 ![0, 1] bcast_S1x128_S10000x128_0_1 : (⟨S1x128, .f32⟩ : BufTy).Contents (Elt F) → (⟨S10000x128, .f32⟩ : BufTy).Contents (Elt F)),
    binary main_v35 main_v37 main_v38 (mulf : (⟨S10000x128, .f32⟩ : BufTy).Contents (Elt F) → (⟨S10000x128, .f32⟩ : BufTy).Contents (Elt F) → (⟨S10000x128, .f32⟩ : BufTy).Contents (Elt F)),
    unary main_arg9 main_v39 (broadcastInDim S1x128 ![1] bcast_S128_S1x128_1 : (⟨S128, .f32⟩ : BufTy).Contents (Elt F) → (⟨S1x128, .f32⟩ : BufTy).Contents (Elt F)),
    unary main_v39 main_v40 (broadcastInDim S10000x128 ![0, 1] bcast_S1x128_S10000x128_0_1 : (⟨S1x128, .f32⟩ : BufTy).Contents (Elt F) → (⟨S10000x128, .f32⟩ : BufTy).Contents (Elt F)),
    binary main_v38 main_v40 main_v41 (addf : (⟨S10000x128, .f32⟩ : BufTy).Contents (Elt F) → (⟨S10000x128, .f32⟩ : BufTy).Contents (Elt F) → (⟨S10000x128, .f32⟩ : BufTy).Contents (Elt F)),
    binary main_v41 main_v20 main_v42 (addf : (⟨S10000x128, .f32⟩ : BufTy).Contents (Elt F) → (⟨S10000x128, .f32⟩ : BufTy).Contents (Elt F) → (⟨S10000x128, .f32⟩ : BufTy).Contents (Elt F)) ]

/-- The mean head, first part: `A · (h₁ · W_mean)`, its row means, and the `ddof` constant of its variance. -/
abbrev opsMeanA : List (HloOp τ sig (Elt F)) :=
  [ binary main_v42 main_arg4 main_v43 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v43 main_v44 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    nullary main_cst_6 (constant S_ .f32 0x00000000#32),
    binary main_v44 main_cst_6 main_v45 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    unary main_v45 main_v46 (broadcastInDim S10000x1 ![0] bcast_S10000_S10000x1_0 : (⟨S10000, .f32⟩ : BufTy).Contents (Elt F) → (⟨S10000x1, .f32⟩ : BufTy).Contents (Elt F)),
    nullary main_cst_7 (constant S_ .f32 0x42800000#32),
    unary main_cst_7 main_v47 (broadcastInDim S10000x1 ![] bcast_S_S10000x1 : (⟨S_, .f32⟩ : BufTy).Contents (Elt F) → (⟨S10000x1, .f32⟩ : BufTy).Contents (Elt F)),
    binary main_v46 main_v47 main_v48 (Host.divf : (⟨S10000x1, .f32⟩ : BufTy).Contents (Elt F) → (⟨S10000x1, .f32⟩ : BufTy).Contents (Elt F) → (⟨S10000x1, .f32⟩ : BufTy).Contents (Elt F)),
    nullary main_c_8 (constantI S_ 32 0#32) ]

/-- The mean head, second part: the row variance and the normalization with `g_m`, `b_m`, ending at `μ`. -/
abbrev opsMeanB : List (HloOp τ sig (Elt F)) :=
  [ nullary main_call4_cst ((constant S_ .f32 0x00000000#32) : (⟨S_, .f32⟩ : BufTy).Contents (Elt F)),
    binary main_v44 main_call4_cst main_call4_v0 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    unary main_call4_v0 main_call4_v1 ((broadcastInDim S10000x1 ![0] bcast_S10000_S10000x1_0) : (⟨S10000, .f32⟩ : BufTy).Contents (Elt F) → (⟨S10000x1, .f32⟩ : BufTy).Contents (Elt F)),
    nullary main_call4_cst_0 ((constant S_ .f32 0x42800000#32) : (⟨S_, .f32⟩ : BufTy).Contents (Elt F)),
    unary main_call4_cst_0 main_call4_v2 ((broadcastInDim S10000x1 ![] bcast_S_S10000x1) : (⟨S_, .f32⟩ : BufTy).Contents (Elt F) → (⟨S10000x1, .f32⟩ : BufTy).Contents (Elt F)),
    binary main_call4_v1 main_call4_v2 main_call4_v3 ((Host.divf) : (⟨S10000x1, .f32⟩ : BufTy).Contents (Elt F) → (⟨S10000x1, .f32⟩ : BufTy).Contents (Elt F) → (⟨S10000x1, .f32⟩ : BufTy).Contents (Elt F)),
    unary main_call4_v3 main_call4_v4 ((broadcastInDim S10000x64 ![0, 1] bcast_S10000x1_S10000x64_0_1) : (⟨S10000x1, .f32⟩ : BufTy).Contents (Elt F) → (⟨S10000x64, .f32⟩ : BufTy).Contents (Elt F)),
    binary main_v44 main_call4_v4 main_call4_v5 ((subf) : (⟨S10000x64, .f32⟩ : BufTy).Contents (Elt F) → (⟨S10000x64, .f32⟩ : BufTy).Contents (Elt F) → (⟨S10000x64, .f32⟩ : BufTy).Contents (Elt F)),
    binary main_call4_v5 main_call4_v5 main_call4_v6 ((mulf) : (⟨S10000x64, .f32⟩ : BufTy).Contents (Elt F) → (⟨S10000x64, .f32⟩ : BufTy).Contents (Elt F) → (⟨S10000x64, .f32⟩ : BufTy).Contents (Elt F)),
    unary main_c_8 main_call4_v7 ((sitofp .f32) : (⟨S_, .i32⟩ : BufTy).Contents (Elt F) → (⟨S_, .f32⟩ : BufTy).Contents (Elt F)),
    nullary main_call4_cst_1 ((constant S_ .f32 0x42800000#32) : (⟨S_, .f32⟩ : BufTy).Contents (Elt F)),
    binary main_call4_cst_1 main_call4_v7 main_call4_v8 ((subf) : (⟨S_, .f32⟩ : BufTy).Contents (Elt F) → (⟨S_, .f32⟩ : BufTy).Contents (Elt F) → (⟨S_, .f32⟩ : BufTy).Contents (Elt F)),
    nullary main_call4_cst_2 ((constant S_ .f32 0x00000000#32) : (⟨S_, .f32⟩ : BufTy).Contents (Elt F)),
    binary main_call4_v6 main_call4_cst_2 main_call4_v9 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    unary main_call4_v9 main_call4_v10 ((broadcastInDim S10000x1 ![0] bcast_S10000_S10000x1_0) : (⟨S10000, .f32⟩ : BufTy).Contents (Elt F) → (⟨S10000x1, .f32⟩ : BufTy).Contents (Elt F)),
    unary main_call4_v8 main_call4_v11 ((broadcastInDim S10000x1 ![] bcast_S_S10000x1) : (⟨S_, .f32⟩ : BufTy).Contents (Elt F) → (⟨S10000x1, .f32⟩ : BufTy).Contents (Elt F)),
    binary main_call4_v10 main_call4_v11 main_call4_v12 ((Host.divf) : (⟨S10000x1, .f32⟩ : BufTy).Contents (Elt F) → (⟨S10000x1, .f32⟩ : BufTy).Contents (Elt F) → (⟨S10000x1, .f32⟩ : BufTy).Contents (Elt F)),
    nullary main_call4_cst_3 ((constant S_ .f32 0x00000000#32) : (⟨S_, .f32⟩ : BufTy).Contents (Elt F)),
    binary main_call4_v8 main_call4_cst_3 main_call4_v13 ((cmpf .ogt) : (⟨S_, .f32⟩ : BufTy).Contents (Elt F) → (⟨S_, .f32⟩ : BufTy).Contents (Elt F) → (⟨S_, .i1⟩ : BufTy).Contents (Elt F)),
    nullary main_call4_cst_4 ((constant S_ .f32 0x7FC00000#32) : (⟨S_, .f32⟩ : BufTy).Contents (Elt F)),
    unary main_call4_cst_4 main_call4_call0_v0 ((id) : (⟨S_, .f32⟩ : BufTy).Contents (Elt F) → (⟨S_, .f32⟩ : BufTy).Contents (Elt F)),
    unary main_call4_call0_v0 main_call4_call0_v1 ((broadcastInDim S10000x1 ![] bcast_S_S10000x1) : (⟨S_, .f32⟩ : BufTy).Contents (Elt F) → (⟨S10000x1, .f32⟩ : BufTy).Contents (Elt F)),
    ternary main_call4_v13 main_call4_v12 main_call4_call0_v1 main_v49 ((fun p a b => select (broadcastInDim S10000x1 ![] bcast_S_S10000x1 p) a b) : (⟨S_, .i1⟩ : BufTy).Contents (Elt F) → (⟨S10000x1, .f32⟩ : BufTy).Contents (Elt F) → (⟨S10000x1, .f32⟩ : BufTy).Contents (Elt F) → (⟨S10000x1, .f32⟩ : BufTy).Contents (Elt F)),
    unary main_v48 main_v50 (broadcastInDim S10000x64 ![0, 1] bcast_S10000x1_S10000x64_0_1 : (⟨S10000x1, .f32⟩ : BufTy).Contents (Elt F) → (⟨S10000x64, .f32⟩ : BufTy).Contents (Elt F)),
    binary main_v44 main_v50 main_v51 (subf : (⟨S10000x64, .f32⟩ : BufTy).Contents (Elt F) → (⟨S10000x64, .f32⟩ : BufTy).Contents (Elt F) → (⟨S10000x64, .f32⟩ : BufTy).Contents (Elt F)),
    nullary main_cst_9 (constant S_ .f32 0x3727C5AC#32),
    unary main_cst_9 main_v52 (broadcastInDim S10000x1 ![] bcast_S_S10000x1 : (⟨S_, .f32⟩ : BufTy).Contents (Elt F) → (⟨S10000x1, .f32⟩ : BufTy).Contents (Elt F)),
    binary main_v49 main_v52 main_v53 (addf : (⟨S10000x1, .f32⟩ : BufTy).Contents (Elt F) → (⟨S10000x1, .f32⟩ : BufTy).Contents (Elt F) → (⟨S10000x1, .f32⟩ : BufTy).Contents (Elt F)),
    unary main_v53 main_v54 (Host.sqrt : (⟨S10000x1, .f32⟩ : BufTy).Contents (Elt F) → (⟨S10000x1, .f32⟩ : BufTy).Contents (Elt F)),
    unary main_v54 main_v55 (broadcastInDim S10000x64 ![0, 1] bcast_S10000x1_S10000x64_0_1 : (⟨S10000x1, .f32⟩ : BufTy).Contents (Elt F) → (⟨S10000x64, .f32⟩ : BufTy).Contents (Elt F)),
    binary main_v51 main_v55 main_v56 (Host.divf : (⟨S10000x64, .f32⟩ : BufTy).Contents (Elt F) → (⟨S10000x64, .f32⟩ : BufTy).Contents (Elt F) → (⟨S10000x64, .f32⟩ : BufTy).Contents (Elt F)),
    unary main_arg10 main_v57 (broadcastInDim S1x64 ![1] bcast_S64_S1x64_1 : (⟨S64, .f32⟩ : BufTy).Contents (Elt F) → (⟨S1x64, .f32⟩ : BufTy).Contents (Elt F)),
    unary main_v57 main_v58 (broadcastInDim S10000x64 ![0, 1] bcast_S1x64_S10000x64_0_1 : (⟨S1x64, .f32⟩ : BufTy).Contents (Elt F) → (⟨S10000x64, .f32⟩ : BufTy).Contents (Elt F)),
    binary main_v56 main_v58 main_v59 (mulf : (⟨S10000x64, .f32⟩ : BufTy).Contents (Elt F) → (⟨S10000x64, .f32⟩ : BufTy).Contents (Elt F) → (⟨S10000x64, .f32⟩ : BufTy).Contents (Elt F)),
    unary main_arg11 main_v60 (broadcastInDim S1x64 ![1] bcast_S64_S1x64_1 : (⟨S64, .f32⟩ : BufTy).Contents (Elt F) → (⟨S1x64, .f32⟩ : BufTy).Contents (Elt F)),
    unary main_v60 main_v61 (broadcastInDim S10000x64 ![0, 1] bcast_S1x64_S10000x64_0_1 : (⟨S1x64, .f32⟩ : BufTy).Contents (Elt F) → (⟨S10000x64, .f32⟩ : BufTy).Contents (Elt F)),
    binary main_v59 main_v61 main_v62 (addf : (⟨S10000x64, .f32⟩ : BufTy).Contents (Elt F) → (⟨S10000x64, .f32⟩ : BufTy).Contents (Elt F) → (⟨S10000x64, .f32⟩ : BufTy).Contents (Elt F)) ]

/-- The log-std head: `A · (h₁ · W_logstd)` and its row normalization with `g_l`, `b_l`, ending at `λ`. -/
abbrev opsLogstd : List (HloOp τ sig (Elt F)) :=
  [ binary main_v42 main_arg5 main_v63 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v63 main_v64 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    nullary main_cst_10 (constant S_ .f32 0x00000000#32),
    binary main_v64 main_cst_10 main_v65 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    unary main_v65 main_v66 (broadcastInDim S10000x1 ![0] bcast_S10000_S10000x1_0 : (⟨S10000, .f32⟩ : BufTy).Contents (Elt F) → (⟨S10000x1, .f32⟩ : BufTy).Contents (Elt F)),
    nullary main_cst_11 (constant S_ .f32 0x42800000#32),
    unary main_cst_11 main_v67 (broadcastInDim S10000x1 ![] bcast_S_S10000x1 : (⟨S_, .f32⟩ : BufTy).Contents (Elt F) → (⟨S10000x1, .f32⟩ : BufTy).Contents (Elt F)),
    binary main_v66 main_v67 main_v68 (Host.divf : (⟨S10000x1, .f32⟩ : BufTy).Contents (Elt F) → (⟨S10000x1, .f32⟩ : BufTy).Contents (Elt F) → (⟨S10000x1, .f32⟩ : BufTy).Contents (Elt F)),
    nullary main_c_12 (constantI S_ 32 0#32),
    nullary main_call5_cst ((constant S_ .f32 0x00000000#32) : (⟨S_, .f32⟩ : BufTy).Contents (Elt F)),
    binary main_v64 main_call5_cst main_call5_v0 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    unary main_call5_v0 main_call5_v1 ((broadcastInDim S10000x1 ![0] bcast_S10000_S10000x1_0) : (⟨S10000, .f32⟩ : BufTy).Contents (Elt F) → (⟨S10000x1, .f32⟩ : BufTy).Contents (Elt F)),
    nullary main_call5_cst_0 ((constant S_ .f32 0x42800000#32) : (⟨S_, .f32⟩ : BufTy).Contents (Elt F)),
    unary main_call5_cst_0 main_call5_v2 ((broadcastInDim S10000x1 ![] bcast_S_S10000x1) : (⟨S_, .f32⟩ : BufTy).Contents (Elt F) → (⟨S10000x1, .f32⟩ : BufTy).Contents (Elt F)),
    binary main_call5_v1 main_call5_v2 main_call5_v3 ((Host.divf) : (⟨S10000x1, .f32⟩ : BufTy).Contents (Elt F) → (⟨S10000x1, .f32⟩ : BufTy).Contents (Elt F) → (⟨S10000x1, .f32⟩ : BufTy).Contents (Elt F)),
    unary main_call5_v3 main_call5_v4 ((broadcastInDim S10000x64 ![0, 1] bcast_S10000x1_S10000x64_0_1) : (⟨S10000x1, .f32⟩ : BufTy).Contents (Elt F) → (⟨S10000x64, .f32⟩ : BufTy).Contents (Elt F)),
    binary main_v64 main_call5_v4 main_call5_v5 ((subf) : (⟨S10000x64, .f32⟩ : BufTy).Contents (Elt F) → (⟨S10000x64, .f32⟩ : BufTy).Contents (Elt F) → (⟨S10000x64, .f32⟩ : BufTy).Contents (Elt F)),
    binary main_call5_v5 main_call5_v5 main_call5_v6 ((mulf) : (⟨S10000x64, .f32⟩ : BufTy).Contents (Elt F) → (⟨S10000x64, .f32⟩ : BufTy).Contents (Elt F) → (⟨S10000x64, .f32⟩ : BufTy).Contents (Elt F)),
    unary main_c_12 main_call5_v7 ((sitofp .f32) : (⟨S_, .i32⟩ : BufTy).Contents (Elt F) → (⟨S_, .f32⟩ : BufTy).Contents (Elt F)),
    nullary main_call5_cst_1 ((constant S_ .f32 0x42800000#32) : (⟨S_, .f32⟩ : BufTy).Contents (Elt F)),
    binary main_call5_cst_1 main_call5_v7 main_call5_v8 ((subf) : (⟨S_, .f32⟩ : BufTy).Contents (Elt F) → (⟨S_, .f32⟩ : BufTy).Contents (Elt F) → (⟨S_, .f32⟩ : BufTy).Contents (Elt F)),
    nullary main_call5_cst_2 ((constant S_ .f32 0x00000000#32) : (⟨S_, .f32⟩ : BufTy).Contents (Elt F)),
    binary main_call5_v6 main_call5_cst_2 main_call5_v9 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    unary main_call5_v9 main_call5_v10 ((broadcastInDim S10000x1 ![0] bcast_S10000_S10000x1_0) : (⟨S10000, .f32⟩ : BufTy).Contents (Elt F) → (⟨S10000x1, .f32⟩ : BufTy).Contents (Elt F)),
    unary main_call5_v8 main_call5_v11 ((broadcastInDim S10000x1 ![] bcast_S_S10000x1) : (⟨S_, .f32⟩ : BufTy).Contents (Elt F) → (⟨S10000x1, .f32⟩ : BufTy).Contents (Elt F)),
    binary main_call5_v10 main_call5_v11 main_call5_v12 ((Host.divf) : (⟨S10000x1, .f32⟩ : BufTy).Contents (Elt F) → (⟨S10000x1, .f32⟩ : BufTy).Contents (Elt F) → (⟨S10000x1, .f32⟩ : BufTy).Contents (Elt F)),
    nullary main_call5_cst_3 ((constant S_ .f32 0x00000000#32) : (⟨S_, .f32⟩ : BufTy).Contents (Elt F)),
    binary main_call5_v8 main_call5_cst_3 main_call5_v13 ((cmpf .ogt) : (⟨S_, .f32⟩ : BufTy).Contents (Elt F) → (⟨S_, .f32⟩ : BufTy).Contents (Elt F) → (⟨S_, .i1⟩ : BufTy).Contents (Elt F)),
    nullary main_call5_cst_4 ((constant S_ .f32 0x7FC00000#32) : (⟨S_, .f32⟩ : BufTy).Contents (Elt F)),
    unary main_call5_cst_4 main_call5_call0_v0 ((id) : (⟨S_, .f32⟩ : BufTy).Contents (Elt F) → (⟨S_, .f32⟩ : BufTy).Contents (Elt F)),
    unary main_call5_call0_v0 main_call5_call0_v1 ((broadcastInDim S10000x1 ![] bcast_S_S10000x1) : (⟨S_, .f32⟩ : BufTy).Contents (Elt F) → (⟨S10000x1, .f32⟩ : BufTy).Contents (Elt F)),
    ternary main_call5_v13 main_call5_v12 main_call5_call0_v1 main_v69 ((fun p a b => select (broadcastInDim S10000x1 ![] bcast_S_S10000x1 p) a b) : (⟨S_, .i1⟩ : BufTy).Contents (Elt F) → (⟨S10000x1, .f32⟩ : BufTy).Contents (Elt F) → (⟨S10000x1, .f32⟩ : BufTy).Contents (Elt F) → (⟨S10000x1, .f32⟩ : BufTy).Contents (Elt F)),
    unary main_v68 main_v70 (broadcastInDim S10000x64 ![0, 1] bcast_S10000x1_S10000x64_0_1 : (⟨S10000x1, .f32⟩ : BufTy).Contents (Elt F) → (⟨S10000x64, .f32⟩ : BufTy).Contents (Elt F)),
    binary main_v64 main_v70 main_v71 (subf : (⟨S10000x64, .f32⟩ : BufTy).Contents (Elt F) → (⟨S10000x64, .f32⟩ : BufTy).Contents (Elt F) → (⟨S10000x64, .f32⟩ : BufTy).Contents (Elt F)),
    nullary main_cst_13 (constant S_ .f32 0x3727C5AC#32),
    unary main_cst_13 main_v72 (broadcastInDim S10000x1 ![] bcast_S_S10000x1 : (⟨S_, .f32⟩ : BufTy).Contents (Elt F) → (⟨S10000x1, .f32⟩ : BufTy).Contents (Elt F)),
    binary main_v69 main_v72 main_v73 (addf : (⟨S10000x1, .f32⟩ : BufTy).Contents (Elt F) → (⟨S10000x1, .f32⟩ : BufTy).Contents (Elt F) → (⟨S10000x1, .f32⟩ : BufTy).Contents (Elt F)),
    unary main_v73 main_v74 (Host.sqrt : (⟨S10000x1, .f32⟩ : BufTy).Contents (Elt F) → (⟨S10000x1, .f32⟩ : BufTy).Contents (Elt F)),
    unary main_v74 main_v75 (broadcastInDim S10000x64 ![0, 1] bcast_S10000x1_S10000x64_0_1 : (⟨S10000x1, .f32⟩ : BufTy).Contents (Elt F) → (⟨S10000x64, .f32⟩ : BufTy).Contents (Elt F)),
    binary main_v71 main_v75 main_v76 (Host.divf : (⟨S10000x64, .f32⟩ : BufTy).Contents (Elt F) → (⟨S10000x64, .f32⟩ : BufTy).Contents (Elt F) → (⟨S10000x64, .f32⟩ : BufTy).Contents (Elt F)),
    unary main_arg12 main_v77 (broadcastInDim S1x64 ![1] bcast_S64_S1x64_1 : (⟨S64, .f32⟩ : BufTy).Contents (Elt F) → (⟨S1x64, .f32⟩ : BufTy).Contents (Elt F)),
    unary main_v77 main_v78 (broadcastInDim S10000x64 ![0, 1] bcast_S1x64_S10000x64_0_1 : (⟨S1x64, .f32⟩ : BufTy).Contents (Elt F) → (⟨S10000x64, .f32⟩ : BufTy).Contents (Elt F)),
    binary main_v76 main_v78 main_v79 (mulf : (⟨S10000x64, .f32⟩ : BufTy).Contents (Elt F) → (⟨S10000x64, .f32⟩ : BufTy).Contents (Elt F) → (⟨S10000x64, .f32⟩ : BufTy).Contents (Elt F)),
    unary main_arg13 main_v80 (broadcastInDim S1x64 ![1] bcast_S64_S1x64_1 : (⟨S64, .f32⟩ : BufTy).Contents (Elt F) → (⟨S1x64, .f32⟩ : BufTy).Contents (Elt F)),
    unary main_v80 main_v81 (broadcastInDim S10000x64 ![0, 1] bcast_S1x64_S10000x64_0_1 : (⟨S1x64, .f32⟩ : BufTy).Contents (Elt F) → (⟨S10000x64, .f32⟩ : BufTy).Contents (Elt F)),
    binary main_v79 main_v81 main_v82 (addf : (⟨S10000x64, .f32⟩ : BufTy).Contents (Elt F) → (⟨S10000x64, .f32⟩ : BufTy).Contents (Elt F) → (⟨S10000x64, .f32⟩ : BufTy).Contents (Elt F)) ]

/-- The sample `z = ε ⊙ exp λ + μ` and the decoder `1 / (1 + exp (-(z · zᵀ)))`. -/
abbrev opsDecode : List (HloOp τ sig (Elt F)) :=
  [ unary main_v82 main_v83 (Host.exp : (⟨S10000x64, .f32⟩ : BufTy).Contents (Elt F) → (⟨S10000x64, .f32⟩ : BufTy).Contents (Elt F)),
    binary main_arg14 main_v83 main_v84 (mulf : (⟨S10000x64, .f32⟩ : BufTy).Contents (Elt F) → (⟨S10000x64, .f32⟩ : BufTy).Contents (Elt F) → (⟨S10000x64, .f32⟩ : BufTy).Contents (Elt F)),
    binary main_v84 main_v62 main_v85 (addf : (⟨S10000x64, .f32⟩ : BufTy).Contents (Elt F) → (⟨S10000x64, .f32⟩ : BufTy).Contents (Elt F) → (⟨S10000x64, .f32⟩ : BufTy).Contents (Elt F)),
    unary main_v85 main_v86 ((transpose S64x10000 [1, 0] · transposes_S10000x64_S64x10000_1_0) : (⟨S10000x64, .f32⟩ : BufTy).Contents (Elt F) → (⟨S64x10000, .f32⟩ : BufTy).Contents (Elt F)),
    binary main_v85 main_v86 main_v87 ((fun l r => Host.dotGeneral dot_S10000x64_S64x10000_S10000x10000_1_0_0_1_n_n none l r) : (⟨S10000x64, .f32⟩ : BufTy).Contents (Elt F) → (⟨S64x10000, .f32⟩ : BufTy).Contents (Elt F) → (⟨S10000x10000, .f32⟩ : BufTy).Contents (Elt F)),
    unary main_v87 main_v88 (Host.negf : (⟨S10000x10000, .f32⟩ : BufTy).Contents (Elt F) → (⟨S10000x10000, .f32⟩ : BufTy).Contents (Elt F)),
    unary main_v88 main_v89 (Host.exp : (⟨S10000x10000, .f32⟩ : BufTy).Contents (Elt F) → (⟨S10000x10000, .f32⟩ : BufTy).Contents (Elt F)),
    nullary main_cst_14 (constant S_ .f32 0x3F800000#32),
    unary main_cst_14 main_v90 (broadcastInDim S10000x10000 ![] bcast_S_S10000x10000 : (⟨S_, .f32⟩ : BufTy).Contents (Elt F) → (⟨S10000x10000, .f32⟩ : BufTy).Contents (Elt F)),
    binary main_v90 main_v89 main_v91 (addf : (⟨S10000x10000, .f32⟩ : BufTy).Contents (Elt F) → (⟨S10000x10000, .f32⟩ : BufTy).Contents (Elt F) → (⟨S10000x10000, .f32⟩ : BufTy).Contents (Elt F)),
    nullary main_cst_15 (constant S_ .f32 0x3F800000#32),
    unary main_cst_15 main_v92 (broadcastInDim S10000x10000 ![] bcast_S_S10000x10000 : (⟨S_, .f32⟩ : BufTy).Contents (Elt F) → (⟨S10000x10000, .f32⟩ : BufTy).Contents (Elt F)),
    binary main_v92 main_v91 main_v93 (Host.divf : (⟨S10000x10000, .f32⟩ : BufTy).Contents (Elt F) → (⟨S10000x10000, .f32⟩ : BufTy).Contents (Elt F) → (⟨S10000x10000, .f32⟩ : BufTy).Contents (Elt F)) ]

/-- The whole program as one list: the operations of the first sixty statements, then those of the rest, a call of an
    outlined function standing as the operations of its body at that call's buffers. -/
abbrev ops : List (HloOp τ sig (Elt F)) :=
  (opsH0 ++ opsH1 ++ opsMeanA) ++ (opsMeanB ++ opsLogstd ++ opsDecode)

/-! ## The program is that list

Each outlined function's body, applied to a call's buffers, unfolds to a chain of steps whose typed-reference
operations are the plain ones at those buffers (the transport along a literal reference's type equation is the
identity), so each half of the program and the list's half agree by computation. The row sums are kept folded
meanwhile: the equation never looks inside them. -/

attribute [local irreducible] Host.reduceAdd in
set_option maxRecDepth 16384 in
set_option maxHeartbeats 4000000 in
theorem part0_eq (c : Dev nD) : main_part0 (F := F) c = seq (opsH0 ++ opsH1 ++ opsMeanA) := rfl

attribute [local irreducible] Host.reduceAdd in
set_option maxRecDepth 16384 in
set_option maxHeartbeats 4000000 in
theorem part1_eq (c : Dev nD) : main_part1 (F := F) c = seq (opsMeanB ++ opsLogstd ++ opsDecode) := rfl

theorem main_eq (c : Dev nD) : main (F := F) c = seq ops := by
  show main (F := F) c = seq ((opsH0 ++ opsH1 ++ opsMeanA) ++ (opsMeanB ++ opsLogstd ++ opsDecode))
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

set_option maxRecDepth 8192 in
theorem opsH0_sub : (opsH0 : List (HloOp τ sig (Elt F))).Forall fun op => op.bufs ⊆ tcRefs τ sig :=
  ⟨binary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem opsH0_fresh : (opsH0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsH1_sub : (opsH1 : List (HloOp τ sig (Elt F))).Forall fun op => op.bufs ⊆ tcRefs τ sig :=
  ⟨binary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

set_option maxRecDepth 8192 in
theorem opsH1_fresh : (opsH1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsMeanA_sub : (opsMeanA : List (HloOp τ sig (Elt F))).Forall fun op => op.bufs ⊆ tcRefs τ sig :=
  ⟨binary_bufs_sub .., binary_bufs_sub .., nullary_bufs_sub .., binary_bufs_sub .., unary_bufs_sub .., nullary_bufs_sub .., unary_bufs_sub .., binary_bufs_sub .., nullary_bufs_sub ..⟩

set_option maxRecDepth 8192 in
theorem opsMeanA_fresh : (opsMeanA : List (HloOp τ sig (Elt F))).Forall fun op => op.fresh = ∅ :=
  ⟨rfl, rfl, rfl, rfl, rfl, rfl, rfl, rfl, rfl⟩

set_option maxRecDepth 8192 in
theorem opsMeanB_sub : (opsMeanB : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem opsMeanB_fresh : (opsMeanB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsLogstd_sub : (opsLogstd : List (HloOp τ sig (Elt F))).Forall fun op => op.bufs ⊆ tcRefs τ sig :=
  ⟨binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem opsLogstd_fresh : (opsLogstd : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsDecode_sub : (opsDecode : List (HloOp τ sig (Elt F))).Forall fun op => op.bufs ⊆ tcRefs τ sig :=
  ⟨unary_bufs_sub .., binary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

set_option maxRecDepth 8192 in
theorem opsDecode_fresh : (opsDecode : List (HloOp τ sig (Elt F))).Forall fun op => op.fresh = ∅ :=
  ⟨rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with ((h | h) | h) | ((h | h) | h)
    exacts [List.forall_iff_forall_mem.mp opsH0_sub op h, List.forall_iff_forall_mem.mp opsH1_sub op h, List.forall_iff_forall_mem.mp opsMeanA_sub op h, List.forall_iff_forall_mem.mp opsMeanB_sub op h, List.forall_iff_forall_mem.mp opsLogstd_sub op h, List.forall_iff_forall_mem.mp opsDecode_sub op h]

theorem ops_fresh : ∀ op ∈ (ops : List (HloOp τ sig (Elt F))), op.fresh = ∅ := fun op h => by
  simp only [ops, List.mem_append] at h
  rcases h with ((h | h) | h) | ((h | h) | h)
  exacts [List.forall_iff_forall_mem.mp opsH0_fresh op h, List.forall_iff_forall_mem.mp opsH1_fresh op h, List.forall_iff_forall_mem.mp opsMeanA_fresh op h, List.forall_iff_forall_mem.mp opsMeanB_fresh op h, List.forall_iff_forall_mem.mp opsLogstd_fresh op h, List.forall_iff_forall_mem.mp opsDecode_fresh op h]

end Cert.ReferenceIdeal.Hand

end
-- ==== Proof.RefReadH0.lean ====
import proofs.«171846_g89721866813831_cont_sun_m_1046_11_alg».proof.ReferenceIdeal
import proofs.«171846_g89721866813831_cont_sun_m_1046_11_alg».proof.Proof.Gen.ReferenceIdeal
import proofs.«171846_g89721866813831_cont_sun_m_1046_11_alg».proof.Proof.RefTerm
import proofs.«171846_g89721866813831_cont_sun_m_1046_11_alg».proof.Proof.RefOps
import Idealize.ShloMosaic.Lib.StableHlo.Run

/-!
# Reading the input block

From any contents `W` of the buffers, after the input block's operations the buffer of `h₀` holds
`hidden0` of the contents of the five argument buffers it is computed from, and every buffer the block
does not write holds what it held.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers `opsH0` writes, in order. -/
abbrev opsH0_W : List (Ref sig .tc) :=
  [main_v0, main_v1, main_call0_cst, main_call0_v0, main_v2, main_cst, main_v3, main_v4, main_cst_0, main_v5, main_v6, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v7, main_v8, main_v9, main_cst_1, main_v10, main_v11, main_v12, main_v13, main_v14, main_v15, main_v16, main_v17, main_v18, main_v19, main_v20]

set_option maxRecDepth 8192 in
theorem opsH0_writes : (opsH0 : List (HloOp τ sig (Elt F))).Forall fun op =>
    op.writes ⊆ (opsH0_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `opsH0` does not write keeps its contents through it. -/
theorem opsH0_keep (W : Valuation τ sig (Elt F)) (r : Ref sig .tc) (h : r ∉ opsH0_W) :
    after opsH0 W (Proc.devRef .tc r) = W (Proc.devRef .tc r) :=
  after_of_writes_sub opsH0 _ opsH0_writes h

set_option maxRecDepth 16384 in
set_option maxHeartbeats 4000000 in
/-- After the input block, `h₀`'s buffer holds `hidden0` of the argument buffers' contents. -/
theorem opsH0_out (W : Valuation τ sig (Elt F)) :
    after opsH0 W (Proc.devRef .tc main_v20)
      = hidden0 (W (Proc.devRef .tc main_arg0)) (W (Proc.devRef .tc main_arg1)) (W (Proc.devRef .tc main_arg2))
          (W (Proc.devRef .tc main_arg6)) (W (Proc.devRef .tc main_arg7)) := by
  simp only [opsH0]
  after_results_simp
  rfl

end Cert.ReferenceIdeal.Hand

end
-- ==== Proof.RefReadH1.lean ====
import proofs.«171846_g89721866813831_cont_sun_m_1046_11_alg».proof.ReferenceIdeal
import proofs.«171846_g89721866813831_cont_sun_m_1046_11_alg».proof.Proof.Gen.ReferenceIdeal
import proofs.«171846_g89721866813831_cont_sun_m_1046_11_alg».proof.Proof.RefTerm
import proofs.«171846_g89721866813831_cont_sun_m_1046_11_alg».proof.Proof.RefOps
import Idealize.ShloMosaic.Lib.StableHlo.Run

/-!
# Reading the hidden block

From any contents `W` of the buffers, after the hidden block's operations the buffer of `h₁` holds `hidden1` of the
contents of `h₀`'s buffer and of the four argument buffers it reads, and every buffer the block does not write holds what it held.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers `opsH1` writes, in order. -/
abbrev opsH1_W : List (Ref sig .tc) :=
  [main_v21, main_v22, main_call2_cst, main_call2_v0, main_v23, main_cst_2, main_v24, main_v25, main_cst_3, main_v26, main_v27, main_c_4, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v28, main_v29, main_v30, main_cst_5, main_v31, main_v32, main_v33, main_v34, main_v35, main_v36, main_v37, main_v38, main_v39, main_v40, main_v41, main_v42]

set_option maxRecDepth 8192 in
theorem opsH1_writes : (opsH1 : List (HloOp τ sig (Elt F))).Forall fun op =>
    op.writes ⊆ (opsH1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `opsH1` does not write keeps its contents through it. -/
theorem opsH1_keep (W : Valuation τ sig (Elt F)) (r : Ref sig .tc) (h : r ∉ opsH1_W) :
    after opsH1 W (Proc.devRef .tc r) = W (Proc.devRef .tc r) :=
  after_of_writes_sub opsH1 _ opsH1_writes h

set_option maxRecDepth 16384 in
set_option maxHeartbeats 4000000 in
/-- After the hidden block, `h₁`'s buffer holds `hidden1` of `h₀`'s buffer and the argument buffers' contents. -/
theorem opsH1_out (W : Valuation τ sig (Elt F)) :
    after opsH1 W (Proc.devRef .tc main_v42)
      = hidden1 (W (Proc.devRef .tc main_v20)) (W (Proc.devRef .tc main_arg1)) (W (Proc.devRef .tc main_arg3))
          (W (Proc.devRef .tc main_arg8)) (W (Proc.devRef .tc main_arg9)) := by
  simp only [opsH1]
  after_results_simp
  rfl

end Cert.ReferenceIdeal.Hand

end
-- ==== Proof.RefReadMean.lean ====
import proofs.«171846_g89721866813831_cont_sun_m_1046_11_alg».proof.ReferenceIdeal
import proofs.«171846_g89721866813831_cont_sun_m_1046_11_alg».proof.Proof.Gen.ReferenceIdeal
import proofs.«171846_g89721866813831_cont_sun_m_1046_11_alg».proof.Proof.RefTerm
import proofs.«171846_g89721866813831_cont_sun_m_1046_11_alg».proof.Proof.RefOps
import Idealize.ShloMosaic.Lib.StableHlo.Run

/-!
# Reading the mean head

From any contents `W` of the buffers, after the two lists of the mean head the buffer of `μ` holds `head` of the contents
of `h₁`'s buffer and of the four argument buffers it reads, and every buffer neither list writes holds what it held.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers `opsMeanA` writes, in order. -/
abbrev opsMeanA_W : List (Ref sig .tc) :=
  [main_v43, main_v44, main_cst_6, main_v45, main_v46, main_cst_7, main_v47, main_v48, main_c_8]

set_option maxRecDepth 8192 in
theorem opsMeanA_writes : (opsMeanA : List (HloOp τ sig (Elt F))).Forall fun op =>
    op.writes ⊆ (opsMeanA_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `opsMeanA` does not write keeps its contents through it. -/
theorem opsMeanA_keep (W : Valuation τ sig (Elt F)) (r : Ref sig .tc) (h : r ∉ opsMeanA_W) :
    after opsMeanA W (Proc.devRef .tc r) = W (Proc.devRef .tc r) :=
  after_of_writes_sub opsMeanA _ opsMeanA_writes h

/-- The buffers `opsMeanB` writes, in order. -/
abbrev opsMeanB_W : List (Ref sig .tc) :=
  [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v49, main_v50, main_v51, main_cst_9, main_v52, main_v53, main_v54, main_v55, main_v56, main_v57, main_v58, main_v59, main_v60, main_v61, main_v62]

set_option maxRecDepth 8192 in
theorem opsMeanB_writes : (opsMeanB : List (HloOp τ sig (Elt F))).Forall fun op =>
    op.writes ⊆ (opsMeanB_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `opsMeanB` does not write keeps its contents through it. -/
theorem opsMeanB_keep (W : Valuation τ sig (Elt F)) (r : Ref sig .tc) (h : r ∉ opsMeanB_W) :
    after opsMeanB W (Proc.devRef .tc r) = W (Proc.devRef .tc r) :=
  after_of_writes_sub opsMeanB _ opsMeanB_writes h

set_option maxRecDepth 16384 in
set_option maxHeartbeats 4000000 in
/-- After the mean head, `μ`'s buffer holds `head` of `h₁`'s buffer and the argument buffers' contents. -/
theorem opsMean_out (W : Valuation τ sig (Elt F)) :
    after opsMeanB (after opsMeanA W) (Proc.devRef .tc main_v62)
      = head (W (Proc.devRef .tc main_v42)) (W (Proc.devRef .tc main_arg1)) (W (Proc.devRef .tc main_arg4))
          (W (Proc.devRef .tc main_arg10)) (W (Proc.devRef .tc main_arg11)) := by
  simp only [opsMeanA, opsMeanB]
  after_results_simp
  rfl

end Cert.ReferenceIdeal.Hand

end
-- ==== Proof.RefReadLogstd.lean ====
import proofs.«171846_g89721866813831_cont_sun_m_1046_11_alg».proof.ReferenceIdeal
import proofs.«171846_g89721866813831_cont_sun_m_1046_11_alg».proof.Proof.Gen.ReferenceIdeal
import proofs.«171846_g89721866813831_cont_sun_m_1046_11_alg».proof.Proof.RefTerm
import proofs.«171846_g89721866813831_cont_sun_m_1046_11_alg».proof.Proof.RefOps
import Idealize.ShloMosaic.Lib.StableHlo.Run

/-!
# Reading the log-std head

From any contents `W` of the buffers, after the log-std head's operations the buffer of `λ` holds `head` of the contents
of `h₁`'s buffer and of the four argument buffers it reads, and every buffer the list does not write holds what it held.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers `opsLogstd` writes, in order. -/
abbrev opsLogstd_W : List (Ref sig .tc) :=
  [main_v63, main_v64, main_cst_10, main_v65, main_v66, main_cst_11, main_v67, main_v68, main_c_12, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v69, main_v70, main_v71, main_cst_13, main_v72, main_v73, main_v74, main_v75, main_v76, main_v77, main_v78, main_v79, main_v80, main_v81, main_v82]

set_option maxRecDepth 8192 in
theorem opsLogstd_writes : (opsLogstd : List (HloOp τ sig (Elt F))).Forall fun op =>
    op.writes ⊆ (opsLogstd_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `opsLogstd` does not write keeps its contents through it. -/
theorem opsLogstd_keep (W : Valuation τ sig (Elt F)) (r : Ref sig .tc) (h : r ∉ opsLogstd_W) :
    after opsLogstd W (Proc.devRef .tc r) = W (Proc.devRef .tc r) :=
  after_of_writes_sub opsLogstd _ opsLogstd_writes h

set_option maxRecDepth 16384 in
set_option maxHeartbeats 4000000 in
/-- After the log-std head, `λ`'s buffer holds `head` of `h₁`'s buffer and the argument buffers' contents. -/
theorem opsLogstd_out (W : Valuation τ sig (Elt F)) :
    after opsLogstd W (Proc.devRef .tc main_v82)
      = head (W (Proc.devRef .tc main_v42)) (W (Proc.devRef .tc main_arg1)) (W (Proc.devRef .tc main_arg5))
          (W (Proc.devRef .tc main_arg12)) (W (Proc.devRef .tc main_arg13)) := by
  simp only [opsLogstd]
  after_results_simp
  rfl

end Cert.ReferenceIdeal.Hand

end
-- ==== Proof.RefReadDecode.lean ====
import proofs.«171846_g89721866813831_cont_sun_m_1046_11_alg».proof.ReferenceIdeal
import proofs.«171846_g89721866813831_cont_sun_m_1046_11_alg».proof.Proof.Gen.ReferenceIdeal
import proofs.«171846_g89721866813831_cont_sun_m_1046_11_alg».proof.Proof.RefTerm
import proofs.«171846_g89721866813831_cont_sun_m_1046_11_alg».proof.Proof.RefOps
import Idealize.ShloMosaic.Lib.StableHlo.Run

/-!
# Reading the sample and the decoder

From any contents `W` of the buffers, after the last list the result buffer holds `decode` of the sample `latent` of the
noise argument's, `λ`'s and `μ`'s buffers, and every buffer the list does not write holds what it held.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers `opsDecode` writes, in order. -/
abbrev opsDecode_W : List (Ref sig .tc) :=
  [main_v83, main_v84, main_v85, main_v86, main_v87, main_v88, main_v89, main_cst_14, main_v90, main_v91, main_cst_15, main_v92, main_v93]

set_option maxRecDepth 8192 in
theorem opsDecode_writes : (opsDecode : List (HloOp τ sig (Elt F))).Forall fun op =>
    op.writes ⊆ (opsDecode_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `opsDecode` does not write keeps its contents through it. -/
theorem opsDecode_keep (W : Valuation τ sig (Elt F)) (r : Ref sig .tc) (h : r ∉ opsDecode_W) :
    after opsDecode W (Proc.devRef .tc r) = W (Proc.devRef .tc r) :=
  after_of_writes_sub opsDecode _ opsDecode_writes h

set_option maxRecDepth 16384 in
set_option maxHeartbeats 4000000 in
/-- After the last list, the result buffer holds `decode (latent ε λ μ)` of those three buffers' contents. -/
theorem opsDecode_out (W : Valuation τ sig (Elt F)) :
    after opsDecode W (Proc.devRef .tc main_v93)
      = decode (latent (W (Proc.devRef .tc main_arg14)) (W (Proc.devRef .tc main_v82)) (W (Proc.devRef .tc main_v62))) := by
  simp only [opsDecode]
  after_results_simp
  rfl

end Cert.ReferenceIdeal.Hand

end
-- ==== Proof.RefRun.lean ====
import proofs.«171846_g89721866813831_cont_sun_m_1046_11_alg».proof.ReferenceIdeal
import proofs.«171846_g89721866813831_cont_sun_m_1046_11_alg».proof.Proof.Gen.ReferenceIdeal
import proofs.«171846_g89721866813831_cont_sun_m_1046_11_alg».proof.Proof.RefTerm
import proofs.«171846_g89721866813831_cont_sun_m_1046_11_alg».proof.Proof.RefOps
import proofs.«171846_g89721866813831_cont_sun_m_1046_11_alg».proof.Proof.RefReadH0
import proofs.«171846_g89721866813831_cont_sun_m_1046_11_alg».proof.Proof.RefReadH1
import proofs.«171846_g89721866813831_cont_sun_m_1046_11_alg».proof.Proof.RefReadMean
import proofs.«171846_g89721866813831_cont_sun_m_1046_11_alg».proof.Proof.RefReadLogstd
import proofs.«171846_g89721866813831_cont_sun_m_1046_11_alg».proof.Proof.RefReadDecode
import Idealize.ShloMosaic.Lib.Pipeline.Frame
import Idealize.ShloMosaic.Lib.StableHlo.Run

/-!
# The reference's run

The program is the list `ops`; a straight line of array operations run from any memory terminates with every buffer
at the fold of the operations over the launch contents. Read stage by stage, that fold leaves the result buffer at
`refOut` of the fifteen argument buffers' launch contents, and the argument buffers, which no operation writes, as
they were.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over the whole list, stage by stage. -/
theorem after_ops (V : Valuation τ sig (Elt F)) :
    after ops V
      = after opsDecode (after opsLogstd (after opsMeanB (after opsMeanA (after opsH1 (after opsH0 V))))) := by
  simp only [ops, StableHlo.after_append]

/-- A buffer no stage writes keeps its contents through the whole program. -/
theorem ops_keep (V : Valuation τ sig (Elt F)) (r : Ref sig .tc)
    (h0 : r ∉ opsH0_W) (h1 : r ∉ opsH1_W) (h2 : r ∉ opsMeanA_W) (h3 : r ∉ opsMeanB_W)
    (h4 : r ∉ opsLogstd_W) (h5 : r ∉ opsDecode_W) :
    after ops V (Proc.devRef .tc r) = V (Proc.devRef .tc r) := by
  rw [after_ops, opsDecode_keep _ r h5, opsLogstd_keep _ r h4, opsMeanB_keep _ r h3, opsMeanA_keep _ r h2,
    opsH1_keep _ r h1, opsH0_keep _ r h0]

set_option maxRecDepth 8192 in
/-- The result buffer after the whole program: `refOut` of the argument buffers' contents. Each stage's reading is
    applied at the contents the earlier stages leave, and what a stage reads from before it is carried back through the
    stages that do not write it. -/
theorem ops_out (V : Valuation τ sig (Elt F)) :
    after ops V (Proc.devRef .tc main_v93)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_ops, opsDecode_out, opsLogstd_out,
    opsLogstd_keep _ main_arg14 (by decide), opsLogstd_keep _ main_v62 (by decide),
    opsMean_out,
    opsMeanB_keep _ main_arg14 (by decide), opsMeanA_keep _ main_arg14 (by decide),
    opsMeanB_keep _ main_v42 (by decide), opsMeanA_keep _ main_v42 (by decide),
    opsMeanB_keep _ main_arg1 (by decide), opsMeanA_keep _ main_arg1 (by decide),
    opsMeanB_keep _ main_arg5 (by decide), opsMeanA_keep _ main_arg5 (by decide),
    opsMeanB_keep _ main_arg12 (by decide), opsMeanA_keep _ main_arg12 (by decide),
    opsMeanB_keep _ main_arg13 (by decide), opsMeanA_keep _ main_arg13 (by decide),
    opsH1_out,
    opsH1_keep _ main_arg14 (by decide),
    opsH1_keep _ main_arg1 (by decide),
    opsH1_keep _ main_arg5 (by decide),
    opsH1_keep _ main_arg12 (by decide),
    opsH1_keep _ main_arg13 (by decide),
    opsH1_keep _ main_arg4 (by decide),
    opsH1_keep _ main_arg10 (by decide),
    opsH1_keep _ main_arg11 (by decide),
    opsH0_out,
    opsH0_keep _ main_arg14 (by decide),
    opsH0_keep _ main_arg1 (by decide),
    opsH0_keep _ main_arg5 (by decide),
    opsH0_keep _ main_arg12 (by decide),
    opsH0_keep _ main_arg13 (by decide),
    opsH0_keep _ main_arg4 (by decide),
    opsH0_keep _ main_arg10 (by decide),
    opsH0_keep _ main_arg11 (by decide),
    opsH0_keep _ main_arg3 (by decide),
    opsH0_keep _ main_arg8 (by decide),
    opsH0_keep _ main_arg9 (by decide)]
  rfl

set_option maxRecDepth 8192 in
set_option maxHeartbeats 1000000 in
/-- On every device, for any float values, from any memory with zero counters: every weakly fair execution of the
    program terminates with the result buffer at `refOut` of the argument arrays' launch contents and the argument
    arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v93).trans (ops_out _),
      (h c main_arg0).trans (ops_keep _ main_arg0 (by decide) (by decide) (by decide) (by decide) (by decide) (by decide)),
      (h c main_arg1).trans (ops_keep _ main_arg1 (by decide) (by decide) (by decide) (by decide) (by decide) (by decide)),
      (h c main_arg2).trans (ops_keep _ main_arg2 (by decide) (by decide) (by decide) (by decide) (by decide) (by decide)),
      (h c main_arg3).trans (ops_keep _ main_arg3 (by decide) (by decide) (by decide) (by decide) (by decide) (by decide)),
      (h c main_arg4).trans (ops_keep _ main_arg4 (by decide) (by decide) (by decide) (by decide) (by decide) (by decide)),
      (h c main_arg5).trans (ops_keep _ main_arg5 (by decide) (by decide) (by decide) (by decide) (by decide) (by decide)),
      (h c main_arg6).trans (ops_keep _ main_arg6 (by decide) (by decide) (by decide) (by decide) (by decide) (by decide)),
      (h c main_arg7).trans (ops_keep _ main_arg7 (by decide) (by decide) (by decide) (by decide) (by decide) (by decide)),
      (h c main_arg8).trans (ops_keep _ main_arg8 (by decide) (by decide) (by decide) (by decide) (by decide) (by decide)),
      (h c main_arg9).trans (ops_keep _ main_arg9 (by decide) (by decide) (by decide) (by decide) (by decide) (by decide)),
      (h c main_arg10).trans (ops_keep _ main_arg10 (by decide) (by decide) (by decide) (by decide) (by decide) (by decide)),
      (h c main_arg11).trans (ops_keep _ main_arg11 (by decide) (by decide) (by decide) (by decide) (by decide) (by decide)),
      (h c main_arg12).trans (ops_keep _ main_arg12 (by decide) (by decide) (by decide) (by decide) (by decide) (by decide)),
      (h c main_arg13).trans (ops_keep _ main_arg13 (by decide) (by decide) (by decide) (by decide) (by decide) (by decide)),
      (h c main_arg14).trans (ops_keep _ main_arg14 (by decide) (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.Consts.lean ====
/-
  The float constants the two programs spell, as the extended reals their bit patterns denote: the two
  row lengths 128 and 64 that the means divide by, the unit 1 of the logistic's quotient, and the
  positive stabilizer added to a variance before its square root is taken.
-/
import Idealize.ShloMosaic.PureOps.Ideal

noncomputable section

namespace Cert.Consts

open Idealize.ShloMosaic

/-- The pattern of 128.0 denotes the real 128. -/
theorem ofBits_128 : Ideal.ofBits .f32 0x43000000#32 = ((128 : ℝ) : EReal) := by
  simp [Ideal.ofBits, Ideal.ieee, -EReal.coe_mul]; norm_num

/-- The pattern of 64.0 denotes the real 64. -/
theorem ofBits_64 : Ideal.ofBits .f32 0x42800000#32 = ((64 : ℝ) : EReal) := by
  simp [Ideal.ofBits, Ideal.ieee, -EReal.coe_mul]; norm_num

/-- The pattern of 1.0 denotes 1. -/
theorem ofBits_one : Ideal.ofBits .f32 0x3F800000#32 = 1 := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- The stabilizer (the single-precision value nearest 1e-5) denotes a positive real. -/
theorem ofBits_eps : ∃ r : ℝ, 0 < r ∧ Ideal.ofBits .f32 0x3727C5AC#32 = ((r : ℝ) : EReal) := by
  refine ⟨_, ?_, by simp [Ideal.ofBits, Ideal.ieee, -EReal.coe_mul]; rfl⟩
  norm_num

end Cert.Consts

end
-- ==== Proof.RefReadLib.lean ====
/-
  The array operations the reference network is built from, each read at one coordinate over the extended
  reals: a scalar splat, a column of row statistics spread along the rows, a gain or bias vector spread down
  the rows, a row sum, and a plain matrix product.
-/
import proofs.«171846_g89721866813831_cont_sun_m_1046_11_alg».proof.Proof.RefTerm
import proofs.«171846_g89721866813831_cont_sun_m_1046_11_alg».proof.Proof.Consts
import proofs.«171846_g89721866813831_cont_sun_m_1046_11_alg».proof.Proof.LibPlainDot
import Idealize.ShloMosaic.Lib.IdealHost
import Idealize.ShloMosaic.Lib.ValueLayout
import Idealize.ShloMosaic.Lib.Pipeline.Value

noncomputable section

open scoped BigOperators

namespace Cert.ReferenceIdeal.Read

open Cert.ReferenceIdeal Cert.ReferenceIdeal.Gen Cert.ReferenceIdeal.Hand
open Idealize.ShloMosaic Idealize.ShloMosaic.ValueIdx Idealize.SL.Sem

/-! ## Splats and spreads -/

/-- A scalar constant spread over any shape reads the constant's value everywhere. -/
theorem splat_apply {T : Shape} (h : (⟨0, ![]⟩ : Shape).BroadcastsInDim T ![]) (b : BitVec 32) (j : T.Idx) :
    broadcastInDim T ![] h (constant (F := Ideal) (⟨0, ![]⟩ : Shape) .f32 b) j = Ideal.ofBits .f32 b :=
  broadcastInDim_scalar_apply h _ j

/-- A vector of per-row values made a one-column matrix reads the row's value. -/
theorem col_of_vec_apply {α : Type} {m : ℕ} (h : (⟨1, ![m]⟩ : Shape).BroadcastsInDim ⟨2, ![m, 1]⟩ ![0])
    (v : (⟨1, ![m]⟩ : Shape).Idx → α) (r : Fin m) (c : Fin 1) :
    broadcastInDim ⟨2, ![m, 1]⟩ ![0] h v (ix2 r c) = v (ix1 r) := by
  refine broadcastInDim_apply _ h v _ (ix1 r) fun a => ?_
  match a with
  | ⟨0, _⟩ =>
    show r.val = if m = 1 then 0 else r.val
    split
    · have := r.isLt; omega
    · rfl

/-- A one-column matrix spread along the rows reads the row's entry at every column. -/
theorem spread_col_apply {α : Type} {m n : ℕ} (h : (⟨2, ![m, 1]⟩ : Shape).BroadcastsInDim ⟨2, ![m, n]⟩ ![0, 1])
    (v : (⟨2, ![m, 1]⟩ : Shape).Idx → α) (r : Fin m) (k : Fin n) :
    broadcastInDim ⟨2, ![m, n]⟩ ![0, 1] h v (ix2 r k) = v (ix2 r 0) := by
  refine broadcastInDim_apply _ h v _ (ix2 r 0) fun a => ?_
  match a with
  | ⟨0, _⟩ =>
    show r.val = if m = 1 then 0 else r.val
    split
    · have := r.isLt; omega
    · rfl
  | ⟨1, _⟩ => rfl

/-- A vector made a one-row matrix and spread down the rows reads the vector at the column. -/
theorem spread_row_apply {α : Type} {m n : ℕ} (h1 : (⟨1, ![n]⟩ : Shape).BroadcastsInDim ⟨2, ![1, n]⟩ ![1])
    (h2 : (⟨2, ![1, n]⟩ : Shape).BroadcastsInDim ⟨2, ![m, n]⟩ ![0, 1])
    (g : (⟨1, ![n]⟩ : Shape).Idx → α) (r : Fin m) (k : Fin n) :
    broadcastInDim ⟨2, ![m, n]⟩ ![0, 1] h2 (broadcastInDim ⟨2, ![1, n]⟩ ![1] h1 g) (ix2 r k) = g (ix1 k) := by
  refine (broadcastInDim_apply _ h2 _ _ (ix2 0 k) fun a => ?_).trans
    (broadcastInDim_apply _ h1 g _ (ix1 k) fun a => ?_)
  · match a with
    | ⟨0, _⟩ => rfl
    | ⟨1, _⟩ =>
      show k.val = if n = 1 then 0 else k.val
      split
      · have := k.isLt; omega
      · rfl
  · match a with
    | ⟨0, _⟩ =>
      show k.val = if n = 1 then 0 else k.val
      split
      · have := k.isLt; omega
      · rfl

/-! ## A row sum -/

/-- The sum of every row of an `[m, n]` array from the zero pattern: at a row, the sum of its entries. -/
theorem rowSum_apply {m n : ℕ} (h' : (⟨2, ![m, n]⟩ : Shape).ReducesTo [1] ⟨1, ![m]⟩)
    (h : (⟨2, ![m, n]⟩ : Shape).Reduces [1] ⟨1, ![m]⟩) (hu : 0 < (⟨0, ![]⟩ : Shape).numel)
    (x : FVec Ideal ⟨2, ![m, n]⟩ .f32) (r : Fin m) :
    Host.reduceAdd x (constant (F := Ideal) (⟨0, ![]⟩ : Shape) .f32 0x00000000#32) h' hu (ix1 r)
      = ∑ k : Fin n, x (ix2 r k) := by
  rw [hostReduceAdd_apply, Ideal.hostReduceAdd_single h' h]
  show Ideal.ofBits .f32 0x00000000#32 + _ = _
  rw [Consts.ofBits_zero, zero_add]
  refine Finset.sum_congr rfl fun k _ => congrArg x ?_
  funext a
  match a with
  | ⟨0, _⟩ => rfl
  | ⟨1, _⟩ => rfl

/-! ## A plain matrix product -/

/-- A plain `[M, K] × [K, N]` product at `(a, b)` is the sum over the middle coordinate. -/
theorem dot_apply {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (r : FVec Ideal ⟨2, ![K, N]⟩ .f32) (a : Fin M) (b : Fin N) :
    Host.dotGeneral d none l r (ix2 a b) = ∑ q : Fin K, l (ix2 a q) * r (ix2 q b) := by
  show FloatOps.dotGeneral d none .single l r (ix2 a b) = _
  rw [Ideal.dotGeneral_apply]
  exact LibPlainDot.plain_sum d hlc hrc hln hrn hlb hrb (fun i j => l i * r j) a b

end Cert.ReferenceIdeal.Read

end
-- ==== Proof.RefReadNorm.lean ====
/-
  The stages of the reference network read at one coordinate over the extended reals: the rectifier, the row mean,
  the two-pass row variance (whose guard on a positive normalizer always passes), the row normalization, the two graph
  convolutions, and from them the hidden layers, the two heads, the latent sample and the decoder.
-/
import proofs.«171846_g89721866813831_cont_sun_m_1046_11_alg».proof.Proof.RefReadLib
import proofs.«171846_g89721866813831_cont_sun_m_1046_11_alg».proof.Proof.Spec

noncomputable section

open scoped BigOperators

namespace Cert.ReferenceIdeal.Read

open Cert.ReferenceIdeal Cert.ReferenceIdeal.Gen Cert.ReferenceIdeal.Hand
open Idealize.ShloMosaic Idealize.ShloMosaic.ValueIdx Idealize.SL.Sem

/-! ## Entrywise host functions -/

theorem hostSqrt_apply {s : Shape} {φ : FTy} (a : FVec Ideal s φ) (i : s.Idx) : Host.sqrt a i = Ideal.sqrt (a i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-! ## Row statistics and normalization of a `[10000, 128]` array -/

/-- The rectifier keeps the larger of an entry and zero. -/
theorem relu128_apply (x : FVec Ideal S10000x128 .f32) (r : Fin 10000) (k : Fin 128) :
    relu128 x (ix2 r k) = max (x (ix2 r k)) 0 := by
  unfold relu128
  rw [maximumf_apply, splat_apply, Consts.ofBits_zero]

/-- The row mean is the row's sum over the row length. -/
theorem rowMean128_apply (x : FVec Ideal S10000x128 .f32) (r : Fin 10000) (c : Fin 1) :
    rowMean128 x (ix2 r c) = Spec.mu (Ideal.ofBits .f32 0x43000000#32) (fun k => x (ix2 r k)) := by
  unfold rowMean128 Spec.mu
  rw [hostDivf_apply, col_of_vec_apply, splat_apply, rowSum_apply _ (by decide)]

/-- With no degrees of freedom removed, the variance's normalizer is the row length itself. -/
theorem normalizer128_zero (j : S_.Idx) :
    normalizer128 (F := Ideal) (constantI S_ 32 0#32) j = Ideal.ofBits .f32 0x43000000#32 := by
  unfold normalizer128
  rw [subf_apply, constant_apply, sitofp_apply, constantI_apply]
  show Ideal.ofBits .f32 0x43000000#32 - (((0#32 : BitVec 32).toInt : ℝ) : EReal) = _
  rw [show (0#32 : BitVec 32).toInt = 0 by decide, Int.cast_zero, EReal.coe_zero, sub_zero]

/-- The row variance: the normalizer is positive, so the guarded quotient is the quotient. -/
theorem var128_apply (x : FVec Ideal S10000x128 .f32) (r : Fin 10000) (c : Fin 1) :
    var128 x (constantI S_ 32 0#32) (ix2 r c)
      = Spec.var (Ideal.ofBits .f32 0x43000000#32) (fun k => x (ix2 r k)) := by
  unfold var128 whereCol
  rw [select_apply, broadcastInDim_scalar_apply, cmpf_apply, normalizer128_zero, constant_apply, Ideal.cmpf_def]
  have hpos : Ideal.cmp .ogt (Ideal.ofBits .f32 0x43000000#32) (Ideal.ofBits .f32 0x00000000#32) = 1 := by
    rw [Consts.ofBits_128, Consts.ofBits_zero]
    unfold Ideal.cmp
    have h : (0 : EReal) < ((128 : ℝ) : EReal) := by exact_mod_cast (by norm_num : (0 : ℝ) < 128)
    simp [h]
  rw [hpos]
  show Host.divf _ _ (ix2 r c) = _
  unfold Spec.var
  rw [hostDivf_apply, col_of_vec_apply, broadcastInDim_scalar_apply, normalizer128_zero, rowSum_apply _ (by decide)]
  refine congrArg (fun s => Ideal.div s _) (Finset.sum_congr rfl fun k _ => ?_)
  rw [mulf_apply, subf_apply, spread_col_apply, rowMean128_apply]

/-- Row normalization at a coordinate: the quotient form of the specification. -/
theorem layerNorm128_apply (x : FVec Ideal S10000x128 .f32) (g b : FVec Ideal S128 .f32) (r : Fin 10000) (k : Fin 128) :
    layerNorm128 x g b (ix2 r k)
      = Spec.lnR (Ideal.ofBits .f32 0x43000000#32) (Ideal.ofBits .f32 0x3727C5AC#32)
          (fun k => g (ix1 k)) (fun k => b (ix1 k)) (fun k => x (ix2 r k)) k := by
  unfold layerNorm128 Spec.lnR
  rw [addf_apply, mulf_apply, hostDivf_apply, subf_apply, spread_col_apply, spread_col_apply, spread_row_apply,
    spread_row_apply, hostSqrt_apply, addf_apply, splat_apply, var128_apply, rowMean128_apply]

/-! ## Row statistics and normalization of a `[10000, 64]` array -/

/-- The row mean is the row's sum over the row length. -/
theorem rowMean64_apply (x : FVec Ideal S10000x64 .f32) (r : Fin 10000) (c : Fin 1) :
    rowMean64 x (ix2 r c) = Spec.mu (Ideal.ofBits .f32 0x42800000#32) (fun k => x (ix2 r k)) := by
  unfold rowMean64 Spec.mu
  rw [hostDivf_apply, col_of_vec_apply, splat_apply, rowSum_apply _ (by decide)]

/-- With no degrees of freedom removed, the variance's normalizer is the row length itself. -/
theorem normalizer64_zero (j : S_.Idx) :
    normalizer64 (F := Ideal) (constantI S_ 32 0#32) j = Ideal.ofBits .f32 0x42800000#32 := by
  unfold normalizer64
  rw [subf_apply, constant_apply, sitofp_apply, constantI_apply]
  show Ideal.ofBits .f32 0x42800000#32 - (((0#32 : BitVec 32).toInt : ℝ) : EReal) = _
  rw [show (0#32 : BitVec 32).toInt = 0 by decide, Int.cast_zero, EReal.coe_zero, sub_zero]

/-- The row variance: the normalizer is positive, so the guarded quotient is the quotient. -/
theorem var64_apply (x : FVec Ideal S10000x64 .f32) (r : Fin 10000) (c : Fin 1) :
    var64 x (constantI S_ 32 0#32) (ix2 r c)
      = Spec.var (Ideal.ofBits .f32 0x42800000#32) (fun k => x (ix2 r k)) := by
  unfold var64 whereCol
  rw [select_apply, broadcastInDim_scalar_apply, cmpf_apply, normalizer64_zero, constant_apply, Ideal.cmpf_def]
  have hpos : Ideal.cmp .ogt (Ideal.ofBits .f32 0x42800000#32) (Ideal.ofBits .f32 0x00000000#32) = 1 := by
    rw [Consts.ofBits_64, Consts.ofBits_zero]
    unfold Ideal.cmp
    have h : (0 : EReal) < ((64 : ℝ) : EReal) := by exact_mod_cast (by norm_num : (0 : ℝ) < 64)
    simp [h]
  rw [hpos]
  show Host.divf _ _ (ix2 r c) = _
  unfold Spec.var
  rw [hostDivf_apply, col_of_vec_apply, broadcastInDim_scalar_apply, normalizer64_zero, rowSum_apply _ (by decide)]
  refine congrArg (fun s => Ideal.div s _) (Finset.sum_congr rfl fun k _ => ?_)
  rw [mulf_apply, subf_apply, spread_col_apply, rowMean64_apply]

/-- Row normalization at a coordinate: the quotient form of the specification. -/
theorem layerNorm64_apply (x : FVec Ideal S10000x64 .f32) (g b : FVec Ideal S64 .f32) (r : Fin 10000) (k : Fin 64) :
    layerNorm64 x g b (ix2 r k)
      = Spec.lnR (Ideal.ofBits .f32 0x42800000#32) (Ideal.ofBits .f32 0x3727C5AC#32)
          (fun k => g (ix1 k)) (fun k => b (ix1 k)) (fun k => x (ix2 r k)) k := by
  unfold layerNorm64 Spec.lnR
  rw [addf_apply, mulf_apply, hostDivf_apply, subf_apply, spread_col_apply, spread_col_apply, spread_row_apply,
    spread_row_apply, hostSqrt_apply, addf_apply, splat_apply, var64_apply, rowMean64_apply]

end Cert.ReferenceIdeal.Read

end
-- ==== Proof.RefReadNet.lean ====
/-
  The reference network read at one coordinate: the two graph convolutions as double sums, the hidden layers, the two
  heads, the latent sample and the decoder, each equal to the corresponding function of the specification.
-/
import proofs.«171846_g89721866813831_cont_sun_m_1046_11_alg».proof.Proof.RefReadNorm

noncomputable section

open scoped BigOperators

namespace Cert.ReferenceIdeal.Read

open Cert.ReferenceIdeal Cert.ReferenceIdeal.Gen Cert.ReferenceIdeal.Hand
open Idealize.ShloMosaic Idealize.ShloMosaic.ValueIdx Idealize.SL.Sem

/-! ## Graph convolutions -/

/-- `A · (h · W)` at a coordinate, for a projection to `128` columns. -/
theorem gcn128_apply (A : FVec Ideal S10000x10000 .f32) (h : FVec Ideal S10000x128 .f32) (W : FVec Ideal S128x128 .f32)
    (i : Fin 10000) (k : Fin 128) :
    gcn128 A h W (ix2 i k)
      = Spec.mm (fun i j => A (ix2 i j)) (Spec.mm (fun i q => h (ix2 i q)) (fun q k => W (ix2 q k))) i k := by
  unfold gcn128
  rw [dot_apply _ rfl rfl rfl rfl rfl rfl]
  unfold Spec.mm
  refine Finset.sum_congr rfl fun q _ => ?_
  rw [dot_apply _ rfl rfl rfl rfl rfl rfl]

/-- `A · (h · W)` at a coordinate, for a projection to `64` columns. -/
theorem gcn64_apply (A : FVec Ideal S10000x10000 .f32) (h : FVec Ideal S10000x128 .f32) (W : FVec Ideal S128x64 .f32)
    (i : Fin 10000) (k : Fin 64) :
    gcn64 A h W (ix2 i k)
      = Spec.mm (fun i j => A (ix2 i j)) (Spec.mm (fun i q => h (ix2 i q)) (fun q k => W (ix2 q k))) i k := by
  unfold gcn64
  rw [dot_apply _ rfl rfl rfl rfl rfl rfl]
  unfold Spec.mm
  refine Finset.sum_congr rfl fun q _ => ?_
  rw [dot_apply _ rfl rfl rfl rfl rfl rfl]

/-! ## The encoder -/

/-- The input block at a coordinate. -/
theorem hidden0_apply (x : FVec Ideal S10000x128 .f32) (A : FVec Ideal S10000x10000 .f32) (Win : FVec Ideal S128x128 .f32)
    (g0 b0 : FVec Ideal S128 .f32) (i : Fin 10000) (k : Fin 128) :
    hidden0 x A Win g0 b0 (ix2 i k)
      = Spec.h0 Spec.lnR (Ideal.ofBits .f32 0x43000000#32) (Ideal.ofBits .f32 0x3727C5AC#32)
          (fun i k => x (ix2 i k)) (fun i j => A (ix2 i j)) (fun q k => Win (ix2 q k))
          (fun k => g0 (ix1 k)) (fun k => b0 (ix1 k)) i k := by
  unfold hidden0 Spec.h0
  rw [layerNorm128_apply]
  refine congrArg (fun f => Spec.lnR _ _ _ _ f k) (funext fun k => ?_)
  rw [relu128_apply, gcn128_apply]

/-- The hidden block with its residual at a coordinate, over any incoming hidden state. -/
theorem hidden1_apply (h0 : FVec Ideal S10000x128 .f32) (A : FVec Ideal S10000x10000 .f32) (Wh : FVec Ideal S128x128 .f32)
    (g1 b1 : FVec Ideal S128 .f32) (i : Fin 10000) (k : Fin 128) :
    hidden1 h0 A Wh g1 b1 (ix2 i k)
      = Spec.lnR (Ideal.ofBits .f32 0x43000000#32) (Ideal.ofBits .f32 0x3727C5AC#32)
          (fun k => g1 (ix1 k)) (fun k => b1 (ix1 k))
          (fun k => max (Spec.mm (fun i j => A (ix2 i j))
            (Spec.mm (fun i q => h0 (ix2 i q)) (fun q k => Wh (ix2 q k))) i k) 0) k
        + h0 (ix2 i k) := by
  unfold hidden1
  rw [addf_apply, layerNorm128_apply]
  refine congrArg (fun f => Spec.lnR _ _ _ _ f k + _) (funext fun k => ?_)
  rw [relu128_apply, gcn128_apply]

/-- The hidden state both heads read, at a coordinate. -/
theorem hiddenOf_apply (x : FVec Ideal S10000x128 .f32) (A : FVec Ideal S10000x10000 .f32) (Win Wh : FVec Ideal S128x128 .f32)
    (g0 b0 g1 b1 : FVec Ideal S128 .f32) (i : Fin 10000) (k : Fin 128) :
    hiddenOf x A Win Wh g0 b0 g1 b1 (ix2 i k)
      = Spec.h1 Spec.lnR (Ideal.ofBits .f32 0x43000000#32) (Ideal.ofBits .f32 0x3727C5AC#32)
          (fun i k => x (ix2 i k)) (fun i j => A (ix2 i j)) (fun q k => Win (ix2 q k)) (fun q k => Wh (ix2 q k))
          (fun k => g0 (ix1 k)) (fun k => b0 (ix1 k)) (fun k => g1 (ix1 k)) (fun k => b1 (ix1 k)) i k := by
  unfold hiddenOf Spec.h1
  rw [hidden1_apply, hidden0_apply]
  have e : (fun i q => hidden0 x A Win g0 b0 (ix2 i q))
      = Spec.h0 Spec.lnR (Ideal.ofBits .f32 0x43000000#32) (Ideal.ofBits .f32 0x3727C5AC#32)
          (fun i k => x (ix2 i k)) (fun i j => A (ix2 i j)) (fun q k => Win (ix2 q k))
          (fun k => g0 (ix1 k)) (fun k => b0 (ix1 k)) := by
    funext i q; exact hidden0_apply x A Win g0 b0 i q
  rw [e]

/-- A head at a coordinate, over any hidden state. -/
theorem head_apply (h : FVec Ideal S10000x128 .f32) (A : FVec Ideal S10000x10000 .f32) (W : FVec Ideal S128x64 .f32)
    (g b : FVec Ideal S64 .f32) (i : Fin 10000) (k : Fin 64) :
    head h A W g b (ix2 i k)
      = Spec.lnR (Ideal.ofBits .f32 0x42800000#32) (Ideal.ofBits .f32 0x3727C5AC#32)
          (fun k => g (ix1 k)) (fun k => b (ix1 k))
          (fun k => Spec.mm (fun i j => A (ix2 i j))
            (Spec.mm (fun i q => h (ix2 i q)) (fun q k => W (ix2 q k))) i k) k := by
  unfold head
  rw [layerNorm64_apply]
  refine congrArg (fun f => Spec.lnR _ _ _ _ f k) (funext fun k => ?_)
  rw [gcn64_apply]

/-- The latent sample at a coordinate. -/
theorem latent_apply (eps logstd mean : FVec Ideal S10000x64 .f32) (i : Fin 10000) (k : Fin 64) :
    latent eps logstd mean (ix2 i k) = eps (ix2 i k) * Ideal.exp (logstd (ix2 i k)) + mean (ix2 i k) := by
  unfold latent
  rw [addf_apply, mulf_apply, hostExp_apply]

/-! ## The decoder -/

/-- The decoder at a coordinate: the logistic of the inner product of two latent rows. -/
theorem decode_apply (z : FVec Ideal S10000x64 .f32) (i j : Fin 10000) :
    decode z (ix2 i j) = Spec.dec (fun i k => z (ix2 i k)) i j := by
  unfold decode Spec.dec Ideal.logistic
  rw [hostDivf_apply, addf_apply, splat_apply, hostExp_apply, hostNegf_apply, dot_apply _ rfl rfl rfl rfl rfl rfl,
    Consts.ofBits_one]
  refine congrArg (fun s => Ideal.div 1 (1 + Ideal.exp (-s))) (Finset.sum_congr rfl fun q _ => ?_)
  rw [transpose_ix2_apply]

end Cert.ReferenceIdeal.Read

end
-- ==== Proof.RefRead.lean ====
/-
  The reference's whole result at one coordinate: the decoder of the specification applied to the latent sample of the
  specification, the two heads propagated separately, every row normalization in its quotient form.
-/
import proofs.«171846_g89721866813831_cont_sun_m_1046_11_alg».proof.Proof.RefReadNet

noncomputable section

open scoped BigOperators

namespace Cert.ReferenceIdeal.Read

open Cert.ReferenceIdeal Cert.ReferenceIdeal.Gen Cert.ReferenceIdeal.Hand
open Idealize.ShloMosaic Idealize.ShloMosaic.ValueIdx Idealize.SL.Sem

/-- The reference's result at `(i, j)` is the logistic of the inner product of rows `i` and `j` of the latent sample
    `ε ⊙ exp λ + μ`, where `μ` and `λ` are the normalized propagated projections of the second hidden state by the
    mean and the log-deviation weights. -/
theorem refOut_apply (a0 : FVec Ideal S10000x128 .f32) (a1 : FVec Ideal S10000x10000 .f32)
    (a2 a3 : FVec Ideal S128x128 .f32) (a4 a5 : FVec Ideal S128x64 .f32) (a6 a7 a8 a9 : FVec Ideal S128 .f32)
    (a10 a11 a12 a13 : FVec Ideal S64 .f32) (a14 : FVec Ideal S10000x64 .f32) (i j : Fin 10000) :
    Cert.ReferenceIdeal.Hand.refOut (F := Ideal) a0 a1 a2 a3 a4 a5 a6 a7 a8 a9 a10 a11 a12 a13 a14 (ix2 i j)
      = Spec.dec (Spec.zSep Spec.lnR Spec.lnR (Ideal.ofBits .f32 0x43000000#32) (Ideal.ofBits .f32 0x42800000#32)
          (Ideal.ofBits .f32 0x3727C5AC#32)
          (fun i k => a0 (ix2 i k)) (fun i k => a1 (ix2 i k)) (fun q k => a2 (ix2 q k)) (fun q k => a3 (ix2 q k))
          (fun q k => a4 (ix2 q k)) (fun q k => a5 (ix2 q k)) (fun k => a6 (ix1 k)) (fun k => a7 (ix1 k))
          (fun k => a8 (ix1 k)) (fun k => a9 (ix1 k)) (fun k => a10 (ix1 k)) (fun k => a11 (ix1 k))
          (fun k => a12 (ix1 k)) (fun k => a13 (ix1 k)) (fun i k => a14 (ix2 i k))) i j := by
  unfold refOut
  rw [decode_apply]
  refine congrArg (fun z => Spec.dec z i j) (funext fun i => funext fun k => ?_)
  have e : (fun i q => hiddenOf a0 a1 a2 a3 a6 a7 a8 a9 (ix2 i q))
      = Spec.h1 Spec.lnR (Ideal.ofBits .f32 0x43000000#32) (Ideal.ofBits .f32 0x3727C5AC#32)
          (fun i k => a0 (ix2 i k)) (fun i j => a1 (ix2 i j)) (fun q k => a2 (ix2 q k)) (fun q k => a3 (ix2 q k))
          (fun k => a6 (ix1 k)) (fun k => a7 (ix1 k)) (fun k => a8 (ix1 k)) (fun k => a9 (ix1 k)) := by
    funext i q; exact hiddenOf_apply a0 a1 a2 a3 a6 a7 a8 a9 i q
  unfold Spec.zSep
  rw [latent_apply, head_apply, head_apply, e]

end Cert.ReferenceIdeal.Read

end
-- ==== Proof.SpecBridge.lean ====
/-
  The algebra that joins the two readings of the network.  The latent sample computed with the two heads propagated
  together through the side-by-side projection equals the one computed with the heads propagated separately, whatever
  the row normalization; and at the row lengths 128 and 64 with the positive stabilizer, the normalization that
  multiplies by a reciprocal square root equals the one that divides by a square root.  A normalization enters the
  network only applied to its two constants, so agreement at those constants carries through every layer.
-/
import proofs.«171846_g89721866813831_cont_sun_m_1046_11_alg».proof.Proof.Spec
import proofs.«171846_g89721866813831_cont_sun_m_1046_11_alg».proof.Proof.Consts

noncomputable section

open scoped BigOperators

namespace Cert.Spec

open Idealize.ShloMosaic

section Congr

variable (ln128 ln128' : EReal → EReal → (Fin 128 → EReal) → (Fin 128 → EReal) → (Fin 128 → EReal) → Fin 128 → EReal)
variable (ln64 ln64' : EReal → EReal → (Fin 64 → EReal) → (Fin 64 → EReal) → (Fin 64 → EReal) → Fin 64 → EReal)
variable (c128 c64 ce : EReal)
variable (X : Fin 10000 → Fin 128 → EReal) (A : Fin 10000 → Fin 10000 → EReal)
variable (Win Wh : Fin 128 → Fin 128 → EReal) (Wm Wl : Fin 128 → Fin 64 → EReal)
variable (g0 b0 g1 b1 : Fin 128 → EReal) (gm bm gl bl : Fin 64 → EReal) (N : Fin 10000 → Fin 64 → EReal)

/-- The first layer depends on the normalization only through its values at the layer's two constants. -/
theorem h0_congr (h : ∀ g b x, ln128 c128 ce g b x = ln128' c128 ce g b x) :
    h0 ln128 c128 ce X A Win g0 b0 = h0 ln128' c128 ce X A Win g0 b0 := by
  funext i k
  unfold h0
  rw [h]

/-- So does the second layer. -/
theorem h1_congr (h : ∀ g b x, ln128 c128 ce g b x = ln128' c128 ce g b x) :
    h1 ln128 c128 ce X A Win Wh g0 b0 g1 b1 = h1 ln128' c128 ce X A Win Wh g0 b0 g1 b1 := by
  funext i k
  unfold h1
  rw [h0_congr ln128 ln128' c128 ce X A Win g0 b0 h, h]

/-- And the latent sample, in both normalizations. -/
theorem zSep_congr (h : ∀ g b x, ln128 c128 ce g b x = ln128' c128 ce g b x)
    (h' : ∀ g b x, ln64 c64 ce g b x = ln64' c64 ce g b x) :
    zSep ln128 ln64 c128 c64 ce X A Win Wh Wm Wl g0 b0 g1 b1 gm bm gl bl N
      = zSep ln128' ln64' c128 c64 ce X A Win Wh Wm Wl g0 b0 g1 b1 gm bm gl bl N := by
  funext i k
  unfold zSep
  rw [h1_congr ln128 ln128' c128 ce X A Win Wh g0 b0 g1 b1 h, h', h']

end Congr

/-- The decoder of the latent sample with the heads propagated together and the reciprocal-square-root normalization
    is the decoder of the latent sample with the heads propagated separately and the quotient normalization. -/
theorem dec_zCat_lnK_eq_dec_zSep_lnR (X : Fin 10000 → Fin 128 → EReal) (A : Fin 10000 → Fin 10000 → EReal)
    (Win Wh : Fin 128 → Fin 128 → EReal) (Wm Wl : Fin 128 → Fin 64 → EReal)
    (g0 b0 g1 b1 : Fin 128 → EReal) (gm bm gl bl : Fin 64 → EReal) (N : Fin 10000 → Fin 64 → EReal) :
    dec (zCat lnK lnK (Ideal.ofBits .f32 0x43000000#32) (Ideal.ofBits .f32 0x42800000#32)
        (Ideal.ofBits .f32 0x3727C5AC#32) X A Win Wh Wm Wl g0 b0 g1 b1 gm bm gl bl N)
      = dec (zSep lnR lnR (Ideal.ofBits .f32 0x43000000#32) (Ideal.ofBits .f32 0x42800000#32)
        (Ideal.ofBits .f32 0x3727C5AC#32) X A Win Wh Wm Wl g0 b0 g1 b1 gm bm gl bl N) := by
  obtain ⟨r, hr, he⟩ := Consts.ofBits_eps
  rw [zCat_eq_zSep]
  refine congrArg dec (zSep_congr _ _ _ _ _ _ _ X A Win Wh Wm Wl g0 b0 g1 b1 gm bm gl bl N ?_ ?_)
  · intro g b x
    rw [Consts.ofBits_128, he]
    exact lnK_eq_lnR (by norm_num) hr g b x
  · intro g b x
    rw [Consts.ofBits_64, he]
    exact lnK_eq_lnR (by norm_num) hr g b x

end Cert.Spec

end
-- ==== Proof.lean ====
/-
  The five claims about the graph variational encoder-decoder kernel and its reference.

  The kernel program is a host stretch (eight vectors of gains and biases reshaped to rows; the two last projection
  matrices laid side by side) and five kernel regions: a projection x·W_in; two graph-convolution layers, each
  propagating through the dense adjacency 400 rows at a time, rectifying, normalizing each row and projecting again
  (the second with a residual connection); a third propagation whose two halves of columns are normalized
  separately into a mean and a log-deviation, combined with the noise into the latent sample; and the decoder, the
  logistic of the inner products of the latent rows, again 400 rows at a time.  The reference is the same network
  written with whole-array operations, the two heads propagated separately, its normalization dividing by a square
  root where the kernel multiplies by a reciprocal square root.

  Frames: each region's body is run symbolically on its staging buffers, the regions are chained over the fold of
  the buffer contents, and the last region, whose two input windows read one array, holds that array at the two
  halves of the full share.  The reference's run is read back operation by operation.
  Equality at the ideal instance: each region's array is read as a function of row and column of the arrays it
  found; the reference's result is read likewise; the two normalizations agree because a variance plus a positive
  stabilizer is positive, where the reciprocal square root is the reciprocal of the square root; a propagation of
  the side-by-side projection is, column by column, the propagation of either projection.  No finiteness of the
  inputs is needed for any of this.
-/
import proofs.«171846_g89721866813831_cont_sun_m_1046_11_alg».proof.Defs
import proofs.«171846_g89721866813831_cont_sun_m_1046_11_alg».proof.Proof.Gen.Kernel
import proofs.«171846_g89721866813831_cont_sun_m_1046_11_alg».proof.Proof.Gen.KernelIdeal
import proofs.«171846_g89721866813831_cont_sun_m_1046_11_alg».proof.Proof.Gen.ReferenceIdeal
import proofs.«171846_g89721866813831_cont_sun_m_1046_11_alg».proof.Proof.Gen.Pre_finite_inputs
import proofs.«171846_g89721866813831_cont_sun_m_1046_11_alg».proof.Proof.K_Frame
import proofs.«171846_g89721866813831_cont_sun_m_1046_11_alg».proof.Proof.KI_Frame
import proofs.«171846_g89721866813831_cont_sun_m_1046_11_alg».proof.Proof.KI_Value
import proofs.«171846_g89721866813831_cont_sun_m_1046_11_alg».proof.Proof.RefRun
import proofs.«171846_g89721866813831_cont_sun_m_1046_11_alg».proof.Proof.RefRead
import proofs.«171846_g89721866813831_cont_sun_m_1046_11_alg».proof.Proof.SpecBridge
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both programs end, from memories agreeing on the arguments, with the same result array: entry (i, j) of either
    is the decoder of the latent rows i and j, and the two latent samples are one function of the arguments. -/
theorem algebraic : Cert.algebraic_KernelIdeal_ReferenceIdeal := by
  intro m ρ m' ρ' _ hagree
  refine ⟨fun c => (Cert.KernelIdeal.Hand.dat4 (Cert.KernelIdeal.Hand.X5 m) Cert.KernelIdeal.Hand.q4 c).arrAt 2 Cert.KernelIdeal.cfg4.N,
    Cert.KernelIdeal.Hand.frame_res m ρ, ?_⟩
  refine (θ_run Cert.ReferenceIdeal.defs _ _).mono (fun _ h c => ⟨(h c).1.trans ?_, (h c).2⟩)
    (Cert.ReferenceIdeal.Hand.run (F := Ideal) m' ρ')
  funext y
  obtain ⟨i, j, rfl⟩ : ∃ (i j : Fin 10000), y = ix2 i j := ⟨y 0, y 1, eq_ix2 y⟩
  obtain ⟨e0, e1, e2, e3, e4, e5, e6, e7, e8, e9, e10, e11, e12, e13, e14⟩ := hagree c
  refine (Cert.ReferenceIdeal.Read.refOut_apply _ _ _ _ _ _ _ _ _ _ _ _ _ _ _ i j).trans ?_
  refine Eq.trans ?_ (Cert.KernelIdeal.Hand.result_apply m c i j).symm
  rw [e0, e1, e2, e3, e4, e5, e6, e7, e8, e9, e10, e11, e12, e13, e14]
  exact (congrFun (congrFun (Cert.Spec.dec_zCat_lnK_eq_dec_zSep_lnR _ _ _ _ _ _ _ _ _ _ _ _ _ _ _) i) j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
